-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v131)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v131) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v189) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x32 : Shape := ⟨2, ![50000, 32]⟩
abbrev S1600000x16 : Shape := ⟨2, ![1600000, 16]⟩
abbrev S2x1600000 : Shape := ⟨2, ![2, 1600000]⟩
abbrev S50000 : Shape := ⟨1, ![50000]⟩
abbrev S32x64 : Shape := ⟨2, ![32, 64]⟩
abbrev S64 : Shape := ⟨1, ![64]⟩
abbrev S16x64 : Shape := ⟨2, ![16, 64]⟩
abbrev S3x64x128 : Shape := ⟨3, ![3, 64, 128]⟩
abbrev S3x128 : Shape := ⟨2, ![3, 128]⟩
abbrev S3x128x64 : Shape := ⟨3, ![3, 128, 64]⟩
abbrev S3x64 : Shape := ⟨2, ![3, 64]⟩
abbrev S64x1 : Shape := ⟨2, ![64, 1]⟩
abbrev S1 : Shape := ⟨1, ![1]⟩
abbrev S_ : Shape := ⟨0, ![]⟩

class Facts : Prop where
  bcast_S_S50000x32 : S_.BroadcastsInDim S50000x32 (![] : Fin 0 → Fin S50000x32.rank)
  reducesTo_S50000x32_S_d0_1 : S50000x32.ReducesTo [0, 1] S_
  h_S_ : 0 < S_.numel
  bcast_S_S1600000x16 : S_.BroadcastsInDim S1600000x16 (![] : Fin 0 → Fin S1600000x16.rank)
  reducesTo_S1600000x16_S_d0_1 : S1600000x16.ReducesTo [0, 1] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S16x64 : S_.BroadcastsInDim S16x64 (![] : Fin 0 → Fin S16x64.rank)
  reducesTo_S16x64_S_d0_1 : S16x64.ReducesTo [0, 1] S_
  bcast_S_S3x64x128 : S_.BroadcastsInDim S3x64x128 (![] : Fin 0 → Fin S3x64x128.rank)
  reducesTo_S3x64x128_S_d0_1_2 : S3x64x128.ReducesTo [0, 1, 2] S_
  bcast_S_S3x128 : S_.BroadcastsInDim S3x128 (![] : Fin 0 → Fin S3x128.rank)
  reducesTo_S3x128_S_d0_1 : S3x128.ReducesTo [0, 1] S_
  bcast_S_S3x128x64 : S_.BroadcastsInDim S3x128x64 (![] : Fin 0 → Fin S3x128x64.rank)
  reducesTo_S3x128x64_S_d0_1_2 : S3x128x64.ReducesTo [0, 1, 2] S_
  bcast_S_S3x64 : S_.BroadcastsInDim S3x64 (![] : Fin 0 → Fin S3x64.rank)
  reducesTo_S3x64_S_d0_1 : S3x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S3x64 .f32) (main_arg14 : FVec F S64x1 .f32) (main_arg15 : FVec F S1 .f32) (main_v48 : IVec S_ 1) (main_v49 : FVec F S3x64 .f32) (main_v50 : FVec F S3x64 .f32) : IVec S_ 1 :=
  let main_v51 : IVec S3x64 1 := cmpf .olt main_v49 main_v50
  let main_c_19 : IVec S_ 1 := constantI S_ 1 1#1
  let main_v52 : IVec S_ 1 := (fun x v => Host.reduce IntOp.andi x v reducesTo_S3x64_S_d0_1 h_S_) main_v51 main_c_19
  let main_v53 : IVec S_ 1 := andi main_v48 main_v52
  let main_v54 : FVec F S3x64 .f32 := Host.absf main_arg13
  let main_cst_20 : FVec F S_ .f32 := constant S_ .f32 0x7F800000#32
  let main_v55 : FVec F S3x64 .f32 := broadcastInDim S3x64 ![] bcast_S_S3x64 main_cst_20
  let main_v56 : IVec S3x64 1 := cmpf .olt main_v54 main_v55
  let main_c_21 : IVec S_ 1 := constantI S_ 1 1#1
  let main_v57 : IVec S_ 1 := (fun x v => Host.reduce IntOp.andi x v reducesTo_S3x64_S_d0_1 h_S_) main_v56 main_c_21
  let main_v58 : IVec S_ 1 := andi main_v53 main_v57
  let main_v59 : FVec F S64x1 .f32 := Host.absf main_arg14
  let main_cst_22 : FVec F S_ .f32 := constant S_ .f32 0x7F800000#32
  let main_v60 : FVec F S64x1 .f32 := broadcastInDim S64x1 ![] bcast_S_S64x1 main_cst_22
  let main_v61 : IVec S64x1 1 := cmpf .olt main_v59 main_v60
  let main_c_23 : IVec S_ 1 := constantI S_ 1 1#1
  let main_v62 : IVec S_ 1 := (fun x v => Host.reduce IntOp.andi x v reducesTo_S64x1_S_d0_1 h_S_) main_v61 main_c_23
  let main_v63 : IVec S_ 1 := andi main_v58 main_v62
  let main_v64 : FVec F S1 .f32 := Host.absf main_arg15
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg9 : FVec F S3x128 .f32) (main_arg10 : FVec F S3x128x64 .f32) (main_arg11 : FVec F S3x64 .f32) (main_arg12 : FVec F S3x64 .f32) (main_arg13 : FVec F S3x64 .f32) (main_arg14 : FVec F S64x1 .f32) (main_arg15 : FVec F S1 .f32) (main_v33 : IVec S_ 1) : IVec S_ 1 :=
  let main_v34 : FVec F S3x128 .f32 := Host.absf main_arg9
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3x128x64 .f32 := Host.absf main_arg10
  let main_cst_14 : FVec F S_ .f32 := constant S_ .f32 0x7F800000#32
  let main_v40 : FVec F S3x128x64 .f32 := broadcastInDim S3x128x64 ![] bcast_S_S3x128x64 main_cst_14
  let main_v41 : IVec S3x128x64 1 := cmpf .olt main_v39 main_v40
  let main_c_15 : IVec S_ 1 := constantI S_ 1 1#1
  let main_v42 : IVec S_ 1 := (fun x v => Host.reduce IntOp.andi x v reducesTo_S3x128x64_S_d0_1_2 h_S_) main_v41 main_c_15
  let main_v43 : IVec S_ 1 := andi main_v38 main_v42
  let main_v44 : FVec F S3x64 .f32 := Host.absf main_arg11
  let main_cst_16 : FVec F S_ .f32 := constant S_ .f32 0x7F800000#32
  let main_v45 : FVec F S3x64 .f32 := broadcastInDim S3x64 ![] bcast_S_S3x64 main_cst_16
  let main_v46 : IVec S3x64 1 := cmpf .olt main_v44 main_v45
  let main_c_17 : IVec S_ 1 := constantI S_ 1 1#1
  let main_v47 : IVec S_ 1 := (fun x v => Host.reduce IntOp.andi x v reducesTo_S3x64_S_d0_1 h_S_) main_v46 main_c_17
  let main_v48 : IVec S_ 1 := andi main_v43 main_v47
  let main_v49 : FVec F S3x64 .f32 := Host.absf main_arg12
  let main_cst_18 : FVec F S_ .f32 := constant S_ .f32 0x7F800000#32
  let main_v50 : FVec F S3x64 .f32 := broadcastInDim S3x64 ![] bcast_S_S3x64 main_cst_18
  fn_part3 (F := F) main_arg13 main_arg14 main_arg15 main_v48 main_v49 main_v50

def fn_part1 {F : FTy → Type} [FloatOps F] (main_arg6 : FVec F S16x64 .f32) (main_arg7 : FVec F S64 .f32) (main_arg8 : FVec F S3x64x128 .f32) (main_arg9 : FVec F S3x128 .f32) (main_arg10 : FVec F S3x128x64 .f32) (main_arg11 : FVec F S3x64 .f32) (main_arg12 : FVec F S3x64 .f32) (main_arg13 : FVec F S3x64 .f32) (main_arg14 : FVec F S64x1 .f32) (main_arg15 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S16x64 .f32 := Host.absf main_arg6
  let main_cst_6 : FVec F S_ .f32 := constant S_ .f32 0x7F800000#32
  let main_v20 : FVec F S16x64 .f32 := broadcastInDim S16x64 ![] bcast_S_S16x64 main_cst_6
  let main_v21 : IVec S16x64 1 := cmpf .olt main_v19 main_v20
  let main_c_7 : IVec S_ 1 := constantI S_ 1 1#1
  let main_v22 : IVec S_ 1 := (fun x v => Host.reduce IntOp.andi x v reducesTo_S16x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S3x64x128 .f32 := Host.absf main_arg8
  let main_cst_10 : FVec F S_ .f32 := constant S_ .f32 0x7F800000#32
  let main_v30 : FVec F S3x64x128 .f32 := broadcastInDim S3x64x128 ![] bcast_S_S3x64x128 main_cst_10
  let main_v31 : IVec S3x64x128 1 := cmpf .olt main_v29 main_v30
  let main_c_11 : IVec S_ 1 := constantI S_ 1 1#1
  let main_v32 : IVec S_ 1 := (fun x v => Host.reduce IntOp.andi x v reducesTo_S3x64x128_S_d0_1_2 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S50000x32 .f32) (main_arg1 : FVec F S1600000x16 .f32) (main_arg2 : IVec S2x1600000 32) (main_arg3 : IVec S50000 32) (main_arg4 : FVec F S32x64 .f32) (main_arg5 : FVec F S64 .f32) (main_arg6 : FVec F S16x64 .f32) (main_arg7 : FVec F S64 .f32) (main_arg8 : FVec F S3x64x128 .f32) (main_arg9 : FVec F S3x128 .f32) (main_arg10 : FVec F S3x128x64 .f32) (main_arg11 : FVec F S3x64 .f32) (main_arg12 : FVec F S3x64 .f32) (main_arg13 : FVec F S3x64 .f32) (main_arg14 : FVec F S64x1 .f32) (main_arg15 : FVec F S1 .f32) : IVec S_ 1 :=
  let main_v0 : FVec F S50000x32 .f32 := Host.absf main_arg0
  let main_cst : FVec F S_ .f32 := constant S_ .f32 0x7F800000#32
  let main_v1 : FVec F S50000x32 .f32 := broadcastInDim S50000x32 ![] bcast_S_S50000x32 main_cst
  let main_v2 : IVec S50000x32 1 := cmpf .olt main_v0 main_v1
  let main_c : IVec S_ 1 := constantI S_ 1 1#1
  let main_v3 : IVec S_ 1 := (fun x v => Host.reduce IntOp.andi x v reducesTo_S50000x32_S_d0_1 h_S_) main_v2 main_c
  let main_v4 : FVec F S1600000x16 .f32 := Host.absf main_arg1
  let main_cst_0 : FVec F S_ .f32 := constant S_ .f32 0x7F800000#32
  let main_v5 : FVec F S1600000x16 .f32 := broadcastInDim S1600000x16 ![] bcast_S_S1600000x16 main_cst_0
  let main_v6 : IVec S1600000x16 1 := cmpf .olt main_v4 main_v5
  let main_c_1 : IVec S_ 1 := constantI S_ 1 1#1
  let main_v7 : IVec S_ 1 := (fun x v => Host.reduce IntOp.andi x v reducesTo_S1600000x16_S_d0_1 h_S_) main_v6 main_c_1
  let main_v8 : IVec S_ 1 := andi main_v3 main_v7
  let main_v9 : FVec F S32x64 .f32 := Host.absf main_arg4
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_v13 main_v16
-- ==== Kernel.lean ====
abbrev S50000x32 : Shape := ⟨2, ![50000, 32]⟩
abbrev S1600000x16 : Shape := ⟨2, ![1600000, 16]⟩
abbrev S2x1600000 : Shape := ⟨2, ![2, 1600000]⟩
abbrev S50000 : Shape := ⟨1, ![50000]⟩
abbrev S32x64 : Shape := ⟨2, ![32, 64]⟩
abbrev S64 : Shape := ⟨1, ![64]⟩
abbrev S16x64 : Shape := ⟨2, ![16, 64]⟩
abbrev S3x64x128 : Shape := ⟨3, ![3, 64, 128]⟩
abbrev S3x128 : Shape := ⟨2, ![3, 128]⟩
abbrev S3x128x64 : Shape := ⟨3, ![3, 128, 64]⟩
abbrev S3x64 : Shape := ⟨2, ![3, 64]⟩
abbrev S64x1 : Shape := ⟨2, ![64, 1]⟩
abbrev S1 : Shape := ⟨1, ![1]⟩
abbrev S1x64 : Shape := ⟨2, ![1, 64]⟩
abbrev S50000x64 : Shape := ⟨2, ![50000, 64]⟩
abbrev S5000x32 : Shape := ⟨2, ![5000, 32]⟩
abbrev S5000x64 : Shape := ⟨2, ![5000, 64]⟩
abbrev S1600000x64 : Shape := ⟨2, ![1600000, 64]⟩
abbrev S16000x16 : Shape := ⟨2, ![16000, 16]⟩
abbrev S16000x64 : Shape := ⟨2, ![16000, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1x64x128 : Shape := ⟨3, ![1, 64, 128]⟩
abbrev S64x128 : Shape := ⟨2, ![64, 128]⟩
abbrev S1x128 : Shape := ⟨2, ![1, 128]⟩
abbrev S128 : Shape := ⟨1, ![128]⟩
abbrev S1x128x64 : Shape := ⟨3, ![1, 128, 64]⟩
abbrev S128x64 : Shape := ⟨2, ![128, 64]⟩
abbrev S5000x128 : Shape := ⟨2, ![5000, 128]⟩
abbrev S50000x1 : Shape := ⟨2, ![50000, 1]⟩
abbrev S64x64 : Shape := ⟨2, ![64, 64]⟩
abbrev S1x1 : Shape := ⟨2, ![1, 1]⟩

abbrev nBuf : Space → Nat
  | .hbm => 239
  | .vmem => 66
  | .smem => 0
  | _ => 0

abbrev hbmTy0_0 (i : Nat) : BufTy := match i % 128 with
  | 0 => ⟨S50000x32, .f32⟩
  | 1 => ⟨S1600000x16, .f32⟩
  | 2 => ⟨S2x1600000, .i32⟩
  | 3 => ⟨S50000, .i32⟩
  | 4 => ⟨S32x64, .f32⟩
  | 5 => ⟨S64, .f32⟩
  | 6 => ⟨S16x64, .f32⟩
  | 7 => ⟨S64, .f32⟩
  | 8 => ⟨S3x64x128, .f32⟩
  | 9 => ⟨S3x128, .f32⟩
  | 10 => ⟨S3x128x64, .f32⟩
  | 11 => ⟨S3x64, .f32⟩
  | 12 => ⟨S3x64, .f32⟩
  | 13 => ⟨S3x64, .f32⟩
  | 14 => ⟨S64x1, .f32⟩
  | 15 => ⟨S1, .f32⟩
  | 16 => ⟨S1x64, .f32⟩
  | 17 => ⟨S50000x64, .f32⟩
  | 18 => ⟨S1x64, .f32⟩
  | 19 => ⟨S1600000x64, .f32⟩
  | 20 => ⟨S1x1600000, .i32⟩
  | 21 => ⟨S1600000, .i32⟩
  | 22 => ⟨S1x1600000, .i32⟩
  | 23 => ⟨S1600000, .i32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000x64, .f32⟩
  | 33 => ⟨S1600000x64, .f32⟩
  | 34 => ⟨S_, .f32⟩
  | 35 => ⟨S1600000x64, .f32⟩
  | 36 => ⟨S1600000x64, .f32⟩
  | 37 => ⟨S_, .f32⟩
  | 38 => ⟨S50000x64, .f32⟩
  | 39 => ⟨S1600000x1, .i32⟩
  | 40 => ⟨S50000x64, .f32⟩
  | 41 => ⟨S1x64x128, .f32⟩
  | 42 => ⟨S64x128, .f32⟩
  | 43 => ⟨S1x128, .f32⟩
  | 44 => ⟨S128, .f32⟩
  | 45 => ⟨S1x128x64, .f32⟩
  | 46 => ⟨S128x64, .f32⟩
  | 47 => ⟨S1x64, .f32⟩
  | 48 => ⟨S64, .f32⟩
  | 49 => ⟨S1x128, .f32⟩
  | 50 => ⟨S1x64, .f32⟩
  | 51 => ⟨S50000x64, .f32⟩
  | 52 => ⟨S_, .f32⟩
  | 53 => ⟨S64, .f32⟩
  | 54 => ⟨S_, .f32⟩
  | 55 => ⟨S64, .f32⟩
  | 56 => ⟨S64, .f32⟩
  | 57 => ⟨S_, .i32⟩
  | 58 => ⟨S_, .f32⟩
  | 59 => ⟨S64, .f32⟩
  | 60 => ⟨S1x64, .f32⟩
  | 61 => ⟨S_, .f32⟩
  | 62 => ⟨S1x64, .f32⟩
  | 63 => ⟨S1x64, .f32⟩
  | 64 => ⟨S50000x64, .f32⟩
  | 65 => ⟨S50000x64, .f32⟩
  | 66 => ⟨S50000x64, .f32⟩
  | 67 => ⟨S_, .f32⟩
  | 68 => ⟨S_, .f32⟩
  | 69 => ⟨S_, .f32⟩
  | 70 => ⟨S_, .f32⟩
  | 71 => ⟨S64, .f32⟩
  | 72 => ⟨S64, .f32⟩
  | 73 => ⟨S64, .f32⟩
  | 74 => ⟨S_, .f32⟩
  | 75 => ⟨S_, .i1⟩
  | 76 => ⟨S_, .f32⟩
  | 77 => ⟨S_, .f32⟩
  | 78 => ⟨S64, .f32⟩
  | 79 => ⟨S64, .f32⟩
  | 80 => ⟨S1x64, .f32⟩
  | 81 => ⟨S64, .f32⟩
  | 82 => ⟨S1x64, .f32⟩
  | 83 => ⟨S64, .f32⟩
  | 84 => ⟨S1x64, .f32⟩
  | 85 => ⟨S1x64, .f32⟩
  | 86 => ⟨S1x64, .f32⟩
  | 87 => ⟨S1x64, .f32⟩
  | 88 => ⟨S50000x64, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000x64, .f32⟩
  | 98 => ⟨S1600000x64, .f32⟩
  | 99 => ⟨S_, .f32⟩
  | 100 => ⟨S1600000x64, .f32⟩
  | 101 => ⟨S1600000x64, .f32⟩
  | 102 => ⟨S_, .f32⟩
  | 103 => ⟨S50000x64, .f32⟩
  | 104 => ⟨S1600000x1, .i32⟩
  | 105 => ⟨S50000x64, .f32⟩
  | 106 => ⟨S1x64x128, .f32⟩
  | 107 => ⟨S64x128, .f32⟩
  | 108 => ⟨S1x128, .f32⟩
  | 109 => ⟨S128, .f32⟩
  | 110 => ⟨S1x128x64, .f32⟩
  | 111 => ⟨S128x64, .f32⟩
  | 112 => ⟨S1x64, .f32⟩
  | 113 => ⟨S64, .f32⟩
  | 114 => ⟨S1x128, .f32⟩
  | 115 => ⟨S1x64, .f32⟩
  | 116 => ⟨S50000x64, .f32⟩
  | 117 => ⟨S_, .f32⟩
  | 118 => ⟨S64, .f32⟩
  | 119 => ⟨S_, .f32⟩
  | 120 => ⟨S64, .f32⟩
  | 121 => ⟨S64, .f32⟩
  | 122 => ⟨S_, .i32⟩
  | 123 => ⟨S_, .f32⟩
  | 124 => ⟨S64, .f32⟩
  | 125 => ⟨S1x64, .f32⟩
  | 126 => ⟨S_, .f32⟩
  | 127 => ⟨S1x64, .f32⟩
  | _ => ⟨S50000x32, .f32⟩

abbrev hbmTy0_1 (i : Nat) : BufTy := match i % 128 with
  | 0 => ⟨S1x64, .f32⟩
  | 1 => ⟨S50000x64, .f32⟩
  | 2 => ⟨S50000x64, .f32⟩
  | 3 => ⟨S50000x64, .f32⟩
  | 4 => ⟨S_, .f32⟩
  | 5 => ⟨S_, .f32⟩
  | 6 => ⟨S_, .f32⟩
  | 7 => ⟨S_, .f32⟩
  | 8 => ⟨S64, .f32⟩
  | 9 => ⟨S64, .f32⟩
  | 10 => ⟨S64, .f32⟩
  | 11 => ⟨S_, .f32⟩
  | 12 => ⟨S_, .i1⟩
  | 13 => ⟨S_, .f32⟩
  | 14 => ⟨S_, .f32⟩
  | 15 => ⟨S64, .f32⟩
  | 16 => ⟨S64, .f32⟩
  | 17 => ⟨S1x64, .f32⟩
  | 18 => ⟨S64, .f32⟩
  | 19 => ⟨S1x64, .f32⟩
  | 20 => ⟨S64, .f32⟩
  | 21 => ⟨S1x64, .f32⟩
  | 22 => ⟨S1x64, .f32⟩
  | 23 => ⟨S1x64, .f32⟩
  | 24 => ⟨S1x64, .f32⟩
  | 25 => ⟨S50000x64, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000x64, .f32⟩
  | 35 => ⟨S1600000x64, .f32⟩
  | 36 => ⟨S_, .f32⟩
  | 37 => ⟨S1600000x64, .f32⟩
  | 38 => ⟨S1600000x64, .f32⟩
  | 39 => ⟨S_, .f32⟩
  | 40 => ⟨S50000x64, .f32⟩
  | 41 => ⟨S1600000x1, .i32⟩
  | 42 => ⟨S50000x64, .f32⟩
  | 43 => ⟨S1x64x128, .f32⟩
  | 44 => ⟨S64x128, .f32⟩
  | 45 => ⟨S1x128, .f32⟩
  | 46 => ⟨S128, .f32⟩
  | 47 => ⟨S1x128x64, .f32⟩
  | 48 => ⟨S128x64, .f32⟩
  | 49 => ⟨S1x64, .f32⟩
  | 50 => ⟨S64, .f32⟩
  | 51 => ⟨S1x128, .f32⟩
  | 52 => ⟨S1x64, .f32⟩
  | 53 => ⟨S50000x64, .f32⟩
  | 54 => ⟨S_, .f32⟩
  | 55 => ⟨S64, .f32⟩
  | 56 => ⟨S_, .f32⟩
  | 57 => ⟨S64, .f32⟩
  | 58 => ⟨S64, .f32⟩
  | 59 => ⟨S_, .i32⟩
  | 60 => ⟨S_, .f32⟩
  | 61 => ⟨S64, .f32⟩
  | 62 => ⟨S1x64, .f32⟩
  | 63 => ⟨S_, .f32⟩
  | 64 => ⟨S1x64, .f32⟩
  | 65 => ⟨S1x64, .f32⟩
  | 66 => ⟨S50000x64, .f32⟩
  | 67 => ⟨S50000x64, .f32⟩
  | 68 => ⟨S50000x64, .f32⟩
  | 69 => ⟨S_, .f32⟩
  | 70 => ⟨S_, .f32⟩
  | 71 => ⟨S_, .f32⟩
  | 72 => ⟨S_, .f32⟩
  | 73 => ⟨S64, .f32⟩
  | 74 => ⟨S64, .f32⟩
  | 75 => ⟨S64, .f32⟩
  | 76 => ⟨S_, .f32⟩
  | 77 => ⟨S_, .i1⟩
  | 78 => ⟨S_, .f32⟩
  | 79 => ⟨S_, .f32⟩
  | 80 => ⟨S64, .f32⟩
  | 81 => ⟨S64, .f32⟩
  | 82 => ⟨S1x64, .f32⟩
  | 83 => ⟨S64, .f32⟩
  | 84 => ⟨S1x64, .f32⟩
  | 85 => ⟨S64, .f32⟩
  | 86 => ⟨S1x64, .f32⟩
  | 87 => ⟨S1x64, .f32⟩
  | 88 => ⟨S1x64, .f32⟩
  | 89 => ⟨S1x64, .f32⟩
  | 90 => ⟨S50000x64, .f32⟩
  | 91 => ⟨S_, .f32⟩
  | 92 => ⟨S50000, .f32⟩
  | 93 => ⟨S_, .f32⟩
  | 94 => ⟨S64, .f32⟩
  | 95 => ⟨S50000x1, .i32⟩
  | 96 => ⟨S64, .f32⟩
  | 97 => ⟨S_, .f32⟩
  | 98 => ⟨S64x64, .f32⟩
  | 99 => ⟨S50000x1, .i32⟩
  | 100 => ⟨S64x64, .f32⟩
  | 101 => ⟨S_, .f32⟩
  | 102 => ⟨S64, .f32⟩
  | 103 => ⟨S64, .f32⟩
  | 104 => ⟨S64x1, .f32⟩
  | 105 => ⟨S64x64, .f32⟩
  | 106 => ⟨S64x64, .f32⟩
  | 107 => ⟨S64x1, .f32⟩
  | 108 => ⟨S1x1, .f32⟩
  | 109 => ⟨S64x1, .f32⟩
  | 110 => ⟨S64x1, .f32⟩
  | _ => ⟨S50000x32, .f32⟩

abbrev hbmTy (i : Nat) : BufTy := match i / 128 with
  | 0 => hbmTy0_0 i
  | 1 => hbmTy0_1 i
  | _ => ⟨S50000x32, .f32⟩

abbrev bufTy : (tb : Table) → Fin (tcTables nBuf tb) → BufTy
  | .hbm, ⟨i, _⟩ => hbmTy i
  | .local _ .vmem, ⟨0, _⟩ => ⟨S5000x32, .f32⟩
  | .local _ .vmem, ⟨1, _⟩ => ⟨S5000x32, .f32⟩
  | .local _ .vmem, ⟨2, _⟩ => ⟨S32x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S16000x16, .f32⟩
  | .local _ .vmem, ⟨7, _⟩ => ⟨S16000x16, .f32⟩
  | .local _ .vmem, ⟨8, _⟩ => ⟨S16x64, .f32⟩
  | .local _ .vmem, ⟨9, _⟩ => ⟨S1x64, .f32⟩
  | .local _ .vmem, ⟨10, _⟩ => ⟨S16000x64, .f32⟩
  | .local _ .vmem, ⟨11, _⟩ => ⟨S16000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64x128, .f32⟩
  | .local _ .vmem, ⟨17, _⟩ => ⟨S1x128, .f32⟩
  | .local _ .vmem, ⟨18, _⟩ => ⟨S128x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S1x64, .f32⟩
  | .local _ .vmem, ⟨25, _⟩ => ⟨S1x64, .f32⟩
  | .local _ .vmem, ⟨26, _⟩ => ⟨S1x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S64x128, .f32⟩
  | .local _ .vmem, ⟨35, _⟩ => ⟨S1x128, .f32⟩
  | .local _ .vmem, ⟨36, _⟩ => ⟨S128x64, .f32⟩
  | .local _ .vmem, ⟨37, _⟩ => ⟨S1x64, .f32⟩
  | .local _ .vmem, ⟨38, _⟩ => ⟨S5000x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S1x64, .f32⟩
  | .local _ .vmem, ⟨43, _⟩ => ⟨S1x64, .f32⟩
  | .local _ .vmem, ⟨44, _⟩ => ⟨S1x64, .f32⟩
  | .local _ .vmem, ⟨45, _⟩ => ⟨S1x64, .f32⟩
  | .local _ .vmem, ⟨46, _⟩ => ⟨S5000x64, .f32⟩
  | .local _ .vmem, ⟨47, _⟩ => ⟨S5000x64, .f32⟩
  | .local _ .vmem, ⟨48, _⟩ => ⟨S5000x64, .f32⟩
  | .local _ .vmem, ⟨49, _⟩ => ⟨S5000x64, .f32⟩
  | .local _ .vmem, ⟨50, _⟩ => ⟨S5000x64, .f32⟩
  | .local _ .vmem, ⟨51, _⟩ => ⟨S5000x64, .f32⟩
  | .local _ .vmem, ⟨52, _⟩ => ⟨S64x128, .f32⟩
  | .local _ .vmem, ⟨53, _⟩ => ⟨S1x128, .f32⟩
  | .local _ .vmem, ⟨54, _⟩ => ⟨S128x64, .f32⟩
  | .local _ .vmem, ⟨55, _⟩ => ⟨S1x64, .f32⟩
  | .local _ .vmem, ⟨56, _⟩ => ⟨S5000x64, .f32⟩
  | .local _ .vmem, ⟨57, _⟩ => ⟨S5000x64, .f32⟩
  | .local _ .vmem, ⟨58, _⟩ => ⟨S5000x64, .f32⟩
  | .local _ .vmem, ⟨59, _⟩ => ⟨S5000x64, .f32⟩
  | .local _ .vmem, ⟨60, _⟩ => ⟨S1x64, .f32⟩
  | .local _ .vmem, ⟨61, _⟩ => ⟨S1x64, .f32⟩
  | .local _ .vmem, ⟨62, _⟩ => ⟨S1x64, .f32⟩
  | .local _ .vmem, ⟨63, _⟩ => ⟨S1x64, .f32⟩
  | .local _ .vmem, ⟨64, _⟩ => ⟨S5000x64, .f32⟩
  | .local _ .vmem, ⟨65, _⟩ => ⟨S5000x64, .f32⟩
  | _, _ => ⟨S50000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_v9 : Ref sig .tc := ⟨.hbm, 26, rfl⟩
abbrev main_c_0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_call0_cst : Ref sig .tc := ⟨.hbm, 34, rfl⟩
abbrev main_call0_v0 : Ref sig .tc := ⟨.hbm, 35, rfl⟩
abbrev main_v16 : Ref sig .tc := ⟨.hbm, 36, rfl⟩
abbrev main_cst : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_1 : Ref sig .tc := ⟨.hbm, 52, rfl⟩
abbrev main_v31 : Ref sig .tc := ⟨.hbm, 53, rfl⟩
abbrev main_cst_2 : Ref sig .tc := ⟨.hbm, 54, rfl⟩
abbrev main_v32 : Ref sig .tc := ⟨.hbm, 55, rfl⟩
abbrev main_v33 : Ref sig .tc := ⟨.hbm, 56, rfl⟩
abbrev main_c_3 : Ref sig .tc := ⟨.hbm, 57, rfl⟩
abbrev main_call1_cst : Ref sig .tc := ⟨.hbm, 58, rfl⟩
abbrev main_call1_v0 : Ref sig .tc := ⟨.hbm, 59, rfl⟩
abbrev main_call1_v1 : Ref sig .tc := ⟨.hbm, 60, rfl⟩
abbrev main_call1_cst_0 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_call1_v5 : Ref sig .tc := ⟨.hbm, 65, rfl⟩
abbrev main_call1_v6 : Ref sig .tc := ⟨.hbm, 66, rfl⟩
abbrev main_call1_v7 : Ref sig .tc := ⟨.hbm, 67, rfl⟩
abbrev main_call1_cst_1 : Ref sig .tc := ⟨.hbm, 68, rfl⟩
abbrev main_call1_v8 : Ref sig .tc := ⟨.hbm, 69, rfl⟩
abbrev main_call1_cst_2 : Ref sig .tc := ⟨.hbm, 70, rfl⟩
abbrev main_call1_v9 : Ref sig .tc := ⟨.hbm, 71, rfl⟩
abbrev main_call1_v10 : Ref sig .tc := ⟨.hbm, 72, rfl⟩
abbrev main_call1_v11 : Ref sig .tc := ⟨.hbm, 73, rfl⟩
abbrev main_call1_cst_3 : Ref sig .tc := ⟨.hbm, 74, rfl⟩
abbrev main_call1_v12 : Ref sig .tc := ⟨.hbm, 75, rfl⟩
abbrev main_call1_cst_4 : Ref sig .tc := ⟨.hbm, 76, rfl⟩
abbrev main_call1_call0_v0 : Ref sig .tc := ⟨.hbm, 77, rfl⟩
abbrev main_call1_call0_v1 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_c_4 : Ref sig .tc := ⟨.hbm, 89, rfl⟩
abbrev main_v44 : Ref sig .tc := ⟨.hbm, 90, rfl⟩
abbrev main_v45 : Ref sig .tc := ⟨.hbm, 91, rfl⟩
abbrev main_c_5 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_call2_cst : Ref sig .tc := ⟨.hbm, 99, rfl⟩
abbrev main_call2_v0 : Ref sig .tc := ⟨.hbm, 100, rfl⟩
abbrev main_v52 : Ref sig .tc := ⟨.hbm, 101, rfl⟩
abbrev main_cst_6 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_cst_7 : Ref sig .tc := ⟨.hbm, 117, rfl⟩
abbrev main_v67 : Ref sig .tc := ⟨.hbm, 118, rfl⟩
abbrev main_cst_8 : Ref sig .tc := ⟨.hbm, 119, rfl⟩
abbrev main_v68 : Ref sig .tc := ⟨.hbm, 120, rfl⟩
abbrev main_v69 : Ref sig .tc := ⟨.hbm, 121, rfl⟩
abbrev main_c_9 : Ref sig .tc := ⟨.hbm, 122, rfl⟩
abbrev main_call3_cst : Ref sig .tc := ⟨.hbm, 123, rfl⟩
abbrev main_call3_v0 : Ref sig .tc := ⟨.hbm, 124, rfl⟩
abbrev main_call3_v1 : Ref sig .tc := ⟨.hbm, 125, rfl⟩
abbrev main_call3_cst_0 : Ref sig .tc := ⟨.hbm, 126, rfl⟩
abbrev main_call3_v2 : Ref sig .tc := ⟨.hbm, 127, rfl⟩
abbrev main_call3_v3 : Ref sig .tc := ⟨.hbm, 128, rfl⟩
abbrev main_call3_v4 : Ref sig .tc := ⟨.hbm, 129, rfl⟩
abbrev main_call3_v5 : Ref sig .tc := ⟨.hbm, 130, rfl⟩
abbrev main_call3_v6 : Ref sig .tc := ⟨.hbm, 131, rfl⟩
abbrev main_call3_v7 : Ref sig .tc := ⟨.hbm, 132, rfl⟩
abbrev main_call3_cst_1 : Ref sig .tc := ⟨.hbm, 133, rfl⟩
abbrev main_call3_v8 : Ref sig .tc := ⟨.hbm, 134, rfl⟩
abbrev main_call3_cst_2 : Ref sig .tc := ⟨.hbm, 135, rfl⟩
abbrev main_call3_v9 : Ref sig .tc := ⟨.hbm, 136, rfl⟩
abbrev main_call3_v10 : Ref sig .tc := ⟨.hbm, 137, rfl⟩
abbrev main_call3_v11 : Ref sig .tc := ⟨.hbm, 138, rfl⟩
abbrev main_call3_cst_3 : Ref sig .tc := ⟨.hbm, 139, rfl⟩
abbrev main_call3_v12 : Ref sig .tc := ⟨.hbm, 140, rfl⟩
abbrev main_call3_cst_4 : Ref sig .tc := ⟨.hbm, 141, rfl⟩
abbrev main_call3_call0_v0 : Ref sig .tc := ⟨.hbm, 142, rfl⟩
abbrev main_call3_call0_v1 : Ref sig .tc := ⟨.hbm, 143, rfl⟩
abbrev main_v70 : Ref sig .tc := ⟨.hbm, 144, rfl⟩
abbrev main_v71 : Ref sig .tc := ⟨.hbm, 145, rfl⟩
abbrev main_v72 : Ref sig .tc := ⟨.hbm, 146, rfl⟩
abbrev main_v73 : Ref sig .tc := ⟨.hbm, 147, rfl⟩
abbrev main_v74 : Ref sig .tc := ⟨.hbm, 148, rfl⟩
abbrev main_v75 : Ref sig .tc := ⟨.hbm, 149, rfl⟩
abbrev main_v76 : Ref sig .tc := ⟨.hbm, 150, rfl⟩
abbrev main_v77 : Ref sig .tc := ⟨.hbm, 151, rfl⟩
abbrev main_v78 : Ref sig .tc := ⟨.hbm, 152, rfl⟩
abbrev main_v79 : Ref sig .tc := ⟨.hbm, 153, rfl⟩
abbrev main_c_10 : Ref sig .tc := ⟨.hbm, 154, rfl⟩
abbrev main_v80 : Ref sig .tc := ⟨.hbm, 155, rfl⟩
abbrev main_v81 : Ref sig .tc := ⟨.hbm, 156, rfl⟩
abbrev main_c_11 : Ref sig .tc := ⟨.hbm, 157, rfl⟩
abbrev main_v82 : Ref sig .tc := ⟨.hbm, 158, rfl⟩
abbrev main_v83 : Ref sig .tc := ⟨.hbm, 159, rfl⟩
abbrev main_v84 : Ref sig .tc := ⟨.hbm, 160, rfl⟩
abbrev main_v85 : Ref sig .tc := ⟨.hbm, 161, rfl⟩
abbrev main_v86 : Ref sig .tc := ⟨.hbm, 162, rfl⟩
abbrev main_v87 : Ref sig .tc := ⟨.hbm, 163, rfl⟩
abbrev main_call4_cst : Ref sig .tc := ⟨.hbm, 164, rfl⟩
abbrev main_call4_v0 : Ref sig .tc := ⟨.hbm, 165, rfl⟩
abbrev main_v88 : Ref sig .tc := ⟨.hbm, 166, rfl⟩
abbrev main_cst_12 : Ref sig .tc := ⟨.hbm, 167, rfl⟩
abbrev main_v89 : Ref sig .tc := ⟨.hbm, 168, rfl⟩
abbrev main_v90 : Ref sig .tc := ⟨.hbm, 169, rfl⟩
abbrev main_v91 : Ref sig .tc := ⟨.hbm, 170, rfl⟩
abbrev main_v92 : Ref sig .tc := ⟨.hbm, 171, rfl⟩
abbrev main_v93 : Ref sig .tc := ⟨.hbm, 172, rfl⟩
abbrev main_v94 : Ref sig .tc := ⟨.hbm, 173, rfl⟩
abbrev main_v95 : Ref sig .tc := ⟨.hbm, 174, rfl⟩
abbrev main_v96 : Ref sig .tc := ⟨.hbm, 175, rfl⟩
abbrev main_v97 : Ref sig .tc := ⟨.hbm, 176, rfl⟩
abbrev main_v98 : Ref sig .tc := ⟨.hbm, 177, rfl⟩
abbrev main_v99 : Ref sig .tc := ⟨.hbm, 178, rfl⟩
abbrev main_v100 : Ref sig .tc := ⟨.hbm, 179, rfl⟩
abbrev main_v101 : Ref sig .tc := ⟨.hbm, 180, rfl⟩
abbrev main_v102 : Ref sig .tc := ⟨.hbm, 181, rfl⟩
abbrev main_cst_13 : Ref sig .tc := ⟨.hbm, 182, rfl⟩
abbrev main_v103 : Ref sig .tc := ⟨.hbm, 183, rfl⟩
abbrev main_cst_14 : Ref sig .tc := ⟨.hbm, 184, rfl⟩
abbrev main_v104 : Ref sig .tc := ⟨.hbm, 185, rfl⟩
abbrev main_v105 : Ref sig .tc := ⟨.hbm, 186, rfl⟩
abbrev main_c_15 : Ref sig .tc := ⟨.hbm, 187, rfl⟩
abbrev main_call5_cst : Ref sig .tc := ⟨.hbm, 188, rfl⟩
abbrev main_call5_v0 : Ref sig .tc := ⟨.hbm, 189, rfl⟩
abbrev main_call5_v1 : Ref sig .tc := ⟨.hbm, 190, rfl⟩
abbrev main_call5_cst_0 : Ref sig .tc := ⟨.hbm, 191, rfl⟩
abbrev main_call5_v2 : Ref sig .tc := ⟨.hbm, 192, rfl⟩
abbrev main_call5_v3 : Ref sig .tc := ⟨.hbm, 193, rfl⟩
abbrev main_call5_v4 : Ref sig .tc := ⟨.hbm, 194, rfl⟩
abbrev main_call5_v5 : Ref sig .tc := ⟨.hbm, 195, rfl⟩
abbrev main_call5_v6 : Ref sig .tc := ⟨.hbm, 196, rfl⟩
abbrev main_call5_v7 : Ref sig .tc := ⟨.hbm, 197, rfl⟩
abbrev main_call5_cst_1 : Ref sig .tc := ⟨.hbm, 198, rfl⟩
abbrev main_call5_v8 : Ref sig .tc := ⟨.hbm, 199, rfl⟩
abbrev main_call5_cst_2 : Ref sig .tc := ⟨.hbm, 200, rfl⟩
abbrev main_call5_v9 : Ref sig .tc := ⟨.hbm, 201, rfl⟩
abbrev main_call5_v10 : Ref sig .tc := ⟨.hbm, 202, rfl⟩
abbrev main_call5_v11 : Ref sig .tc := ⟨.hbm, 203, rfl⟩
abbrev main_call5_cst_3 : Ref sig .tc := ⟨.hbm, 204, rfl⟩
abbrev main_call5_v12 : Ref sig .tc := ⟨.hbm, 205, rfl⟩
abbrev main_call5_cst_4 : Ref sig .tc := ⟨.hbm, 206, rfl⟩
abbrev main_call5_call0_v0 : Ref sig .tc := ⟨.hbm, 207, rfl⟩
abbrev main_call5_call0_v1 : Ref sig .tc := ⟨.hbm, 208, rfl⟩
abbrev main_v106 : Ref sig .tc := ⟨.hbm, 209, rfl⟩
abbrev main_v107 : Ref sig .tc := ⟨.hbm, 210, rfl⟩
abbrev main_v108 : Ref sig .tc := ⟨.hbm, 211, rfl⟩
abbrev main_v109 : Ref sig .tc := ⟨.hbm, 212, rfl⟩
abbrev main_v110 : Ref sig .tc := ⟨.hbm, 213, rfl⟩
abbrev main_v111 : Ref sig .tc := ⟨.hbm, 214, rfl⟩
abbrev main_v112 : Ref sig .tc := ⟨.hbm, 215, rfl⟩
abbrev main_v113 : Ref sig .tc := ⟨.hbm, 216, rfl⟩
abbrev main_v114 : Ref sig .tc := ⟨.hbm, 217, rfl⟩
abbrev main_v115 : Ref sig .tc := ⟨.hbm, 218, rfl⟩
abbrev main_cst_16 : Ref sig .tc := ⟨.hbm, 219, rfl⟩
abbrev main_v116 : Ref sig .tc := ⟨.hbm, 220, rfl⟩
abbrev main_cst_17 : Ref sig .tc := ⟨.hbm, 221, rfl⟩
abbrev main_v117 : Ref sig .tc := ⟨.hbm, 222, rfl⟩
abbrev main_v118 : Ref sig .tc := ⟨.hbm, 223, rfl⟩
abbrev main_v119 : Ref sig .tc := ⟨.hbm, 224, rfl⟩
abbrev main_cst_18 : Ref sig .tc := ⟨.hbm, 225, rfl⟩
abbrev main_v120 : Ref sig .tc := ⟨.hbm, 226, rfl⟩
abbrev main_v121 : Ref sig .tc := ⟨.hbm, 227, rfl⟩
abbrev main_v122 : Ref sig .tc := ⟨.hbm, 228, rfl⟩
abbrev main_cst_19 : Ref sig .tc := ⟨.hbm, 229, rfl⟩
abbrev main_v123 : Ref sig .tc := ⟨.hbm, 230, rfl⟩
abbrev main_v124 : Ref sig .tc := ⟨.hbm, 231, rfl⟩
abbrev main_v125 : Ref sig .tc := ⟨.hbm, 232, rfl⟩
abbrev main_v126 : Ref sig .tc := ⟨.hbm, 233, rfl⟩
abbrev main_v127 : Ref sig .tc := ⟨.hbm, 234, rfl⟩
abbrev main_v128 : Ref sig .tc := ⟨.hbm, 235, rfl⟩
abbrev main_v129 : Ref sig .tc := ⟨.hbm, 236, rfl⟩
abbrev main_v130 : Ref sig .tc := ⟨.hbm, 237, rfl⟩
abbrev main_v131 : Ref sig .tc := ⟨.hbm, 238, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg6_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg5_0 : Ref sig .tc := ⟨.vmem, 37, rfl⟩
abbrev cc4_stg6_0 : Ref sig .tc := ⟨.vmem, 38, rfl⟩
abbrev cc4_stg6_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg4_0 : Ref sig .tc := ⟨.vmem, 45, rfl⟩
abbrev cc5_stg5_0 : Ref sig .tc := ⟨.vmem, 46, rfl⟩
abbrev cc5_stg5_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg1_1 : Ref sig .tc := ⟨.vmem, 51, rfl⟩
abbrev cc6_stg2_0 : Ref sig .tc := ⟨.vmem, 52, rfl⟩
abbrev cc6_stg3_0 : Ref sig .tc := ⟨.vmem, 53, rfl⟩
abbrev cc6_stg4_0 : Ref sig .tc := ⟨.vmem, 54, rfl⟩
abbrev cc6_stg5_0 : Ref sig .tc := ⟨.vmem, 55, rfl⟩
abbrev cc6_stg6_0 : Ref sig .tc := ⟨.vmem, 56, rfl⟩
abbrev cc6_stg6_1 : Ref sig .tc := ⟨.vmem, 57, rfl⟩
abbrev cc7_stg0_0 : Ref sig .tc := ⟨.vmem, 58, rfl⟩
abbrev cc7_stg0_1 : Ref sig .tc := ⟨.vmem, 59, rfl⟩
abbrev cc7_stg1_0 : Ref sig .tc := ⟨.vmem, 60, rfl⟩
abbrev cc7_stg2_0 : Ref sig .tc := ⟨.vmem, 61, rfl⟩
abbrev cc7_stg3_0 : Ref sig .tc := ⟨.vmem, 62, rfl⟩
abbrev cc7_stg4_0 : Ref sig .tc := ⟨.vmem, 63, rfl⟩
abbrev cc7_stg5_0 : Ref sig .tc := ⟨.vmem, 64, rfl⟩
abbrev cc7_stg5_1 : Ref sig .tc := ⟨.vmem, 65, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem6_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem3_0 : DmaSem sig := 35
abbrev cc4_sem4_0 : DmaSem sig := 36
abbrev cc4_sem5_0 : DmaSem sig := 37
abbrev cc4_sem6_0 : DmaSem sig := 38
abbrev cc4_sem6_1 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem3_0 : DmaSem sig := 44
abbrev cc5_sem4_0 : DmaSem sig := 45
abbrev cc5_sem5_0 : DmaSem sig := 46
abbrev cc5_sem5_1 : DmaSem sig := 47
abbrev cc6_sem0_0 : DmaSem sig := 48
abbrev cc6_sem0_1 : DmaSem sig := 49
abbrev cc6_sem1_0 : DmaSem sig := 50
abbrev cc6_sem1_1 : DmaSem sig := 51
abbrev cc6_sem2_0 : DmaSem sig := 52
abbrev cc6_sem3_0 : DmaSem sig := 53
abbrev cc6_sem4_0 : DmaSem sig := 54
abbrev cc6_sem5_0 : DmaSem sig := 55
abbrev cc6_sem6_0 : DmaSem sig := 56
abbrev cc6_sem6_1 : DmaSem sig := 57
abbrev cc7_sem0_0 : DmaSem sig := 58
abbrev cc7_sem0_1 : DmaSem sig := 59
abbrev cc7_sem1_0 : DmaSem sig := 60
abbrev cc7_sem2_0 : DmaSem sig := 61
abbrev cc7_sem3_0 : DmaSem sig := 62
abbrev cc7_sem4_0 : DmaSem sig := 63
abbrev cc7_sem5_0 : DmaSem sig := 64
abbrev cc7_sem5_1 : DmaSem sig := 65

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S16000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S128x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S5000x64 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x64 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

class Facts₀ : Prop where
  shapeCasts_S64_S1x64 : S64.ShapeCasts S1x64
  inb_S5000x32_S5000x32_0_0 : ∀ a, (![0, 0] : Fin 2 → Nat) a + S5000x32.size a ≤ S5000x32.size a
  h_S5000x32 : 0 < S5000x32.numel
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  inb_S16000x16_S16000x16_0_0 : ∀ a, (![0, 0] : Fin 2 → Nat) a + S16000x16.size a ≤ S16000x16.size a
  h_S16000x16 : 0 < S16000x16.numel
  inb_S16x64_S16x64_0_0 : ∀ a, (![0, 0] : Fin 2 → Nat) a + S16x64.size a ≤ S16x64.size a
  h_S16x64 : 0 < S16x64.numel
  broadcasts_S1x64_S16000x64 : S1x64.Broadcasts S16000x64
  inb_S16000x64_S16000x64_0_0 : ∀ a, (![0, 0] : Fin 2 → Nat) a + S16000x64.size a ≤ S16000x64.size a
  h_S16000x64 : 0 < S16000x64.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x64 : S_.BroadcastsInDim S1600000x64 (![] : Fin 0 → Fin S1600000x64.rank)
  bcast_S_S50000x64 : S_.BroadcastsInDim S50000x64 (![] : Fin 0 → Fin S50000x64.rank)
  slices_S3x64x128_S1x64x128_0_0_0 : S3x64x128.Slices ![0, 0, 0] S1x64x128
  shapeCasts_S1x64x128_S64x128 : S1x64x128.ShapeCasts S64x128
  slices_S3x128_S1x128_0_0 : S3x128.Slices ![0, 0] S1x128
  shapeCasts_S1x128_S128 : S1x128.ShapeCasts S128
  slices_S3x128x64_S1x128x64_0_0_0 : S3x128x64.Slices ![0, 0, 0] S1x128x64
  shapeCasts_S1x128x64_S128x64 : S1x128x64.ShapeCasts S128x64
  slices_S3x64_S1x64_0_0 : S3x64.Slices ![0, 0] S1x64
  shapeCasts_S1x64_S64 : S1x64.ShapeCasts S64
  shapeCasts_S128_S1x128 : S128.ShapeCasts S1x128
  shapeCasts_S5000x64_S5000x64 : S5000x64.ShapeCasts S5000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  reducesTo_S50000x64_S64_d0 : S50000x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S50000x64_0_1 : S1x64.BroadcastsInDim S50000x64 (![0, 1] : Fin 2 → Fin S50000x64.rank)
  slices_S3x64x128_S1x64x128_1_0_0 : S3x64x128.Slices ![1, 0, 0] S1x64x128
  slices_S3x128_S1x128_1_0 : S3x128.Slices ![1, 0] S1x128
  slices_S3x128x64_S1x128x64_1_0_0 : S3x128x64.Slices ![1, 0, 0] S1x128x64
  slices_S3x64_S1x64_1_0 : S3x64.Slices ![1, 0] S1x64
  slices_S3x64x128_S1x64x128_2_0_0 : S3x64x128.Slices ![2, 0, 0] S1x64x128
  slices_S3x128_S1x128_2_0 : S3x128.Slices ![2, 0] S1x128
  slices_S3x128x64_S1x128x64_2_0_0 : S3x128x64.Slices ![2, 0, 0] S1x128x64
  slices_S3x64_S1x64_2_0 : S3x64.Slices ![2, 0] S1x64
  bcast_S_S50000 : S_.BroadcastsInDim S50000 (![] : Fin 0 → Fin S50000.rank)
  bcast_S50000_S50000x1_0 : S50000.BroadcastsInDim S50000x1 (![0] : Fin 1 → Fin S50000x1.rank)
  bcast_S_S64x64 : S_.BroadcastsInDim S64x64 (![] : Fin 0 → Fin S64x64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  dot_S5000x32_S32x64_S5000x64_1_0_0_1_n_n_wf : DotDims.WF S5000x32 S32x64 S5000x64 [1] [0] [0] [1] [] []
  dot_S16000x16_S16x64_S16000x64_1_0_0_1_n_n_wf : DotDims.WF S16000x16 S16x64 S16000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S5000x64_S64x128_S5000x128_1_0_0_1_n_n_wf : DotDims.WF S5000x64 S64x128 S5000x128 [1] [0] [0] [1] [] []
  dot_S5000x128_S128x64_S5000x64_1_0_0_1_n_n_wf : DotDims.WF S5000x128 S128x64 S5000x64 [1] [0] [0] [1] [] []
  scatter_S64_S50000x1_S50000_n_0_0_1_wf : ScatterDims.WF S64 S50000x1 S50000 [] [0] [0] 1
  scatter_S64x64_S50000x1_S50000x64_1_0_0_1_wf : ScatterDims.WF S64x64 S50000x1 S50000x64 [1] [0] [0] 1
  dot_S64x64_S64x1_S64x1_1_0_0_1_n_n_wf : DotDims.WF S64x64 S64x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S50000x32.size a
  hwx0_0 : ∀ i : grid0.Coords, EltTy.bits .f32 = 32 ∨ (Rect.block (s := S50000x32) S5000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16000x16.size a ≤ S1600000x16.size a
  hwx1_0 : ∀ i : grid1.Coords, EltTy.bits .f32 = 32 ∨ (Rect.block (s := S1600000x16) S16000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x64.size a ≤ S16x64.size a
  hwx1_1 : ∀ i : grid1.Coords, EltTy.bits .f32 = 32 ∨ (Rect.block (s := S16x64) S16x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S16000x64.size a ≤ S1600000x64.size a
  hwx1_3 : ∀ i : grid1.Coords, EltTy.bits .f32 = 32 ∨ (Rect.block (s := S1600000x64) S16000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x128.size a ≤ S64x128.size a
  hwx2_2 : ∀ i : grid2.Coords, EltTy.bits .f32 = 32 ∨ (Rect.block (s := S64x128) S64x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x64.size a ≤ S128x64.size a
  hwx2_4 : ∀ i : grid2.Coords, EltTy.bits .f32 = 32 ∨ (Rect.block (s := S128x64) S128x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S50000x64.size a
  hwx2_6 : ∀ i : grid2.Coords, EltTy.bits .f32 = 32 ∨ (Rect.block (s := S50000x64) S5000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S50000x64.size a
  hwx3_5 : ∀ i : grid3.Coords, EltTy.bits .f32 = 32 ∨ (Rect.block (s := S50000x64) S5000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S50000x64.size a
  hwx4_1 : ∀ i : grid4.Coords, EltTy.bits .f32 = 32 ∨ (Rect.block (s := S50000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x128.size a ≤ S64x128.size a
  hwx4_2 : ∀ i : grid4.Coords, EltTy.bits .f32 = 32 ∨ (Rect.block (s := S64x128) S64x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x64.size a ≤ S128x64.size a
  hwx4_4 : ∀ i : grid4.Coords, EltTy.bits .f32 = 32 ∨ (Rect.block (s := S128x64) S128x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x64.size a ≤ S50000x64.size a
  hwx4_6 : ∀ i : grid4.Coords, EltTy.bits .f32 = 32 ∨ (Rect.block (s := S50000x64) S5000x64.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x64.size a ≤ S50000x64.size a
  hwx5_5 : ∀ i : grid5.Coords, EltTy.bits .f32 = 32 ∨ (Rect.block (s := S50000x64) S5000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .f32 = 32 ∨ (Rect.block (s := S50000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x64.size a ≤ S50000x64.size a
  hwx6_1 : ∀ i : grid6.Coords, EltTy.bits .f32 = 32 ∨ (Rect.block (s := S50000x64) S5000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x128.size a ≤ S64x128.size a
  hwx6_2 : ∀ i : grid6.Coords, EltTy.bits .f32 = 32 ∨ (Rect.block (s := S64x128) S64x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128x64.size a ≤ S128x64.size a
  hwx6_4 : ∀ i : grid6.Coords, EltTy.bits .f32 = 32 ∨ (Rect.block (s := S128x64) S128x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x64.size a ≤ S1x64.size a
  hwx6_5 : ∀ i : grid6.Coords, EltTy.bits .f32 = 32 ∨ (Rect.block (s := S1x64) S1x64.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S5000x64.size a ≤ S50000x64.size a
  hwx6_6 : ∀ i : grid6.Coords, EltTy.bits .f32 = 32 ∨ (Rect.block (s := S50000x64) S5000x64.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S50000x64.size a
  hwx7_0 : ∀ i : grid7.Coords, EltTy.bits .f32 = 32 ∨ (Rect.block (s := S50000x64) S5000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x64.size a ≤ S50000x64.size a
  hwx7_5 : ∀ i : grid7.Coords, EltTy.bits .f32 = 32 ∨ (Rect.block (s := S50000x64) S5000x64.size (cc7_transform_5 i) (hinb7_5 i)).WholeWords (EltTy.packing .f32)

variable [Facts₀]

def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def dot_S16000x16_S16x64_S16000x64_1_0_0_1_n_n : DotDims S16000x16 S16x64 S16000x64 where
  lhsContracting := [1]
  rhsContracting := [0]
  lhsNonContracting := [0]
  rhsNonContracting := [1]
  lhsBatch := []
  rhsBatch := []
  wf := dot_S16000x16_S16x64_S16000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

abbrev win0_0 : Pipeline.Window sig grid0 :=
  Pipeline.Window.ofSpec (Memref.whole main_arg0) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S16000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S16x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S16000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v1) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v21) S64x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v28) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v25) S128x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v29) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v30) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v30) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v39) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v40) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v41) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v42) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v43) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v43) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v55) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v57) S64x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v64) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v61) S128x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v65) S1x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v66) S5000x64.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v66) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v75) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v76) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v77) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v78) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v79) S5000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v79) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v91) S5000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v93) S64x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v100) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v97) S128x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v101) S1x64.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v102) S5000x64.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v102) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v111) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v112) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v113) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v114) S1x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v115) S5000x64.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S50000x32 : Shape := ⟨2, ![50000, 32]⟩
abbrev S1600000x16 : Shape := ⟨2, ![1600000, 16]⟩
abbrev S2x1600000 : Shape := ⟨2, ![2, 1600000]⟩
abbrev S50000 : Shape := ⟨1, ![50000]⟩
abbrev S32x64 : Shape := ⟨2, ![32, 64]⟩
abbrev S64 : Shape := ⟨1, ![64]⟩
abbrev S16x64 : Shape := ⟨2, ![16, 64]⟩
abbrev S3x64x128 : Shape := ⟨3, ![3, 64, 128]⟩
abbrev S3x128 : Shape := ⟨2, ![3, 128]⟩
abbrev S3x128x64 : Shape := ⟨3, ![3, 128, 64]⟩
abbrev S3x64 : Shape := ⟨2, ![3, 64]⟩
abbrev S64x1 : Shape := ⟨2, ![64, 1]⟩
abbrev S1 : Shape := ⟨1, ![1]⟩
abbrev S50000x64 : Shape := ⟨2, ![50000, 64]⟩
abbrev S1x64 : Shape := ⟨2, ![1, 64]⟩
abbrev S1600000x64 : Shape := ⟨2, ![1600000, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1x64x128 : Shape := ⟨3, ![1, 64, 128]⟩
abbrev S64x128 : Shape := ⟨2, ![64, 128]⟩
abbrev S50000x128 : Shape := ⟨2, ![50000, 128]⟩
abbrev S1x128 : Shape := ⟨2, ![1, 128]⟩
abbrev S128 : Shape := ⟨1, ![128]⟩
abbrev S1x128x64 : Shape := ⟨3, ![1, 128, 64]⟩
abbrev S128x64 : Shape := ⟨2, ![128, 64]⟩
abbrev S50000x1 : Shape := ⟨2, ![50000, 1]⟩
abbrev S64x64 : Shape := ⟨2, ![64, 64]⟩
abbrev S1x1 : Shape := ⟨2, ![1, 1]⟩

abbrev nBuf : Space → Nat
  | .hbm => 312
  | .vmem => 0
  | .smem => 0
  | _ => 0

abbrev hbmTy0_0 (i : Nat) : BufTy := match i % 128 with
  | 0 => ⟨S50000x32, .f32⟩
  | 1 => ⟨S1600000x16, .f32⟩
  | 2 => ⟨S2x1600000, .i32⟩
  | 3 => ⟨S50000, .i32⟩
  | 4 => ⟨S32x64, .f32⟩
  | 5 => ⟨S64, .f32⟩
  | 6 => ⟨S16x64, .f32⟩
  | 7 => ⟨S64, .f32⟩
  | 8 => ⟨S3x64x128, .f32⟩
  | 9 => ⟨S3x128, .f32⟩
  | 10 => ⟨S3x128x64, .f32⟩
  | 11 => ⟨S3x64, .f32⟩
  | 12 => ⟨S3x64, .f32⟩
  | 13 => ⟨S3x64, .f32⟩
  | 14 => ⟨S64x1, .f32⟩
  | 15 => ⟨S1, .f32⟩
  | 16 => ⟨S50000x64, .f32⟩
  | 17 => ⟨S1x64, .f32⟩
  | 18 => ⟨S50000x64, .f32⟩
  | 19 => ⟨S50000x64, .f32⟩
  | 20 => ⟨S1600000x64, .f32⟩
  | 21 => ⟨S1x64, .f32⟩
  | 22 => ⟨S1600000x64, .f32⟩
  | 23 => ⟨S1600000x64, .f32⟩
  | 24 => ⟨S1x1600000, .i32⟩
  | 25 => ⟨S1600000, .i32⟩
  | 26 => ⟨S1x1600000, .i32⟩
  | 27 => ⟨S1600000, .i32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000x64, .f32⟩
  | 37 => ⟨S1600000x64, .f32⟩
  | 38 => ⟨S_, .f32⟩
  | 39 => ⟨S1600000x64, .f32⟩
  | 40 => ⟨S1600000x64, .f32⟩
  | 41 => ⟨S_, .f32⟩
  | 42 => ⟨S50000x64, .f32⟩
  | 43 => ⟨S1600000x1, .i32⟩
  | 44 => ⟨S50000x64, .f32⟩
  | 45 => ⟨S50000x64, .f32⟩
  | 46 => ⟨S1x64x128, .f32⟩
  | 47 => ⟨S64x128, .f32⟩
  | 48 => ⟨S50000x128, .f32⟩
  | 49 => ⟨S1x128, .f32⟩
  | 50 => ⟨S128, .f32⟩
  | 51 => ⟨S1x128, .f32⟩
  | 52 => ⟨S50000x128, .f32⟩
  | 53 => ⟨S50000x128, .f32⟩
  | 54 => ⟨S_, .f32⟩
  | 55 => ⟨S50000x128, .f32⟩
  | 56 => ⟨S50000x128, .f32⟩
  | 57 => ⟨S1x128x64, .f32⟩
  | 58 => ⟨S128x64, .f32⟩
  | 59 => ⟨S50000x64, .f32⟩
  | 60 => ⟨S1x64, .f32⟩
  | 61 => ⟨S64, .f32⟩
  | 62 => ⟨S1x64, .f32⟩
  | 63 => ⟨S50000x64, .f32⟩
  | 64 => ⟨S50000x64, .f32⟩
  | 65 => ⟨S_, .f32⟩
  | 66 => ⟨S64, .f32⟩
  | 67 => ⟨S_, .f32⟩
  | 68 => ⟨S64, .f32⟩
  | 69 => ⟨S64, .f32⟩
  | 70 => ⟨S_, .i32⟩
  | 71 => ⟨S_, .f32⟩
  | 72 => ⟨S64, .f32⟩
  | 73 => ⟨S1x64, .f32⟩
  | 74 => ⟨S_, .f32⟩
  | 75 => ⟨S1x64, .f32⟩
  | 76 => ⟨S1x64, .f32⟩
  | 77 => ⟨S50000x64, .f32⟩
  | 78 => ⟨S50000x64, .f32⟩
  | 79 => ⟨S50000x64, .f32⟩
  | 80 => ⟨S_, .f32⟩
  | 81 => ⟨S_, .f32⟩
  | 82 => ⟨S_, .f32⟩
  | 83 => ⟨S_, .f32⟩
  | 84 => ⟨S64, .f32⟩
  | 85 => ⟨S64, .f32⟩
  | 86 => ⟨S64, .f32⟩
  | 87 => ⟨S_, .f32⟩
  | 88 => ⟨S_, .i1⟩
  | 89 => ⟨S_, .f32⟩
  | 90 => ⟨S_, .f32⟩
  | 91 => ⟨S64, .f32⟩
  | 92 => ⟨S64, .f32⟩
  | 93 => ⟨S1x64, .f32⟩
  | 94 => ⟨S64, .f32⟩
  | 95 => ⟨S1x64, .f32⟩
  | 96 => ⟨S50000x64, .f32⟩
  | 97 => ⟨S50000x64, .f32⟩
  | 98 => ⟨S1x64, .f32⟩
  | 99 => ⟨S50000x64, .f32⟩
  | 100 => ⟨S50000x64, .f32⟩
  | 101 => ⟨S_, .f32⟩
  | 102 => ⟨S64, .f32⟩
  | 103 => ⟨S64, .f32⟩
  | 104 => ⟨S64, .f32⟩
  | 105 => ⟨S1x64, .f32⟩
  | 106 => ⟨S50000x64, .f32⟩
  | 107 => ⟨S50000x64, .f32⟩
  | 108 => ⟨S1x64, .f32⟩
  | 109 => ⟨S64, .f32⟩
  | 110 => ⟨S1x64, .f32⟩
  | 111 => ⟨S50000x64, .f32⟩
  | 112 => ⟨S50000x64, .f32⟩
  | 113 => ⟨S_, .f32⟩
  | 114 => ⟨S50000x64, .f32⟩
  | 115 => ⟨S50000x64, .f32⟩
  | 116 => ⟨S_, .i32⟩
  | 117 => ⟨S1600000, .i32⟩
  | 118 => ⟨S1600000, .i1⟩
  | 119 => ⟨S_, .i32⟩
  | 120 => ⟨S1600000, .i32⟩
  | 121 => ⟨S1600000, .i32⟩
  | 122 => ⟨S1600000, .i32⟩
  | 123 => ⟨S1600000x1, .i32⟩
  | 124 => ⟨S1600000x64, .f32⟩
  | 125 => ⟨S1600000x64, .f32⟩
  | 126 => ⟨S_, .f32⟩
  | 127 => ⟨S1600000x64, .f32⟩
  | _ => ⟨S50000x32, .f32⟩

abbrev hbmTy0_1 (i : Nat) : BufTy := match i % 128 with
  | 0 => ⟨S1600000x64, .f32⟩
  | 1 => ⟨S_, .f32⟩
  | 2 => ⟨S50000x64, .f32⟩
  | 3 => ⟨S1600000x1, .i32⟩
  | 4 => ⟨S50000x64, .f32⟩
  | 5 => ⟨S50000x64, .f32⟩
  | 6 => ⟨S1x64x128, .f32⟩
  | 7 => ⟨S64x128, .f32⟩
  | 8 => ⟨S50000x128, .f32⟩
  | 9 => ⟨S1x128, .f32⟩
  | 10 => ⟨S128, .f32⟩
  | 11 => ⟨S1x128, .f32⟩
  | 12 => ⟨S50000x128, .f32⟩
  | 13 => ⟨S50000x128, .f32⟩
  | 14 => ⟨S_, .f32⟩
  | 15 => ⟨S50000x128, .f32⟩
  | 16 => ⟨S50000x128, .f32⟩
  | 17 => ⟨S1x128x64, .f32⟩
  | 18 => ⟨S128x64, .f32⟩
  | 19 => ⟨S50000x64, .f32⟩
  | 20 => ⟨S1x64, .f32⟩
  | 21 => ⟨S64, .f32⟩
  | 22 => ⟨S1x64, .f32⟩
  | 23 => ⟨S50000x64, .f32⟩
  | 24 => ⟨S50000x64, .f32⟩
  | 25 => ⟨S_, .f32⟩
  | 26 => ⟨S64, .f32⟩
  | 27 => ⟨S_, .f32⟩
  | 28 => ⟨S64, .f32⟩
  | 29 => ⟨S64, .f32⟩
  | 30 => ⟨S_, .i32⟩
  | 31 => ⟨S_, .f32⟩
  | 32 => ⟨S64, .f32⟩
  | 33 => ⟨S1x64, .f32⟩
  | 34 => ⟨S_, .f32⟩
  | 35 => ⟨S1x64, .f32⟩
  | 36 => ⟨S1x64, .f32⟩
  | 37 => ⟨S50000x64, .f32⟩
  | 38 => ⟨S50000x64, .f32⟩
  | 39 => ⟨S50000x64, .f32⟩
  | 40 => ⟨S_, .f32⟩
  | 41 => ⟨S_, .f32⟩
  | 42 => ⟨S_, .f32⟩
  | 43 => ⟨S_, .f32⟩
  | 44 => ⟨S64, .f32⟩
  | 45 => ⟨S64, .f32⟩
  | 46 => ⟨S64, .f32⟩
  | 47 => ⟨S_, .f32⟩
  | 48 => ⟨S_, .i1⟩
  | 49 => ⟨S_, .f32⟩
  | 50 => ⟨S_, .f32⟩
  | 51 => ⟨S64, .f32⟩
  | 52 => ⟨S64, .f32⟩
  | 53 => ⟨S1x64, .f32⟩
  | 54 => ⟨S64, .f32⟩
  | 55 => ⟨S1x64, .f32⟩
  | 56 => ⟨S50000x64, .f32⟩
  | 57 => ⟨S50000x64, .f32⟩
  | 58 => ⟨S1x64, .f32⟩
  | 59 => ⟨S50000x64, .f32⟩
  | 60 => ⟨S50000x64, .f32⟩
  | 61 => ⟨S_, .f32⟩
  | 62 => ⟨S64, .f32⟩
  | 63 => ⟨S64, .f32⟩
  | 64 => ⟨S64, .f32⟩
  | 65 => ⟨S1x64, .f32⟩
  | 66 => ⟨S50000x64, .f32⟩
  | 67 => ⟨S50000x64, .f32⟩
  | 68 => ⟨S1x64, .f32⟩
  | 69 => ⟨S64, .f32⟩
  | 70 => ⟨S1x64, .f32⟩
  | 71 => ⟨S50000x64, .f32⟩
  | 72 => ⟨S50000x64, .f32⟩
  | 73 => ⟨S_, .f32⟩
  | 74 => ⟨S50000x64, .f32⟩
  | 75 => ⟨S50000x64, .f32⟩
  | 76 => ⟨S_, .i32⟩
  | 77 => ⟨S1600000, .i32⟩
  | 78 => ⟨S1600000, .i1⟩
  | 79 => ⟨S_, .i32⟩
  | 80 => ⟨S1600000, .i32⟩
  | 81 => ⟨S1600000, .i32⟩
  | 82 => ⟨S1600000, .i32⟩
  | 83 => ⟨S1600000x1, .i32⟩
  | 84 => ⟨S1600000x64, .f32⟩
  | 85 => ⟨S1600000x64, .f32⟩
  | 86 => ⟨S_, .f32⟩
  | 87 => ⟨S1600000x64, .f32⟩
  | 88 => ⟨S1600000x64, .f32⟩
  | 89 => ⟨S_, .f32⟩
  | 90 => ⟨S50000x64, .f32⟩
  | 91 => ⟨S1600000x1, .i32⟩
  | 92 => ⟨S50000x64, .f32⟩
  | 93 => ⟨S50000x64, .f32⟩
  | 94 => ⟨S1x64x128, .f32⟩
  | 95 => ⟨S64x128, .f32⟩
  | 96 => ⟨S50000x128, .f32⟩
  | 97 => ⟨S1x128, .f32⟩
  | 98 => ⟨S128, .f32⟩
  | 99 => ⟨S1x128, .f32⟩
  | 100 => ⟨S50000x128, .f32⟩
  | 101 => ⟨S50000x128, .f32⟩
  | 102 => ⟨S_, .f32⟩
  | 103 => ⟨S50000x128, .f32⟩
  | 104 => ⟨S50000x128, .f32⟩
  | 105 => ⟨S1x128x64, .f32⟩
  | 106 => ⟨S128x64, .f32⟩
  | 107 => ⟨S50000x64, .f32⟩
  | 108 => ⟨S1x64, .f32⟩
  | 109 => ⟨S64, .f32⟩
  | 110 => ⟨S1x64, .f32⟩
  | 111 => ⟨S50000x64, .f32⟩
  | 112 => ⟨S50000x64, .f32⟩
  | 113 => ⟨S_, .f32⟩
  | 114 => ⟨S64, .f32⟩
  | 115 => ⟨S_, .f32⟩
  | 116 => ⟨S64, .f32⟩
  | 117 => ⟨S64, .f32⟩
  | 118 => ⟨S_, .i32⟩
  | 119 => ⟨S_, .f32⟩
  | 120 => ⟨S64, .f32⟩
  | 121 => ⟨S1x64, .f32⟩
  | 122 => ⟨S_, .f32⟩
  | 123 => ⟨S1x64, .f32⟩
  | 124 => ⟨S1x64, .f32⟩
  | 125 => ⟨S50000x64, .f32⟩
  | 126 => ⟨S50000x64, .f32⟩
  | 127 => ⟨S50000x64, .f32⟩
  | _ => ⟨S50000x32, .f32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S64, .f32⟩
  | 5 => ⟨S64, .f32⟩
  | 6 => ⟨S64, .f32⟩
  | 7 => ⟨S_, .f32⟩
  | 8 => ⟨S_, .i1⟩
  | 9 => ⟨S_, .f32⟩
  | 10 => ⟨S_, .f32⟩
  | 11 => ⟨S64, .f32⟩
  | 12 => ⟨S64, .f32⟩
  | 13 => ⟨S1x64, .f32⟩
  | 14 => ⟨S64, .f32⟩
  | 15 => ⟨S1x64, .f32⟩
  | 16 => ⟨S50000x64, .f32⟩
  | 17 => ⟨S50000x64, .f32⟩
  | 18 => ⟨S1x64, .f32⟩
  | 19 => ⟨S50000x64, .f32⟩
  | 20 => ⟨S50000x64, .f32⟩
  | 21 => ⟨S_, .f32⟩
  | 22 => ⟨S64, .f32⟩
  | 23 => ⟨S64, .f32⟩
  | 24 => ⟨S64, .f32⟩
  | 25 => ⟨S1x64, .f32⟩
  | 26 => ⟨S50000x64, .f32⟩
  | 27 => ⟨S50000x64, .f32⟩
  | 28 => ⟨S1x64, .f32⟩
  | 29 => ⟨S64, .f32⟩
  | 30 => ⟨S1x64, .f32⟩
  | 31 => ⟨S50000x64, .f32⟩
  | 32 => ⟨S50000x64, .f32⟩
  | 33 => ⟨S_, .f32⟩
  | 34 => ⟨S50000x64, .f32⟩
  | 35 => ⟨S50000x64, .f32⟩
  | 36 => ⟨S_, .f32⟩
  | 37 => ⟨S50000, .f32⟩
  | 38 => ⟨S_, .f32⟩
  | 39 => ⟨S64, .f32⟩
  | 40 => ⟨S50000x1, .i32⟩
  | 41 => ⟨S64, .f32⟩
  | 42 => ⟨S_, .f32⟩
  | 43 => ⟨S64x64, .f32⟩
  | 44 => ⟨S50000x1, .i32⟩
  | 45 => ⟨S64x64, .f32⟩
  | 46 => ⟨S_, .f32⟩
  | 47 => ⟨S64, .f32⟩
  | 48 => ⟨S64, .f32⟩
  | 49 => ⟨S64x1, .f32⟩
  | 50 => ⟨S64x64, .f32⟩
  | 51 => ⟨S64x64, .f32⟩
  | 52 => ⟨S64x1, .f32⟩
  | 53 => ⟨S1x1, .f32⟩
  | 54 => ⟨S64x1, .f32⟩
  | 55 => ⟨S64x1, .f32⟩
  | _ => ⟨S50000x32, .f32⟩

abbrev hbmTy (i : Nat) : BufTy := match i / 128 with
  | 0 => hbmTy0_0 i
  | 1 => hbmTy0_1 i
  | 2 => hbmTy0_2 i
  | _ => ⟨S50000x32, .f32⟩

abbrev bufTy : (tb : Table) → Fin (tcTables nBuf tb) → BufTy
  | .hbm, ⟨i, _⟩ => hbmTy i
  | _, _ => ⟨S50000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_0 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_call0_cst : Ref sig .tc := ⟨.hbm, 38, rfl⟩
abbrev main_call0_v0 : Ref sig .tc := ⟨.hbm, 39, rfl⟩
abbrev main_v20 : Ref sig .tc := ⟨.hbm, 40, rfl⟩
abbrev main_cst : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_call1_cst : Ref sig .tc := ⟨.hbm, 54, rfl⟩
abbrev main_call1_v0 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_1 : Ref sig .tc := ⟨.hbm, 65, rfl⟩
abbrev main_v42 : Ref sig .tc := ⟨.hbm, 66, rfl⟩
abbrev main_cst_2 : Ref sig .tc := ⟨.hbm, 67, rfl⟩
abbrev main_v43 : Ref sig .tc := ⟨.hbm, 68, rfl⟩
abbrev main_v44 : Ref sig .tc := ⟨.hbm, 69, rfl⟩
abbrev main_c_3 : Ref sig .tc := ⟨.hbm, 70, rfl⟩
abbrev main_call2_cst : Ref sig .tc := ⟨.hbm, 71, rfl⟩
abbrev main_call2_v0 : Ref sig .tc := ⟨.hbm, 72, rfl⟩
abbrev main_call2_v1 : Ref sig .tc := ⟨.hbm, 73, rfl⟩
abbrev main_call2_cst_0 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_call2_v5 : Ref sig .tc := ⟨.hbm, 78, rfl⟩
abbrev main_call2_v6 : Ref sig .tc := ⟨.hbm, 79, rfl⟩
abbrev main_call2_v7 : Ref sig .tc := ⟨.hbm, 80, rfl⟩
abbrev main_call2_cst_1 : Ref sig .tc := ⟨.hbm, 81, rfl⟩
abbrev main_call2_v8 : Ref sig .tc := ⟨.hbm, 82, rfl⟩
abbrev main_call2_cst_2 : Ref sig .tc := ⟨.hbm, 83, rfl⟩
abbrev main_call2_v9 : Ref sig .tc := ⟨.hbm, 84, rfl⟩
abbrev main_call2_v10 : Ref sig .tc := ⟨.hbm, 85, rfl⟩
abbrev main_call2_v11 : Ref sig .tc := ⟨.hbm, 86, rfl⟩
abbrev main_call2_cst_3 : Ref sig .tc := ⟨.hbm, 87, rfl⟩
abbrev main_call2_v12 : Ref sig .tc := ⟨.hbm, 88, rfl⟩
abbrev main_call2_cst_4 : Ref sig .tc := ⟨.hbm, 89, rfl⟩
abbrev main_call2_call0_v0 : Ref sig .tc := ⟨.hbm, 90, rfl⟩
abbrev main_call2_call0_v1 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_cst_4 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_call3_cst : Ref sig .tc := ⟨.hbm, 113, rfl⟩
abbrev main_call3_v0 : Ref sig .tc := ⟨.hbm, 114, rfl⟩
abbrev main_v65 : Ref sig .tc := ⟨.hbm, 115, rfl⟩
abbrev main_c_5 : Ref sig .tc := ⟨.hbm, 116, rfl⟩
abbrev main_v66 : Ref sig .tc := ⟨.hbm, 117, rfl⟩
abbrev main_v67 : Ref sig .tc := ⟨.hbm, 118, rfl⟩
abbrev main_c_6 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_call4_cst : Ref sig .tc := ⟨.hbm, 126, rfl⟩
abbrev main_call4_v0 : Ref sig .tc := ⟨.hbm, 127, rfl⟩
abbrev main_v74 : Ref sig .tc := ⟨.hbm, 128, rfl⟩
abbrev main_cst_7 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_call5_cst : Ref sig .tc := ⟨.hbm, 142, rfl⟩
abbrev main_call5_v0 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_cst_8 : Ref sig .tc := ⟨.hbm, 153, rfl⟩
abbrev main_v96 : Ref sig .tc := ⟨.hbm, 154, rfl⟩
abbrev main_cst_9 : Ref sig .tc := ⟨.hbm, 155, rfl⟩
abbrev main_v97 : Ref sig .tc := ⟨.hbm, 156, rfl⟩
abbrev main_v98 : Ref sig .tc := ⟨.hbm, 157, rfl⟩
abbrev main_c_10 : Ref sig .tc := ⟨.hbm, 158, rfl⟩
abbrev main_call6_cst : Ref sig .tc := ⟨.hbm, 159, rfl⟩
abbrev main_call6_v0 : Ref sig .tc := ⟨.hbm, 160, rfl⟩
abbrev main_call6_v1 : Ref sig .tc := ⟨.hbm, 161, rfl⟩
abbrev main_call6_cst_0 : Ref sig .tc := ⟨.hbm, 162, rfl⟩
abbrev main_call6_v2 : Ref sig .tc := ⟨.hbm, 163, rfl⟩
abbrev main_call6_v3 : Ref sig .tc := ⟨.hbm, 164, rfl⟩
abbrev main_call6_v4 : Ref sig .tc := ⟨.hbm, 165, rfl⟩
abbrev main_call6_v5 : Ref sig .tc := ⟨.hbm, 166, rfl⟩
abbrev main_call6_v6 : Ref sig .tc := ⟨.hbm, 167, rfl⟩
abbrev main_call6_v7 : Ref sig .tc := ⟨.hbm, 168, rfl⟩
abbrev main_call6_cst_1 : Ref sig .tc := ⟨.hbm, 169, rfl⟩
abbrev main_call6_v8 : Ref sig .tc := ⟨.hbm, 170, rfl⟩
abbrev main_call6_cst_2 : Ref sig .tc := ⟨.hbm, 171, rfl⟩
abbrev main_call6_v9 : Ref sig .tc := ⟨.hbm, 172, rfl⟩
abbrev main_call6_v10 : Ref sig .tc := ⟨.hbm, 173, rfl⟩
abbrev main_call6_v11 : Ref sig .tc := ⟨.hbm, 174, rfl⟩
abbrev main_call6_cst_3 : Ref sig .tc := ⟨.hbm, 175, rfl⟩
abbrev main_call6_v12 : Ref sig .tc := ⟨.hbm, 176, rfl⟩
abbrev main_call6_cst_4 : Ref sig .tc := ⟨.hbm, 177, rfl⟩
abbrev main_call6_call0_v0 : Ref sig .tc := ⟨.hbm, 178, rfl⟩
abbrev main_call6_call0_v1 : Ref sig .tc := ⟨.hbm, 179, rfl⟩
abbrev main_v99 : Ref sig .tc := ⟨.hbm, 180, rfl⟩
abbrev main_v100 : Ref sig .tc := ⟨.hbm, 181, rfl⟩
abbrev main_v101 : Ref sig .tc := ⟨.hbm, 182, rfl⟩
abbrev main_v102 : Ref sig .tc := ⟨.hbm, 183, rfl⟩
abbrev main_v103 : Ref sig .tc := ⟨.hbm, 184, rfl⟩
abbrev main_v104 : Ref sig .tc := ⟨.hbm, 185, rfl⟩
abbrev main_v105 : Ref sig .tc := ⟨.hbm, 186, rfl⟩
abbrev main_v106 : Ref sig .tc := ⟨.hbm, 187, rfl⟩
abbrev main_v107 : Ref sig .tc := ⟨.hbm, 188, rfl⟩
abbrev main_cst_11 : Ref sig .tc := ⟨.hbm, 189, rfl⟩
abbrev main_v108 : Ref sig .tc := ⟨.hbm, 190, rfl⟩
abbrev main_v109 : Ref sig .tc := ⟨.hbm, 191, rfl⟩
abbrev main_v110 : Ref sig .tc := ⟨.hbm, 192, rfl⟩
abbrev main_v111 : Ref sig .tc := ⟨.hbm, 193, rfl⟩
abbrev main_v112 : Ref sig .tc := ⟨.hbm, 194, rfl⟩
abbrev main_v113 : Ref sig .tc := ⟨.hbm, 195, rfl⟩
abbrev main_v114 : Ref sig .tc := ⟨.hbm, 196, rfl⟩
abbrev main_v115 : Ref sig .tc := ⟨.hbm, 197, rfl⟩
abbrev main_v116 : Ref sig .tc := ⟨.hbm, 198, rfl⟩
abbrev main_v117 : Ref sig .tc := ⟨.hbm, 199, rfl⟩
abbrev main_v118 : Ref sig .tc := ⟨.hbm, 200, rfl⟩
abbrev main_call7_cst : Ref sig .tc := ⟨.hbm, 201, rfl⟩
abbrev main_call7_v0 : Ref sig .tc := ⟨.hbm, 202, rfl⟩
abbrev main_v119 : Ref sig .tc := ⟨.hbm, 203, rfl⟩
abbrev main_c_12 : Ref sig .tc := ⟨.hbm, 204, rfl⟩
abbrev main_v120 : Ref sig .tc := ⟨.hbm, 205, rfl⟩
abbrev main_v121 : Ref sig .tc := ⟨.hbm, 206, rfl⟩
abbrev main_c_13 : Ref sig .tc := ⟨.hbm, 207, rfl⟩
abbrev main_v122 : Ref sig .tc := ⟨.hbm, 208, rfl⟩
abbrev main_v123 : Ref sig .tc := ⟨.hbm, 209, rfl⟩
abbrev main_v124 : Ref sig .tc := ⟨.hbm, 210, rfl⟩
abbrev main_v125 : Ref sig .tc := ⟨.hbm, 211, rfl⟩
abbrev main_v126 : Ref sig .tc := ⟨.hbm, 212, rfl⟩
abbrev main_v127 : Ref sig .tc := ⟨.hbm, 213, rfl⟩
abbrev main_call8_cst : Ref sig .tc := ⟨.hbm, 214, rfl⟩
abbrev main_call8_v0 : Ref sig .tc := ⟨.hbm, 215, rfl⟩
abbrev main_v128 : Ref sig .tc := ⟨.hbm, 216, rfl⟩
abbrev main_cst_14 : Ref sig .tc := ⟨.hbm, 217, rfl⟩
abbrev main_v129 : Ref sig .tc := ⟨.hbm, 218, rfl⟩
abbrev main_v130 : Ref sig .tc := ⟨.hbm, 219, rfl⟩
abbrev main_v131 : Ref sig .tc := ⟨.hbm, 220, rfl⟩
abbrev main_v132 : Ref sig .tc := ⟨.hbm, 221, rfl⟩
abbrev main_v133 : Ref sig .tc := ⟨.hbm, 222, rfl⟩
abbrev main_v134 : Ref sig .tc := ⟨.hbm, 223, rfl⟩
abbrev main_v135 : Ref sig .tc := ⟨.hbm, 224, rfl⟩
abbrev main_v136 : Ref sig .tc := ⟨.hbm, 225, rfl⟩
abbrev main_v137 : Ref sig .tc := ⟨.hbm, 226, rfl⟩
abbrev main_v138 : Ref sig .tc := ⟨.hbm, 227, rfl⟩
abbrev main_v139 : Ref sig .tc := ⟨.hbm, 228, rfl⟩
abbrev main_v140 : Ref sig .tc := ⟨.hbm, 229, rfl⟩
abbrev main_call9_cst : Ref sig .tc := ⟨.hbm, 230, rfl⟩
abbrev main_call9_v0 : Ref sig .tc := ⟨.hbm, 231, rfl⟩
abbrev main_v141 : Ref sig .tc := ⟨.hbm, 232, rfl⟩
abbrev main_v142 : Ref sig .tc := ⟨.hbm, 233, rfl⟩
abbrev main_v143 : Ref sig .tc := ⟨.hbm, 234, rfl⟩
abbrev main_v144 : Ref sig .tc := ⟨.hbm, 235, rfl⟩
abbrev main_v145 : Ref sig .tc := ⟨.hbm, 236, rfl⟩
abbrev main_v146 : Ref sig .tc := ⟨.hbm, 237, rfl⟩
abbrev main_v147 : Ref sig .tc := ⟨.hbm, 238, rfl⟩
abbrev main_v148 : Ref sig .tc := ⟨.hbm, 239, rfl⟩
abbrev main_v149 : Ref sig .tc := ⟨.hbm, 240, rfl⟩
abbrev main_cst_15 : Ref sig .tc := ⟨.hbm, 241, rfl⟩
abbrev main_v150 : Ref sig .tc := ⟨.hbm, 242, rfl⟩
abbrev main_cst_16 : Ref sig .tc := ⟨.hbm, 243, rfl⟩
abbrev main_v151 : Ref sig .tc := ⟨.hbm, 244, rfl⟩
abbrev main_v152 : Ref sig .tc := ⟨.hbm, 245, rfl⟩
abbrev main_c_17 : Ref sig .tc := ⟨.hbm, 246, rfl⟩
abbrev main_call10_cst : Ref sig .tc := ⟨.hbm, 247, rfl⟩
abbrev main_call10_v0 : Ref sig .tc := ⟨.hbm, 248, rfl⟩
abbrev main_call10_v1 : Ref sig .tc := ⟨.hbm, 249, rfl⟩
abbrev main_call10_cst_0 : Ref sig .tc := ⟨.hbm, 250, rfl⟩
abbrev main_call10_v2 : Ref sig .tc := ⟨.hbm, 251, rfl⟩
abbrev main_call10_v3 : Ref sig .tc := ⟨.hbm, 252, rfl⟩
abbrev main_call10_v4 : Ref sig .tc := ⟨.hbm, 253, rfl⟩
abbrev main_call10_v5 : Ref sig .tc := ⟨.hbm, 254, rfl⟩
abbrev main_call10_v6 : Ref sig .tc := ⟨.hbm, 255, rfl⟩
abbrev main_call10_v7 : Ref sig .tc := ⟨.hbm, 256, rfl⟩
abbrev main_call10_cst_1 : Ref sig .tc := ⟨.hbm, 257, rfl⟩
abbrev main_call10_v8 : Ref sig .tc := ⟨.hbm, 258, rfl⟩
abbrev main_call10_cst_2 : Ref sig .tc := ⟨.hbm, 259, rfl⟩
abbrev main_call10_v9 : Ref sig .tc := ⟨.hbm, 260, rfl⟩
abbrev main_call10_v10 : Ref sig .tc := ⟨.hbm, 261, rfl⟩
abbrev main_call10_v11 : Ref sig .tc := ⟨.hbm, 262, rfl⟩
abbrev main_call10_cst_3 : Ref sig .tc := ⟨.hbm, 263, rfl⟩
abbrev main_call10_v12 : Ref sig .tc := ⟨.hbm, 264, rfl⟩
abbrev main_call10_cst_4 : Ref sig .tc := ⟨.hbm, 265, rfl⟩
abbrev main_call10_call0_v0 : Ref sig .tc := ⟨.hbm, 266, rfl⟩
abbrev main_call10_call0_v1 : Ref sig .tc := ⟨.hbm, 267, rfl⟩
abbrev main_v153 : Ref sig .tc := ⟨.hbm, 268, rfl⟩
abbrev main_v154 : Ref sig .tc := ⟨.hbm, 269, rfl⟩
abbrev main_v155 : Ref sig .tc := ⟨.hbm, 270, rfl⟩
abbrev main_v156 : Ref sig .tc := ⟨.hbm, 271, rfl⟩
abbrev main_v157 : Ref sig .tc := ⟨.hbm, 272, rfl⟩
abbrev main_v158 : Ref sig .tc := ⟨.hbm, 273, rfl⟩
abbrev main_v159 : Ref sig .tc := ⟨.hbm, 274, rfl⟩
abbrev main_v160 : Ref sig .tc := ⟨.hbm, 275, rfl⟩
abbrev main_v161 : Ref sig .tc := ⟨.hbm, 276, rfl⟩
abbrev main_cst_18 : Ref sig .tc := ⟨.hbm, 277, rfl⟩
abbrev main_v162 : Ref sig .tc := ⟨.hbm, 278, rfl⟩
abbrev main_v163 : Ref sig .tc := ⟨.hbm, 279, rfl⟩
abbrev main_v164 : Ref sig .tc := ⟨.hbm, 280, rfl⟩
abbrev main_v165 : Ref sig .tc := ⟨.hbm, 281, rfl⟩
abbrev main_v166 : Ref sig .tc := ⟨.hbm, 282, rfl⟩
abbrev main_v167 : Ref sig .tc := ⟨.hbm, 283, rfl⟩
abbrev main_v168 : Ref sig .tc := ⟨.hbm, 284, rfl⟩
abbrev main_v169 : Ref sig .tc := ⟨.hbm, 285, rfl⟩
abbrev main_v170 : Ref sig .tc := ⟨.hbm, 286, rfl⟩
abbrev main_v171 : Ref sig .tc := ⟨.hbm, 287, rfl⟩
abbrev main_v172 : Ref sig .tc := ⟨.hbm, 288, rfl⟩
abbrev main_call11_cst : Ref sig .tc := ⟨.hbm, 289, rfl⟩
abbrev main_call11_v0 : Ref sig .tc := ⟨.hbm, 290, rfl⟩
abbrev main_v173 : Ref sig .tc := ⟨.hbm, 291, rfl⟩
abbrev main_cst_19 : Ref sig .tc := ⟨.hbm, 292, rfl⟩
abbrev main_v174 : Ref sig .tc := ⟨.hbm, 293, rfl⟩
abbrev main_cst_20 : Ref sig .tc := ⟨.hbm, 294, rfl⟩
abbrev main_v175 : Ref sig .tc := ⟨.hbm, 295, rfl⟩
abbrev main_v176 : Ref sig .tc := ⟨.hbm, 296, rfl⟩
abbrev main_v177 : Ref sig .tc := ⟨.hbm, 297, rfl⟩
abbrev main_cst_21 : Ref sig .tc := ⟨.hbm, 298, rfl⟩
abbrev main_v178 : Ref sig .tc := ⟨.hbm, 299, rfl⟩
abbrev main_v179 : Ref sig .tc := ⟨.hbm, 300, rfl⟩
abbrev main_v180 : Ref sig .tc := ⟨.hbm, 301, rfl⟩
abbrev main_cst_22 : Ref sig .tc := ⟨.hbm, 302, rfl⟩
abbrev main_v181 : Ref sig .tc := ⟨.hbm, 303, rfl⟩
abbrev main_v182 : Ref sig .tc := ⟨.hbm, 304, rfl⟩
abbrev main_v183 : Ref sig .tc := ⟨.hbm, 305, rfl⟩
abbrev main_v184 : Ref sig .tc := ⟨.hbm, 306, rfl⟩
abbrev main_v185 : Ref sig .tc := ⟨.hbm, 307, rfl⟩
abbrev main_v186 : Ref sig .tc := ⟨.hbm, 308, rfl⟩
abbrev main_v187 : Ref sig .tc := ⟨.hbm, 309, rfl⟩
abbrev main_v188 : Ref sig .tc := ⟨.hbm, 310, rfl⟩
abbrev main_v189 : Ref sig .tc := ⟨.hbm, 311, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S1x64_S1600000x64_0_1 : S1x64.BroadcastsInDim S1600000x64 (![0, 1] : Fin 2 → Fin S1600000x64.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x64 : S_.BroadcastsInDim S1600000x64 (![] : Fin 0 → Fin S1600000x64.rank)
  bcast_S_S50000x64 : S_.BroadcastsInDim S50000x64 (![] : Fin 0 → Fin S50000x64.rank)
  slices_S3x64x128_S1x64x128_0_0_0 : S3x64x128.Slices ![0, 0, 0] S1x64x128
  shapeCasts_S1x64x128_S64x128 : S1x64x128.ShapeCasts S64x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  slices_S3x128x64_S1x128x64_0_0_0 : S3x128x64.Slices ![0, 0, 0] S1x128x64
  shapeCasts_S1x128x64_S128x64 : S1x128x64.ShapeCasts S128x64
  slices_S3x64_S1x64_0_0 : S3x64.Slices ![0, 0] S1x64
  shapeCasts_S1x64_S64 : S1x64.ShapeCasts S64
  reducesTo_S50000x64_S64_d0 : S50000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  slices_S3x64x128_S1x64x128_1_0_0 : S3x64x128.Slices ![1, 0, 0] S1x64x128
  slices_S3x128_S1x128_1_0 : S3x128.Slices ![1, 0] S1x128
  slices_S3x128x64_S1x128x64_1_0_0 : S3x128x64.Slices ![1, 0, 0] S1x128x64
  slices_S3x64_S1x64_1_0 : S3x64.Slices ![1, 0] S1x64
  slices_S3x64x128_S1x64x128_2_0_0 : S3x64x128.Slices ![2, 0, 0] S1x64x128
  slices_S3x128_S1x128_2_0 : S3x128.Slices ![2, 0] S1x128
  slices_S3x128x64_S1x128x64_2_0_0 : S3x128x64.Slices ![2, 0, 0] S1x128x64
  slices_S3x64_S1x64_2_0 : S3x64.Slices ![2, 0] S1x64
  bcast_S_S50000 : S_.BroadcastsInDim S50000 (![] : Fin 0 → Fin S50000.rank)
  bcast_S50000_S50000x1_0 : S50000.BroadcastsInDim S50000x1 (![0] : Fin 1 → Fin S50000x1.rank)
  bcast_S_S64x64 : S_.BroadcastsInDim S64x64 (![] : Fin 0 → Fin S64x64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  dot_S50000x32_S32x64_S50000x64_1_0_0_1_n_n_wf : DotDims.WF S50000x32 S32x64 S50000x64 [1] [0] [0] [1] [] []
  dot_S1600000x16_S16x64_S1600000x64_1_0_0_1_n_n_wf : DotDims.WF S1600000x16 S16x64 S1600000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S50000x64_S64x128_S50000x128_1_0_0_1_n_n_wf : DotDims.WF S50000x64 S64x128 S50000x128 [1] [0] [0] [1] [] []
  dot_S50000x128_S128x64_S50000x64_1_0_0_1_n_n_wf : DotDims.WF S50000x128 S128x64 S50000x64 [1] [0] [0] [1] [] []
  scatter_S64_S50000x1_S50000_n_0_0_1_wf : ScatterDims.WF S64 S50000x1 S50000 [] [0] [0] 1
  scatter_S64x64_S50000x1_S50000x64_1_0_0_1_wf : ScatterDims.WF S64x64 S50000x1 S50000x64 [1] [0] [0] 1
  dot_S64x64_S64x1_S64x1_1_0_0_1_n_n_wf : DotDims.WF S64x64 S64x1 S64x1 [1] [0] [0] [1] [] []

variable [Facts₀]

def dot_S50000x32_S32x64_S50000x64_1_0_0_1_n_n : DotDims S50000x32 S32x64 S50000x64 where
  lhsContracting := [1]
  rhsContracting := [0]
  lhsNonContracting := [0]
  rhsNonContracting := [1]
  lhsBatch := []
  rhsBatch := []
  wf := dot_S50000x32_S32x64_S50000x64_1_0_0_1_n_n_wf
def dot_S1600000x16_S16x64_S1600000x64_1_0_0_1_n_n : DotDims S1600000x16 S16x64 S1600000x64 where
  lhsContracting := [1]
  rhsContracting := [0]
  lhsNonContracting := [0]
  rhsNonContracting := [1]
  lhsBatch := []
  rhsBatch := []
  wf := dot_S1600000x16_S16x64_S1600000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

class Facts : Prop extends Facts₀ where

variable [Facts]
-- ==== Proof.Spec.lean ====
import proofs.«172538_j12652973654090_1_alg».proof.ReferenceIdeal
import proofs.«172538_j12652973654090_1_alg».proof.Proof.Gen.ReferenceIdeal
import Idealize.ShloMosaic.PureOps.Ideal
import Idealize.ShloMosaic.Lib.ValueIdx

/-!
# The network as one function of its inputs, over the extended reals

A three-layer message-passing network on a graph of 50000 nodes and 1600000 edges.  Node and edge
features are embedded linearly; each layer sums, at every node, the rectified sums of a source node's
state and the edge's embedding over the incoming edges, adds the node's own state, applies a two-layer
perceptron, normalises every feature by its mean and variance over all nodes, scales, shifts and
rectifies; at the end the node states are averaged per graph and mapped to one number per graph.
Every stage below is stated once, as the composition of whole-array operations the reference program
performs, so that both programs can be compared stage by stage.
-/

noncomputable section

namespace Cert.Spec

open Idealize.ShloMosaic Idealize.ShloMosaic.TcCoe Cert.ReferenceIdeal Cert.ReferenceIdeal.Facts₀

/-- An array of a given shape and element type at the exact instance. -/
abbrev A (T : BufTy) := T.Contents (Elt Ideal)
/-- A float array and an integer array of a given shape (the same types, spelt as vectors). -/
abbrev Af (S : Shape) := FVec Ideal S .f32
abbrev Ai (S : Shape) := IVec S 32

/-- A bias row read back as a vector. -/
def unrow64 (r : Af S1x64) : Af S64 := fun j => r (ValueIdx.ix2 (0 : Fin 1) (⟨(j 0).val, (j 0).isLt⟩ : Fin 64))
def unrow128 (r : Af S1x128) : Af S128 := fun j => r (ValueIdx.ix2 (0 : Fin 1) (⟨(j 0).val, (j 0).isLt⟩ : Fin 128))

/-- Node embedding: `x · W + b`, the bias repeated along the rows. -/
def lin0 (x : Af S50000x32) (W : Af S32x64) (b : Af S64) : Af S50000x64 :=
  addf (F := Ideal) (Host.dotGeneral (F := Ideal) dot_S50000x32_S32x64_S50000x64_1_0_0_1_n_n none x W)
    (broadcastInDim S50000x64 ![0, 1] bcast_S1x64_S50000x64_0_1 (broadcastInDim S1x64 ![1] bcast_S64_S1x64_1 b))

/-- Edge embedding: `a · W + b`. -/
def lin1 (ea : Af S1600000x16) (W : Af S16x64) (b : Af S64) : Af S1600000x64 :=
  addf (F := Ideal) (Host.dotGeneral (F := Ideal) dot_S1600000x16_S16x64_S1600000x64_1_0_0_1_n_n none ea W)
    (broadcastInDim S1600000x64 ![0, 1] bcast_S1x64_S1600000x64_0_1 (broadcastInDim S1x64 ![1] bcast_S64_S1x64_1 b))

/-- The source node of every edge (row 0 of the edge list), a negative index counted from the end. -/
def srcRow (ei : Ai S2x1600000) : Ai S1600000 :=
  fun i => shapeCast S1600000 (extractStridedSlice S1x1600000 ![0, 0] ei slices_S2x1600000_S1x1600000_0_0) shapeCasts_S1x1600000_S1600000 i
def srcIx (ei : Ai S2x1600000) : Ai S1600000x1 :=
  broadcastInDim S1600000x1 ![0] bcast_S1600000_S1600000x1_0
    (select (cmpi .slt (srcRow ei) (broadcastInDim S1600000 ![] bcast_S_S1600000 (constantI S_ 32 0#32)))
      (addi (srcRow ei) (broadcastInDim S1600000 ![] bcast_S_S1600000 (constantI S_ 32 50000#32))) (srcRow ei))

/-- The target node of every edge (row 1 of the edge list). -/
def dstIx (ei : Ai S2x1600000) : Ai S1600000x1 :=
  broadcastInDim S1600000x1 ![0] bcast_S1600000_S1600000x1_0
    (fun i => shapeCast S1600000 (extractStridedSlice S1x1600000 ![1, 0] ei slices_S2x1600000_S1x1600000_1_0) shapeCasts_S1x1600000_S1600000 i)

/-- Aggregation: at every node the sum, over its incoming edges, of `max (h[src] + e) 0`. -/
def agg (h : Af S50000x64) (e : Af S1600000x64) (ei : Ai S2x1600000) : Af S50000x64 :=
  Host.scatterAdd (F := Ideal) scatter_S50000x64_S1600000x1_S1600000x64_1_0_0_1
    (broadcastInDim S50000x64 ![] bcast_S_S50000x64 (constant (F := Ideal) S_ .f32 0x00000000#32))
    (dstIx ei)
    (maximumf (F := Ideal)
      (addf (F := Ideal) (Host.gather gather_S50000x64_S1600000x1_S1600000x64_1_0_n_n_0_1_164 h (srcIx ei)) e)
      (broadcastInDim S1600000x64 ![] bcast_S_S1600000x64 (constant (F := Ideal) S_ .f32 0x00000000#32)))

/-- The perceptron of a layer: `max ((h + a) · W₁ + b₁) 0 · W₂ + b₂`. -/
def mlp (h a : Af S50000x64) (W1 : Af S64x128) (b1 : Af S128) (W2 : Af S128x64) (b2 : Af S64) :
    Af S50000x64 :=
  addf (F := Ideal)
    (Host.dotGeneral (F := Ideal) dot_S50000x128_S128x64_S50000x64_1_0_0_1_n_n none
      (maximumf (F := Ideal)
        (addf (F := Ideal)
          (Host.dotGeneral (F := Ideal) dot_S50000x64_S64x128_S50000x128_1_0_0_1_n_n none (addf (F := Ideal) h a) W1)
          (broadcastInDim S50000x128 ![0, 1] bcast_S1x128_S50000x128_0_1 (broadcastInDim S1x128 ![1] bcast_S128_S1x128_1 b1)))
        (broadcastInDim S50000x128 ![] bcast_S_S50000x128 (constant (F := Ideal) S_ .f32 0x00000000#32)))
      W2)
    (broadcastInDim S50000x64 ![0, 1] bcast_S1x64_S50000x64_0_1 (broadcastInDim S1x64 ![1] bcast_S64_S1x64_1 b2))

/-- The mean of every feature over the nodes. -/
def mean (z : Af S50000x64) : Af S64 :=
  Host.divf (F := Ideal)
    (Host.reduceAdd (F := Ideal) z (constant (F := Ideal) S_ .f32 0x00000000#32) reducesTo_S50000x64_S64_d0 h_S_)
    (broadcastInDim S64 ![] bcast_S_S64 (constant (F := Ideal) S_ .f32 0x47435000#32))

/-- The centred squares of every feature. -/
def centredSq (z : Af S50000x64) : Af S50000x64 :=
  let d : Af S50000x64 := subf (F := Ideal) z
    (broadcastInDim S50000x64 ![0, 1] bcast_S1x64_S50000x64_0_1
      (Host.divf (F := Ideal)
        (broadcastInDim S1x64 ![1] bcast_S64_S1x64_1
          (Host.reduceAdd (F := Ideal) z (constant (F := Ideal) S_ .f32 0x00000000#32) reducesTo_S50000x64_S64_d0 h_S_))
        (broadcastInDim S1x64 ![] bcast_S_S1x64 (constant (F := Ideal) S_ .f32 0x47435000#32))))
  mulf (F := Ideal) d d

/-- The number of nodes less the correction (zero), as the variance's divisor. -/
def varDen : Af S_ :=
  subf (F := Ideal) (constant (F := Ideal) S_ .f32 0x47435000#32) (sitofp (F := Ideal) .f32 (constantI S_ 32 0#32))

/-- The (biased) variance of every feature over the nodes; where the divisor is not positive, the
    program's own replacement value. -/
def var (z : Af S50000x64) : Af S64 :=
  select (broadcastInDim S64 ![] bcast_S_S64 (cmpf (F := Ideal) .ogt varDen (constant (F := Ideal) S_ .f32 0x00000000#32)))
    (Host.divf (F := Ideal)
      (Host.reduceAdd (F := Ideal) (centredSq z) (constant (F := Ideal) S_ .f32 0x00000000#32) reducesTo_S50000x64_S64_d0 h_S_)
      (broadcastInDim S64 ![] bcast_S_S64 varDen))
    (broadcastInDim S64 ![] bcast_S_S64 (id (constant (F := Ideal) S_ .f32 0x7FC00000#32)))

/-- Normalisation, scale, shift and rectification: `max (γ · (z − μ) · rsqrt (v + ε) + β) 0`. -/
def bn (z : Af S50000x64) (mu va gam bet : Af S64) : Af S50000x64 :=
  maximumf (F := Ideal)
    (addf (F := Ideal)
      (mulf (F := Ideal)
        (mulf (F := Ideal)
          (broadcastInDim S50000x64 ![0, 1] bcast_S1x64_S50000x64_0_1 (broadcastInDim S1x64 ![1] bcast_S64_S1x64_1 gam))
          (subf (F := Ideal) z (broadcastInDim S50000x64 ![0, 1] bcast_S1x64_S50000x64_0_1 (broadcastInDim S1x64 ![1] bcast_S64_S1x64_1 mu))))
        (broadcastInDim S50000x64 ![0, 1] bcast_S1x64_S50000x64_0_1 (broadcastInDim S1x64 ![1] bcast_S64_S1x64_1
          (Host.rsqrt (F := Ideal) (addf (F := Ideal) va (broadcastInDim S64 ![] bcast_S_S64 (constant (F := Ideal) S_ .f32 0x3727C5AC#32)))))))
      (broadcastInDim S50000x64 ![0, 1] bcast_S1x64_S50000x64_0_1 (broadcastInDim S1x64 ![1] bcast_S64_S1x64_1 bet)))
    (broadcastInDim S50000x64 ![] bcast_S_S50000x64 (constant (F := Ideal) S_ .f32 0x00000000#32))

/-- The per-graph average of the node states followed by the final linear map. -/
def tail (h : Af S50000x64) (batch : Ai S50000) (linW : Af S64x1) (linb : Af S1) : Af S64x1 :=
  addf (F := Ideal)
    (Host.dotGeneral (F := Ideal) dot_S64x64_S64x1_S64x1_1_0_0_1_n_n none
      (Host.divf (F := Ideal)
        (Host.scatterAdd (F := Ideal) scatter_S64x64_S50000x1_S50000x64_1_0_0_1
          (broadcastInDim S64x64 ![] bcast_S_S64x64 (constant (F := Ideal) S_ .f32 0x00000000#32))
          (broadcastInDim S50000x1 ![0] bcast_S50000_S50000x1_0 batch) h)
        (broadcastInDim S64x64 ![0, 1] bcast_S64x1_S64x64_0_1 (broadcastInDim S64x1 ![0] bcast_S64_S64x1_0
          (maximumf (F := Ideal)
            (Host.scatterAdd (F := Ideal) scatter_S64_S50000x1_S50000_n_0_0_1
              (broadcastInDim S64 ![] bcast_S_S64 (constant (F := Ideal) S_ .f32 0x00000000#32))
              (broadcastInDim S50000x1 ![0] bcast_S50000_S50000x1_0 batch)
              (broadcastInDim S50000 ![] bcast_S_S50000 (constant (F := Ideal) S_ .f32 0x3F800000#32)))
            (broadcastInDim S64 ![] bcast_S_S64 (constant (F := Ideal) S_ .f32 0x3F800000#32))))))
      linW)
    (broadcastInDim S64x1 ![0, 1] bcast_S1x1_S64x1_0_1 (broadcastInDim S1x1 ![1] bcast_S1_S1x1_1 linb))

/-- Layer 0's parameters: slab 0 of each stacked parameter array. -/
def w1_0 (W1s : Af S3x64x128) : Af S64x128 :=
  fun i => shapeCast S64x128 (extractStridedSlice S1x64x128 ![0, 0, 0] W1s slices_S3x64x128_S1x64x128_0_0_0) shapeCasts_S1x64x128_S64x128 i
def b1_0 (b1s : Af S3x128) : Af S128 :=
  fun i => shapeCast S128 (extractStridedSlice S1x128 ![0, 0] b1s slices_S3x128_S1x128_0_0) shapeCasts_S1x128_S128 i
def w2_0 (W2s : Af S3x128x64) : Af S128x64 :=
  fun i => shapeCast S128x64 (extractStridedSlice S1x128x64 ![0, 0, 0] W2s slices_S3x128x64_S1x128x64_0_0_0) shapeCasts_S1x128x64_S128x64 i
def row_0 (p : Af S3x64) : Af S64 :=
  fun i => shapeCast S64 (extractStridedSlice S1x64 ![0, 0] p slices_S3x64_S1x64_0_0) shapeCasts_S1x64_S64 i

/-- Layer 0: aggregate, add, perceptron, normalise with the batch statistics, rectify. -/
def layer_0 (h : Af S50000x64) (e : Af S1600000x64) (ei : Ai S2x1600000)
    (W1s : Af S3x64x128) (b1s : Af S3x128) (W2s : Af S3x128x64) (b2s gammas betas : Af S3x64) :
    Af S50000x64 :=
  bn (mlp h (agg h e ei) (w1_0 W1s) (b1_0 b1s) (w2_0 W2s) (row_0 b2s))
    (mean (mlp h (agg h e ei) (w1_0 W1s) (b1_0 b1s) (w2_0 W2s) (row_0 b2s)))
    (var (mlp h (agg h e ei) (w1_0 W1s) (b1_0 b1s) (w2_0 W2s) (row_0 b2s)))
    (row_0 gammas) (row_0 betas)

/-- Layer 1's parameters: slab 1 of each stacked parameter array. -/
def w1_1 (W1s : Af S3x64x128) : Af S64x128 :=
  fun i => shapeCast S64x128 (extractStridedSlice S1x64x128 ![1, 0, 0] W1s slices_S3x64x128_S1x64x128_1_0_0) shapeCasts_S1x64x128_S64x128 i
def b1_1 (b1s : Af S3x128) : Af S128 :=
  fun i => shapeCast S128 (extractStridedSlice S1x128 ![1, 0] b1s slices_S3x128_S1x128_1_0) shapeCasts_S1x128_S128 i
def w2_1 (W2s : Af S3x128x64) : Af S128x64 :=
  fun i => shapeCast S128x64 (extractStridedSlice S1x128x64 ![1, 0, 0] W2s slices_S3x128x64_S1x128x64_1_0_0) shapeCasts_S1x128x64_S128x64 i
def row_1 (p : Af S3x64) : Af S64 :=
  fun i => shapeCast S64 (extractStridedSlice S1x64 ![1, 0] p slices_S3x64_S1x64_1_0) shapeCasts_S1x64_S64 i

/-- Layer 1: aggregate, add, perceptron, normalise with the batch statistics, rectify. -/
def layer_1 (h : Af S50000x64) (e : Af S1600000x64) (ei : Ai S2x1600000)
    (W1s : Af S3x64x128) (b1s : Af S3x128) (W2s : Af S3x128x64) (b2s gammas betas : Af S3x64) :
    Af S50000x64 :=
  bn (mlp h (agg h e ei) (w1_1 W1s) (b1_1 b1s) (w2_1 W2s) (row_1 b2s))
    (mean (mlp h (agg h e ei) (w1_1 W1s) (b1_1 b1s) (w2_1 W2s) (row_1 b2s)))
    (var (mlp h (agg h e ei) (w1_1 W1s) (b1_1 b1s) (w2_1 W2s) (row_1 b2s)))
    (row_1 gammas) (row_1 betas)

/-- Layer 2's parameters: slab 2 of each stacked parameter array. -/
def w1_2 (W1s : Af S3x64x128) : Af S64x128 :=
  fun i => shapeCast S64x128 (extractStridedSlice S1x64x128 ![2, 0, 0] W1s slices_S3x64x128_S1x64x128_2_0_0) shapeCasts_S1x64x128_S64x128 i
def b1_2 (b1s : Af S3x128) : Af S128 :=
  fun i => shapeCast S128 (extractStridedSlice S1x128 ![2, 0] b1s slices_S3x128_S1x128_2_0) shapeCasts_S1x128_S128 i
def w2_2 (W2s : Af S3x128x64) : Af S128x64 :=
  fun i => shapeCast S128x64 (extractStridedSlice S1x128x64 ![2, 0, 0] W2s slices_S3x128x64_S1x128x64_2_0_0) shapeCasts_S1x128x64_S128x64 i
def row_2 (p : Af S3x64) : Af S64 :=
  fun i => shapeCast S64 (extractStridedSlice S1x64 ![2, 0] p slices_S3x64_S1x64_2_0) shapeCasts_S1x64_S64 i

/-- Layer 2: aggregate, add, perceptron, normalise with the batch statistics, rectify. -/
def layer_2 (h : Af S50000x64) (e : Af S1600000x64) (ei : Ai S2x1600000)
    (W1s : Af S3x64x128) (b1s : Af S3x128) (W2s : Af S3x128x64) (b2s gammas betas : Af S3x64) :
    Af S50000x64 :=
  bn (mlp h (agg h e ei) (w1_2 W1s) (b1_2 b1s) (w2_2 W2s) (row_2 b2s))
    (mean (mlp h (agg h e ei) (w1_2 W1s) (b1_2 b1s) (w2_2 W2s) (row_2 b2s)))
    (var (mlp h (agg h e ei) (w1_2 W1s) (b1_2 b1s) (w2_2 W2s) (row_2 b2s)))
    (row_2 gammas) (row_2 betas)

/-- The whole network. -/
def out (x : Af S50000x32) (ea : Af S1600000x16) (ei : Ai S2x1600000) (batch : Ai S50000)
    (nW : Af S32x64) (nb : Af S64) (eW : Af S16x64) (eb : Af S64)
    (W1s : Af S3x64x128) (b1s : Af S3x128) (W2s : Af S3x128x64) (b2s gammas betas : Af S3x64)
    (linW : Af S64x1) (linb : Af S1) : Af S64x1 :=
  tail
    (layer_2
      (layer_1
        (layer_0 (lin0 x nW nb) (lin1 ea eW eb) ei W1s b1s W2s b2s gammas betas)
        (lin1 ea eW eb) ei W1s b1s W2s b2s gammas betas)
      (lin1 ea eW eb) ei W1s b1s W2s b2s gammas betas)
    batch linW linb

end Cert.Spec

end
-- ==== Proof.KerRun.lean ====
import proofs.«172538_j12652973654090_1_alg».proof.Proof.Gen.KernelIdeal.Frame

/-!
# The idealized kernel program's run, with its result named

The program is eight kernel launches among stretches of whole-array operations.  Its run is the chain
of those segments: every execution terminates, and at the end every buffer holds what the chain of
segment boundaries says — in particular the result buffer holds the last boundary's contents, and the
argument arrays hold what they were launched with.
-/

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the last segment
    boundary's contents and every argument array as launched. -/
theorem run : θ_run defs (onTc (τ := τ) (main (F := F))) ⟨m, fun _ => 0, ρ⟩ (fun r => ∀ c : Dev nD,
      r.2.mem ((c.tc : Thread nD τ).loc main_v131) = W29 m ρ c (Proc.devRef .tc main_v131)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W29 m ρ c b)
    (hfin := fun c s' => by
      iintro ⟨⟨Hh, -⟩, HSI⟩
      unfold StableHlo.held
      imodintro
      iapply (pointsTo_read_all (Pipeline.ucRefs τ sig) (fun b => (((c : Thread nD τ)).1, b)) (W29 m ρ c) s')
      isplitl [Hh] <;> iassumption)
    (hQ := fun s h c =>
      ⟨h c _ (mem_uc main_v131 (by decide)),
       (h c _ (mem_uc main_arg0 (by decide))).trans (W29_main_arg0 m ρ c),
       (h c _ (mem_uc main_arg1 (by decide))).trans (W29_main_arg1 m ρ c),
       (h c _ (mem_uc main_arg2 (by decide))).trans (W29_main_arg2 m ρ c),
       (h c _ (mem_uc main_arg3 (by decide))).trans (W29_main_arg3 m ρ c),
       (h c _ (mem_uc main_arg4 (by decide))).trans (W29_main_arg4 m ρ c),
       (h c _ (mem_uc main_arg5 (by decide))).trans (W29_main_arg5 m ρ c),
       (h c _ (mem_uc main_arg6 (by decide))).trans (W29_main_arg6 m ρ c),
       (h c _ (mem_uc main_arg7 (by decide))).trans (W29_main_arg7 m ρ c),
       (h c _ (mem_uc main_arg8 (by decide))).trans (W29_main_arg8 m ρ c),
       (h c _ (mem_uc main_arg9 (by decide))).trans (W29_main_arg9 m ρ c),
       (h c _ (mem_uc main_arg10 (by decide))).trans (W29_main_arg10 m ρ c),
       (h c _ (mem_uc main_arg11 (by decide))).trans (W29_main_arg11 m ρ c),
       (h c _ (mem_uc main_arg12 (by decide))).trans (W29_main_arg12 m ρ c),
       (h c _ (mem_uc main_arg13 (by decide))).trans (W29_main_arg13 m ρ c),
       (h c _ (mem_uc main_arg14 (by decide))).trans (W29_main_arg14 m ρ c),
       (h c _ (mem_uc main_arg15 (by decide))).trans (W29_main_arg15 m ρ c)⟩)

end Cert.KernelIdeal.Run

end
-- ==== Proof.KerWalk.lean ====
import proofs.«172538_j12652973654090_1_alg».proof.Proof.Gen.KernelIdeal.Frame

/-!
# Reading a buffer at a segment boundary of the idealized kernel program

The contents of the program's buffers at each boundary between segments are a fold from the launch
memory: a stretch of whole-array operations rewrites the buffers it writes, a kernel launch rewrites
its output array and leaves every other buffer alone.  The lemmas here restate those two facts in a
form a rewriting pass can chain, so that a buffer's contents at a late boundary can be walked back to
the operations that produced it.
-/

noncomputable section

namespace Cert.KernelIdeal.Walk

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-- Launch 0 leaves a buffer that is none of its arrays as it found it. -/
theorem W2_keep (b : Ref sig .tc) (hb : ∀ w, Pipeline.arrRef spec0 w ≠ b) :
    W2 m ρ c (no_index (Proc.devRef .tc b)) = W1 m ρ c (Proc.devRef .tc b) := W2_of_ne m ρ c b hb
/-- Launch 0's output array after it. -/
theorem W2_out : W2 m ρ c (Proc.devRef .tc main_v1) = (dat0 (V1 m ρ) c).arrAt 3 cfg0.N := W2_arr m ρ c 3
/-- Launch 1 leaves a buffer that is none of its arrays as it found it. -/
theorem W4_keep (b : Ref sig .tc) (hb : ∀ w, Pipeline.arrRef spec1 w ≠ b) :
    W4 m ρ c (no_index (Proc.devRef .tc b)) = W3 m ρ c (Proc.devRef .tc b) := W4_of_ne m ρ c b hb
/-- Launch 1's output array after it. -/
theorem W4_out : W4 m ρ c (Proc.devRef .tc main_v3) = (dat1 (V3 m ρ) c).arrAt 3 cfg1.N := W4_arr m ρ c 3
/-- Launch 2 leaves a buffer that is none of its arrays as it found it. -/
theorem W8_keep (b : Ref sig .tc) (hb : ∀ w, Pipeline.arrRef spec2 w ≠ b) :
    W8 m ρ c (no_index (Proc.devRef .tc b)) = W7 m ρ c (Proc.devRef .tc b) := W8_of_ne m ρ c b hb
/-- Launch 2's output array after it. -/
theorem W8_out : W8 m ρ c (Proc.devRef .tc main_v30) = (dat2 (V7 m ρ) c).arrAt 6 cfg2.N := W8_arr m ρ c 6
/-- Launch 3 leaves a buffer that is none of its arrays as it found it. -/
theorem W12_keep (b : Ref sig .tc) (hb : ∀ w, Pipeline.arrRef spec3 w ≠ b) :
    W12 m ρ c (no_index (Proc.devRef .tc b)) = W11 m ρ c (Proc.devRef .tc b) := W12_of_ne m ρ c b hb
/-- Launch 3's output array after it. -/
theorem W12_out : W12 m ρ c (Proc.devRef .tc main_v43) = (dat3 (V11 m ρ) c).arrAt 5 cfg3.N := W12_arr m ρ c 5
/-- Launch 4 leaves a buffer that is none of its arrays as it found it. -/
theorem W16_keep (b : Ref sig .tc) (hb : ∀ w, Pipeline.arrRef spec4 w ≠ b) :
    W16 m ρ c (no_index (Proc.devRef .tc b)) = W15 m ρ c (Proc.devRef .tc b) := W16_of_ne m ρ c b hb
/-- Launch 4's output array after it. -/
theorem W16_out : W16 m ρ c (Proc.devRef .tc main_v66) = (dat4 (V15 m ρ) c).arrAt 6 cfg4.N := W16_arr m ρ c 6
/-- Launch 5 leaves a buffer that is none of its arrays as it found it. -/
theorem W20_keep (b : Ref sig .tc) (hb : ∀ w, Pipeline.arrRef spec5 w ≠ b) :
    W20 m ρ c (no_index (Proc.devRef .tc b)) = W19 m ρ c (Proc.devRef .tc b) := W20_of_ne m ρ c b hb
/-- Launch 5's output array after it. -/
theorem W20_out : W20 m ρ c (Proc.devRef .tc main_v79) = (dat5 (V19 m ρ) c).arrAt 5 cfg5.N := W20_arr m ρ c 5
/-- Launch 6 leaves a buffer that is none of its arrays as it found it. -/
theorem W24_keep (b : Ref sig .tc) (hb : ∀ w, Pipeline.arrRef spec6 w ≠ b) :
    W24 m ρ c (no_index (Proc.devRef .tc b)) = W23 m ρ c (Proc.devRef .tc b) := W24_of_ne m ρ c b hb
/-- Launch 6's output array after it. -/
theorem W24_out : W24 m ρ c (Proc.devRef .tc main_v102) = (dat6 (V23 m ρ) c).arrAt 6 cfg6.N := W24_arr m ρ c 6
/-- Launch 7 leaves a buffer that is none of its arrays as it found it. -/
theorem W28_keep (b : Ref sig .tc) (hb : ∀ w, Pipeline.arrRef spec7 w ≠ b) :
    W28 m ρ c (no_index (Proc.devRef .tc b)) = W27 m ρ c (Proc.devRef .tc b) := W28_of_ne m ρ c b hb
/-- Launch 7's output array after it. -/
theorem W28_out : W28 m ρ c (Proc.devRef .tc main_v115) = (dat7 (V27 m ρ) c).arrAt 5 cfg7.N := W28_arr m ρ c 5

/-- The launch memory read at a buffer. -/
theorem W0_apply (b : Ref sig .tc) : W0 m ρ c (no_index (Proc.devRef .tc b)) = m ((c.tc : Thread nD τ).loc b) := rfl

end Cert.KernelIdeal.Walk

end
-- ==== Proof.KerValue.lean ====
import proofs.«172538_j12652973654090_1_alg».proof.Proof.Gen.KernelIdeal.Frame
import proofs.«172538_j12652973654090_1_alg».proof.Proof.KerWalk
import proofs.«172538_j12652973654090_1_alg».proof.Proof.Spec
import Idealize.ShloMosaic.Lib.ValueLayout
import Idealize.ShloMosaic.Lib.StableHlo.Run

/-!
# The idealized kernel program computes the network

Each kernel launch's output array is a stage of the network applied to the arrays the launch finds
(the hypotheses `R0 … R7`, proved launch by launch elsewhere); the whole-array operations between the
launches are the reference's own.  Walking the buffers from the result back to the launch memory
therefore reads the result as the network of the argument arrays.
-/

set_option maxRecDepth 16384
-- walking a late buffer back to the launch memory passes every earlier operation once
set_option maxHeartbeats 8000000

noncomputable section

namespace Cert.KernelIdeal.Val

open Cert.KernelIdeal Cert.KernelIdeal.Gen Cert.KernelIdeal.Walk
open Idealize.ShloMosaic Idealize.ShloMosaic.TcCoe Idealize.SL.Sem Idealize.ShloMosaic.StableHlo

/-- Walk a buffer read at a segment boundary back through the operations and launches before it. -/
macro "walk" : tactic => `(tactic| simp (disch := decide) only [
  StableHlo.after_cons, StableHlo.after_nil,
  hostOps0, hostOps1, hostOps2, hostOps2_1, hostOps2_2, hostOps3, hostOps3_1, hostOps3_2, hostOps4, hostOps4_1, hostOps4_2, hostOps5, hostOps5_1, hostOps5_2, hostOps6, hostOps6_1, hostOps6_2, hostOps7, hostOps7_1, hostOps7_2, hostOps8,
  W1, W3, W5, W6, W7, W9, W10, W11, W13, W14, W15, W17, W18, W19, W21, W22, W23, W25, W26, W27, W29,
  V1, V2, V3, V4, V7, V8, V11, V12, V15, V16, V19, V20, V23, V24, V27, V28,
  StableHlo.nullary_result', StableHlo.unary_result', StableHlo.binary_result', StableHlo.ternary_result', StableHlo.reshape_result',
  StableHlo.nullary_result_ne', StableHlo.unary_result_ne', StableHlo.binary_result_ne', StableHlo.ternary_result_ne', StableHlo.reshape_result_ne',
  W2_keep, W4_keep, W8_keep, W12_keep, W16_keep, W20_keep, W24_keep, W28_keep, W0_apply])

variable (m : (ℓ : Loc nD τ sig) → Buf (Elt Ideal) ℓ) (ρ : Dev nD → PrngReg) (c : Dev nD)

/-- A vector recast as a row and read back is itself. -/
theorem unrow64_cast (b : Spec.Af S64) (h) : Spec.unrow64 (fun i => shapeCast S1x64 b h i) = b := by
  funext j
  obtain ⟨p, rfl⟩ : ∃ p : Fin 64, j = ValueIdx.ix1 p := ⟨j 0, ValueIdx.eq_ix1 j⟩
  exact ValueIdx.shapeCast_a_1a_apply b h 0 p
theorem unrow128_cast (b : Spec.Af S128) (h) : Spec.unrow128 (fun i => shapeCast S1x128 b h i) = b := by
  funext j
  obtain ⟨p, rfl⟩ : ∃ p : Fin 128, j = ValueIdx.ix1 p := ⟨j 0, ValueIdx.eq_ix1 j⟩
  exact ValueIdx.shapeCast_a_1a_apply b h 0 p

/-- The launches' outputs as stages of the network (proved launch by launch). -/
structure Regions : Prop where
  r0 : ∀ (V : (c : Dev nD) → (b : Ref sig .tc) → Buf (Elt Ideal) ((c : Thread nD τ).loc b)) (c : Dev nD),
    (dat0 V c).arrAt 3 cfg0.N = Spec.lin0 (V c main_arg0) (V c main_arg4) (Spec.unrow64 (V c main_v0))
  r1 : ∀ (V : (c : Dev nD) → (b : Ref sig .tc) → Buf (Elt Ideal) ((c : Thread nD τ).loc b)) (c : Dev nD),
    (dat1 V c).arrAt 3 cfg1.N = Spec.lin1 (V c main_arg1) (V c main_arg6) (Spec.unrow64 (V c main_v2))
  r2 : ∀ (V : (c : Dev nD) → (b : Ref sig .tc) → Buf (Elt Ideal) ((c : Thread nD τ).loc b)) (c : Dev nD),
    (dat2 V c).arrAt 6 cfg2.N = Spec.mlp (V c main_v1) (V c main_v19) (V c main_v21) (Spec.unrow128 (V c main_v28)) (V c main_v25) (Spec.unrow64 (V c main_v29))
  r3 : ∀ (V : (c : Dev nD) → (b : Ref sig .tc) → Buf (Elt Ideal) ((c : Thread nD τ).loc b)) (c : Dev nD),
    (dat3 V c).arrAt 5 cfg3.N = Spec.bn (V c main_v30) (Spec.unrow64 (V c main_v39)) (Spec.unrow64 (V c main_v40)) (Spec.unrow64 (V c main_v41)) (Spec.unrow64 (V c main_v42))
  r4 : ∀ (V : (c : Dev nD) → (b : Ref sig .tc) → Buf (Elt Ideal) ((c : Thread nD τ).loc b)) (c : Dev nD),
    (dat4 V c).arrAt 6 cfg4.N = Spec.mlp (V c main_v43) (V c main_v55) (V c main_v57) (Spec.unrow128 (V c main_v64)) (V c main_v61) (Spec.unrow64 (V c main_v65))
  r5 : ∀ (V : (c : Dev nD) → (b : Ref sig .tc) → Buf (Elt Ideal) ((c : Thread nD τ).loc b)) (c : Dev nD),
    (dat5 V c).arrAt 5 cfg5.N = Spec.bn (V c main_v66) (Spec.unrow64 (V c main_v75)) (Spec.unrow64 (V c main_v76)) (Spec.unrow64 (V c main_v77)) (Spec.unrow64 (V c main_v78))
  r6 : ∀ (V : (c : Dev nD) → (b : Ref sig .tc) → Buf (Elt Ideal) ((c : Thread nD τ).loc b)) (c : Dev nD),
    (dat6 V c).arrAt 6 cfg6.N = Spec.mlp (V c main_v79) (V c main_v91) (V c main_v93) (Spec.unrow128 (V c main_v100)) (V c main_v97) (Spec.unrow64 (V c main_v101))
  r7 : ∀ (V : (c : Dev nD) → (b : Ref sig .tc) → Buf (Elt Ideal) ((c : Thread nD τ).loc b)) (c : Dev nD),
    (dat7 V c).arrAt 5 cfg7.N = Spec.bn (V c main_v102) (Spec.unrow64 (V c main_v111)) (Spec.unrow64 (V c main_v112)) (Spec.unrow64 (V c main_v113)) (Spec.unrow64 (V c main_v114))

variable (R : Regions)
include R

/-- After launch 0 its output is the node embedding. -/
theorem h0 : W2 m ρ c (Proc.devRef .tc main_v1) = (Spec.lin0 (m ((c.tc : Thread nD τ).loc main_arg0)) (m ((c.tc : Thread nD τ).loc main_arg4)) (m ((c.tc : Thread nD τ).loc main_arg5))) := by
  rw [W2_out, R.r0]
  have e0 : V1 m ρ c main_arg0 = (m ((c.tc : Thread nD τ).loc main_arg0)) := by walk
  have e4 : V1 m ρ c main_arg4 = (m ((c.tc : Thread nD τ).loc main_arg4)) := by walk
  have e5 : Spec.unrow64 (V1 m ρ c main_v0) = (m ((c.tc : Thread nD τ).loc main_arg5)) := by
    have e : V1 m ρ c main_v0 = fun i => shapeCast S1x64 (m ((c.tc : Thread nD τ).loc main_arg5)) shapeCasts_S64_S1x64 i := by walk; rfl
    rw [e]; exact unrow64_cast _ _
  rw [e0, e4, e5]

/-- After launch 1 its output is the edge embedding. -/
theorem e1 : W4 m ρ c (Proc.devRef .tc main_v3) = (Spec.lin1 (m ((c.tc : Thread nD τ).loc main_arg1)) (m ((c.tc : Thread nD τ).loc main_arg6)) (m ((c.tc : Thread nD τ).loc main_arg7))) := by
  rw [W4_out, R.r1]
  have e0 : V3 m ρ c main_arg1 = (m ((c.tc : Thread nD τ).loc main_arg1)) := by walk
  have e4 : V3 m ρ c main_arg6 = (m ((c.tc : Thread nD τ).loc main_arg6)) := by walk
  have e5 : Spec.unrow64 (V3 m ρ c main_v2) = (m ((c.tc : Thread nD τ).loc main_arg7)) := by
    have e : V3 m ρ c main_v2 = fun i => shapeCast S1x64 (m ((c.tc : Thread nD τ).loc main_arg7)) shapeCasts_S64_S1x64 i := by walk; rfl
    rw [e]; exact unrow64_cast _ _
  rw [e0, e4, e5]

/-- Layer 0: after the perceptron launch its output is the perceptron of the state and its aggregate. -/
theorem z0 : W8 m ρ c (Proc.devRef .tc main_v30) = (Spec.mlp (Spec.lin0 (m ((c.tc : Thread nD τ).loc main_arg0)) (m ((c.tc : Thread nD τ).loc main_arg4)) (m ((c.tc : Thread nD τ).loc main_arg5))) (Spec.agg (Spec.lin0 (m ((c.tc : Thread nD τ).loc main_arg0)) (m ((c.tc : Thread nD τ).loc main_arg4)) (m ((c.tc : Thread nD τ).loc main_arg5))) (Spec.lin1 (m ((c.tc : Thread nD τ).loc main_arg1)) (m ((c.tc : Thread nD τ).loc main_arg6)) (m ((c.tc : Thread nD τ).loc main_arg7))) (m ((c.tc : Thread nD τ).loc main_arg2))) (Spec.w1_0 (m ((c.tc : Thread nD τ).loc main_arg8))) (Spec.b1_0 (m ((c.tc : Thread nD τ).loc main_arg9))) (Spec.w2_0 (m ((c.tc : Thread nD τ).loc main_arg10))) (Spec.row_0 (m ((c.tc : Thread nD τ).loc main_arg11)))) := by
  rw [W8_out, R.r2]
  have eh : V7 m ρ c main_v1 = (Spec.lin0 (m ((c.tc : Thread nD τ).loc main_arg0)) (m ((c.tc : Thread nD τ).loc main_arg4)) (m ((c.tc : Thread nD τ).loc main_arg5))) := by walk; exact h0 m ρ c R
  have ea : V7 m ρ c main_v19 = Spec.agg (Spec.lin0 (m ((c.tc : Thread nD τ).loc main_arg0)) (m ((c.tc : Thread nD τ).loc main_arg4)) (m ((c.tc : Thread nD τ).loc main_arg5))) (Spec.lin1 (m ((c.tc : Thread nD τ).loc main_arg1)) (m ((c.tc : Thread nD τ).loc main_arg6)) (m ((c.tc : Thread nD τ).loc main_arg7))) (m ((c.tc : Thread nD τ).loc main_arg2)) := by
    walk; rw [h0 m ρ c R, e1 m ρ c R]; rfl
  have ew1 : V7 m ρ c main_v21 = Spec.w1_0 (m ((c.tc : Thread nD τ).loc main_arg8)) := by walk; rfl
  have eb1 : Spec.unrow128 (V7 m ρ c main_v28) = Spec.b1_0 (m ((c.tc : Thread nD τ).loc main_arg9)) := by
    have e : V7 m ρ c main_v28 = fun i => shapeCast S1x128 (Spec.b1_0 (m ((c.tc : Thread nD τ).loc main_arg9))) shapeCasts_S128_S1x128 i := by walk; rfl
    rw [e]; exact unrow128_cast _ _
  have ew2 : V7 m ρ c main_v25 = Spec.w2_0 (m ((c.tc : Thread nD τ).loc main_arg10)) := by walk; rfl
  have eb2 : Spec.unrow64 (V7 m ρ c main_v29) = Spec.row_0 (m ((c.tc : Thread nD τ).loc main_arg11)) := by
    have e : V7 m ρ c main_v29 = fun i => shapeCast S1x64 (Spec.row_0 (m ((c.tc : Thread nD τ).loc main_arg11))) shapeCasts_S64_S1x64 i := by walk; rfl
    rw [e]; exact unrow64_cast _ _
  rw [eh, ea, ew1, eb1, ew2, eb2]

/-- Layer 0: after the normalisation launch its output is the layer applied to the state. -/
theorem h1 : W12 m ρ c (Proc.devRef .tc main_v43) = (Spec.layer_0 (Spec.lin0 (m ((c.tc : Thread nD τ).loc main_arg0)) (m ((c.tc : Thread nD τ).loc main_arg4)) (m ((c.tc : Thread nD τ).loc main_arg5))) (Spec.lin1 (m ((c.tc : Thread nD τ).loc main_arg1)) (m ((c.tc : Thread nD τ).loc main_arg6)) (m ((c.tc : Thread nD τ).loc main_arg7))) (m ((c.tc : Thread nD τ).loc main_arg2)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) := by
  rw [W12_out, R.r3]
  have ez : V11 m ρ c main_v30 = (Spec.mlp (Spec.lin0 (m ((c.tc : Thread nD τ).loc main_arg0)) (m ((c.tc : Thread nD τ).loc main_arg4)) (m ((c.tc : Thread nD τ).loc main_arg5))) (Spec.agg (Spec.lin0 (m ((c.tc : Thread nD τ).loc main_arg0)) (m ((c.tc : Thread nD τ).loc main_arg4)) (m ((c.tc : Thread nD τ).loc main_arg5))) (Spec.lin1 (m ((c.tc : Thread nD τ).loc main_arg1)) (m ((c.tc : Thread nD τ).loc main_arg6)) (m ((c.tc : Thread nD τ).loc main_arg7))) (m ((c.tc : Thread nD τ).loc main_arg2))) (Spec.w1_0 (m ((c.tc : Thread nD τ).loc main_arg8))) (Spec.b1_0 (m ((c.tc : Thread nD τ).loc main_arg9))) (Spec.w2_0 (m ((c.tc : Thread nD τ).loc main_arg10))) (Spec.row_0 (m ((c.tc : Thread nD τ).loc main_arg11)))) := by walk; exact z0 m ρ c R
  have emu : Spec.unrow64 (V11 m ρ c main_v39) = Spec.mean (Spec.mlp (Spec.lin0 (m ((c.tc : Thread nD τ).loc main_arg0)) (m ((c.tc : Thread nD τ).loc main_arg4)) (m ((c.tc : Thread nD τ).loc main_arg5))) (Spec.agg (Spec.lin0 (m ((c.tc : Thread nD τ).loc main_arg0)) (m ((c.tc : Thread nD τ).loc main_arg4)) (m ((c.tc : Thread nD τ).loc main_arg5))) (Spec.lin1 (m ((c.tc : Thread nD τ).loc main_arg1)) (m ((c.tc : Thread nD τ).loc main_arg6)) (m ((c.tc : Thread nD τ).loc main_arg7))) (m ((c.tc : Thread nD τ).loc main_arg2))) (Spec.w1_0 (m ((c.tc : Thread nD τ).loc main_arg8))) (Spec.b1_0 (m ((c.tc : Thread nD τ).loc main_arg9))) (Spec.w2_0 (m ((c.tc : Thread nD τ).loc main_arg10))) (Spec.row_0 (m ((c.tc : Thread nD τ).loc main_arg11)))) := by
    have e : V11 m ρ c main_v39 = fun i => shapeCast S1x64 (Spec.mean (Spec.mlp (Spec.lin0 (m ((c.tc : Thread nD τ).loc main_arg0)) (m ((c.tc : Thread nD τ).loc main_arg4)) (m ((c.tc : Thread nD τ).loc main_arg5))) (Spec.agg (Spec.lin0 (m ((c.tc : Thread nD τ).loc main_arg0)) (m ((c.tc : Thread nD τ).loc main_arg4)) (m ((c.tc : Thread nD τ).loc main_arg5))) (Spec.lin1 (m ((c.tc : Thread nD τ).loc main_arg1)) (m ((c.tc : Thread nD τ).loc main_arg6)) (m ((c.tc : Thread nD τ).loc main_arg7))) (m ((c.tc : Thread nD τ).loc main_arg2))) (Spec.w1_0 (m ((c.tc : Thread nD τ).loc main_arg8))) (Spec.b1_0 (m ((c.tc : Thread nD τ).loc main_arg9))) (Spec.w2_0 (m ((c.tc : Thread nD τ).loc main_arg10))) (Spec.row_0 (m ((c.tc : Thread nD τ).loc main_arg11))))) shapeCasts_S64_S1x64 i := by
      walk; rw [z0 m ρ c R]; rfl
    rw [e]; exact unrow64_cast _ _
  have eva : Spec.unrow64 (V11 m ρ c main_v40) = Spec.var (Spec.mlp (Spec.lin0 (m ((c.tc : Thread nD τ).loc main_arg0)) (m ((c.tc : Thread nD τ).loc main_arg4)) (m ((c.tc : Thread nD τ).loc main_arg5))) (Spec.agg (Spec.lin0 (m ((c.tc : Thread nD τ).loc main_arg0)) (m ((c.tc : Thread nD τ).loc main_arg4)) (m ((c.tc : Thread nD τ).loc main_arg5))) (Spec.lin1 (m ((c.tc : Thread nD τ).loc main_arg1)) (m ((c.tc : Thread nD τ).loc main_arg6)) (m ((c.tc : Thread nD τ).loc main_arg7))) (m ((c.tc : Thread nD τ).loc main_arg2))) (Spec.w1_0 (m ((c.tc : Thread nD τ).loc main_arg8))) (Spec.b1_0 (m ((c.tc : Thread nD τ).loc main_arg9))) (Spec.w2_0 (m ((c.tc : Thread nD τ).loc main_arg10))) (Spec.row_0 (m ((c.tc : Thread nD τ).loc main_arg11)))) := by
    have e : V11 m ρ c main_v40 = fun i => shapeCast S1x64 (Spec.var (Spec.mlp (Spec.lin0 (m ((c.tc : Thread nD τ).loc main_arg0)) (m ((c.tc : Thread nD τ).loc main_arg4)) (m ((c.tc : Thread nD τ).loc main_arg5))) (Spec.agg (Spec.lin0 (m ((c.tc : Thread nD τ).loc main_arg0)) (m ((c.tc : Thread nD τ).loc main_arg4)) (m ((c.tc : Thread nD τ).loc main_arg5))) (Spec.lin1 (m ((c.tc : Thread nD τ).loc main_arg1)) (m ((c.tc : Thread nD τ).loc main_arg6)) (m ((c.tc : Thread nD τ).loc main_arg7))) (m ((c.tc : Thread nD τ).loc main_arg2))) (Spec.w1_0 (m ((c.tc : Thread nD τ).loc main_arg8))) (Spec.b1_0 (m ((c.tc : Thread nD τ).loc main_arg9))) (Spec.w2_0 (m ((c.tc : Thread nD τ).loc main_arg10))) (Spec.row_0 (m ((c.tc : Thread nD τ).loc main_arg11))))) shapeCasts_S64_S1x64 i := by
      walk; rw [z0 m ρ c R]; rfl
    rw [e]; exact unrow64_cast _ _
  have ega : Spec.unrow64 (V11 m ρ c main_v41) = Spec.row_0 (m ((c.tc : Thread nD τ).loc main_arg12)) := by
    have e : V11 m ρ c main_v41 = fun i => shapeCast S1x64 (Spec.row_0 (m ((c.tc : Thread nD τ).loc main_arg12))) shapeCasts_S64_S1x64 i := by walk; rfl
    rw [e]; exact unrow64_cast _ _
  have ebe : Spec.unrow64 (V11 m ρ c main_v42) = Spec.row_0 (m ((c.tc : Thread nD τ).loc main_arg13)) := by
    have e : V11 m ρ c main_v42 = fun i => shapeCast S1x64 (Spec.row_0 (m ((c.tc : Thread nD τ).loc main_arg13))) shapeCasts_S64_S1x64 i := by walk; rfl
    rw [e]; exact unrow64_cast _ _
  rw [ez, emu, eva, ega, ebe]; rfl

/-- Layer 1: after the perceptron launch its output is the perceptron of the state and its aggregate. -/
theorem z1 : W16 m ρ c (Proc.devRef .tc main_v66) = (Spec.mlp (Spec.layer_0 (Spec.lin0 (m ((c.tc : Thread nD τ).loc main_arg0)) (m ((c.tc : Thread nD τ).loc main_arg4)) (m ((c.tc : Thread nD τ).loc main_arg5))) (Spec.lin1 (m ((c.tc : Thread nD τ).loc main_arg1)) (m ((c.tc : Thread nD τ).loc main_arg6)) (m ((c.tc : Thread nD τ).loc main_arg7))) (m ((c.tc : Thread nD τ).loc main_arg2)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (Spec.agg (Spec.layer_0 (Spec.lin0 (m ((c.tc : Thread nD τ).loc main_arg0)) (m ((c.tc : Thread nD τ).loc main_arg4)) (m ((c.tc : Thread nD τ).loc main_arg5))) (Spec.lin1 (m ((c.tc : Thread nD τ).loc main_arg1)) (m ((c.tc : Thread nD τ).loc main_arg6)) (m ((c.tc : Thread nD τ).loc main_arg7))) (m ((c.tc : Thread nD τ).loc main_arg2)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (Spec.lin1 (m ((c.tc : Thread nD τ).loc main_arg1)) (m ((c.tc : Thread nD τ).loc main_arg6)) (m ((c.tc : Thread nD τ).loc main_arg7))) (m ((c.tc : Thread nD τ).loc main_arg2))) (Spec.w1_1 (m ((c.tc : Thread nD τ).loc main_arg8))) (Spec.b1_1 (m ((c.tc : Thread nD τ).loc main_arg9))) (Spec.w2_1 (m ((c.tc : Thread nD τ).loc main_arg10))) (Spec.row_1 (m ((c.tc : Thread nD τ).loc main_arg11)))) := by
  rw [W16_out, R.r4]
  have eh : V15 m ρ c main_v43 = (Spec.layer_0 (Spec.lin0 (m ((c.tc : Thread nD τ).loc main_arg0)) (m ((c.tc : Thread nD τ).loc main_arg4)) (m ((c.tc : Thread nD τ).loc main_arg5))) (Spec.lin1 (m ((c.tc : Thread nD τ).loc main_arg1)) (m ((c.tc : Thread nD τ).loc main_arg6)) (m ((c.tc : Thread nD τ).loc main_arg7))) (m ((c.tc : Thread nD τ).loc main_arg2)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) := by walk; exact h1 m ρ c R
  have ea : V15 m ρ c main_v55 = Spec.agg (Spec.layer_0 (Spec.lin0 (m ((c.tc : Thread nD τ).loc main_arg0)) (m ((c.tc : Thread nD τ).loc main_arg4)) (m ((c.tc : Thread nD τ).loc main_arg5))) (Spec.lin1 (m ((c.tc : Thread nD τ).loc main_arg1)) (m ((c.tc : Thread nD τ).loc main_arg6)) (m ((c.tc : Thread nD τ).loc main_arg7))) (m ((c.tc : Thread nD τ).loc main_arg2)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (Spec.lin1 (m ((c.tc : Thread nD τ).loc main_arg1)) (m ((c.tc : Thread nD τ).loc main_arg6)) (m ((c.tc : Thread nD τ).loc main_arg7))) (m ((c.tc : Thread nD τ).loc main_arg2)) := by
    walk; rw [h1 m ρ c R, e1 m ρ c R]; rfl
  have ew1 : V15 m ρ c main_v57 = Spec.w1_1 (m ((c.tc : Thread nD τ).loc main_arg8)) := by walk; rfl
  have eb1 : Spec.unrow128 (V15 m ρ c main_v64) = Spec.b1_1 (m ((c.tc : Thread nD τ).loc main_arg9)) := by
    have e : V15 m ρ c main_v64 = fun i => shapeCast S1x128 (Spec.b1_1 (m ((c.tc : Thread nD τ).loc main_arg9))) shapeCasts_S128_S1x128 i := by walk; rfl
    rw [e]; exact unrow128_cast _ _
  have ew2 : V15 m ρ c main_v61 = Spec.w2_1 (m ((c.tc : Thread nD τ).loc main_arg10)) := by walk; rfl
  have eb2 : Spec.unrow64 (V15 m ρ c main_v65) = Spec.row_1 (m ((c.tc : Thread nD τ).loc main_arg11)) := by
    have e : V15 m ρ c main_v65 = fun i => shapeCast S1x64 (Spec.row_1 (m ((c.tc : Thread nD τ).loc main_arg11))) shapeCasts_S64_S1x64 i := by walk; rfl
    rw [e]; exact unrow64_cast _ _
  rw [eh, ea, ew1, eb1, ew2, eb2]

/-- Layer 1: after the normalisation launch its output is the layer applied to the state. -/
theorem h2 : W20 m ρ c (Proc.devRef .tc main_v79) = (Spec.layer_1 (Spec.layer_0 (Spec.lin0 (m ((c.tc : Thread nD τ).loc main_arg0)) (m ((c.tc : Thread nD τ).loc main_arg4)) (m ((c.tc : Thread nD τ).loc main_arg5))) (Spec.lin1 (m ((c.tc : Thread nD τ).loc main_arg1)) (m ((c.tc : Thread nD τ).loc main_arg6)) (m ((c.tc : Thread nD τ).loc main_arg7))) (m ((c.tc : Thread nD τ).loc main_arg2)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (Spec.lin1 (m ((c.tc : Thread nD τ).loc main_arg1)) (m ((c.tc : Thread nD τ).loc main_arg6)) (m ((c.tc : Thread nD τ).loc main_arg7))) (m ((c.tc : Thread nD τ).loc main_arg2)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) := by
  rw [W20_out, R.r5]
  have ez : V19 m ρ c main_v66 = (Spec.mlp (Spec.layer_0 (Spec.lin0 (m ((c.tc : Thread nD τ).loc main_arg0)) (m ((c.tc : Thread nD τ).loc main_arg4)) (m ((c.tc : Thread nD τ).loc main_arg5))) (Spec.lin1 (m ((c.tc : Thread nD τ).loc main_arg1)) (m ((c.tc : Thread nD τ).loc main_arg6)) (m ((c.tc : Thread nD τ).loc main_arg7))) (m ((c.tc : Thread nD τ).loc main_arg2)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (Spec.agg (Spec.layer_0 (Spec.lin0 (m ((c.tc : Thread nD τ).loc main_arg0)) (m ((c.tc : Thread nD τ).loc main_arg4)) (m ((c.tc : Thread nD τ).loc main_arg5))) (Spec.lin1 (m ((c.tc : Thread nD τ).loc main_arg1)) (m ((c.tc : Thread nD τ).loc main_arg6)) (m ((c.tc : Thread nD τ).loc main_arg7))) (m ((c.tc : Thread nD τ).loc main_arg2)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (Spec.lin1 (m ((c.tc : Thread nD τ).loc main_arg1)) (m ((c.tc : Thread nD τ).loc main_arg6)) (m ((c.tc : Thread nD τ).loc main_arg7))) (m ((c.tc : Thread nD τ).loc main_arg2))) (Spec.w1_1 (m ((c.tc : Thread nD τ).loc main_arg8))) (Spec.b1_1 (m ((c.tc : Thread nD τ).loc main_arg9))) (Spec.w2_1 (m ((c.tc : Thread nD τ).loc main_arg10))) (Spec.row_1 (m ((c.tc : Thread nD τ).loc main_arg11)))) := by walk; exact z1 m ρ c R
  have emu : Spec.unrow64 (V19 m ρ c main_v75) = Spec.mean (Spec.mlp (Spec.layer_0 (Spec.lin0 (m ((c.tc : Thread nD τ).loc main_arg0)) (m ((c.tc : Thread nD τ).loc main_arg4)) (m ((c.tc : Thread nD τ).loc main_arg5))) (Spec.lin1 (m ((c.tc : Thread nD τ).loc main_arg1)) (m ((c.tc : Thread nD τ).loc main_arg6)) (m ((c.tc : Thread nD τ).loc main_arg7))) (m ((c.tc : Thread nD τ).loc main_arg2)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (Spec.agg (Spec.layer_0 (Spec.lin0 (m ((c.tc : Thread nD τ).loc main_arg0)) (m ((c.tc : Thread nD τ).loc main_arg4)) (m ((c.tc : Thread nD τ).loc main_arg5))) (Spec.lin1 (m ((c.tc : Thread nD τ).loc main_arg1)) (m ((c.tc : Thread nD τ).loc main_arg6)) (m ((c.tc : Thread nD τ).loc main_arg7))) (m ((c.tc : Thread nD τ).loc main_arg2)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (Spec.lin1 (m ((c.tc : Thread nD τ).loc main_arg1)) (m ((c.tc : Thread nD τ).loc main_arg6)) (m ((c.tc : Thread nD τ).loc main_arg7))) (m ((c.tc : Thread nD τ).loc main_arg2))) (Spec.w1_1 (m ((c.tc : Thread nD τ).loc main_arg8))) (Spec.b1_1 (m ((c.tc : Thread nD τ).loc main_arg9))) (Spec.w2_1 (m ((c.tc : Thread nD τ).loc main_arg10))) (Spec.row_1 (m ((c.tc : Thread nD τ).loc main_arg11)))) := by
    have e : V19 m ρ c main_v75 = fun i => shapeCast S1x64 (Spec.mean (Spec.mlp (Spec.layer_0 (Spec.lin0 (m ((c.tc : Thread nD τ).loc main_arg0)) (m ((c.tc : Thread nD τ).loc main_arg4)) (m ((c.tc : Thread nD τ).loc main_arg5))) (Spec.lin1 (m ((c.tc : Thread nD τ).loc main_arg1)) (m ((c.tc : Thread nD τ).loc main_arg6)) (m ((c.tc : Thread nD τ).loc main_arg7))) (m ((c.tc : Thread nD τ).loc main_arg2)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (Spec.agg (Spec.layer_0 (Spec.lin0 (m ((c.tc : Thread nD τ).loc main_arg0)) (m ((c.tc : Thread nD τ).loc main_arg4)) (m ((c.tc : Thread nD τ).loc main_arg5))) (Spec.lin1 (m ((c.tc : Thread nD τ).loc main_arg1)) (m ((c.tc : Thread nD τ).loc main_arg6)) (m ((c.tc : Thread nD τ).loc main_arg7))) (m ((c.tc : Thread nD τ).loc main_arg2)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (Spec.lin1 (m ((c.tc : Thread nD τ).loc main_arg1)) (m ((c.tc : Thread nD τ).loc main_arg6)) (m ((c.tc : Thread nD τ).loc main_arg7))) (m ((c.tc : Thread nD τ).loc main_arg2))) (Spec.w1_1 (m ((c.tc : Thread nD τ).loc main_arg8))) (Spec.b1_1 (m ((c.tc : Thread nD τ).loc main_arg9))) (Spec.w2_1 (m ((c.tc : Thread nD τ).loc main_arg10))) (Spec.row_1 (m ((c.tc : Thread nD τ).loc main_arg11))))) shapeCasts_S64_S1x64 i := by
      walk; rw [z1 m ρ c R]; rfl
    rw [e]; exact unrow64_cast _ _
  have eva : Spec.unrow64 (V19 m ρ c main_v76) = Spec.var (Spec.mlp (Spec.layer_0 (Spec.lin0 (m ((c.tc : Thread nD τ).loc main_arg0)) (m ((c.tc : Thread nD τ).loc main_arg4)) (m ((c.tc : Thread nD τ).loc main_arg5))) (Spec.lin1 (m ((c.tc : Thread nD τ).loc main_arg1)) (m ((c.tc : Thread nD τ).loc main_arg6)) (m ((c.tc : Thread nD τ).loc main_arg7))) (m ((c.tc : Thread nD τ).loc main_arg2)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (Spec.agg (Spec.layer_0 (Spec.lin0 (m ((c.tc : Thread nD τ).loc main_arg0)) (m ((c.tc : Thread nD τ).loc main_arg4)) (m ((c.tc : Thread nD τ).loc main_arg5))) (Spec.lin1 (m ((c.tc : Thread nD τ).loc main_arg1)) (m ((c.tc : Thread nD τ).loc main_arg6)) (m ((c.tc : Thread nD τ).loc main_arg7))) (m ((c.tc : Thread nD τ).loc main_arg2)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (Spec.lin1 (m ((c.tc : Thread nD τ).loc main_arg1)) (m ((c.tc : Thread nD τ).loc main_arg6)) (m ((c.tc : Thread nD τ).loc main_arg7))) (m ((c.tc : Thread nD τ).loc main_arg2))) (Spec.w1_1 (m ((c.tc : Thread nD τ).loc main_arg8))) (Spec.b1_1 (m ((c.tc : Thread nD τ).loc main_arg9))) (Spec.w2_1 (m ((c.tc : Thread nD τ).loc main_arg10))) (Spec.row_1 (m ((c.tc : Thread nD τ).loc main_arg11)))) := by
    have e : V19 m ρ c main_v76 = fun i => shapeCast S1x64 (Spec.var (Spec.mlp (Spec.layer_0 (Spec.lin0 (m ((c.tc : Thread nD τ).loc main_arg0)) (m ((c.tc : Thread nD τ).loc main_arg4)) (m ((c.tc : Thread nD τ).loc main_arg5))) (Spec.lin1 (m ((c.tc : Thread nD τ).loc main_arg1)) (m ((c.tc : Thread nD τ).loc main_arg6)) (m ((c.tc : Thread nD τ).loc main_arg7))) (m ((c.tc : Thread nD τ).loc main_arg2)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (Spec.agg (Spec.layer_0 (Spec.lin0 (m ((c.tc : Thread nD τ).loc main_arg0)) (m ((c.tc : Thread nD τ).loc main_arg4)) (m ((c.tc : Thread nD τ).loc main_arg5))) (Spec.lin1 (m ((c.tc : Thread nD τ).loc main_arg1)) (m ((c.tc : Thread nD τ).loc main_arg6)) (m ((c.tc : Thread nD τ).loc main_arg7))) (m ((c.tc : Thread nD τ).loc main_arg2)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (Spec.lin1 (m ((c.tc : Thread nD τ).loc main_arg1)) (m ((c.tc : Thread nD τ).loc main_arg6)) (m ((c.tc : Thread nD τ).loc main_arg7))) (m ((c.tc : Thread nD τ).loc main_arg2))) (Spec.w1_1 (m ((c.tc : Thread nD τ).loc main_arg8))) (Spec.b1_1 (m ((c.tc : Thread nD τ).loc main_arg9))) (Spec.w2_1 (m ((c.tc : Thread nD τ).loc main_arg10))) (Spec.row_1 (m ((c.tc : Thread nD τ).loc main_arg11))))) shapeCasts_S64_S1x64 i := by
      walk; rw [z1 m ρ c R]; rfl
    rw [e]; exact unrow64_cast _ _
  have ega : Spec.unrow64 (V19 m ρ c main_v77) = Spec.row_1 (m ((c.tc : Thread nD τ).loc main_arg12)) := by
    have e : V19 m ρ c main_v77 = fun i => shapeCast S1x64 (Spec.row_1 (m ((c.tc : Thread nD τ).loc main_arg12))) shapeCasts_S64_S1x64 i := by walk; rfl
    rw [e]; exact unrow64_cast _ _
  have ebe : Spec.unrow64 (V19 m ρ c main_v78) = Spec.row_1 (m ((c.tc : Thread nD τ).loc main_arg13)) := by
    have e : V19 m ρ c main_v78 = fun i => shapeCast S1x64 (Spec.row_1 (m ((c.tc : Thread nD τ).loc main_arg13))) shapeCasts_S64_S1x64 i := by walk; rfl
    rw [e]; exact unrow64_cast _ _
  rw [ez, emu, eva, ega, ebe]; rfl

/-- Layer 2: after the perceptron launch its output is the perceptron of the state and its aggregate. -/
theorem z2 : W24 m ρ c (Proc.devRef .tc main_v102) = (Spec.mlp (Spec.layer_1 (Spec.layer_0 (Spec.lin0 (m ((c.tc : Thread nD τ).loc main_arg0)) (m ((c.tc : Thread nD τ).loc main_arg4)) (m ((c.tc : Thread nD τ).loc main_arg5))) (Spec.lin1 (m ((c.tc : Thread nD τ).loc main_arg1)) (m ((c.tc : Thread nD τ).loc main_arg6)) (m ((c.tc : Thread nD τ).loc main_arg7))) (m ((c.tc : Thread nD τ).loc main_arg2)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (Spec.lin1 (m ((c.tc : Thread nD τ).loc main_arg1)) (m ((c.tc : Thread nD τ).loc main_arg6)) (m ((c.tc : Thread nD τ).loc main_arg7))) (m ((c.tc : Thread nD τ).loc main_arg2)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (Spec.agg (Spec.layer_1 (Spec.layer_0 (Spec.lin0 (m ((c.tc : Thread nD τ).loc main_arg0)) (m ((c.tc : Thread nD τ).loc main_arg4)) (m ((c.tc : Thread nD τ).loc main_arg5))) (Spec.lin1 (m ((c.tc : Thread nD τ).loc main_arg1)) (m ((c.tc : Thread nD τ).loc main_arg6)) (m ((c.tc : Thread nD τ).loc main_arg7))) (m ((c.tc : Thread nD τ).loc main_arg2)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (Spec.lin1 (m ((c.tc : Thread nD τ).loc main_arg1)) (m ((c.tc : Thread nD τ).loc main_arg6)) (m ((c.tc : Thread nD τ).loc main_arg7))) (m ((c.tc : Thread nD τ).loc main_arg2)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (Spec.lin1 (m ((c.tc : Thread nD τ).loc main_arg1)) (m ((c.tc : Thread nD τ).loc main_arg6)) (m ((c.tc : Thread nD τ).loc main_arg7))) (m ((c.tc : Thread nD τ).loc main_arg2))) (Spec.w1_2 (m ((c.tc : Thread nD τ).loc main_arg8))) (Spec.b1_2 (m ((c.tc : Thread nD τ).loc main_arg9))) (Spec.w2_2 (m ((c.tc : Thread nD τ).loc main_arg10))) (Spec.row_2 (m ((c.tc : Thread nD τ).loc main_arg11)))) := by
  rw [W24_out, R.r6]
  have eh : V23 m ρ c main_v79 = (Spec.layer_1 (Spec.layer_0 (Spec.lin0 (m ((c.tc : Thread nD τ).loc main_arg0)) (m ((c.tc : Thread nD τ).loc main_arg4)) (m ((c.tc : Thread nD τ).loc main_arg5))) (Spec.lin1 (m ((c.tc : Thread nD τ).loc main_arg1)) (m ((c.tc : Thread nD τ).loc main_arg6)) (m ((c.tc : Thread nD τ).loc main_arg7))) (m ((c.tc : Thread nD τ).loc main_arg2)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (Spec.lin1 (m ((c.tc : Thread nD τ).loc main_arg1)) (m ((c.tc : Thread nD τ).loc main_arg6)) (m ((c.tc : Thread nD τ).loc main_arg7))) (m ((c.tc : Thread nD τ).loc main_arg2)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) := by walk; exact h2 m ρ c R
  have ea : V23 m ρ c main_v91 = Spec.agg (Spec.layer_1 (Spec.layer_0 (Spec.lin0 (m ((c.tc : Thread nD τ).loc main_arg0)) (m ((c.tc : Thread nD τ).loc main_arg4)) (m ((c.tc : Thread nD τ).loc main_arg5))) (Spec.lin1 (m ((c.tc : Thread nD τ).loc main_arg1)) (m ((c.tc : Thread nD τ).loc main_arg6)) (m ((c.tc : Thread nD τ).loc main_arg7))) (m ((c.tc : Thread nD τ).loc main_arg2)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (Spec.lin1 (m ((c.tc : Thread nD τ).loc main_arg1)) (m ((c.tc : Thread nD τ).loc main_arg6)) (m ((c.tc : Thread nD τ).loc main_arg7))) (m ((c.tc : Thread nD τ).loc main_arg2)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (Spec.lin1 (m ((c.tc : Thread nD τ).loc main_arg1)) (m ((c.tc : Thread nD τ).loc main_arg6)) (m ((c.tc : Thread nD τ).loc main_arg7))) (m ((c.tc : Thread nD τ).loc main_arg2)) := by
    walk; rw [h2 m ρ c R, e1 m ρ c R]; rfl
  have ew1 : V23 m ρ c main_v93 = Spec.w1_2 (m ((c.tc : Thread nD τ).loc main_arg8)) := by walk; rfl
  have eb1 : Spec.unrow128 (V23 m ρ c main_v100) = Spec.b1_2 (m ((c.tc : Thread nD τ).loc main_arg9)) := by
    have e : V23 m ρ c main_v100 = fun i => shapeCast S1x128 (Spec.b1_2 (m ((c.tc : Thread nD τ).loc main_arg9))) shapeCasts_S128_S1x128 i := by walk; rfl
    rw [e]; exact unrow128_cast _ _
  have ew2 : V23 m ρ c main_v97 = Spec.w2_2 (m ((c.tc : Thread nD τ).loc main_arg10)) := by walk; rfl
  have eb2 : Spec.unrow64 (V23 m ρ c main_v101) = Spec.row_2 (m ((c.tc : Thread nD τ).loc main_arg11)) := by
    have e : V23 m ρ c main_v101 = fun i => shapeCast S1x64 (Spec.row_2 (m ((c.tc : Thread nD τ).loc main_arg11))) shapeCasts_S64_S1x64 i := by walk; rfl
    rw [e]; exact unrow64_cast _ _
  rw [eh, ea, ew1, eb1, ew2, eb2]

/-- Layer 2: after the normalisation launch its output is the layer applied to the state. -/
theorem h3 : W28 m ρ c (Proc.devRef .tc main_v115) = (Spec.layer_2 (Spec.layer_1 (Spec.layer_0 (Spec.lin0 (m ((c.tc : Thread nD τ).loc main_arg0)) (m ((c.tc : Thread nD τ).loc main_arg4)) (m ((c.tc : Thread nD τ).loc main_arg5))) (Spec.lin1 (m ((c.tc : Thread nD τ).loc main_arg1)) (m ((c.tc : Thread nD τ).loc main_arg6)) (m ((c.tc : Thread nD τ).loc main_arg7))) (m ((c.tc : Thread nD τ).loc main_arg2)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (Spec.lin1 (m ((c.tc : Thread nD τ).loc main_arg1)) (m ((c.tc : Thread nD τ).loc main_arg6)) (m ((c.tc : Thread nD τ).loc main_arg7))) (m ((c.tc : Thread nD τ).loc main_arg2)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (Spec.lin1 (m ((c.tc : Thread nD τ).loc main_arg1)) (m ((c.tc : Thread nD τ).loc main_arg6)) (m ((c.tc : Thread nD τ).loc main_arg7))) (m ((c.tc : Thread nD τ).loc main_arg2)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) := by
  rw [W28_out, R.r7]
  have ez : V27 m ρ c main_v102 = (Spec.mlp (Spec.layer_1 (Spec.layer_0 (Spec.lin0 (m ((c.tc : Thread nD τ).loc main_arg0)) (m ((c.tc : Thread nD τ).loc main_arg4)) (m ((c.tc : Thread nD τ).loc main_arg5))) (Spec.lin1 (m ((c.tc : Thread nD τ).loc main_arg1)) (m ((c.tc : Thread nD τ).loc main_arg6)) (m ((c.tc : Thread nD τ).loc main_arg7))) (m ((c.tc : Thread nD τ).loc main_arg2)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (Spec.lin1 (m ((c.tc : Thread nD τ).loc main_arg1)) (m ((c.tc : Thread nD τ).loc main_arg6)) (m ((c.tc : Thread nD τ).loc main_arg7))) (m ((c.tc : Thread nD τ).loc main_arg2)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (Spec.agg (Spec.layer_1 (Spec.layer_0 (Spec.lin0 (m ((c.tc : Thread nD τ).loc main_arg0)) (m ((c.tc : Thread nD τ).loc main_arg4)) (m ((c.tc : Thread nD τ).loc main_arg5))) (Spec.lin1 (m ((c.tc : Thread nD τ).loc main_arg1)) (m ((c.tc : Thread nD τ).loc main_arg6)) (m ((c.tc : Thread nD τ).loc main_arg7))) (m ((c.tc : Thread nD τ).loc main_arg2)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (Spec.lin1 (m ((c.tc : Thread nD τ).loc main_arg1)) (m ((c.tc : Thread nD τ).loc main_arg6)) (m ((c.tc : Thread nD τ).loc main_arg7))) (m ((c.tc : Thread nD τ).loc main_arg2)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (Spec.lin1 (m ((c.tc : Thread nD τ).loc main_arg1)) (m ((c.tc : Thread nD τ).loc main_arg6)) (m ((c.tc : Thread nD τ).loc main_arg7))) (m ((c.tc : Thread nD τ).loc main_arg2))) (Spec.w1_2 (m ((c.tc : Thread nD τ).loc main_arg8))) (Spec.b1_2 (m ((c.tc : Thread nD τ).loc main_arg9))) (Spec.w2_2 (m ((c.tc : Thread nD τ).loc main_arg10))) (Spec.row_2 (m ((c.tc : Thread nD τ).loc main_arg11)))) := by walk; exact z2 m ρ c R
  have emu : Spec.unrow64 (V27 m ρ c main_v111) = Spec.mean (Spec.mlp (Spec.layer_1 (Spec.layer_0 (Spec.lin0 (m ((c.tc : Thread nD τ).loc main_arg0)) (m ((c.tc : Thread nD τ).loc main_arg4)) (m ((c.tc : Thread nD τ).loc main_arg5))) (Spec.lin1 (m ((c.tc : Thread nD τ).loc main_arg1)) (m ((c.tc : Thread nD τ).loc main_arg6)) (m ((c.tc : Thread nD τ).loc main_arg7))) (m ((c.tc : Thread nD τ).loc main_arg2)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (Spec.lin1 (m ((c.tc : Thread nD τ).loc main_arg1)) (m ((c.tc : Thread nD τ).loc main_arg6)) (m ((c.tc : Thread nD τ).loc main_arg7))) (m ((c.tc : Thread nD τ).loc main_arg2)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (Spec.agg (Spec.layer_1 (Spec.layer_0 (Spec.lin0 (m ((c.tc : Thread nD τ).loc main_arg0)) (m ((c.tc : Thread nD τ).loc main_arg4)) (m ((c.tc : Thread nD τ).loc main_arg5))) (Spec.lin1 (m ((c.tc : Thread nD τ).loc main_arg1)) (m ((c.tc : Thread nD τ).loc main_arg6)) (m ((c.tc : Thread nD τ).loc main_arg7))) (m ((c.tc : Thread nD τ).loc main_arg2)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (Spec.lin1 (m ((c.tc : Thread nD τ).loc main_arg1)) (m ((c.tc : Thread nD τ).loc main_arg6)) (m ((c.tc : Thread nD τ).loc main_arg7))) (m ((c.tc : Thread nD τ).loc main_arg2)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (Spec.lin1 (m ((c.tc : Thread nD τ).loc main_arg1)) (m ((c.tc : Thread nD τ).loc main_arg6)) (m ((c.tc : Thread nD τ).loc main_arg7))) (m ((c.tc : Thread nD τ).loc main_arg2))) (Spec.w1_2 (m ((c.tc : Thread nD τ).loc main_arg8))) (Spec.b1_2 (m ((c.tc : Thread nD τ).loc main_arg9))) (Spec.w2_2 (m ((c.tc : Thread nD τ).loc main_arg10))) (Spec.row_2 (m ((c.tc : Thread nD τ).loc main_arg11)))) := by
    have e : V27 m ρ c main_v111 = fun i => shapeCast S1x64 (Spec.mean (Spec.mlp (Spec.layer_1 (Spec.layer_0 (Spec.lin0 (m ((c.tc : Thread nD τ).loc main_arg0)) (m ((c.tc : Thread nD τ).loc main_arg4)) (m ((c.tc : Thread nD τ).loc main_arg5))) (Spec.lin1 (m ((c.tc : Thread nD τ).loc main_arg1)) (m ((c.tc : Thread nD τ).loc main_arg6)) (m ((c.tc : Thread nD τ).loc main_arg7))) (m ((c.tc : Thread nD τ).loc main_arg2)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (Spec.lin1 (m ((c.tc : Thread nD τ).loc main_arg1)) (m ((c.tc : Thread nD τ).loc main_arg6)) (m ((c.tc : Thread nD τ).loc main_arg7))) (m ((c.tc : Thread nD τ).loc main_arg2)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (Spec.agg (Spec.layer_1 (Spec.layer_0 (Spec.lin0 (m ((c.tc : Thread nD τ).loc main_arg0)) (m ((c.tc : Thread nD τ).loc main_arg4)) (m ((c.tc : Thread nD τ).loc main_arg5))) (Spec.lin1 (m ((c.tc : Thread nD τ).loc main_arg1)) (m ((c.tc : Thread nD τ).loc main_arg6)) (m ((c.tc : Thread nD τ).loc main_arg7))) (m ((c.tc : Thread nD τ).loc main_arg2)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (Spec.lin1 (m ((c.tc : Thread nD τ).loc main_arg1)) (m ((c.tc : Thread nD τ).loc main_arg6)) (m ((c.tc : Thread nD τ).loc main_arg7))) (m ((c.tc : Thread nD τ).loc main_arg2)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (Spec.lin1 (m ((c.tc : Thread nD τ).loc main_arg1)) (m ((c.tc : Thread nD τ).loc main_arg6)) (m ((c.tc : Thread nD τ).loc main_arg7))) (m ((c.tc : Thread nD τ).loc main_arg2))) (Spec.w1_2 (m ((c.tc : Thread nD τ).loc main_arg8))) (Spec.b1_2 (m ((c.tc : Thread nD τ).loc main_arg9))) (Spec.w2_2 (m ((c.tc : Thread nD τ).loc main_arg10))) (Spec.row_2 (m ((c.tc : Thread nD τ).loc main_arg11))))) shapeCasts_S64_S1x64 i := by
      walk; rw [z2 m ρ c R]; rfl
    rw [e]; exact unrow64_cast _ _
  have eva : Spec.unrow64 (V27 m ρ c main_v112) = Spec.var (Spec.mlp (Spec.layer_1 (Spec.layer_0 (Spec.lin0 (m ((c.tc : Thread nD τ).loc main_arg0)) (m ((c.tc : Thread nD τ).loc main_arg4)) (m ((c.tc : Thread nD τ).loc main_arg5))) (Spec.lin1 (m ((c.tc : Thread nD τ).loc main_arg1)) (m ((c.tc : Thread nD τ).loc main_arg6)) (m ((c.tc : Thread nD τ).loc main_arg7))) (m ((c.tc : Thread nD τ).loc main_arg2)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (Spec.lin1 (m ((c.tc : Thread nD τ).loc main_arg1)) (m ((c.tc : Thread nD τ).loc main_arg6)) (m ((c.tc : Thread nD τ).loc main_arg7))) (m ((c.tc : Thread nD τ).loc main_arg2)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (Spec.agg (Spec.layer_1 (Spec.layer_0 (Spec.lin0 (m ((c.tc : Thread nD τ).loc main_arg0)) (m ((c.tc : Thread nD τ).loc main_arg4)) (m ((c.tc : Thread nD τ).loc main_arg5))) (Spec.lin1 (m ((c.tc : Thread nD τ).loc main_arg1)) (m ((c.tc : Thread nD τ).loc main_arg6)) (m ((c.tc : Thread nD τ).loc main_arg7))) (m ((c.tc : Thread nD τ).loc main_arg2)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (Spec.lin1 (m ((c.tc : Thread nD τ).loc main_arg1)) (m ((c.tc : Thread nD τ).loc main_arg6)) (m ((c.tc : Thread nD τ).loc main_arg7))) (m ((c.tc : Thread nD τ).loc main_arg2)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (Spec.lin1 (m ((c.tc : Thread nD τ).loc main_arg1)) (m ((c.tc : Thread nD τ).loc main_arg6)) (m ((c.tc : Thread nD τ).loc main_arg7))) (m ((c.tc : Thread nD τ).loc main_arg2))) (Spec.w1_2 (m ((c.tc : Thread nD τ).loc main_arg8))) (Spec.b1_2 (m ((c.tc : Thread nD τ).loc main_arg9))) (Spec.w2_2 (m ((c.tc : Thread nD τ).loc main_arg10))) (Spec.row_2 (m ((c.tc : Thread nD τ).loc main_arg11)))) := by
    have e : V27 m ρ c main_v112 = fun i => shapeCast S1x64 (Spec.var (Spec.mlp (Spec.layer_1 (Spec.layer_0 (Spec.lin0 (m ((c.tc : Thread nD τ).loc main_arg0)) (m ((c.tc : Thread nD τ).loc main_arg4)) (m ((c.tc : Thread nD τ).loc main_arg5))) (Spec.lin1 (m ((c.tc : Thread nD τ).loc main_arg1)) (m ((c.tc : Thread nD τ).loc main_arg6)) (m ((c.tc : Thread nD τ).loc main_arg7))) (m ((c.tc : Thread nD τ).loc main_arg2)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (Spec.lin1 (m ((c.tc : Thread nD τ).loc main_arg1)) (m ((c.tc : Thread nD τ).loc main_arg6)) (m ((c.tc : Thread nD τ).loc main_arg7))) (m ((c.tc : Thread nD τ).loc main_arg2)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (Spec.agg (Spec.layer_1 (Spec.layer_0 (Spec.lin0 (m ((c.tc : Thread nD τ).loc main_arg0)) (m ((c.tc : Thread nD τ).loc main_arg4)) (m ((c.tc : Thread nD τ).loc main_arg5))) (Spec.lin1 (m ((c.tc : Thread nD τ).loc main_arg1)) (m ((c.tc : Thread nD τ).loc main_arg6)) (m ((c.tc : Thread nD τ).loc main_arg7))) (m ((c.tc : Thread nD τ).loc main_arg2)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (Spec.lin1 (m ((c.tc : Thread nD τ).loc main_arg1)) (m ((c.tc : Thread nD τ).loc main_arg6)) (m ((c.tc : Thread nD τ).loc main_arg7))) (m ((c.tc : Thread nD τ).loc main_arg2)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (Spec.lin1 (m ((c.tc : Thread nD τ).loc main_arg1)) (m ((c.tc : Thread nD τ).loc main_arg6)) (m ((c.tc : Thread nD τ).loc main_arg7))) (m ((c.tc : Thread nD τ).loc main_arg2))) (Spec.w1_2 (m ((c.tc : Thread nD τ).loc main_arg8))) (Spec.b1_2 (m ((c.tc : Thread nD τ).loc main_arg9))) (Spec.w2_2 (m ((c.tc : Thread nD τ).loc main_arg10))) (Spec.row_2 (m ((c.tc : Thread nD τ).loc main_arg11))))) shapeCasts_S64_S1x64 i := by
      walk; rw [z2 m ρ c R]; rfl
    rw [e]; exact unrow64_cast _ _
  have ega : Spec.unrow64 (V27 m ρ c main_v113) = Spec.row_2 (m ((c.tc : Thread nD τ).loc main_arg12)) := by
    have e : V27 m ρ c main_v113 = fun i => shapeCast S1x64 (Spec.row_2 (m ((c.tc : Thread nD τ).loc main_arg12))) shapeCasts_S64_S1x64 i := by walk; rfl
    rw [e]; exact unrow64_cast _ _
  have ebe : Spec.unrow64 (V27 m ρ c main_v114) = Spec.row_2 (m ((c.tc : Thread nD τ).loc main_arg13)) := by
    have e : V27 m ρ c main_v114 = fun i => shapeCast S1x64 (Spec.row_2 (m ((c.tc : Thread nD τ).loc main_arg13))) shapeCasts_S64_S1x64 i := by walk; rfl
    rw [e]; exact unrow64_cast _ _
  rw [ez, emu, eva, ega, ebe]; rfl

/-- The result buffer at the end holds the network of the argument arrays. -/
theorem value : W29 m ρ c (Proc.devRef .tc main_v131) =
    Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  walk; rw [h3 m ρ c R]; rfl

end Cert.KernelIdeal.Val

end
-- ==== Proof.RefOps0.lean ====
import proofs.«172538_j12652973654090_1_alg».proof.Proof.Gen.ReferenceIdeal
import Idealize.ShloMosaic.Lib.StableHlo.Run
import Idealize.ShloMosaic.Lib.Pipeline.Regions

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]
/-! Window 0 of the reference program's main function as consecutive lists of whole-array operations:
    the function's own operations in order, and at each call of an outlined function that function's operations over the call's buffers. -/

/-- 12 operations of the main function, in order. -/
abbrev w0_0 : List (HloOp τ sig (Elt F)) :=
  [ StableHlo.binary main_arg0 main_arg4 main_v0 ((fun l r => Host.dotGeneral dot_S50000x32_S32x64_S50000x64_1_0_0_1_n_n none l r) : (⟨S50000x32, .f32⟩ : BufTy).Contents (Elt F) → (⟨S32x64, .f32⟩ : BufTy).Contents (Elt F) → (⟨S50000x64, .f32⟩ : BufTy).Contents (Elt F)),
    StableHlo.unary main_arg5 main_v1 (broadcastInDim S1x64 ![1] bcast_S64_S1x64_1 : (⟨S64, .f32⟩ : BufTy).Contents (Elt F) → (⟨S1x64, .f32⟩ : BufTy).Contents (Elt F)),
    StableHlo.unary main_v1 main_v2 (broadcastInDim S50000x64 ![0, 1] bcast_S1x64_S50000x64_0_1 : (⟨S1x64, .f32⟩ : BufTy).Contents (Elt F) → (⟨S50000x64, .f32⟩ : BufTy).Contents (Elt F)),
    StableHlo.binary main_v0 main_v2 main_v3 (addf : (⟨S50000x64, .f32⟩ : BufTy).Contents (Elt F) → (⟨S50000x64, .f32⟩ : BufTy).Contents (Elt F) → (⟨S50000x64, .f32⟩ : BufTy).Contents (Elt F)),
    StableHlo.binary main_arg1 main_arg6 main_v4 ((fun l r => Host.dotGeneral dot_S1600000x16_S16x64_S1600000x64_1_0_0_1_n_n none l r) : (⟨S1600000x16, .f32⟩ : BufTy).Contents (Elt F) → (⟨S16x64, .f32⟩ : BufTy).Contents (Elt F) → (⟨S1600000x64, .f32⟩ : BufTy).Contents (Elt F)),
    StableHlo.unary main_arg7 main_v5 (broadcastInDim S1x64 ![1] bcast_S64_S1x64_1 : (⟨S64, .f32⟩ : BufTy).Contents (Elt F) → (⟨S1x64, .f32⟩ : BufTy).Contents (Elt F)),
    StableHlo.unary main_v5 main_v6 (broadcastInDim S1600000x64 ![0, 1] bcast_S1x64_S1600000x64_0_1 : (⟨S1x64, .f32⟩ : BufTy).Contents (Elt F) → (⟨S1600000x64, .f32⟩ : BufTy).Contents (Elt F)),
    StableHlo.binary main_v4 main_v6 main_v7 (addf : (⟨S1600000x64, .f32⟩ : BufTy).Contents (Elt F) → (⟨S1600000x64, .f32⟩ : BufTy).Contents (Elt F) → (⟨S1600000x64, .f32⟩ : BufTy).Contents (Elt F)),
    StableHlo.unary main_arg2 main_v8 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v8 main_v9 rfl shapeCasts_S1x1600000_S1600000,
    StableHlo.unary main_arg2 main_v10 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v10 main_v11 rfl shapeCasts_S1x1600000_S1600000 ]
theorem w0_0_sub : (w0_0 : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub .., unary_bufs_sub .., reshape_bufs_sub .., unary_bufs_sub .., reshape_bufs_sub ..⟩
/-- The buffers these operations write. -/
abbrev w0_0_W : List (Ref sig .tc) := [main_v0, main_v1, main_v2, main_v3, main_v4, main_v5, main_v6, main_v7, main_v8, main_v9, main_v10, main_v11]
theorem w0_0_writes : (w0_0 : List (HloOp τ sig (Elt F))).Forall fun op => op.writes ⊆ (w0_0_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer they do not write keeps its contents. -/
theorem w0_0_keep (V : Valuation τ sig (Elt F)) (r : Ref sig .tc) (h : r ∉ w0_0_W) :
    after w0_0 V (Proc.devRef .tc r) = V (Proc.devRef .tc r) :=
  after_of_writes_sub w0_0 V w0_0_writes h
theorem w0_0_fresh : ∀ op ∈ (w0_0 : List (HloOp τ sig (Elt F))), op.fresh = ∅ := by
  intro _ h; (repeat (cases h with | head => rfl | tail _ h => ?_)); exact nomatch h

/-- 10 operations of the main function, in order. -/
abbrev w0_1 : List (HloOp τ sig (Elt F)) :=
  [ StableHlo.nullary main_c (constantI S_ 32 0#32),
    StableHlo.unary main_c main_v12 (broadcastInDim S1600000 ![] bcast_S_S1600000 : (⟨S_, .i32⟩ : BufTy).Contents (Elt F) → (⟨S1600000, .i32⟩ : BufTy).Contents (Elt F)),
    StableHlo.binary main_v9 main_v12 main_v13 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 50000#32),
    StableHlo.unary main_c_0 main_v14 (broadcastInDim S1600000 ![] bcast_S_S1600000 : (⟨S_, .i32⟩ : BufTy).Contents (Elt F) → (⟨S1600000, .i32⟩ : BufTy).Contents (Elt F)),
    StableHlo.binary main_v9 main_v14 main_v15 (addi : (⟨S1600000, .i32⟩ : BufTy).Contents (Elt F) → (⟨S1600000, .i32⟩ : BufTy).Contents (Elt F) → (⟨S1600000, .i32⟩ : BufTy).Contents (Elt F)),
    StableHlo.ternary main_v13 main_v15 main_v9 main_v16 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v16 main_v17 (broadcastInDim S1600000x1 ![0] bcast_S1600000_S1600000x1_0 : (⟨S1600000, .i32⟩ : BufTy).Contents (Elt F) → (⟨S1600000x1, .i32⟩ : BufTy).Contents (Elt F)),
    StableHlo.binary main_v3 main_v17 main_v18 ((fun x i => Host.gather gather_S50000x64_S1600000x1_S1600000x64_1_0_n_n_0_1_164 x i) : (⟨S50000x64, .f32⟩ : BufTy).Contents (Elt F) → (⟨S1600000x1, .i32⟩ : BufTy).Contents (Elt F) → (⟨S1600000x64, .f32⟩ : BufTy).Contents (Elt F)),
    StableHlo.binary main_v18 main_v7 main_v19 (addf : (⟨S1600000x64, .f32⟩ : BufTy).Contents (Elt F) → (⟨S1600000x64, .f32⟩ : BufTy).Contents (Elt F) → (⟨S1600000x64, .f32⟩ : BufTy).Contents (Elt F)) ]
theorem w0_1_sub : (w0_1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub ..⟩
/-- The buffers these operations write. -/
abbrev w0_1_W : List (Ref sig .tc) := [main_c, main_v12, main_v13, main_c_0, main_v14, main_v15, main_v16, main_v17, main_v18, main_v19]
theorem w0_1_writes : (w0_1 : List (HloOp τ sig (Elt F))).Forall fun op => op.writes ⊆ (w0_1_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer they do not write keeps its contents. -/
theorem w0_1_keep (V : Valuation τ sig (Elt F)) (r : Ref sig .tc) (h : r ∉ w0_1_W) :
    after w0_1 V (Proc.devRef .tc r) = V (Proc.devRef .tc r) :=
  after_of_writes_sub w0_1 V w0_1_writes h
theorem w0_1_fresh : ∀ op ∈ (w0_1 : List (HloOp τ sig (Elt F))), op.fresh = ∅ := by
  intro _ h; (repeat (cases h with | head => rfl | tail _ h => ?_)); exact nomatch h

/-- 3 operations of @relu over the buffers of main_call0, in order. -/
abbrev w0_2 : List (HloOp τ sig (Elt F)) :=
  [ StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v0 : StableHlo.TRef sig ⟨S1600000x64, .f32⟩) (broadcastInDim S1600000x64 ![] bcast_S_S1600000x64),
    StableHlo.TRef.binary (.of main_v19 : StableHlo.TRef sig ⟨S1600000x64, .f32⟩) (.of main_call0_v0 : StableHlo.TRef sig ⟨S1600000x64, .f32⟩) (.of main_v20 : StableHlo.TRef sig ⟨S1600000x64, .f32⟩) maximumf ]
theorem w0_2_sub : (w0_2 : List (HloOp τ sig (Elt F))).Forall fun op => op.bufs ⊆ tcRefs τ sig :=
  ⟨nullary_bufs_sub .., unary_bufs_sub .., binary_bufs_sub ..⟩
/-- The buffers these operations write. -/
abbrev w0_2_W : List (Ref sig .tc) := [main_call0_cst, main_call0_v0, main_v20]
theorem w0_2_writes : (w0_2 : List (HloOp τ sig (Elt F))).Forall fun op => op.writes ⊆ (w0_2_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer they do not write keeps its contents. -/
theorem w0_2_keep (V : Valuation τ sig (Elt F)) (r : Ref sig .tc) (h : r ∉ w0_2_W) :
    after w0_2 V (Proc.devRef .tc r) = V (Proc.devRef .tc r) :=
  after_of_writes_sub w0_2 V w0_2_writes h
theorem w0_2_fresh : ∀ op ∈ (w0_2 : List (HloOp τ sig (Elt F))), op.fresh = ∅ := by
  intro _ h; (repeat (cases h with | head => rfl | tail _ h => ?_)); exact nomatch h

/-- 4 operations of the main function, in order. -/
abbrev w0_3 : List (HloOp τ sig (Elt F)) :=
  [ StableHlo.nullary main_cst (constant S_ .f32 0x00000000#32),
    StableHlo.unary main_cst main_v21 (broadcastInDim S50000x64 ![] bcast_S_S50000x64 : (⟨S_, .f32⟩ : BufTy).Contents (Elt F) → (⟨S50000x64, .f32⟩ : BufTy).Contents (Elt F)),
    StableHlo.unary main_v11 main_v22 (broadcastInDim S1600000x1 ![0] bcast_S1600000_S1600000x1_0 : (⟨S1600000, .i32⟩ : BufTy).Contents (Elt F) → (⟨S1600000x1, .i32⟩ : BufTy).Contents (Elt F)),
    StableHlo.ternary main_v21 main_v22 main_v20 main_v23 ((fun x i u => Host.scatterAdd scatter_S50000x64_S1600000x1_S1600000x64_1_0_0_1 x i u) : (⟨S50000x64, .f32⟩ : BufTy).Contents (Elt F) → (⟨S1600000x1, .i32⟩ : BufTy).Contents (Elt F) → (⟨S1600000x64, .f32⟩ : BufTy).Contents (Elt F) → (⟨S50000x64, .f32⟩ : BufTy).Contents (Elt F)) ]
theorem w0_3_sub : (w0_3 : List (HloOp τ sig (Elt F))).Forall fun op => op.bufs ⊆ tcRefs τ sig :=
  ⟨nullary_bufs_sub .., unary_bufs_sub .., unary_bufs_sub .., ternary_bufs_sub ..⟩
/-- The buffers these operations write. -/
abbrev w0_3_W : List (Ref sig .tc) := [main_cst, main_v21, main_v22, main_v23]
theorem w0_3_writes : (w0_3 : List (HloOp τ sig (Elt F))).Forall fun op => op.writes ⊆ (w0_3_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer they do not write keeps its contents. -/
theorem w0_3_keep (V : Valuation τ sig (Elt F)) (r : Ref sig .tc) (h : r ∉ w0_3_W) :
    after w0_3 V (Proc.devRef .tc r) = V (Proc.devRef .tc r) :=
  after_of_writes_sub w0_3 V w0_3_writes h
theorem w0_3_fresh : ∀ op ∈ (w0_3 : List (HloOp τ sig (Elt F))), op.fresh = ∅ := by
  intro _ h; (repeat (cases h with | head => rfl | tail _ h => ?_)); exact nomatch h

/-- 9 operations of the main function, in order. -/
abbrev w0_4 : List (HloOp τ sig (Elt F)) :=
  [ StableHlo.binary main_v3 main_v23 main_v24 (addf : (⟨S50000x64, .f32⟩ : BufTy).Contents (Elt F) → (⟨S50000x64, .f32⟩ : BufTy).Contents (Elt F) → (⟨S50000x64, .f32⟩ : BufTy).Contents (Elt F)),
    StableHlo.unary main_arg8 main_v25 ((extractStridedSlice S1x64x128 ![0, 0, 0] · slices_S3x64x128_S1x64x128_0_0_0) : (⟨S3x64x128, .f32⟩ : BufTy).Contents (Elt F) → (⟨S1x64x128, .f32⟩ : BufTy).Contents (Elt F)),
    StableHlo.reshape main_v25 main_v26 rfl shapeCasts_S1x64x128_S64x128,
    StableHlo.binary main_v24 main_v26 main_v27 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    StableHlo.unary main_arg9 main_v28 ((extractStridedSlice S1x128 ![0, 0] · slices_S3x128_S1x128_0_0) : (⟨S3x128, .f32⟩ : BufTy).Contents (Elt F) → (⟨S1x128, .f32⟩ : BufTy).Contents (Elt F)),
    StableHlo.reshape main_v28 main_v29 rfl shapeCasts_S1x128_S128,
    StableHlo.unary main_v29 main_v30 (broadcastInDim S1x128 ![1] bcast_S128_S1x128_1 : (⟨S128, .f32⟩ : BufTy).Contents (Elt F) → (⟨S1x128, .f32⟩ : BufTy).Contents (Elt F)),
    StableHlo.unary main_v30 main_v31 (broadcastInDim S50000x128 ![0, 1] bcast_S1x128_S50000x128_0_1 : (⟨S1x128, .f32⟩ : BufTy).Contents (Elt F) → (⟨S50000x128, .f32⟩ : BufTy).Contents (Elt F)),
    StableHlo.binary main_v27 main_v31 main_v32 (addf : (⟨S50000x128, .f32⟩ : BufTy).Contents (Elt F) → (⟨S50000x128, .f32⟩ : BufTy).Contents (Elt F) → (⟨S50000x128, .f32⟩ : BufTy).Contents (Elt F)) ]
theorem w0_4_sub : (w0_4 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub ..⟩
/-- The buffers these operations write. -/
abbrev w0_4_W : List (Ref sig .tc) := [main_v24, main_v25, main_v26, main_v27, main_v28, main_v29, main_v30, main_v31, main_v32]
theorem w0_4_writes : (w0_4 : List (HloOp τ sig (Elt F))).Forall fun op => op.writes ⊆ (w0_4_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer they do not write keeps its contents. -/
theorem w0_4_keep (V : Valuation τ sig (Elt F)) (r : Ref sig .tc) (h : r ∉ w0_4_W) :
    after w0_4 V (Proc.devRef .tc r) = V (Proc.devRef .tc r) :=
  after_of_writes_sub w0_4 V w0_4_writes h
theorem w0_4_fresh : ∀ op ∈ (w0_4 : List (HloOp τ sig (Elt F))), op.fresh = ∅ := by
  intro _ h; (repeat (cases h with | head => rfl | tail _ h => ?_)); exact nomatch h

/-- 3 operations of @relu_0 over the buffers of main_call1, in order. -/
abbrev w0_5 : List (HloOp τ sig (Elt F)) :=
  [ StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S50000x128, .f32⟩) (broadcastInDim S50000x128 ![] bcast_S_S50000x128),
    StableHlo.TRef.binary (.of main_v32 : StableHlo.TRef sig ⟨S50000x128, .f32⟩) (.of main_call1_v0 : StableHlo.TRef sig ⟨S50000x128, .f32⟩) (.of main_v33 : StableHlo.TRef sig ⟨S50000x128, .f32⟩) maximumf ]
theorem w0_5_sub : (w0_5 : List (HloOp τ sig (Elt F))).Forall fun op => op.bufs ⊆ tcRefs τ sig :=
  ⟨nullary_bufs_sub .., unary_bufs_sub .., binary_bufs_sub ..⟩
/-- The buffers these operations write. -/
abbrev w0_5_W : List (Ref sig .tc) := [main_call1_cst, main_call1_v0, main_v33]
theorem w0_5_writes : (w0_5 : List (HloOp τ sig (Elt F))).Forall fun op => op.writes ⊆ (w0_5_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer they do not write keeps its contents. -/
theorem w0_5_keep (V : Valuation τ sig (Elt F)) (r : Ref sig .tc) (h : r ∉ w0_5_W) :
    after w0_5 V (Proc.devRef .tc r) = V (Proc.devRef .tc r) :=
  after_of_writes_sub w0_5 V w0_5_writes h
theorem w0_5_fresh : ∀ op ∈ (w0_5 : List (HloOp τ sig (Elt F))), op.fresh = ∅ := by
  intro _ h; (repeat (cases h with | head => rfl | tail _ h => ?_)); exact nomatch h

/-- 8 operations of the main function, in order. -/
abbrev w0_6 : List (HloOp τ sig (Elt F)) :=
  [ StableHlo.unary main_arg10 main_v34 ((extractStridedSlice S1x128x64 ![0, 0, 0] · slices_S3x128x64_S1x128x64_0_0_0) : (⟨S3x128x64, .f32⟩ : BufTy).Contents (Elt F) → (⟨S1x128x64, .f32⟩ : BufTy).Contents (Elt F)),
    StableHlo.reshape main_v34 main_v35 rfl shapeCasts_S1x128x64_S128x64,
    StableHlo.binary main_v33 main_v35 main_v36 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg11 main_v37 ((extractStridedSlice S1x64 ![0, 0] · slices_S3x64_S1x64_0_0) : (⟨S3x64, .f32⟩ : BufTy).Contents (Elt F) → (⟨S1x64, .f32⟩ : BufTy).Contents (Elt F)),
    StableHlo.reshape main_v37 main_v38 rfl shapeCasts_S1x64_S64,
    StableHlo.unary main_v38 main_v39 (broadcastInDim S1x64 ![1] bcast_S64_S1x64_1 : (⟨S64, .f32⟩ : BufTy).Contents (Elt F) → (⟨S1x64, .f32⟩ : BufTy).Contents (Elt F)),
    StableHlo.unary main_v39 main_v40 (broadcastInDim S50000x64 ![0, 1] bcast_S1x64_S50000x64_0_1 : (⟨S1x64, .f32⟩ : BufTy).Contents (Elt F) → (⟨S50000x64, .f32⟩ : BufTy).Contents (Elt F)),
    StableHlo.binary main_v36 main_v40 main_v41 (addf : (⟨S50000x64, .f32⟩ : BufTy).Contents (Elt F) → (⟨S50000x64, .f32⟩ : BufTy).Contents (Elt F) → (⟨S50000x64, .f32⟩ : BufTy).Contents (Elt F)) ]
theorem w0_6_sub : (w0_6 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub ..⟩
/-- The buffers these operations write. -/
abbrev w0_6_W : List (Ref sig .tc) := [main_v34, main_v35, main_v36, main_v37, main_v38, main_v39, main_v40, main_v41]
theorem w0_6_writes : (w0_6 : List (HloOp τ sig (Elt F))).Forall fun op => op.writes ⊆ (w0_6_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer they do not write keeps its contents. -/
theorem w0_6_keep (V : Valuation τ sig (Elt F)) (r : Ref sig .tc) (h : r ∉ w0_6_W) :
    after w0_6 V (Proc.devRef .tc r) = V (Proc.devRef .tc r) :=
  after_of_writes_sub w0_6 V w0_6_writes h
theorem w0_6_fresh : ∀ op ∈ (w0_6 : List (HloOp τ sig (Elt F))), op.fresh = ∅ := by
  intro _ h; (repeat (cases h with | head => rfl | tail _ h => ?_)); exact nomatch h

/-- 5 operations of the main function, in order. -/
abbrev w0_7 : List (HloOp τ sig (Elt F)) :=
  [ StableHlo.nullary main_cst_1 (constant S_ .f32 0x00000000#32),
    StableHlo.binary main_v41 main_cst_1 main_v42 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_2 (constant S_ .f32 0x47435000#32),
    StableHlo.unary main_cst_2 main_v43 (broadcastInDim S64 ![] bcast_S_S64 : (⟨S_, .f32⟩ : BufTy).Contents (Elt F) → (⟨S64, .f32⟩ : BufTy).Contents (Elt F)),
    StableHlo.binary main_v42 main_v43 main_v44 (Host.divf : (⟨S64, .f32⟩ : BufTy).Contents (Elt F) → (⟨S64, .f32⟩ : BufTy).Contents (Elt F) → (⟨S64, .f32⟩ : BufTy).Contents (Elt F)) ]
theorem w0_7_sub : (w0_7 : List (HloOp τ sig (Elt F))).Forall fun op => op.bufs ⊆ tcRefs τ sig :=
  ⟨nullary_bufs_sub .., binary_bufs_sub .., nullary_bufs_sub .., unary_bufs_sub .., binary_bufs_sub ..⟩
/-- The buffers these operations write. -/
abbrev w0_7_W : List (Ref sig .tc) := [main_cst_1, main_v42, main_cst_2, main_v43, main_v44]
theorem w0_7_writes : (w0_7 : List (HloOp τ sig (Elt F))).Forall fun op => op.writes ⊆ (w0_7_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer they do not write keeps its contents. -/
theorem w0_7_keep (V : Valuation τ sig (Elt F)) (r : Ref sig .tc) (h : r ∉ w0_7_W) :
    after w0_7 V (Proc.devRef .tc r) = V (Proc.devRef .tc r) :=
  after_of_writes_sub w0_7 V w0_7_writes h
theorem w0_7_fresh : ∀ op ∈ (w0_7 : List (HloOp τ sig (Elt F))), op.fresh = ∅ := by
  intro _ h; (repeat (cases h with | head => rfl | tail _ h => ?_)); exact nomatch h

/-- 1 operations of the main function, in order. -/
abbrev w0_8 : List (HloOp τ sig (Elt F)) :=
  [ StableHlo.nullary main_c_3 (constantI S_ 32 0#32) ]
theorem w0_8_sub : (w0_8 : List (HloOp τ sig (Elt F))).Forall fun op => op.bufs ⊆ tcRefs τ sig :=
  nullary_bufs_sub ..
/-- The buffers these operations write. -/
abbrev w0_8_W : List (Ref sig .tc) := [main_c_3]
theorem w0_8_writes : (w0_8 : List (HloOp τ sig (Elt F))).Forall fun op => op.writes ⊆ (w0_8_W.map (Proc.devRef (τ := τ) .tc)).toFinset := by
  simp only [List.Forall]; exact (by simp only [nullary_writes, unary_writes, binary_writes, ternary_writes, reshape_writes, Finset.singleton_subset_iff, List.mem_toFinset]; exact List.mem_map_of_mem (by decide))
/-- A buffer they do not write keeps its contents. -/
theorem w0_8_keep (V : Valuation τ sig (Elt F)) (r : Ref sig .tc) (h : r ∉ w0_8_W) :
    after w0_8 V (Proc.devRef .tc r) = V (Proc.devRef .tc r) :=
  after_of_writes_sub w0_8 V w0_8_writes h
theorem w0_8_fresh : ∀ op ∈ (w0_8 : List (HloOp τ sig (Elt F))), op.fresh = ∅ := by
  intro _ h; (repeat (cases h with | head => rfl | tail _ h => ?_)); exact nomatch h

/-- 22 operations of @var over the buffers of main_call2, in order. -/
abbrev w0_9 : List (HloOp τ sig (Elt F)) :=
  [ StableHlo.TRef.nullary (.of main_call2_cst : StableHlo.TRef sig ⟨S_, .f32⟩) (constant S_ .f32 0x00000000#32),
    StableHlo.TRef.binary (.of main_v41 : StableHlo.TRef sig ⟨S50000x64, .f32⟩) (.of main_call2_cst : StableHlo.TRef sig ⟨S_, .f32⟩) (.of main_call2_v0 : StableHlo.TRef sig ⟨S64, .f32⟩) (fun x v => Host.reduceAdd x v reducesTo_S50000x64_S64_d0 h_S_),
    StableHlo.TRef.unary (.of main_call2_v0 : StableHlo.TRef sig ⟨S64, .f32⟩) (.of main_call2_v1 : StableHlo.TRef sig ⟨S1x64, .f32⟩) (broadcastInDim S1x64 ![1] bcast_S64_S1x64_1),
    StableHlo.TRef.nullary (.of main_call2_cst_0 : StableHlo.TRef sig ⟨S_, .f32⟩) (constant S_ .f32 0x47435000#32),
    StableHlo.TRef.unary (.of main_call2_cst_0 : StableHlo.TRef sig ⟨S_, .f32⟩) (.of main_call2_v2 : StableHlo.TRef sig ⟨S1x64, .f32⟩) (broadcastInDim S1x64 ![] bcast_S_S1x64),
    StableHlo.TRef.binary (.of main_call2_v1 : StableHlo.TRef sig ⟨S1x64, .f32⟩) (.of main_call2_v2 : StableHlo.TRef sig ⟨S1x64, .f32⟩) (.of main_call2_v3 : StableHlo.TRef sig ⟨S1x64, .f32⟩) Host.divf,
    StableHlo.TRef.unary (.of main_call2_v3 : StableHlo.TRef sig ⟨S1x64, .f32⟩) (.of main_call2_v4 : StableHlo.TRef sig ⟨S50000x64, .f32⟩) (broadcastInDim S50000x64 ![0, 1] bcast_S1x64_S50000x64_0_1),
    StableHlo.TRef.binary (.of main_v41 : StableHlo.TRef sig ⟨S50000x64, .f32⟩) (.of main_call2_v4 : StableHlo.TRef sig ⟨S50000x64, .f32⟩) (.of main_call2_v5 : StableHlo.TRef sig ⟨S50000x64, .f32⟩) subf,
    StableHlo.TRef.binary (.of main_call2_v5 : StableHlo.TRef sig ⟨S50000x64, .f32⟩) (.of main_call2_v5 : StableHlo.TRef sig ⟨S50000x64, .f32⟩) (.of main_call2_v6 : StableHlo.TRef sig ⟨S50000x64, .f32⟩) mulf,
    StableHlo.TRef.unary (.of main_c_3 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x47435000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S50000x64, .f32⟩) (.of main_call2_cst_2 : StableHlo.TRef sig ⟨S_, .f32⟩) (.of main_call2_v9 : StableHlo.TRef sig ⟨S64, .f32⟩) (fun x v => Host.reduceAdd x v reducesTo_S50000x64_S64_d0 h_S_),
    StableHlo.TRef.unary (.of main_call2_v8 : StableHlo.TRef sig ⟨S_, .f32⟩) (.of main_call2_v10 : StableHlo.TRef sig ⟨S64, .f32⟩) (broadcastInDim S64 ![] bcast_S_S64),
    StableHlo.TRef.binary (.of main_call2_v9 : StableHlo.TRef sig ⟨S64, .f32⟩) (.of main_call2_v10 : StableHlo.TRef sig ⟨S64, .f32⟩) (.of main_call2_v11 : StableHlo.TRef sig ⟨S64, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v12 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S64, .f32⟩) (broadcastInDim S64 ![] bcast_S_S64),
    StableHlo.TRef.ternary (.of main_call2_v12 : StableHlo.TRef sig ⟨S_, .i1⟩) (.of main_call2_v11 : StableHlo.TRef sig ⟨S64, .f32⟩) (.of main_call2_call0_v1 : StableHlo.TRef sig ⟨S64, .f32⟩) (.of main_v45 : StableHlo.TRef sig ⟨S64, .f32⟩) (fun p a b => select (broadcastInDim S64 ![] bcast_S_S64 p) a b) ]
theorem w0_9_sub : (w0_9 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
/-- The buffers these operations write. -/
abbrev w0_9_W : List (Ref sig .tc) := [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v45]
theorem w0_9_writes : (w0_9 : List (HloOp τ sig (Elt F))).Forall fun op => op.writes ⊆ (w0_9_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer they do not write keeps its contents. -/
theorem w0_9_keep (V : Valuation τ sig (Elt F)) (r : Ref sig .tc) (h : r ∉ w0_9_W) :
    after w0_9 V (Proc.devRef .tc r) = V (Proc.devRef .tc r) :=
  after_of_writes_sub w0_9 V w0_9_writes h
theorem w0_9_fresh : ∀ op ∈ (w0_9 : List (HloOp τ sig (Elt F))), op.fresh = ∅ := by
  intro _ h; (repeat (cases h with | head => rfl | tail _ h => ?_)); exact nomatch h

/-- 8 operations of the main function, in order. -/
abbrev w0_10 : List (HloOp τ sig (Elt F)) :=
  [ StableHlo.unary main_arg12 main_v46 ((extractStridedSlice S1x64 ![0, 0] · slices_S3x64_S1x64_0_0) : (⟨S3x64, .f32⟩ : BufTy).Contents (Elt F) → (⟨S1x64, .f32⟩ : BufTy).Contents (Elt F)),
    StableHlo.reshape main_v46 main_v47 rfl shapeCasts_S1x64_S64,
    StableHlo.unary main_v44 main_v48 (broadcastInDim S1x64 ![1] bcast_S64_S1x64_1 : (⟨S64, .f32⟩ : BufTy).Contents (Elt F) → (⟨S1x64, .f32⟩ : BufTy).Contents (Elt F)),
    StableHlo.unary main_v48 main_v49 (broadcastInDim S50000x64 ![0, 1] bcast_S1x64_S50000x64_0_1 : (⟨S1x64, .f32⟩ : BufTy).Contents (Elt F) → (⟨S50000x64, .f32⟩ : BufTy).Contents (Elt F)),
    StableHlo.binary main_v41 main_v49 main_v50 (subf : (⟨S50000x64, .f32⟩ : BufTy).Contents (Elt F) → (⟨S50000x64, .f32⟩ : BufTy).Contents (Elt F) → (⟨S50000x64, .f32⟩ : BufTy).Contents (Elt F)),
    StableHlo.unary main_v47 main_v51 (broadcastInDim S1x64 ![1] bcast_S64_S1x64_1 : (⟨S64, .f32⟩ : BufTy).Contents (Elt F) → (⟨S1x64, .f32⟩ : BufTy).Contents (Elt F)),
    StableHlo.unary main_v51 main_v52 (broadcastInDim S50000x64 ![0, 1] bcast_S1x64_S50000x64_0_1 : (⟨S1x64, .f32⟩ : BufTy).Contents (Elt F) → (⟨S50000x64, .f32⟩ : BufTy).Contents (Elt F)),
    StableHlo.binary main_v52 main_v50 main_v53 (mulf : (⟨S50000x64, .f32⟩ : BufTy).Contents (Elt F) → (⟨S50000x64, .f32⟩ : BufTy).Contents (Elt F) → (⟨S50000x64, .f32⟩ : BufTy).Contents (Elt F)) ]
theorem w0_10_sub : (w0_10 : List (HloOp τ sig (Elt F))).Forall fun op => op.bufs ⊆ tcRefs τ sig :=
  ⟨unary_bufs_sub .., reshape_bufs_sub .., unary_bufs_sub .., unary_bufs_sub .., binary_bufs_sub .., unary_bufs_sub .., unary_bufs_sub .., binary_bufs_sub ..⟩
/-- The buffers these operations write. -/
abbrev w0_10_W : List (Ref sig .tc) := [main_v46, main_v47, main_v48, main_v49, main_v50, main_v51, main_v52, main_v53]
theorem w0_10_writes : (w0_10 : List (HloOp τ sig (Elt F))).Forall fun op => op.writes ⊆ (w0_10_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer they do not write keeps its contents. -/
theorem w0_10_keep (V : Valuation τ sig (Elt F)) (r : Ref sig .tc) (h : r ∉ w0_10_W) :
    after w0_10 V (Proc.devRef .tc r) = V (Proc.devRef .tc r) :=
  after_of_writes_sub w0_10 V w0_10_writes h
theorem w0_10_fresh : ∀ op ∈ (w0_10 : List (HloOp τ sig (Elt F))), op.fresh = ∅ := by
  intro _ h; (repeat (cases h with | head => rfl | tail _ h => ?_)); exact nomatch h

/-- The window is the chain of those lists, the last in tail position. -/
theorem main_part0_chain (c : Dev nD) : main_part0 (F := F) c = (Pipeline.chainK
  [ StableHlo.seq w0_0,
    StableHlo.seq w0_1,
    StableHlo.seq w0_2,
    StableHlo.seq w0_3,
    StableHlo.seq w0_4,
    StableHlo.seq w0_5,
    StableHlo.seq w0_6,
    StableHlo.seq w0_7,
    StableHlo.seq w0_8,
    StableHlo.seq w0_9 ]
  (StableHlo.seq w0_10) : Prog (TpuEff nD τ sig (Elt F) (Pipeline.Sig Λ₀ (Fin 0) fun p => (pcfgs (F := F) p).Adm) .tc) PUnit) := by
  chain_rfl

end Cert.RefRun

end
-- ==== Proof.RefOps1.lean ====
import proofs.«172538_j12652973654090_1_alg».proof.Proof.Gen.ReferenceIdeal
import Idealize.ShloMosaic.Lib.StableHlo.Run
import Idealize.ShloMosaic.Lib.Pipeline.Regions

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]
/-! Window 1 of the reference program's main function as consecutive lists of whole-array operations:
    the function's own operations in order, and at each call of an outlined function that function's operations over the call's buffers. -/

/-- 12 operations of the main function, in order. -/
abbrev w1_0 : List (HloOp τ sig (Elt F)) :=
  [ StableHlo.nullary main_cst_4 (constant S_ .f32 0x3727C5AC#32),
    StableHlo.unary main_cst_4 main_v54 (broadcastInDim S64 ![] bcast_S_S64 : (⟨S_, .f32⟩ : BufTy).Contents (Elt F) → (⟨S64, .f32⟩ : BufTy).Contents (Elt F)),
    StableHlo.binary main_v45 main_v54 main_v55 (addf : (⟨S64, .f32⟩ : BufTy).Contents (Elt F) → (⟨S64, .f32⟩ : BufTy).Contents (Elt F) → (⟨S64, .f32⟩ : BufTy).Contents (Elt F)),
    StableHlo.unary main_v55 main_v56 (Host.rsqrt : (⟨S64, .f32⟩ : BufTy).Contents (Elt F) → (⟨S64, .f32⟩ : BufTy).Contents (Elt F)),
    StableHlo.unary main_v56 main_v57 (broadcastInDim S1x64 ![1] bcast_S64_S1x64_1 : (⟨S64, .f32⟩ : BufTy).Contents (Elt F) → (⟨S1x64, .f32⟩ : BufTy).Contents (Elt F)),
    StableHlo.unary main_v57 main_v58 (broadcastInDim S50000x64 ![0, 1] bcast_S1x64_S50000x64_0_1 : (⟨S1x64, .f32⟩ : BufTy).Contents (Elt F) → (⟨S50000x64, .f32⟩ : BufTy).Contents (Elt F)),
    StableHlo.binary main_v53 main_v58 main_v59 (mulf : (⟨S50000x64, .f32⟩ : BufTy).Contents (Elt F) → (⟨S50000x64, .f32⟩ : BufTy).Contents (Elt F) → (⟨S50000x64, .f32⟩ : BufTy).Contents (Elt F)),
    StableHlo.unary main_arg13 main_v60 ((extractStridedSlice S1x64 ![0, 0] · slices_S3x64_S1x64_0_0) : (⟨S3x64, .f32⟩ : BufTy).Contents (Elt F) → (⟨S1x64, .f32⟩ : BufTy).Contents (Elt F)),
    StableHlo.reshape main_v60 main_v61 rfl shapeCasts_S1x64_S64,
    StableHlo.unary main_v61 main_v62 (broadcastInDim S1x64 ![1] bcast_S64_S1x64_1 : (⟨S64, .f32⟩ : BufTy).Contents (Elt F) → (⟨S1x64, .f32⟩ : BufTy).Contents (Elt F)),
    StableHlo.unary main_v62 main_v63 (broadcastInDim S50000x64 ![0, 1] bcast_S1x64_S50000x64_0_1 : (⟨S1x64, .f32⟩ : BufTy).Contents (Elt F) → (⟨S50000x64, .f32⟩ : BufTy).Contents (Elt F)),
    StableHlo.binary main_v59 main_v63 main_v64 (addf : (⟨S50000x64, .f32⟩ : BufTy).Contents (Elt F) → (⟨S50000x64, .f32⟩ : BufTy).Contents (Elt F) → (⟨S50000x64, .f32⟩ : BufTy).Contents (Elt F)) ]
theorem w1_0_sub : (w1_0 : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub ..⟩
/-- The buffers these operations write. -/
abbrev w1_0_W : List (Ref sig .tc) := [main_cst_4, main_v54, main_v55, main_v56, main_v57, main_v58, main_v59, main_v60, main_v61, main_v62, main_v63, main_v64]
theorem w1_0_writes : (w1_0 : List (HloOp τ sig (Elt F))).Forall fun op => op.writes ⊆ (w1_0_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer they do not write keeps its contents. -/
theorem w1_0_keep (V : Valuation τ sig (Elt F)) (r : Ref sig .tc) (h : r ∉ w1_0_W) :
    after w1_0 V (Proc.devRef .tc r) = V (Proc.devRef .tc r) :=
  after_of_writes_sub w1_0 V w1_0_writes h
theorem w1_0_fresh : ∀ op ∈ (w1_0 : List (HloOp τ sig (Elt F))), op.fresh = ∅ := by
  intro _ h; (repeat (cases h with | head => rfl | tail _ h => ?_)); exact nomatch h

/-- 3 operations of @relu_1 over the buffers of main_call3, in order. -/
abbrev w1_1 : List (HloOp τ sig (Elt F)) :=
  [ StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S50000x64, .f32⟩) (broadcastInDim S50000x64 ![] bcast_S_S50000x64),
    StableHlo.TRef.binary (.of main_v64 : StableHlo.TRef sig ⟨S50000x64, .f32⟩) (.of main_call3_v0 : StableHlo.TRef sig ⟨S50000x64, .f32⟩) (.of main_v65 : StableHlo.TRef sig ⟨S50000x64, .f32⟩) maximumf ]
theorem w1_1_sub : (w1_1 : List (HloOp τ sig (Elt F))).Forall fun op => op.bufs ⊆ tcRefs τ sig :=
  ⟨nullary_bufs_sub .., unary_bufs_sub .., binary_bufs_sub ..⟩
/-- The buffers these operations write. -/
abbrev w1_1_W : List (Ref sig .tc) := [main_call3_cst, main_call3_v0, main_v65]
theorem w1_1_writes : (w1_1 : List (HloOp τ sig (Elt F))).Forall fun op => op.writes ⊆ (w1_1_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer they do not write keeps its contents. -/
theorem w1_1_keep (V : Valuation τ sig (Elt F)) (r : Ref sig .tc) (h : r ∉ w1_1_W) :
    after w1_1 V (Proc.devRef .tc r) = V (Proc.devRef .tc r) :=
  after_of_writes_sub w1_1 V w1_1_writes h
theorem w1_1_fresh : ∀ op ∈ (w1_1 : List (HloOp τ sig (Elt F))), op.fresh = ∅ := by
  intro _ h; (repeat (cases h with | head => rfl | tail _ h => ?_)); exact nomatch h

/-- 10 operations of the main function, in order. -/
abbrev w1_2 : List (HloOp τ sig (Elt F)) :=
  [ StableHlo.nullary main_c_5 (constantI S_ 32 0#32),
    StableHlo.unary main_c_5 main_v66 (broadcastInDim S1600000 ![] bcast_S_S1600000 : (⟨S_, .i32⟩ : BufTy).Contents (Elt F) → (⟨S1600000, .i32⟩ : BufTy).Contents (Elt F)),
    StableHlo.binary main_v9 main_v66 main_v67 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 50000#32),
    StableHlo.unary main_c_6 main_v68 (broadcastInDim S1600000 ![] bcast_S_S1600000 : (⟨S_, .i32⟩ : BufTy).Contents (Elt F) → (⟨S1600000, .i32⟩ : BufTy).Contents (Elt F)),
    StableHlo.binary main_v9 main_v68 main_v69 (addi : (⟨S1600000, .i32⟩ : BufTy).Contents (Elt F) → (⟨S1600000, .i32⟩ : BufTy).Contents (Elt F) → (⟨S1600000, .i32⟩ : BufTy).Contents (Elt F)),
    StableHlo.ternary main_v67 main_v69 main_v9 main_v70 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v70 main_v71 (broadcastInDim S1600000x1 ![0] bcast_S1600000_S1600000x1_0 : (⟨S1600000, .i32⟩ : BufTy).Contents (Elt F) → (⟨S1600000x1, .i32⟩ : BufTy).Contents (Elt F)),
    StableHlo.binary main_v65 main_v71 main_v72 ((fun x i => Host.gather gather_S50000x64_S1600000x1_S1600000x64_1_0_n_n_0_1_164 x i) : (⟨S50000x64, .f32⟩ : BufTy).Contents (Elt F) → (⟨S1600000x1, .i32⟩ : BufTy).Contents (Elt F) → (⟨S1600000x64, .f32⟩ : BufTy).Contents (Elt F)),
    StableHlo.binary main_v72 main_v7 main_v73 (addf : (⟨S1600000x64, .f32⟩ : BufTy).Contents (Elt F) → (⟨S1600000x64, .f32⟩ : BufTy).Contents (Elt F) → (⟨S1600000x64, .f32⟩ : BufTy).Contents (Elt F)) ]
theorem w1_2_sub : (w1_2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub ..⟩
/-- The buffers these operations write. -/
abbrev w1_2_W : List (Ref sig .tc) := [main_c_5, main_v66, main_v67, main_c_6, main_v68, main_v69, main_v70, main_v71, main_v72, main_v73]
theorem w1_2_writes : (w1_2 : List (HloOp τ sig (Elt F))).Forall fun op => op.writes ⊆ (w1_2_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer they do not write keeps its contents. -/
theorem w1_2_keep (V : Valuation τ sig (Elt F)) (r : Ref sig .tc) (h : r ∉ w1_2_W) :
    after w1_2 V (Proc.devRef .tc r) = V (Proc.devRef .tc r) :=
  after_of_writes_sub w1_2 V w1_2_writes h
theorem w1_2_fresh : ∀ op ∈ (w1_2 : List (HloOp τ sig (Elt F))), op.fresh = ∅ := by
  intro _ h; (repeat (cases h with | head => rfl | tail _ h => ?_)); exact nomatch h

/-- 3 operations of @relu over the buffers of main_call4, in order. -/
abbrev w1_3 : List (HloOp τ sig (Elt F)) :=
  [ StableHlo.TRef.nullary (.of main_call4_cst : StableHlo.TRef sig ⟨S_, .f32⟩) (constant S_ .f32 0x00000000#32),
    StableHlo.TRef.unary (.of main_call4_cst : StableHlo.TRef sig ⟨S_, .f32⟩) (.of main_call4_v0 : StableHlo.TRef sig ⟨S1600000x64, .f32⟩) (broadcastInDim S1600000x64 ![] bcast_S_S1600000x64),
    StableHlo.TRef.binary (.of main_v73 : StableHlo.TRef sig ⟨S1600000x64, .f32⟩) (.of main_call4_v0 : StableHlo.TRef sig ⟨S1600000x64, .f32⟩) (.of main_v74 : StableHlo.TRef sig ⟨S1600000x64, .f32⟩) maximumf ]
theorem w1_3_sub : (w1_3 : List (HloOp τ sig (Elt F))).Forall fun op => op.bufs ⊆ tcRefs τ sig :=
  ⟨nullary_bufs_sub .., unary_bufs_sub .., binary_bufs_sub ..⟩
/-- The buffers these operations write. -/
abbrev w1_3_W : List (Ref sig .tc) := [main_call4_cst, main_call4_v0, main_v74]
theorem w1_3_writes : (w1_3 : List (HloOp τ sig (Elt F))).Forall fun op => op.writes ⊆ (w1_3_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer they do not write keeps its contents. -/
theorem w1_3_keep (V : Valuation τ sig (Elt F)) (r : Ref sig .tc) (h : r ∉ w1_3_W) :
    after w1_3 V (Proc.devRef .tc r) = V (Proc.devRef .tc r) :=
  after_of_writes_sub w1_3 V w1_3_writes h
theorem w1_3_fresh : ∀ op ∈ (w1_3 : List (HloOp τ sig (Elt F))), op.fresh = ∅ := by
  intro _ h; (repeat (cases h with | head => rfl | tail _ h => ?_)); exact nomatch h

/-- 4 operations of the main function, in order. -/
abbrev w1_4 : List (HloOp τ sig (Elt F)) :=
  [ StableHlo.nullary main_cst_7 (constant S_ .f32 0x00000000#32),
    StableHlo.unary main_cst_7 main_v75 (broadcastInDim S50000x64 ![] bcast_S_S50000x64 : (⟨S_, .f32⟩ : BufTy).Contents (Elt F) → (⟨S50000x64, .f32⟩ : BufTy).Contents (Elt F)),
    StableHlo.unary main_v11 main_v76 (broadcastInDim S1600000x1 ![0] bcast_S1600000_S1600000x1_0 : (⟨S1600000, .i32⟩ : BufTy).Contents (Elt F) → (⟨S1600000x1, .i32⟩ : BufTy).Contents (Elt F)),
    StableHlo.ternary main_v75 main_v76 main_v74 main_v77 ((fun x i u => Host.scatterAdd scatter_S50000x64_S1600000x1_S1600000x64_1_0_0_1 x i u) : (⟨S50000x64, .f32⟩ : BufTy).Contents (Elt F) → (⟨S1600000x1, .i32⟩ : BufTy).Contents (Elt F) → (⟨S1600000x64, .f32⟩ : BufTy).Contents (Elt F) → (⟨S50000x64, .f32⟩ : BufTy).Contents (Elt F)) ]
theorem w1_4_sub : (w1_4 : List (HloOp τ sig (Elt F))).Forall fun op => op.bufs ⊆ tcRefs τ sig :=
  ⟨nullary_bufs_sub .., unary_bufs_sub .., unary_bufs_sub .., ternary_bufs_sub ..⟩
/-- The buffers these operations write. -/
abbrev w1_4_W : List (Ref sig .tc) := [main_cst_7, main_v75, main_v76, main_v77]
theorem w1_4_writes : (w1_4 : List (HloOp τ sig (Elt F))).Forall fun op => op.writes ⊆ (w1_4_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer they do not write keeps its contents. -/
theorem w1_4_keep (V : Valuation τ sig (Elt F)) (r : Ref sig .tc) (h : r ∉ w1_4_W) :
    after w1_4 V (Proc.devRef .tc r) = V (Proc.devRef .tc r) :=
  after_of_writes_sub w1_4 V w1_4_writes h
theorem w1_4_fresh : ∀ op ∈ (w1_4 : List (HloOp τ sig (Elt F))), op.fresh = ∅ := by
  intro _ h; (repeat (cases h with | head => rfl | tail _ h => ?_)); exact nomatch h

/-- 9 operations of the main function, in order. -/
abbrev w1_5 : List (HloOp τ sig (Elt F)) :=
  [ StableHlo.binary main_v65 main_v77 main_v78 (addf : (⟨S50000x64, .f32⟩ : BufTy).Contents (Elt F) → (⟨S50000x64, .f32⟩ : BufTy).Contents (Elt F) → (⟨S50000x64, .f32⟩ : BufTy).Contents (Elt F)),
    StableHlo.unary main_arg8 main_v79 ((extractStridedSlice S1x64x128 ![1, 0, 0] · slices_S3x64x128_S1x64x128_1_0_0) : (⟨S3x64x128, .f32⟩ : BufTy).Contents (Elt F) → (⟨S1x64x128, .f32⟩ : BufTy).Contents (Elt F)),
    StableHlo.reshape main_v79 main_v80 rfl shapeCasts_S1x64x128_S64x128,
    StableHlo.binary main_v78 main_v80 main_v81 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    StableHlo.unary main_arg9 main_v82 ((extractStridedSlice S1x128 ![1, 0] · slices_S3x128_S1x128_1_0) : (⟨S3x128, .f32⟩ : BufTy).Contents (Elt F) → (⟨S1x128, .f32⟩ : BufTy).Contents (Elt F)),
    StableHlo.reshape main_v82 main_v83 rfl shapeCasts_S1x128_S128,
    StableHlo.unary main_v83 main_v84 (broadcastInDim S1x128 ![1] bcast_S128_S1x128_1 : (⟨S128, .f32⟩ : BufTy).Contents (Elt F) → (⟨S1x128, .f32⟩ : BufTy).Contents (Elt F)),
    StableHlo.unary main_v84 main_v85 (broadcastInDim S50000x128 ![0, 1] bcast_S1x128_S50000x128_0_1 : (⟨S1x128, .f32⟩ : BufTy).Contents (Elt F) → (⟨S50000x128, .f32⟩ : BufTy).Contents (Elt F)),
    StableHlo.binary main_v81 main_v85 main_v86 (addf : (⟨S50000x128, .f32⟩ : BufTy).Contents (Elt F) → (⟨S50000x128, .f32⟩ : BufTy).Contents (Elt F) → (⟨S50000x128, .f32⟩ : BufTy).Contents (Elt F)) ]
theorem w1_5_sub : (w1_5 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub ..⟩
/-- The buffers these operations write. -/
abbrev w1_5_W : List (Ref sig .tc) := [main_v78, main_v79, main_v80, main_v81, main_v82, main_v83, main_v84, main_v85, main_v86]
theorem w1_5_writes : (w1_5 : List (HloOp τ sig (Elt F))).Forall fun op => op.writes ⊆ (w1_5_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer they do not write keeps its contents. -/
theorem w1_5_keep (V : Valuation τ sig (Elt F)) (r : Ref sig .tc) (h : r ∉ w1_5_W) :
    after w1_5 V (Proc.devRef .tc r) = V (Proc.devRef .tc r) :=
  after_of_writes_sub w1_5 V w1_5_writes h
theorem w1_5_fresh : ∀ op ∈ (w1_5 : List (HloOp τ sig (Elt F))), op.fresh = ∅ := by
  intro _ h; (repeat (cases h with | head => rfl | tail _ h => ?_)); exact nomatch h

/-- 3 operations of @relu_0 over the buffers of main_call5, in order. -/
abbrev w1_6 : List (HloOp τ sig (Elt F)) :=
  [ StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S50000x128, .f32⟩) (broadcastInDim S50000x128 ![] bcast_S_S50000x128),
    StableHlo.TRef.binary (.of main_v86 : StableHlo.TRef sig ⟨S50000x128, .f32⟩) (.of main_call5_v0 : StableHlo.TRef sig ⟨S50000x128, .f32⟩) (.of main_v87 : StableHlo.TRef sig ⟨S50000x128, .f32⟩) maximumf ]
theorem w1_6_sub : (w1_6 : List (HloOp τ sig (Elt F))).Forall fun op => op.bufs ⊆ tcRefs τ sig :=
  ⟨nullary_bufs_sub .., unary_bufs_sub .., binary_bufs_sub ..⟩
/-- The buffers these operations write. -/
abbrev w1_6_W : List (Ref sig .tc) := [main_call5_cst, main_call5_v0, main_v87]
theorem w1_6_writes : (w1_6 : List (HloOp τ sig (Elt F))).Forall fun op => op.writes ⊆ (w1_6_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer they do not write keeps its contents. -/
theorem w1_6_keep (V : Valuation τ sig (Elt F)) (r : Ref sig .tc) (h : r ∉ w1_6_W) :
    after w1_6 V (Proc.devRef .tc r) = V (Proc.devRef .tc r) :=
  after_of_writes_sub w1_6 V w1_6_writes h
theorem w1_6_fresh : ∀ op ∈ (w1_6 : List (HloOp τ sig (Elt F))), op.fresh = ∅ := by
  intro _ h; (repeat (cases h with | head => rfl | tail _ h => ?_)); exact nomatch h

/-- 8 operations of the main function, in order. -/
abbrev w1_7 : List (HloOp τ sig (Elt F)) :=
  [ StableHlo.unary main_arg10 main_v88 ((extractStridedSlice S1x128x64 ![1, 0, 0] · slices_S3x128x64_S1x128x64_1_0_0) : (⟨S3x128x64, .f32⟩ : BufTy).Contents (Elt F) → (⟨S1x128x64, .f32⟩ : BufTy).Contents (Elt F)),
    StableHlo.reshape main_v88 main_v89 rfl shapeCasts_S1x128x64_S128x64,
    StableHlo.binary main_v87 main_v89 main_v90 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg11 main_v91 ((extractStridedSlice S1x64 ![1, 0] · slices_S3x64_S1x64_1_0) : (⟨S3x64, .f32⟩ : BufTy).Contents (Elt F) → (⟨S1x64, .f32⟩ : BufTy).Contents (Elt F)),
    StableHlo.reshape main_v91 main_v92 rfl shapeCasts_S1x64_S64,
    StableHlo.unary main_v92 main_v93 (broadcastInDim S1x64 ![1] bcast_S64_S1x64_1 : (⟨S64, .f32⟩ : BufTy).Contents (Elt F) → (⟨S1x64, .f32⟩ : BufTy).Contents (Elt F)),
    StableHlo.unary main_v93 main_v94 (broadcastInDim S50000x64 ![0, 1] bcast_S1x64_S50000x64_0_1 : (⟨S1x64, .f32⟩ : BufTy).Contents (Elt F) → (⟨S50000x64, .f32⟩ : BufTy).Contents (Elt F)),
    StableHlo.binary main_v90 main_v94 main_v95 (addf : (⟨S50000x64, .f32⟩ : BufTy).Contents (Elt F) → (⟨S50000x64, .f32⟩ : BufTy).Contents (Elt F) → (⟨S50000x64, .f32⟩ : BufTy).Contents (Elt F)) ]
theorem w1_7_sub : (w1_7 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub ..⟩
/-- The buffers these operations write. -/
abbrev w1_7_W : List (Ref sig .tc) := [main_v88, main_v89, main_v90, main_v91, main_v92, main_v93, main_v94, main_v95]
theorem w1_7_writes : (w1_7 : List (HloOp τ sig (Elt F))).Forall fun op => op.writes ⊆ (w1_7_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer they do not write keeps its contents. -/
theorem w1_7_keep (V : Valuation τ sig (Elt F)) (r : Ref sig .tc) (h : r ∉ w1_7_W) :
    after w1_7 V (Proc.devRef .tc r) = V (Proc.devRef .tc r) :=
  after_of_writes_sub w1_7 V w1_7_writes h
theorem w1_7_fresh : ∀ op ∈ (w1_7 : List (HloOp τ sig (Elt F))), op.fresh = ∅ := by
  intro _ h; (repeat (cases h with | head => rfl | tail _ h => ?_)); exact nomatch h

/-- 5 operations of the main function, in order. -/
abbrev w1_8 : List (HloOp τ sig (Elt F)) :=
  [ StableHlo.nullary main_cst_8 (constant S_ .f32 0x00000000#32),
    StableHlo.binary main_v95 main_cst_8 main_v96 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_9 (constant S_ .f32 0x47435000#32),
    StableHlo.unary main_cst_9 main_v97 (broadcastInDim S64 ![] bcast_S_S64 : (⟨S_, .f32⟩ : BufTy).Contents (Elt F) → (⟨S64, .f32⟩ : BufTy).Contents (Elt F)),
    StableHlo.binary main_v96 main_v97 main_v98 (Host.divf : (⟨S64, .f32⟩ : BufTy).Contents (Elt F) → (⟨S64, .f32⟩ : BufTy).Contents (Elt F) → (⟨S64, .f32⟩ : BufTy).Contents (Elt F)) ]
theorem w1_8_sub : (w1_8 : List (HloOp τ sig (Elt F))).Forall fun op => op.bufs ⊆ tcRefs τ sig :=
  ⟨nullary_bufs_sub .., binary_bufs_sub .., nullary_bufs_sub .., unary_bufs_sub .., binary_bufs_sub ..⟩
/-- The buffers these operations write. -/
abbrev w1_8_W : List (Ref sig .tc) := [main_cst_8, main_v96, main_cst_9, main_v97, main_v98]
theorem w1_8_writes : (w1_8 : List (HloOp τ sig (Elt F))).Forall fun op => op.writes ⊆ (w1_8_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer they do not write keeps its contents. -/
theorem w1_8_keep (V : Valuation τ sig (Elt F)) (r : Ref sig .tc) (h : r ∉ w1_8_W) :
    after w1_8 V (Proc.devRef .tc r) = V (Proc.devRef .tc r) :=
  after_of_writes_sub w1_8 V w1_8_writes h
theorem w1_8_fresh : ∀ op ∈ (w1_8 : List (HloOp τ sig (Elt F))), op.fresh = ∅ := by
  intro _ h; (repeat (cases h with | head => rfl | tail _ h => ?_)); exact nomatch h

/-- 1 operations of the main function, in order. -/
abbrev w1_9 : List (HloOp τ sig (Elt F)) :=
  [ StableHlo.nullary main_c_10 (constantI S_ 32 0#32) ]
theorem w1_9_sub : (w1_9 : List (HloOp τ sig (Elt F))).Forall fun op => op.bufs ⊆ tcRefs τ sig :=
  nullary_bufs_sub ..
/-- The buffers these operations write. -/
abbrev w1_9_W : List (Ref sig .tc) := [main_c_10]
theorem w1_9_writes : (w1_9 : List (HloOp τ sig (Elt F))).Forall fun op => op.writes ⊆ (w1_9_W.map (Proc.devRef (τ := τ) .tc)).toFinset := by
  simp only [List.Forall]; exact (by simp only [nullary_writes, unary_writes, binary_writes, ternary_writes, reshape_writes, Finset.singleton_subset_iff, List.mem_toFinset]; exact List.mem_map_of_mem (by decide))
/-- A buffer they do not write keeps its contents. -/
theorem w1_9_keep (V : Valuation τ sig (Elt F)) (r : Ref sig .tc) (h : r ∉ w1_9_W) :
    after w1_9 V (Proc.devRef .tc r) = V (Proc.devRef .tc r) :=
  after_of_writes_sub w1_9 V w1_9_writes h
theorem w1_9_fresh : ∀ op ∈ (w1_9 : List (HloOp τ sig (Elt F))), op.fresh = ∅ := by
  intro _ h; (repeat (cases h with | head => rfl | tail _ h => ?_)); exact nomatch h

/-- 22 operations of @var over the buffers of main_call6, in order. -/
abbrev w1_10 : List (HloOp τ sig (Elt F)) :=
  [ StableHlo.TRef.nullary (.of main_call6_cst : StableHlo.TRef sig ⟨S_, .f32⟩) (constant S_ .f32 0x00000000#32),
    StableHlo.TRef.binary (.of main_v95 : StableHlo.TRef sig ⟨S50000x64, .f32⟩) (.of main_call6_cst : StableHlo.TRef sig ⟨S_, .f32⟩) (.of main_call6_v0 : StableHlo.TRef sig ⟨S64, .f32⟩) (fun x v => Host.reduceAdd x v reducesTo_S50000x64_S64_d0 h_S_),
    StableHlo.TRef.unary (.of main_call6_v0 : StableHlo.TRef sig ⟨S64, .f32⟩) (.of main_call6_v1 : StableHlo.TRef sig ⟨S1x64, .f32⟩) (broadcastInDim S1x64 ![1] bcast_S64_S1x64_1),
    StableHlo.TRef.nullary (.of main_call6_cst_0 : StableHlo.TRef sig ⟨S_, .f32⟩) (constant S_ .f32 0x47435000#32),
    StableHlo.TRef.unary (.of main_call6_cst_0 : StableHlo.TRef sig ⟨S_, .f32⟩) (.of main_call6_v2 : StableHlo.TRef sig ⟨S1x64, .f32⟩) (broadcastInDim S1x64 ![] bcast_S_S1x64),
    StableHlo.TRef.binary (.of main_call6_v1 : StableHlo.TRef sig ⟨S1x64, .f32⟩) (.of main_call6_v2 : StableHlo.TRef sig ⟨S1x64, .f32⟩) (.of main_call6_v3 : StableHlo.TRef sig ⟨S1x64, .f32⟩) Host.divf,
    StableHlo.TRef.unary (.of main_call6_v3 : StableHlo.TRef sig ⟨S1x64, .f32⟩) (.of main_call6_v4 : StableHlo.TRef sig ⟨S50000x64, .f32⟩) (broadcastInDim S50000x64 ![0, 1] bcast_S1x64_S50000x64_0_1),
    StableHlo.TRef.binary (.of main_v95 : StableHlo.TRef sig ⟨S50000x64, .f32⟩) (.of main_call6_v4 : StableHlo.TRef sig ⟨S50000x64, .f32⟩) (.of main_call6_v5 : StableHlo.TRef sig ⟨S50000x64, .f32⟩) subf,
    StableHlo.TRef.binary (.of main_call6_v5 : StableHlo.TRef sig ⟨S50000x64, .f32⟩) (.of main_call6_v5 : StableHlo.TRef sig ⟨S50000x64, .f32⟩) (.of main_call6_v6 : StableHlo.TRef sig ⟨S50000x64, .f32⟩) mulf,
    StableHlo.TRef.unary (.of main_c_10 : StableHlo.TRef sig ⟨S_, .i32⟩) (.of main_call6_v7 : StableHlo.TRef sig ⟨S_, .f32⟩) (sitofp .f32),
    StableHlo.TRef.nullary (.of main_call6_cst_1 : StableHlo.TRef sig ⟨S_, .f32⟩) (constant S_ .f32 0x47435000#32),
    StableHlo.TRef.binary (.of main_call6_cst_1 : StableHlo.TRef sig ⟨S_, .f32⟩) (.of main_call6_v7 : StableHlo.TRef sig ⟨S_, .f32⟩) (.of main_call6_v8 : StableHlo.TRef sig ⟨S_, .f32⟩) subf,
    StableHlo.TRef.nullary (.of main_call6_cst_2 : StableHlo.TRef sig ⟨S_, .f32⟩) (constant S_ .f32 0x00000000#32),
    StableHlo.TRef.binary (.of main_call6_v6 : StableHlo.TRef sig ⟨S50000x64, .f32⟩) (.of main_call6_cst_2 : StableHlo.TRef sig ⟨S_, .f32⟩) (.of main_call6_v9 : StableHlo.TRef sig ⟨S64, .f32⟩) (fun x v => Host.reduceAdd x v reducesTo_S50000x64_S64_d0 h_S_),
    StableHlo.TRef.unary (.of main_call6_v8 : StableHlo.TRef sig ⟨S_, .f32⟩) (.of main_call6_v10 : StableHlo.TRef sig ⟨S64, .f32⟩) (broadcastInDim S64 ![] bcast_S_S64),
    StableHlo.TRef.binary (.of main_call6_v9 : StableHlo.TRef sig ⟨S64, .f32⟩) (.of main_call6_v10 : StableHlo.TRef sig ⟨S64, .f32⟩) (.of main_call6_v11 : StableHlo.TRef sig ⟨S64, .f32⟩) Host.divf,
    StableHlo.TRef.nullary (.of main_call6_cst_3 : StableHlo.TRef sig ⟨S_, .f32⟩) (constant S_ .f32 0x00000000#32),
    StableHlo.TRef.binary (.of main_call6_v8 : StableHlo.TRef sig ⟨S_, .f32⟩) (.of main_call6_cst_3 : StableHlo.TRef sig ⟨S_, .f32⟩) (.of main_call6_v12 : StableHlo.TRef sig ⟨S_, .i1⟩) (cmpf .ogt),
    StableHlo.TRef.nullary (.of main_call6_cst_4 : StableHlo.TRef sig ⟨S_, .f32⟩) (constant S_ .f32 0x7FC00000#32),
    StableHlo.TRef.unary (.of main_call6_cst_4 : StableHlo.TRef sig ⟨S_, .f32⟩) (.of main_call6_call0_v0 : StableHlo.TRef sig ⟨S_, .f32⟩) id,
    StableHlo.TRef.unary (.of main_call6_call0_v0 : StableHlo.TRef sig ⟨S_, .f32⟩) (.of main_call6_call0_v1 : StableHlo.TRef sig ⟨S64, .f32⟩) (broadcastInDim S64 ![] bcast_S_S64),
    StableHlo.TRef.ternary (.of main_call6_v12 : StableHlo.TRef sig ⟨S_, .i1⟩) (.of main_call6_v11 : StableHlo.TRef sig ⟨S64, .f32⟩) (.of main_call6_call0_v1 : StableHlo.TRef sig ⟨S64, .f32⟩) (.of main_v99 : StableHlo.TRef sig ⟨S64, .f32⟩) (fun p a b => select (broadcastInDim S64 ![] bcast_S_S64 p) a b) ]
theorem w1_10_sub : (w1_10 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
/-- The buffers these operations write. -/
abbrev w1_10_W : List (Ref sig .tc) := [main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v99]
theorem w1_10_writes : (w1_10 : List (HloOp τ sig (Elt F))).Forall fun op => op.writes ⊆ (w1_10_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer they do not write keeps its contents. -/
theorem w1_10_keep (V : Valuation τ sig (Elt F)) (r : Ref sig .tc) (h : r ∉ w1_10_W) :
    after w1_10 V (Proc.devRef .tc r) = V (Proc.devRef .tc r) :=
  after_of_writes_sub w1_10 V w1_10_writes h
theorem w1_10_fresh : ∀ op ∈ (w1_10 : List (HloOp τ sig (Elt F))), op.fresh = ∅ := by
  intro _ h; (repeat (cases h with | head => rfl | tail _ h => ?_)); exact nomatch h

/-- 7 operations of the main function, in order. -/
abbrev w1_11 : List (HloOp τ sig (Elt F)) :=
  [ StableHlo.unary main_arg12 main_v100 ((extractStridedSlice S1x64 ![1, 0] · slices_S3x64_S1x64_1_0) : (⟨S3x64, .f32⟩ : BufTy).Contents (Elt F) → (⟨S1x64, .f32⟩ : BufTy).Contents (Elt F)),
    StableHlo.reshape main_v100 main_v101 rfl shapeCasts_S1x64_S64,
    StableHlo.unary main_v98 main_v102 (broadcastInDim S1x64 ![1] bcast_S64_S1x64_1 : (⟨S64, .f32⟩ : BufTy).Contents (Elt F) → (⟨S1x64, .f32⟩ : BufTy).Contents (Elt F)),
    StableHlo.unary main_v102 main_v103 (broadcastInDim S50000x64 ![0, 1] bcast_S1x64_S50000x64_0_1 : (⟨S1x64, .f32⟩ : BufTy).Contents (Elt F) → (⟨S50000x64, .f32⟩ : BufTy).Contents (Elt F)),
    StableHlo.binary main_v95 main_v103 main_v104 (subf : (⟨S50000x64, .f32⟩ : BufTy).Contents (Elt F) → (⟨S50000x64, .f32⟩ : BufTy).Contents (Elt F) → (⟨S50000x64, .f32⟩ : BufTy).Contents (Elt F)),
    StableHlo.unary main_v101 main_v105 (broadcastInDim S1x64 ![1] bcast_S64_S1x64_1 : (⟨S64, .f32⟩ : BufTy).Contents (Elt F) → (⟨S1x64, .f32⟩ : BufTy).Contents (Elt F)),
    StableHlo.unary main_v105 main_v106 (broadcastInDim S50000x64 ![0, 1] bcast_S1x64_S50000x64_0_1 : (⟨S1x64, .f32⟩ : BufTy).Contents (Elt F) → (⟨S50000x64, .f32⟩ : BufTy).Contents (Elt F)) ]
theorem w1_11_sub : (w1_11 : List (HloOp τ sig (Elt F))).Forall fun op => op.bufs ⊆ tcRefs τ sig :=
  ⟨unary_bufs_sub .., reshape_bufs_sub .., unary_bufs_sub .., unary_bufs_sub .., binary_bufs_sub .., unary_bufs_sub .., unary_bufs_sub ..⟩
/-- The buffers these operations write. -/
abbrev w1_11_W : List (Ref sig .tc) := [main_v100, main_v101, main_v102, main_v103, main_v104, main_v105, main_v106]
theorem w1_11_writes : (w1_11 : List (HloOp τ sig (Elt F))).Forall fun op => op.writes ⊆ (w1_11_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer they do not write keeps its contents. -/
theorem w1_11_keep (V : Valuation τ sig (Elt F)) (r : Ref sig .tc) (h : r ∉ w1_11_W) :
    after w1_11 V (Proc.devRef .tc r) = V (Proc.devRef .tc r) :=
  after_of_writes_sub w1_11 V w1_11_writes h
theorem w1_11_fresh : ∀ op ∈ (w1_11 : List (HloOp τ sig (Elt F))), op.fresh = ∅ := by
  intro _ h; (repeat (cases h with | head => rfl | tail _ h => ?_)); exact nomatch h

/-- The window is the chain of those lists, the last in tail position. -/
theorem main_part1_chain (c : Dev nD) : main_part1 (F := F) c = (Pipeline.chainK
  [ StableHlo.seq w1_0,
    StableHlo.seq w1_1,
    StableHlo.seq w1_2,
    StableHlo.seq w1_3,
    StableHlo.seq w1_4,
    StableHlo.seq w1_5,
    StableHlo.seq w1_6,
    StableHlo.seq w1_7,
    StableHlo.seq w1_8,
    StableHlo.seq w1_9,
    StableHlo.seq w1_10 ]
  (StableHlo.seq w1_11) : Prog (TpuEff nD τ sig (Elt F) (Pipeline.Sig Λ₀ (Fin 0) fun p => (pcfgs (F := F) p).Adm) .tc) PUnit) := by
  chain_rfl

end Cert.RefRun

end
-- ==== Proof.RefOps2.lean ====
import proofs.«172538_j12652973654090_1_alg».proof.Proof.Gen.ReferenceIdeal
import Idealize.ShloMosaic.Lib.StableHlo.Run
import Idealize.ShloMosaic.Lib.Pipeline.Regions

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]
/-! Window 2 of the reference program's main function as consecutive lists of whole-array operations:
    the function's own operations in order, and at each call of an outlined function that function's operations over the call's buffers. -/

/-- 13 operations of the main function, in order. -/
abbrev w2_0 : List (HloOp τ sig (Elt F)) :=
  [ StableHlo.binary main_v106 main_v104 main_v107 (mulf : (⟨S50000x64, .f32⟩ : BufTy).Contents (Elt F) → (⟨S50000x64, .f32⟩ : BufTy).Contents (Elt F) → (⟨S50000x64, .f32⟩ : BufTy).Contents (Elt F)),
    StableHlo.nullary main_cst_11 (constant S_ .f32 0x3727C5AC#32),
    StableHlo.unary main_cst_11 main_v108 (broadcastInDim S64 ![] bcast_S_S64 : (⟨S_, .f32⟩ : BufTy).Contents (Elt F) → (⟨S64, .f32⟩ : BufTy).Contents (Elt F)),
    StableHlo.binary main_v99 main_v108 main_v109 (addf : (⟨S64, .f32⟩ : BufTy).Contents (Elt F) → (⟨S64, .f32⟩ : BufTy).Contents (Elt F) → (⟨S64, .f32⟩ : BufTy).Contents (Elt F)),
    StableHlo.unary main_v109 main_v110 (Host.rsqrt : (⟨S64, .f32⟩ : BufTy).Contents (Elt F) → (⟨S64, .f32⟩ : BufTy).Contents (Elt F)),
    StableHlo.unary main_v110 main_v111 (broadcastInDim S1x64 ![1] bcast_S64_S1x64_1 : (⟨S64, .f32⟩ : BufTy).Contents (Elt F) → (⟨S1x64, .f32⟩ : BufTy).Contents (Elt F)),
    StableHlo.unary main_v111 main_v112 (broadcastInDim S50000x64 ![0, 1] bcast_S1x64_S50000x64_0_1 : (⟨S1x64, .f32⟩ : BufTy).Contents (Elt F) → (⟨S50000x64, .f32⟩ : BufTy).Contents (Elt F)),
    StableHlo.binary main_v107 main_v112 main_v113 (mulf : (⟨S50000x64, .f32⟩ : BufTy).Contents (Elt F) → (⟨S50000x64, .f32⟩ : BufTy).Contents (Elt F) → (⟨S50000x64, .f32⟩ : BufTy).Contents (Elt F)),
    StableHlo.unary main_arg13 main_v114 ((extractStridedSlice S1x64 ![1, 0] · slices_S3x64_S1x64_1_0) : (⟨S3x64, .f32⟩ : BufTy).Contents (Elt F) → (⟨S1x64, .f32⟩ : BufTy).Contents (Elt F)),
    StableHlo.reshape main_v114 main_v115 rfl shapeCasts_S1x64_S64,
    StableHlo.unary main_v115 main_v116 (broadcastInDim S1x64 ![1] bcast_S64_S1x64_1 : (⟨S64, .f32⟩ : BufTy).Contents (Elt F) → (⟨S1x64, .f32⟩ : BufTy).Contents (Elt F)),
    StableHlo.unary main_v116 main_v117 (broadcastInDim S50000x64 ![0, 1] bcast_S1x64_S50000x64_0_1 : (⟨S1x64, .f32⟩ : BufTy).Contents (Elt F) → (⟨S50000x64, .f32⟩ : BufTy).Contents (Elt F)),
    StableHlo.binary main_v113 main_v117 main_v118 (addf : (⟨S50000x64, .f32⟩ : BufTy).Contents (Elt F) → (⟨S50000x64, .f32⟩ : BufTy).Contents (Elt F) → (⟨S50000x64, .f32⟩ : BufTy).Contents (Elt F)) ]
theorem w2_0_sub : (w2_0 : List (HloOp τ sig (Elt F))).Forall fun op => op.bufs ⊆ tcRefs τ sig :=
  ⟨binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub ..⟩
/-- The buffers these operations write. -/
abbrev w2_0_W : List (Ref sig .tc) := [main_v107, main_cst_11, main_v108, main_v109, main_v110, main_v111, main_v112, main_v113, main_v114, main_v115, main_v116, main_v117, main_v118]
theorem w2_0_writes : (w2_0 : List (HloOp τ sig (Elt F))).Forall fun op => op.writes ⊆ (w2_0_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer they do not write keeps its contents. -/
theorem w2_0_keep (V : Valuation τ sig (Elt F)) (r : Ref sig .tc) (h : r ∉ w2_0_W) :
    after w2_0 V (Proc.devRef .tc r) = V (Proc.devRef .tc r) :=
  after_of_writes_sub w2_0 V w2_0_writes h
theorem w2_0_fresh : ∀ op ∈ (w2_0 : List (HloOp τ sig (Elt F))), op.fresh = ∅ := by
  intro _ h; (repeat (cases h with | head => rfl | tail _ h => ?_)); exact nomatch h

/-- 3 operations of @relu_1 over the buffers of main_call7, in order. -/
abbrev w2_1 : List (HloOp τ sig (Elt F)) :=
  [ StableHlo.TRef.nullary (.of main_call7_cst : StableHlo.TRef sig ⟨S_, .f32⟩) (constant S_ .f32 0x00000000#32),
    StableHlo.TRef.unary (.of main_call7_cst : StableHlo.TRef sig ⟨S_, .f32⟩) (.of main_call7_v0 : StableHlo.TRef sig ⟨S50000x64, .f32⟩) (broadcastInDim S50000x64 ![] bcast_S_S50000x64),
    StableHlo.TRef.binary (.of main_v118 : StableHlo.TRef sig ⟨S50000x64, .f32⟩) (.of main_call7_v0 : StableHlo.TRef sig ⟨S50000x64, .f32⟩) (.of main_v119 : StableHlo.TRef sig ⟨S50000x64, .f32⟩) maximumf ]
theorem w2_1_sub : (w2_1 : List (HloOp τ sig (Elt F))).Forall fun op => op.bufs ⊆ tcRefs τ sig :=
  ⟨nullary_bufs_sub .., unary_bufs_sub .., binary_bufs_sub ..⟩
/-- The buffers these operations write. -/
abbrev w2_1_W : List (Ref sig .tc) := [main_call7_cst, main_call7_v0, main_v119]
theorem w2_1_writes : (w2_1 : List (HloOp τ sig (Elt F))).Forall fun op => op.writes ⊆ (w2_1_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer they do not write keeps its contents. -/
theorem w2_1_keep (V : Valuation τ sig (Elt F)) (r : Ref sig .tc) (h : r ∉ w2_1_W) :
    after w2_1 V (Proc.devRef .tc r) = V (Proc.devRef .tc r) :=
  after_of_writes_sub w2_1 V w2_1_writes h
theorem w2_1_fresh : ∀ op ∈ (w2_1 : List (HloOp τ sig (Elt F))), op.fresh = ∅ := by
  intro _ h; (repeat (cases h with | head => rfl | tail _ h => ?_)); exact nomatch h

/-- 10 operations of the main function, in order. -/
abbrev w2_2 : List (HloOp τ sig (Elt F)) :=
  [ StableHlo.nullary main_c_12 (constantI S_ 32 0#32),
    StableHlo.unary main_c_12 main_v120 (broadcastInDim S1600000 ![] bcast_S_S1600000 : (⟨S_, .i32⟩ : BufTy).Contents (Elt F) → (⟨S1600000, .i32⟩ : BufTy).Contents (Elt F)),
    StableHlo.binary main_v9 main_v120 main_v121 (cmpi .slt : (⟨S1600000, .i32⟩ : BufTy).Contents (Elt F) → (⟨S1600000, .i32⟩ : BufTy).Contents (Elt F) → (⟨S1600000, .i1⟩ : BufTy).Contents (Elt F)),
    StableHlo.nullary main_c_13 (constantI S_ 32 50000#32),
    StableHlo.unary main_c_13 main_v122 (broadcastInDim S1600000 ![] bcast_S_S1600000 : (⟨S_, .i32⟩ : BufTy).Contents (Elt F) → (⟨S1600000, .i32⟩ : BufTy).Contents (Elt F)),
    StableHlo.binary main_v9 main_v122 main_v123 (addi : (⟨S1600000, .i32⟩ : BufTy).Contents (Elt F) → (⟨S1600000, .i32⟩ : BufTy).Contents (Elt F) → (⟨S1600000, .i32⟩ : BufTy).Contents (Elt F)),
    StableHlo.ternary main_v121 main_v123 main_v9 main_v124 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v124 main_v125 (broadcastInDim S1600000x1 ![0] bcast_S1600000_S1600000x1_0 : (⟨S1600000, .i32⟩ : BufTy).Contents (Elt F) → (⟨S1600000x1, .i32⟩ : BufTy).Contents (Elt F)),
    StableHlo.binary main_v119 main_v125 main_v126 ((fun x i => Host.gather gather_S50000x64_S1600000x1_S1600000x64_1_0_n_n_0_1_164 x i) : (⟨S50000x64, .f32⟩ : BufTy).Contents (Elt F) → (⟨S1600000x1, .i32⟩ : BufTy).Contents (Elt F) → (⟨S1600000x64, .f32⟩ : BufTy).Contents (Elt F)),
    StableHlo.binary main_v126 main_v7 main_v127 (addf : (⟨S1600000x64, .f32⟩ : BufTy).Contents (Elt F) → (⟨S1600000x64, .f32⟩ : BufTy).Contents (Elt F) → (⟨S1600000x64, .f32⟩ : BufTy).Contents (Elt F)) ]
theorem w2_2_sub : (w2_2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub ..⟩
/-- The buffers these operations write. -/
abbrev w2_2_W : List (Ref sig .tc) := [main_c_12, main_v120, main_v121, main_c_13, main_v122, main_v123, main_v124, main_v125, main_v126, main_v127]
theorem w2_2_writes : (w2_2 : List (HloOp τ sig (Elt F))).Forall fun op => op.writes ⊆ (w2_2_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer they do not write keeps its contents. -/
theorem w2_2_keep (V : Valuation τ sig (Elt F)) (r : Ref sig .tc) (h : r ∉ w2_2_W) :
    after w2_2 V (Proc.devRef .tc r) = V (Proc.devRef .tc r) :=
  after_of_writes_sub w2_2 V w2_2_writes h
theorem w2_2_fresh : ∀ op ∈ (w2_2 : List (HloOp τ sig (Elt F))), op.fresh = ∅ := by
  intro _ h; (repeat (cases h with | head => rfl | tail _ h => ?_)); exact nomatch h

/-- 3 operations of @relu over the buffers of main_call8, in order. -/
abbrev w2_3 : List (HloOp τ sig (Elt F)) :=
  [ StableHlo.TRef.nullary (.of main_call8_cst : StableHlo.TRef sig ⟨S_, .f32⟩) (constant S_ .f32 0x00000000#32),
    StableHlo.TRef.unary (.of main_call8_cst : StableHlo.TRef sig ⟨S_, .f32⟩) (.of main_call8_v0 : StableHlo.TRef sig ⟨S1600000x64, .f32⟩) (broadcastInDim S1600000x64 ![] bcast_S_S1600000x64),
    StableHlo.TRef.binary (.of main_v127 : StableHlo.TRef sig ⟨S1600000x64, .f32⟩) (.of main_call8_v0 : StableHlo.TRef sig ⟨S1600000x64, .f32⟩) (.of main_v128 : StableHlo.TRef sig ⟨S1600000x64, .f32⟩) maximumf ]
theorem w2_3_sub : (w2_3 : List (HloOp τ sig (Elt F))).Forall fun op => op.bufs ⊆ tcRefs τ sig :=
  ⟨nullary_bufs_sub .., unary_bufs_sub .., binary_bufs_sub ..⟩
/-- The buffers these operations write. -/
abbrev w2_3_W : List (Ref sig .tc) := [main_call8_cst, main_call8_v0, main_v128]
theorem w2_3_writes : (w2_3 : List (HloOp τ sig (Elt F))).Forall fun op => op.writes ⊆ (w2_3_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer they do not write keeps its contents. -/
theorem w2_3_keep (V : Valuation τ sig (Elt F)) (r : Ref sig .tc) (h : r ∉ w2_3_W) :
    after w2_3 V (Proc.devRef .tc r) = V (Proc.devRef .tc r) :=
  after_of_writes_sub w2_3 V w2_3_writes h
theorem w2_3_fresh : ∀ op ∈ (w2_3 : List (HloOp τ sig (Elt F))), op.fresh = ∅ := by
  intro _ h; (repeat (cases h with | head => rfl | tail _ h => ?_)); exact nomatch h

/-- 4 operations of the main function, in order. -/
abbrev w2_4 : List (HloOp τ sig (Elt F)) :=
  [ StableHlo.nullary main_cst_14 (constant S_ .f32 0x00000000#32),
    StableHlo.unary main_cst_14 main_v129 (broadcastInDim S50000x64 ![] bcast_S_S50000x64 : (⟨S_, .f32⟩ : BufTy).Contents (Elt F) → (⟨S50000x64, .f32⟩ : BufTy).Contents (Elt F)),
    StableHlo.unary main_v11 main_v130 (broadcastInDim S1600000x1 ![0] bcast_S1600000_S1600000x1_0 : (⟨S1600000, .i32⟩ : BufTy).Contents (Elt F) → (⟨S1600000x1, .i32⟩ : BufTy).Contents (Elt F)),
    StableHlo.ternary main_v129 main_v130 main_v128 main_v131 ((fun x i u => Host.scatterAdd scatter_S50000x64_S1600000x1_S1600000x64_1_0_0_1 x i u) : (⟨S50000x64, .f32⟩ : BufTy).Contents (Elt F) → (⟨S1600000x1, .i32⟩ : BufTy).Contents (Elt F) → (⟨S1600000x64, .f32⟩ : BufTy).Contents (Elt F) → (⟨S50000x64, .f32⟩ : BufTy).Contents (Elt F)) ]
theorem w2_4_sub : (w2_4 : List (HloOp τ sig (Elt F))).Forall fun op => op.bufs ⊆ tcRefs τ sig :=
  ⟨nullary_bufs_sub .., unary_bufs_sub .., unary_bufs_sub .., ternary_bufs_sub ..⟩
/-- The buffers these operations write. -/
abbrev w2_4_W : List (Ref sig .tc) := [main_cst_14, main_v129, main_v130, main_v131]
theorem w2_4_writes : (w2_4 : List (HloOp τ sig (Elt F))).Forall fun op => op.writes ⊆ (w2_4_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer they do not write keeps its contents. -/
theorem w2_4_keep (V : Valuation τ sig (Elt F)) (r : Ref sig .tc) (h : r ∉ w2_4_W) :
    after w2_4 V (Proc.devRef .tc r) = V (Proc.devRef .tc r) :=
  after_of_writes_sub w2_4 V w2_4_writes h
theorem w2_4_fresh : ∀ op ∈ (w2_4 : List (HloOp τ sig (Elt F))), op.fresh = ∅ := by
  intro _ h; (repeat (cases h with | head => rfl | tail _ h => ?_)); exact nomatch h

/-- 9 operations of the main function, in order. -/
abbrev w2_5 : List (HloOp τ sig (Elt F)) :=
  [ StableHlo.binary main_v119 main_v131 main_v132 (addf : (⟨S50000x64, .f32⟩ : BufTy).Contents (Elt F) → (⟨S50000x64, .f32⟩ : BufTy).Contents (Elt F) → (⟨S50000x64, .f32⟩ : BufTy).Contents (Elt F)),
    StableHlo.unary main_arg8 main_v133 ((extractStridedSlice S1x64x128 ![2, 0, 0] · slices_S3x64x128_S1x64x128_2_0_0) : (⟨S3x64x128, .f32⟩ : BufTy).Contents (Elt F) → (⟨S1x64x128, .f32⟩ : BufTy).Contents (Elt F)),
    StableHlo.reshape main_v133 main_v134 rfl shapeCasts_S1x64x128_S64x128,
    StableHlo.binary main_v132 main_v134 main_v135 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    StableHlo.unary main_arg9 main_v136 ((extractStridedSlice S1x128 ![2, 0] · slices_S3x128_S1x128_2_0) : (⟨S3x128, .f32⟩ : BufTy).Contents (Elt F) → (⟨S1x128, .f32⟩ : BufTy).Contents (Elt F)),
    StableHlo.reshape main_v136 main_v137 rfl shapeCasts_S1x128_S128,
    StableHlo.unary main_v137 main_v138 (broadcastInDim S1x128 ![1] bcast_S128_S1x128_1 : (⟨S128, .f32⟩ : BufTy).Contents (Elt F) → (⟨S1x128, .f32⟩ : BufTy).Contents (Elt F)),
    StableHlo.unary main_v138 main_v139 (broadcastInDim S50000x128 ![0, 1] bcast_S1x128_S50000x128_0_1 : (⟨S1x128, .f32⟩ : BufTy).Contents (Elt F) → (⟨S50000x128, .f32⟩ : BufTy).Contents (Elt F)),
    StableHlo.binary main_v135 main_v139 main_v140 (addf : (⟨S50000x128, .f32⟩ : BufTy).Contents (Elt F) → (⟨S50000x128, .f32⟩ : BufTy).Contents (Elt F) → (⟨S50000x128, .f32⟩ : BufTy).Contents (Elt F)) ]
theorem w2_5_sub : (w2_5 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub ..⟩
/-- The buffers these operations write. -/
abbrev w2_5_W : List (Ref sig .tc) := [main_v132, main_v133, main_v134, main_v135, main_v136, main_v137, main_v138, main_v139, main_v140]
theorem w2_5_writes : (w2_5 : List (HloOp τ sig (Elt F))).Forall fun op => op.writes ⊆ (w2_5_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer they do not write keeps its contents. -/
theorem w2_5_keep (V : Valuation τ sig (Elt F)) (r : Ref sig .tc) (h : r ∉ w2_5_W) :
    after w2_5 V (Proc.devRef .tc r) = V (Proc.devRef .tc r) :=
  after_of_writes_sub w2_5 V w2_5_writes h
theorem w2_5_fresh : ∀ op ∈ (w2_5 : List (HloOp τ sig (Elt F))), op.fresh = ∅ := by
  intro _ h; (repeat (cases h with | head => rfl | tail _ h => ?_)); exact nomatch h

/-- 3 operations of @relu_0 over the buffers of main_call9, in order. -/
abbrev w2_6 : List (HloOp τ sig (Elt F)) :=
  [ StableHlo.TRef.nullary (.of main_call9_cst : StableHlo.TRef sig ⟨S_, .f32⟩) (constant S_ .f32 0x00000000#32),
    StableHlo.TRef.unary (.of main_call9_cst : StableHlo.TRef sig ⟨S_, .f32⟩) (.of main_call9_v0 : StableHlo.TRef sig ⟨S50000x128, .f32⟩) (broadcastInDim S50000x128 ![] bcast_S_S50000x128),
    StableHlo.TRef.binary (.of main_v140 : StableHlo.TRef sig ⟨S50000x128, .f32⟩) (.of main_call9_v0 : StableHlo.TRef sig ⟨S50000x128, .f32⟩) (.of main_v141 : StableHlo.TRef sig ⟨S50000x128, .f32⟩) maximumf ]
theorem w2_6_sub : (w2_6 : List (HloOp τ sig (Elt F))).Forall fun op => op.bufs ⊆ tcRefs τ sig :=
  ⟨nullary_bufs_sub .., unary_bufs_sub .., binary_bufs_sub ..⟩
/-- The buffers these operations write. -/
abbrev w2_6_W : List (Ref sig .tc) := [main_call9_cst, main_call9_v0, main_v141]
theorem w2_6_writes : (w2_6 : List (HloOp τ sig (Elt F))).Forall fun op => op.writes ⊆ (w2_6_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer they do not write keeps its contents. -/
theorem w2_6_keep (V : Valuation τ sig (Elt F)) (r : Ref sig .tc) (h : r ∉ w2_6_W) :
    after w2_6 V (Proc.devRef .tc r) = V (Proc.devRef .tc r) :=
  after_of_writes_sub w2_6 V w2_6_writes h
theorem w2_6_fresh : ∀ op ∈ (w2_6 : List (HloOp τ sig (Elt F))), op.fresh = ∅ := by
  intro _ h; (repeat (cases h with | head => rfl | tail _ h => ?_)); exact nomatch h

/-- 8 operations of the main function, in order. -/
abbrev w2_7 : List (HloOp τ sig (Elt F)) :=
  [ StableHlo.unary main_arg10 main_v142 ((extractStridedSlice S1x128x64 ![2, 0, 0] · slices_S3x128x64_S1x128x64_2_0_0) : (⟨S3x128x64, .f32⟩ : BufTy).Contents (Elt F) → (⟨S1x128x64, .f32⟩ : BufTy).Contents (Elt F)),
    StableHlo.reshape main_v142 main_v143 rfl shapeCasts_S1x128x64_S128x64,
    StableHlo.binary main_v141 main_v143 main_v144 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg11 main_v145 ((extractStridedSlice S1x64 ![2, 0] · slices_S3x64_S1x64_2_0) : (⟨S3x64, .f32⟩ : BufTy).Contents (Elt F) → (⟨S1x64, .f32⟩ : BufTy).Contents (Elt F)),
    StableHlo.reshape main_v145 main_v146 rfl shapeCasts_S1x64_S64,
    StableHlo.unary main_v146 main_v147 (broadcastInDim S1x64 ![1] bcast_S64_S1x64_1 : (⟨S64, .f32⟩ : BufTy).Contents (Elt F) → (⟨S1x64, .f32⟩ : BufTy).Contents (Elt F)),
    StableHlo.unary main_v147 main_v148 (broadcastInDim S50000x64 ![0, 1] bcast_S1x64_S50000x64_0_1 : (⟨S1x64, .f32⟩ : BufTy).Contents (Elt F) → (⟨S50000x64, .f32⟩ : BufTy).Contents (Elt F)),
    StableHlo.binary main_v144 main_v148 main_v149 (addf : (⟨S50000x64, .f32⟩ : BufTy).Contents (Elt F) → (⟨S50000x64, .f32⟩ : BufTy).Contents (Elt F) → (⟨S50000x64, .f32⟩ : BufTy).Contents (Elt F)) ]
theorem w2_7_sub : (w2_7 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub ..⟩
/-- The buffers these operations write. -/
abbrev w2_7_W : List (Ref sig .tc) := [main_v142, main_v143, main_v144, main_v145, main_v146, main_v147, main_v148, main_v149]
theorem w2_7_writes : (w2_7 : List (HloOp τ sig (Elt F))).Forall fun op => op.writes ⊆ (w2_7_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer they do not write keeps its contents. -/
theorem w2_7_keep (V : Valuation τ sig (Elt F)) (r : Ref sig .tc) (h : r ∉ w2_7_W) :
    after w2_7 V (Proc.devRef .tc r) = V (Proc.devRef .tc r) :=
  after_of_writes_sub w2_7 V w2_7_writes h
theorem w2_7_fresh : ∀ op ∈ (w2_7 : List (HloOp τ sig (Elt F))), op.fresh = ∅ := by
  intro _ h; (repeat (cases h with | head => rfl | tail _ h => ?_)); exact nomatch h

/-- 5 operations of the main function, in order. -/
abbrev w2_8 : List (HloOp τ sig (Elt F)) :=
  [ StableHlo.nullary main_cst_15 (constant S_ .f32 0x00000000#32),
    StableHlo.binary main_v149 main_cst_15 main_v150 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_16 (constant S_ .f32 0x47435000#32),
    StableHlo.unary main_cst_16 main_v151 (broadcastInDim S64 ![] bcast_S_S64 : (⟨S_, .f32⟩ : BufTy).Contents (Elt F) → (⟨S64, .f32⟩ : BufTy).Contents (Elt F)),
    StableHlo.binary main_v150 main_v151 main_v152 (Host.divf : (⟨S64, .f32⟩ : BufTy).Contents (Elt F) → (⟨S64, .f32⟩ : BufTy).Contents (Elt F) → (⟨S64, .f32⟩ : BufTy).Contents (Elt F)) ]
theorem w2_8_sub : (w2_8 : List (HloOp τ sig (Elt F))).Forall fun op => op.bufs ⊆ tcRefs τ sig :=
  ⟨nullary_bufs_sub .., binary_bufs_sub .., nullary_bufs_sub .., unary_bufs_sub .., binary_bufs_sub ..⟩
/-- The buffers these operations write. -/
abbrev w2_8_W : List (Ref sig .tc) := [main_cst_15, main_v150, main_cst_16, main_v151, main_v152]
theorem w2_8_writes : (w2_8 : List (HloOp τ sig (Elt F))).Forall fun op => op.writes ⊆ (w2_8_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer they do not write keeps its contents. -/
theorem w2_8_keep (V : Valuation τ sig (Elt F)) (r : Ref sig .tc) (h : r ∉ w2_8_W) :
    after w2_8 V (Proc.devRef .tc r) = V (Proc.devRef .tc r) :=
  after_of_writes_sub w2_8 V w2_8_writes h
theorem w2_8_fresh : ∀ op ∈ (w2_8 : List (HloOp τ sig (Elt F))), op.fresh = ∅ := by
  intro _ h; (repeat (cases h with | head => rfl | tail _ h => ?_)); exact nomatch h

/-- 1 operations of the main function, in order. -/
abbrev w2_9 : List (HloOp τ sig (Elt F)) :=
  [ StableHlo.nullary main_c_17 (constantI S_ 32 0#32) ]
theorem w2_9_sub : (w2_9 : List (HloOp τ sig (Elt F))).Forall fun op => op.bufs ⊆ tcRefs τ sig :=
  nullary_bufs_sub ..
/-- The buffers these operations write. -/
abbrev w2_9_W : List (Ref sig .tc) := [main_c_17]
theorem w2_9_writes : (w2_9 : List (HloOp τ sig (Elt F))).Forall fun op => op.writes ⊆ (w2_9_W.map (Proc.devRef (τ := τ) .tc)).toFinset := by
  simp only [List.Forall]; exact (by simp only [nullary_writes, unary_writes, binary_writes, ternary_writes, reshape_writes, Finset.singleton_subset_iff, List.mem_toFinset]; exact List.mem_map_of_mem (by decide))
/-- A buffer they do not write keeps its contents. -/
theorem w2_9_keep (V : Valuation τ sig (Elt F)) (r : Ref sig .tc) (h : r ∉ w2_9_W) :
    after w2_9 V (Proc.devRef .tc r) = V (Proc.devRef .tc r) :=
  after_of_writes_sub w2_9 V w2_9_writes h
theorem w2_9_fresh : ∀ op ∈ (w2_9 : List (HloOp τ sig (Elt F))), op.fresh = ∅ := by
  intro _ h; (repeat (cases h with | head => rfl | tail _ h => ?_)); exact nomatch h

/-- 22 operations of @var over the buffers of main_call10, in order. -/
abbrev w2_10 : List (HloOp τ sig (Elt F)) :=
  [ StableHlo.TRef.nullary (.of main_call10_cst : StableHlo.TRef sig ⟨S_, .f32⟩) (constant S_ .f32 0x00000000#32),
    StableHlo.TRef.binary (.of main_v149 : StableHlo.TRef sig ⟨S50000x64, .f32⟩) (.of main_call10_cst : StableHlo.TRef sig ⟨S_, .f32⟩) (.of main_call10_v0 : StableHlo.TRef sig ⟨S64, .f32⟩) (fun x v => Host.reduceAdd x v reducesTo_S50000x64_S64_d0 h_S_),
    StableHlo.TRef.unary (.of main_call10_v0 : StableHlo.TRef sig ⟨S64, .f32⟩) (.of main_call10_v1 : StableHlo.TRef sig ⟨S1x64, .f32⟩) (broadcastInDim S1x64 ![1] bcast_S64_S1x64_1),
    StableHlo.TRef.nullary (.of main_call10_cst_0 : StableHlo.TRef sig ⟨S_, .f32⟩) (constant S_ .f32 0x47435000#32),
    StableHlo.TRef.unary (.of main_call10_cst_0 : StableHlo.TRef sig ⟨S_, .f32⟩) (.of main_call10_v2 : StableHlo.TRef sig ⟨S1x64, .f32⟩) (broadcastInDim S1x64 ![] bcast_S_S1x64),
    StableHlo.TRef.binary (.of main_call10_v1 : StableHlo.TRef sig ⟨S1x64, .f32⟩) (.of main_call10_v2 : StableHlo.TRef sig ⟨S1x64, .f32⟩) (.of main_call10_v3 : StableHlo.TRef sig ⟨S1x64, .f32⟩) Host.divf,
    StableHlo.TRef.unary (.of main_call10_v3 : StableHlo.TRef sig ⟨S1x64, .f32⟩) (.of main_call10_v4 : StableHlo.TRef sig ⟨S50000x64, .f32⟩) (broadcastInDim S50000x64 ![0, 1] bcast_S1x64_S50000x64_0_1),
    StableHlo.TRef.binary (.of main_v149 : StableHlo.TRef sig ⟨S50000x64, .f32⟩) (.of main_call10_v4 : StableHlo.TRef sig ⟨S50000x64, .f32⟩) (.of main_call10_v5 : StableHlo.TRef sig ⟨S50000x64, .f32⟩) subf,
    StableHlo.TRef.binary (.of main_call10_v5 : StableHlo.TRef sig ⟨S50000x64, .f32⟩) (.of main_call10_v5 : StableHlo.TRef sig ⟨S50000x64, .f32⟩) (.of main_call10_v6 : StableHlo.TRef sig ⟨S50000x64, .f32⟩) mulf,
    StableHlo.TRef.unary (.of main_c_17 : StableHlo.TRef sig ⟨S_, .i32⟩) (.of main_call10_v7 : StableHlo.TRef sig ⟨S_, .f32⟩) (sitofp .f32),
    StableHlo.TRef.nullary (.of main_call10_cst_1 : StableHlo.TRef sig ⟨S_, .f32⟩) (constant S_ .f32 0x47435000#32),
    StableHlo.TRef.binary (.of main_call10_cst_1 : StableHlo.TRef sig ⟨S_, .f32⟩) (.of main_call10_v7 : StableHlo.TRef sig ⟨S_, .f32⟩) (.of main_call10_v8 : StableHlo.TRef sig ⟨S_, .f32⟩) subf,
    StableHlo.TRef.nullary (.of main_call10_cst_2 : StableHlo.TRef sig ⟨S_, .f32⟩) (constant S_ .f32 0x00000000#32),
    StableHlo.TRef.binary (.of main_call10_v6 : StableHlo.TRef sig ⟨S50000x64, .f32⟩) (.of main_call10_cst_2 : StableHlo.TRef sig ⟨S_, .f32⟩) (.of main_call10_v9 : StableHlo.TRef sig ⟨S64, .f32⟩) (fun x v => Host.reduceAdd x v reducesTo_S50000x64_S64_d0 h_S_),
    StableHlo.TRef.unary (.of main_call10_v8 : StableHlo.TRef sig ⟨S_, .f32⟩) (.of main_call10_v10 : StableHlo.TRef sig ⟨S64, .f32⟩) (broadcastInDim S64 ![] bcast_S_S64),
    StableHlo.TRef.binary (.of main_call10_v9 : StableHlo.TRef sig ⟨S64, .f32⟩) (.of main_call10_v10 : StableHlo.TRef sig ⟨S64, .f32⟩) (.of main_call10_v11 : StableHlo.TRef sig ⟨S64, .f32⟩) Host.divf,
    StableHlo.TRef.nullary (.of main_call10_cst_3 : StableHlo.TRef sig ⟨S_, .f32⟩) (constant S_ .f32 0x00000000#32),
    StableHlo.TRef.binary (.of main_call10_v8 : StableHlo.TRef sig ⟨S_, .f32⟩) (.of main_call10_cst_3 : StableHlo.TRef sig ⟨S_, .f32⟩) (.of main_call10_v12 : StableHlo.TRef sig ⟨S_, .i1⟩) (cmpf .ogt),
    StableHlo.TRef.nullary (.of main_call10_cst_4 : StableHlo.TRef sig ⟨S_, .f32⟩) (constant S_ .f32 0x7FC00000#32),
    StableHlo.TRef.unary (.of main_call10_cst_4 : StableHlo.TRef sig ⟨S_, .f32⟩) (.of main_call10_call0_v0 : StableHlo.TRef sig ⟨S_, .f32⟩) id,
    StableHlo.TRef.unary (.of main_call10_call0_v0 : StableHlo.TRef sig ⟨S_, .f32⟩) (.of main_call10_call0_v1 : StableHlo.TRef sig ⟨S64, .f32⟩) (broadcastInDim S64 ![] bcast_S_S64),
    StableHlo.TRef.ternary (.of main_call10_v12 : StableHlo.TRef sig ⟨S_, .i1⟩) (.of main_call10_v11 : StableHlo.TRef sig ⟨S64, .f32⟩) (.of main_call10_call0_v1 : StableHlo.TRef sig ⟨S64, .f32⟩) (.of main_v153 : StableHlo.TRef sig ⟨S64, .f32⟩) (fun p a b => select (broadcastInDim S64 ![] bcast_S_S64 p) a b) ]
theorem w2_10_sub : (w2_10 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
/-- The buffers these operations write. -/
abbrev w2_10_W : List (Ref sig .tc) := [main_call10_cst, main_call10_v0, main_call10_v1, main_call10_cst_0, main_call10_v2, main_call10_v3, main_call10_v4, main_call10_v5, main_call10_v6, main_call10_v7, main_call10_cst_1, main_call10_v8, main_call10_cst_2, main_call10_v9, main_call10_v10, main_call10_v11, main_call10_cst_3, main_call10_v12, main_call10_cst_4, main_call10_call0_v0, main_call10_call0_v1, main_v153]
theorem w2_10_writes : (w2_10 : List (HloOp τ sig (Elt F))).Forall fun op => op.writes ⊆ (w2_10_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer they do not write keeps its contents. -/
theorem w2_10_keep (V : Valuation τ sig (Elt F)) (r : Ref sig .tc) (h : r ∉ w2_10_W) :
    after w2_10 V (Proc.devRef .tc r) = V (Proc.devRef .tc r) :=
  after_of_writes_sub w2_10 V w2_10_writes h
theorem w2_10_fresh : ∀ op ∈ (w2_10 : List (HloOp τ sig (Elt F))), op.fresh = ∅ := by
  intro _ h; (repeat (cases h with | head => rfl | tail _ h => ?_)); exact nomatch h

/-- 6 operations of the main function, in order. -/
abbrev w2_11 : List (HloOp τ sig (Elt F)) :=
  [ StableHlo.unary main_arg12 main_v154 ((extractStridedSlice S1x64 ![2, 0] · slices_S3x64_S1x64_2_0) : (⟨S3x64, .f32⟩ : BufTy).Contents (Elt F) → (⟨S1x64, .f32⟩ : BufTy).Contents (Elt F)),
    StableHlo.reshape main_v154 main_v155 rfl shapeCasts_S1x64_S64,
    StableHlo.unary main_v152 main_v156 (broadcastInDim S1x64 ![1] bcast_S64_S1x64_1 : (⟨S64, .f32⟩ : BufTy).Contents (Elt F) → (⟨S1x64, .f32⟩ : BufTy).Contents (Elt F)),
    StableHlo.unary main_v156 main_v157 (broadcastInDim S50000x64 ![0, 1] bcast_S1x64_S50000x64_0_1 : (⟨S1x64, .f32⟩ : BufTy).Contents (Elt F) → (⟨S50000x64, .f32⟩ : BufTy).Contents (Elt F)),
    StableHlo.binary main_v149 main_v157 main_v158 (subf : (⟨S50000x64, .f32⟩ : BufTy).Contents (Elt F) → (⟨S50000x64, .f32⟩ : BufTy).Contents (Elt F) → (⟨S50000x64, .f32⟩ : BufTy).Contents (Elt F)),
    StableHlo.unary main_v155 main_v159 (broadcastInDim S1x64 ![1] bcast_S64_S1x64_1 : (⟨S64, .f32⟩ : BufTy).Contents (Elt F) → (⟨S1x64, .f32⟩ : BufTy).Contents (Elt F)) ]
theorem w2_11_sub : (w2_11 : List (HloOp τ sig (Elt F))).Forall fun op => op.bufs ⊆ tcRefs τ sig :=
  ⟨unary_bufs_sub .., reshape_bufs_sub .., unary_bufs_sub .., unary_bufs_sub .., binary_bufs_sub .., unary_bufs_sub ..⟩
/-- The buffers these operations write. -/
abbrev w2_11_W : List (Ref sig .tc) := [main_v154, main_v155, main_v156, main_v157, main_v158, main_v159]
theorem w2_11_writes : (w2_11 : List (HloOp τ sig (Elt F))).Forall fun op => op.writes ⊆ (w2_11_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer they do not write keeps its contents. -/
theorem w2_11_keep (V : Valuation τ sig (Elt F)) (r : Ref sig .tc) (h : r ∉ w2_11_W) :
    after w2_11 V (Proc.devRef .tc r) = V (Proc.devRef .tc r) :=
  after_of_writes_sub w2_11 V w2_11_writes h
theorem w2_11_fresh : ∀ op ∈ (w2_11 : List (HloOp τ sig (Elt F))), op.fresh = ∅ := by
  intro _ h; (repeat (cases h with | head => rfl | tail _ h => ?_)); exact nomatch h

/-- The window is the chain of those lists, the last in tail position. -/
theorem main_part2_chain (c : Dev nD) : main_part2 (F := F) c = (Pipeline.chainK
  [ StableHlo.seq w2_0,
    StableHlo.seq w2_1,
    StableHlo.seq w2_2,
    StableHlo.seq w2_3,
    StableHlo.seq w2_4,
    StableHlo.seq w2_5,
    StableHlo.seq w2_6,
    StableHlo.seq w2_7,
    StableHlo.seq w2_8,
    StableHlo.seq w2_9,
    StableHlo.seq w2_10 ]
  (StableHlo.seq w2_11) : Prog (TpuEff nD τ sig (Elt F) (Pipeline.Sig Λ₀ (Fin 0) fun p => (pcfgs (F := F) p).Adm) .tc) PUnit) := by
  chain_rfl

end Cert.RefRun

end
-- ==== Proof.RefOps3.lean ====
import proofs.«172538_j12652973654090_1_alg».proof.Proof.Gen.ReferenceIdeal
import Idealize.ShloMosaic.Lib.StableHlo.Run
import Idealize.ShloMosaic.Lib.Pipeline.Regions

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]
/-! Window 3 of the reference program's main function as consecutive lists of whole-array operations:
    the function's own operations in order, and at each call of an outlined function that function's operations over the call's buffers. -/

/-- 14 operations of the main function, in order. -/
abbrev w3_0 : List (HloOp τ sig (Elt F)) :=
  [ StableHlo.unary main_v159 main_v160 (broadcastInDim S50000x64 ![0, 1] bcast_S1x64_S50000x64_0_1 : (⟨S1x64, .f32⟩ : BufTy).Contents (Elt F) → (⟨S50000x64, .f32⟩ : BufTy).Contents (Elt F)),
    StableHlo.binary main_v160 main_v158 main_v161 (mulf : (⟨S50000x64, .f32⟩ : BufTy).Contents (Elt F) → (⟨S50000x64, .f32⟩ : BufTy).Contents (Elt F) → (⟨S50000x64, .f32⟩ : BufTy).Contents (Elt F)),
    StableHlo.nullary main_cst_18 (constant S_ .f32 0x3727C5AC#32),
    StableHlo.unary main_cst_18 main_v162 (broadcastInDim S64 ![] bcast_S_S64 : (⟨S_, .f32⟩ : BufTy).Contents (Elt F) → (⟨S64, .f32⟩ : BufTy).Contents (Elt F)),
    StableHlo.binary main_v153 main_v162 main_v163 (addf : (⟨S64, .f32⟩ : BufTy).Contents (Elt F) → (⟨S64, .f32⟩ : BufTy).Contents (Elt F) → (⟨S64, .f32⟩ : BufTy).Contents (Elt F)),
    StableHlo.unary main_v163 main_v164 (Host.rsqrt : (⟨S64, .f32⟩ : BufTy).Contents (Elt F) → (⟨S64, .f32⟩ : BufTy).Contents (Elt F)),
    StableHlo.unary main_v164 main_v165 (broadcastInDim S1x64 ![1] bcast_S64_S1x64_1 : (⟨S64, .f32⟩ : BufTy).Contents (Elt F) → (⟨S1x64, .f32⟩ : BufTy).Contents (Elt F)),
    StableHlo.unary main_v165 main_v166 (broadcastInDim S50000x64 ![0, 1] bcast_S1x64_S50000x64_0_1 : (⟨S1x64, .f32⟩ : BufTy).Contents (Elt F) → (⟨S50000x64, .f32⟩ : BufTy).Contents (Elt F)),
    StableHlo.binary main_v161 main_v166 main_v167 (mulf : (⟨S50000x64, .f32⟩ : BufTy).Contents (Elt F) → (⟨S50000x64, .f32⟩ : BufTy).Contents (Elt F) → (⟨S50000x64, .f32⟩ : BufTy).Contents (Elt F)),
    StableHlo.unary main_arg13 main_v168 ((extractStridedSlice S1x64 ![2, 0] · slices_S3x64_S1x64_2_0) : (⟨S3x64, .f32⟩ : BufTy).Contents (Elt F) → (⟨S1x64, .f32⟩ : BufTy).Contents (Elt F)),
    StableHlo.reshape main_v168 main_v169 rfl shapeCasts_S1x64_S64,
    StableHlo.unary main_v169 main_v170 (broadcastInDim S1x64 ![1] bcast_S64_S1x64_1 : (⟨S64, .f32⟩ : BufTy).Contents (Elt F) → (⟨S1x64, .f32⟩ : BufTy).Contents (Elt F)),
    StableHlo.unary main_v170 main_v171 (broadcastInDim S50000x64 ![0, 1] bcast_S1x64_S50000x64_0_1 : (⟨S1x64, .f32⟩ : BufTy).Contents (Elt F) → (⟨S50000x64, .f32⟩ : BufTy).Contents (Elt F)),
    StableHlo.binary main_v167 main_v171 main_v172 (addf : (⟨S50000x64, .f32⟩ : BufTy).Contents (Elt F) → (⟨S50000x64, .f32⟩ : BufTy).Contents (Elt F) → (⟨S50000x64, .f32⟩ : BufTy).Contents (Elt F)) ]
theorem w3_0_sub : (w3_0 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub ..⟩
/-- The buffers these operations write. -/
abbrev w3_0_W : List (Ref sig .tc) := [main_v160, main_v161, main_cst_18, main_v162, main_v163, main_v164, main_v165, main_v166, main_v167, main_v168, main_v169, main_v170, main_v171, main_v172]
theorem w3_0_writes : (w3_0 : List (HloOp τ sig (Elt F))).Forall fun op => op.writes ⊆ (w3_0_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer they do not write keeps its contents. -/
theorem w3_0_keep (V : Valuation τ sig (Elt F)) (r : Ref sig .tc) (h : r ∉ w3_0_W) :
    after w3_0 V (Proc.devRef .tc r) = V (Proc.devRef .tc r) :=
  after_of_writes_sub w3_0 V w3_0_writes h
theorem w3_0_fresh : ∀ op ∈ (w3_0 : List (HloOp τ sig (Elt F))), op.fresh = ∅ := by
  intro _ h; (repeat (cases h with | head => rfl | tail _ h => ?_)); exact nomatch h

/-- 3 operations of @relu_1 over the buffers of main_call11, in order. -/
abbrev w3_1 : List (HloOp τ sig (Elt F)) :=
  [ StableHlo.TRef.nullary (.of main_call11_cst : StableHlo.TRef sig ⟨S_, .f32⟩) (constant S_ .f32 0x00000000#32),
    StableHlo.TRef.unary (.of main_call11_cst : StableHlo.TRef sig ⟨S_, .f32⟩) (.of main_call11_v0 : StableHlo.TRef sig ⟨S50000x64, .f32⟩) (broadcastInDim S50000x64 ![] bcast_S_S50000x64),
    StableHlo.TRef.binary (.of main_v172 : StableHlo.TRef sig ⟨S50000x64, .f32⟩) (.of main_call11_v0 : StableHlo.TRef sig ⟨S50000x64, .f32⟩) (.of main_v173 : StableHlo.TRef sig ⟨S50000x64, .f32⟩) maximumf ]
theorem w3_1_sub : (w3_1 : List (HloOp τ sig (Elt F))).Forall fun op => op.bufs ⊆ tcRefs τ sig :=
  ⟨nullary_bufs_sub .., unary_bufs_sub .., binary_bufs_sub ..⟩
/-- The buffers these operations write. -/
abbrev w3_1_W : List (Ref sig .tc) := [main_call11_cst, main_call11_v0, main_v173]
theorem w3_1_writes : (w3_1 : List (HloOp τ sig (Elt F))).Forall fun op => op.writes ⊆ (w3_1_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer they do not write keeps its contents. -/
theorem w3_1_keep (V : Valuation τ sig (Elt F)) (r : Ref sig .tc) (h : r ∉ w3_1_W) :
    after w3_1 V (Proc.devRef .tc r) = V (Proc.devRef .tc r) :=
  after_of_writes_sub w3_1 V w3_1_writes h
theorem w3_1_fresh : ∀ op ∈ (w3_1 : List (HloOp τ sig (Elt F))), op.fresh = ∅ := by
  intro _ h; (repeat (cases h with | head => rfl | tail _ h => ?_)); exact nomatch h

/-- 20 operations of the main function, in order. -/
abbrev w3_2 : List (HloOp τ sig (Elt F)) :=
  [ StableHlo.nullary main_cst_19 (constant S_ .f32 0x3F800000#32),
    StableHlo.unary main_cst_19 main_v174 (broadcastInDim S50000 ![] bcast_S_S50000 : (⟨S_, .f32⟩ : BufTy).Contents (Elt F) → (⟨S50000, .f32⟩ : BufTy).Contents (Elt F)),
    StableHlo.nullary main_cst_20 (constant S_ .f32 0x00000000#32),
    StableHlo.unary main_cst_20 main_v175 (broadcastInDim S64 ![] bcast_S_S64 : (⟨S_, .f32⟩ : BufTy).Contents (Elt F) → (⟨S64, .f32⟩ : BufTy).Contents (Elt F)),
    StableHlo.unary main_arg3 main_v176 (broadcastInDim S50000x1 ![0] bcast_S50000_S50000x1_0 : (⟨S50000, .i32⟩ : BufTy).Contents (Elt F) → (⟨S50000x1, .i32⟩ : BufTy).Contents (Elt F)),
    StableHlo.ternary main_v175 main_v176 main_v174 main_v177 ((fun x i u => Host.scatterAdd scatter_S64_S50000x1_S50000_n_0_0_1 x i u) : (⟨S64, .f32⟩ : BufTy).Contents (Elt F) → (⟨S50000x1, .i32⟩ : BufTy).Contents (Elt F) → (⟨S50000, .f32⟩ : BufTy).Contents (Elt F) → (⟨S64, .f32⟩ : BufTy).Contents (Elt F)),
    StableHlo.nullary main_cst_21 (constant S_ .f32 0x00000000#32),
    StableHlo.unary main_cst_21 main_v178 (broadcastInDim S64x64 ![] bcast_S_S64x64 : (⟨S_, .f32⟩ : BufTy).Contents (Elt F) → (⟨S64x64, .f32⟩ : BufTy).Contents (Elt F)),
    StableHlo.unary main_arg3 main_v179 (broadcastInDim S50000x1 ![0] bcast_S50000_S50000x1_0 : (⟨S50000, .i32⟩ : BufTy).Contents (Elt F) → (⟨S50000x1, .i32⟩ : BufTy).Contents (Elt F)),
    StableHlo.ternary main_v178 main_v179 main_v173 main_v180 ((fun x i u => Host.scatterAdd scatter_S64x64_S50000x1_S50000x64_1_0_0_1 x i u) : (⟨S64x64, .f32⟩ : BufTy).Contents (Elt F) → (⟨S50000x1, .i32⟩ : BufTy).Contents (Elt F) → (⟨S50000x64, .f32⟩ : BufTy).Contents (Elt F) → (⟨S64x64, .f32⟩ : BufTy).Contents (Elt F)),
    StableHlo.nullary main_cst_22 (constant S_ .f32 0x3F800000#32),
    StableHlo.unary main_cst_22 main_v181 (broadcastInDim S64 ![] bcast_S_S64 : (⟨S_, .f32⟩ : BufTy).Contents (Elt F) → (⟨S64, .f32⟩ : BufTy).Contents (Elt F)),
    StableHlo.binary main_v177 main_v181 main_v182 (maximumf : (⟨S64, .f32⟩ : BufTy).Contents (Elt F) → (⟨S64, .f32⟩ : BufTy).Contents (Elt F) → (⟨S64, .f32⟩ : BufTy).Contents (Elt F)),
    StableHlo.unary main_v182 main_v183 (broadcastInDim S64x1 ![0] bcast_S64_S64x1_0 : (⟨S64, .f32⟩ : BufTy).Contents (Elt F) → (⟨S64x1, .f32⟩ : BufTy).Contents (Elt F)),
    StableHlo.unary main_v183 main_v184 (broadcastInDim S64x64 ![0, 1] bcast_S64x1_S64x64_0_1 : (⟨S64x1, .f32⟩ : BufTy).Contents (Elt F) → (⟨S64x64, .f32⟩ : BufTy).Contents (Elt F)),
    StableHlo.binary main_v180 main_v184 main_v185 (Host.divf : (⟨S64x64, .f32⟩ : BufTy).Contents (Elt F) → (⟨S64x64, .f32⟩ : BufTy).Contents (Elt F) → (⟨S64x64, .f32⟩ : BufTy).Contents (Elt F)),
    StableHlo.binary main_v185 main_arg14 main_v186 ((fun l r => Host.dotGeneral dot_S64x64_S64x1_S64x1_1_0_0_1_n_n none l r) : (⟨S64x64, .f32⟩ : BufTy).Contents (Elt F) → (⟨S64x1, .f32⟩ : BufTy).Contents (Elt F) → (⟨S64x1, .f32⟩ : BufTy).Contents (Elt F)),
    StableHlo.unary main_arg15 main_v187 (broadcastInDim S1x1 ![1] bcast_S1_S1x1_1 : (⟨S1, .f32⟩ : BufTy).Contents (Elt F) → (⟨S1x1, .f32⟩ : BufTy).Contents (Elt F)),
    StableHlo.unary main_v187 main_v188 (broadcastInDim S64x1 ![0, 1] bcast_S1x1_S64x1_0_1 : (⟨S1x1, .f32⟩ : BufTy).Contents (Elt F) → (⟨S64x1, .f32⟩ : BufTy).Contents (Elt F)),
    StableHlo.binary main_v186 main_v188 main_v189 (addf : (⟨S64x1, .f32⟩ : BufTy).Contents (Elt F) → (⟨S64x1, .f32⟩ : BufTy).Contents (Elt F) → (⟨S64x1, .f32⟩ : BufTy).Contents (Elt F)) ]
theorem w3_2_sub : (w3_2 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub ..⟩
/-- The buffers these operations write. -/
abbrev w3_2_W : List (Ref sig .tc) := [main_cst_19, main_v174, main_cst_20, main_v175, main_v176, main_v177, main_cst_21, main_v178, main_v179, main_v180, main_cst_22, main_v181, main_v182, main_v183, main_v184, main_v185, main_v186, main_v187, main_v188, main_v189]
theorem w3_2_writes : (w3_2 : List (HloOp τ sig (Elt F))).Forall fun op => op.writes ⊆ (w3_2_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer they do not write keeps its contents. -/
theorem w3_2_keep (V : Valuation τ sig (Elt F)) (r : Ref sig .tc) (h : r ∉ w3_2_W) :
    after w3_2 V (Proc.devRef .tc r) = V (Proc.devRef .tc r) :=
  after_of_writes_sub w3_2 V w3_2_writes h
theorem w3_2_fresh : ∀ op ∈ (w3_2 : List (HloOp τ sig (Elt F))), op.fresh = ∅ := by
  intro _ h; (repeat (cases h with | head => rfl | tail _ h => ?_)); exact nomatch h

/-- The last window is the chain of those lists. -/
theorem main_part3_chain (c : Dev nD) : main_part3 (F := F) c = (Pipeline.chain
  [ StableHlo.seq w3_0,
    StableHlo.seq w3_1,
    StableHlo.seq w3_2 ] : Prog (TpuEff nD τ sig (Elt F) (Pipeline.Sig Λ₀ (Fin 0) fun p => (pcfgs (F := F) p).Adm) .tc) PUnit) := by
  chain_rfl

end Cert.RefRun

end
-- ==== Proof.RefOps.lean ====
import proofs.«172538_j12652973654090_1_alg».proof.Proof.RefOps0
import proofs.«172538_j12652973654090_1_alg».proof.Proof.RefOps1
import proofs.«172538_j12652973654090_1_alg».proof.Proof.RefOps2
import proofs.«172538_j12652973654090_1_alg».proof.Proof.RefOps3
import Idealize.ShloMosaic.Lib.StableHlo.RunLoop

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]
/-! The reference program's main function as ONE list of whole-array operations: the windows' lists in order. -/

/-- A buffer outside a list holding every buffer some operations write is written by none of them. -/
theorem not_writes_of_sub {τ : Topo} {sig : RefSig} {Val : EltTy → Type} {W : List (Ref sig .tc)} {r : Ref sig .tc} {ops : List (HloOp τ sig Val)}
    (hW : ops.Forall fun op => op.writes ⊆ (W.map (Proc.devRef (τ := τ) .tc)).toFinset) (hr : r ∉ W) :
    ∀ op ∈ ops, (Proc.devRef (τ := τ) .tc r) ∉ op.writes := fun op hop hb => by
  obtain ⟨y, hy, he⟩ := List.mem_map.mp (List.mem_toFinset.mp ((List.forall_iff_forall_mem.mp hW) op hop hb))
  exact hr (Proc.devRef_injective _ he ▸ hy)

theorem fresh_forall {τ : Topo} {sig : RefSig} {Val : EltTy → Type} (l : List (HloOp τ sig Val)) (h : ∀ op ∈ l, op.fresh = ∅) :
    l.Forall fun op => op.fresh = ∅ := List.forall_iff_forall_mem.mpr h
theorem nw_forall {τ : Topo} {sig : RefSig} {Val : EltTy → Type} {b : DevRef τ sig} (l : List (HloOp τ sig Val)) (h : ∀ op ∈ l, b ∉ op.writes) :
    l.Forall fun op => b ∉ op.writes := List.forall_iff_forall_mem.mpr h

/-- The lists, in program order. -/
abbrev chunks : List (List (HloOp τ sig (Elt F))) :=
  [w0_0, w0_1, w0_2, w0_3, w0_4, w0_5, w0_6, w0_7, w0_8, w0_9, w0_10, w1_0, w1_1, w1_2, w1_3, w1_4, w1_5, w1_6, w1_7, w1_8, w1_9, w1_10, w1_11, w2_0, w2_1, w2_2, w2_3, w2_4, w2_5, w2_6, w2_7, w2_8, w2_9, w2_10, w2_11, w3_0, w3_1, w3_2]

/-- All 296 operations, in order. -/
def ops : List (HloOp τ sig (Elt F)) := (chunks (F := F)).flatten

theorem ops_eq : (ops : List (HloOp τ sig (Elt F))) = (chunks (F := F)).flatten := rfl

/-- The chain of the lists' programs is the program of their concatenation. -/
theorem chain_map_seq {nD : Nat} {τ : Topo} {sig : RefSig} {Val : EltTy → Type} {Λ : Labels} :
    ∀ L : List (List (HloOp τ sig Val)),
      Pipeline.chain (L.map fun l => (seq l : Prog (TpuEff nD τ sig Val Λ .tc) PUnit)) = seq L.flatten
  | [] => rfl
  | l :: L => by
    rw [List.map_cons, Pipeline.chain_cons, List.flatten_cons, seq_append, chain_map_seq L]

/-- A property of every operation of every list holds of every operation of the concatenation. -/
theorem forall_flatten {α : Type} {p : α → Prop} {L : List (List α)} (h : L.Forall fun l => l.Forall p) : L.flatten.Forall p :=
  List.forall_iff_forall_mem.mpr fun a ha => by
    obtain ⟨l, hl, hal⟩ := List.mem_flatten.mp ha
    exact List.forall_iff_forall_mem.mp (List.forall_iff_forall_mem.mp h l hl) a hal

/-- The main function is the chain of the lists' programs. -/
theorem main_chain (c : Dev nD) : main (F := F) c = (Pipeline.chain ((chunks (F := F)).map fun l => seq l) : Prog (TpuEff nD τ sig (Elt F) (Pipeline.Sig Λ₀ (Fin 0) fun p => (pcfgs (F := F) p).Adm) .tc) PUnit) := by
  show (main_part0 (F := F) c >>= fun _ => main_part1 (F := F) c >>= fun _ => main_part2 (F := F) c >>= fun _ => main_part3 (F := F) c) = _
  rewrite [main_part3_chain, main_part2_chain, Pipeline.chainK_bind_chain, main_part1_chain, Pipeline.chainK_bind_chain, main_part0_chain, Pipeline.chainK_bind_chain]
  rfl

/-- The main function is the straight line of all the operations. -/
theorem main_eq (c : Dev nD) : main (F := F) c = seq ops := (main_chain c).trans (chain_map_seq _)

theorem ops_sub : (ops : List (HloOp τ sig (Elt F))).Forall fun op => op.bufs ⊆ tcRefs τ sig :=
  forall_flatten (L := chunks (F := F)) ⟨w0_0_sub, w0_1_sub, w0_2_sub, w0_3_sub, w0_4_sub, w0_5_sub, w0_6_sub, w0_7_sub, w0_8_sub, w0_9_sub, w0_10_sub, w1_0_sub, w1_1_sub, w1_2_sub, w1_3_sub, w1_4_sub, w1_5_sub, w1_6_sub, w1_7_sub, w1_8_sub, w1_9_sub, w1_10_sub, w1_11_sub, w2_0_sub, w2_1_sub, w2_2_sub, w2_3_sub, w2_4_sub, w2_5_sub, w2_6_sub, w2_7_sub, w2_8_sub, w2_9_sub, w2_10_sub, w2_11_sub, w3_0_sub, w3_1_sub, w3_2_sub⟩

theorem ops_fresh : ∀ op ∈ (ops : List (HloOp τ sig (Elt F))), op.fresh = ∅ :=
  List.forall_iff_forall_mem.mp (forall_flatten (L := chunks (F := F)) (p := fun op : HloOp τ sig (Elt F) => op.fresh = ∅)
    ⟨fresh_forall (w0_0 (F := F)) w0_0_fresh, fresh_forall (w0_1 (F := F)) w0_1_fresh, fresh_forall (w0_2 (F := F)) w0_2_fresh, fresh_forall (w0_3 (F := F)) w0_3_fresh, fresh_forall (w0_4 (F := F)) w0_4_fresh, fresh_forall (w0_5 (F := F)) w0_5_fresh, fresh_forall (w0_6 (F := F)) w0_6_fresh, fresh_forall (w0_7 (F := F)) w0_7_fresh, fresh_forall (w0_8 (F := F)) w0_8_fresh, fresh_forall (w0_9 (F := F)) w0_9_fresh, fresh_forall (w0_10 (F := F)) w0_10_fresh, fresh_forall (w1_0 (F := F)) w1_0_fresh, fresh_forall (w1_1 (F := F)) w1_1_fresh, fresh_forall (w1_2 (F := F)) w1_2_fresh, fresh_forall (w1_3 (F := F)) w1_3_fresh, fresh_forall (w1_4 (F := F)) w1_4_fresh, fresh_forall (w1_5 (F := F)) w1_5_fresh, fresh_forall (w1_6 (F := F)) w1_6_fresh, fresh_forall (w1_7 (F := F)) w1_7_fresh, fresh_forall (w1_8 (F := F)) w1_8_fresh, fresh_forall (w1_9 (F := F)) w1_9_fresh, fresh_forall (w1_10 (F := F)) w1_10_fresh, fresh_forall (w1_11 (F := F)) w1_11_fresh, fresh_forall (w2_0 (F := F)) w2_0_fresh, fresh_forall (w2_1 (F := F)) w2_1_fresh, fresh_forall (w2_2 (F := F)) w2_2_fresh, fresh_forall (w2_3 (F := F)) w2_3_fresh, fresh_forall (w2_4 (F := F)) w2_4_fresh, fresh_forall (w2_5 (F := F)) w2_5_fresh, fresh_forall (w2_6 (F := F)) w2_6_fresh, fresh_forall (w2_7 (F := F)) w2_7_fresh, fresh_forall (w2_8 (F := F)) w2_8_fresh, fresh_forall (w2_9 (F := F)) w2_9_fresh, fresh_forall (w2_10 (F := F)) w2_10_fresh, fresh_forall (w2_11 (F := F)) w2_11_fresh, fresh_forall (w3_0 (F := F)) w3_0_fresh, fresh_forall (w3_1 (F := F)) w3_1_fresh, fresh_forall (w3_2 (F := F)) w3_2_fresh⟩)

/-- Every buffer any operation writes. -/
abbrev Wall : List (Ref sig .tc) :=
  [main_v0, main_v1, main_v2, main_v3, main_v4, main_v5, main_v6, main_v7, main_v8, main_v9, main_v10, main_v11, main_c, main_v12, main_v13, main_c_0, main_v14, main_v15, main_v16, main_v17, main_v18, main_v19, main_call0_cst, main_call0_v0, main_v20, main_cst, main_v21, main_v22, main_v23, main_v24, main_v25, main_v26, main_v27, main_v28, main_v29, main_v30, main_v31, main_v32, main_call1_cst, main_call1_v0, main_v33, main_v34, main_v35, main_v36, main_v37, main_v38, main_v39, main_v40, main_v41, main_cst_1, main_v42, main_cst_2, main_v43, main_v44, main_c_3, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v45, main_v46, main_v47, main_v48, main_v49, main_v50, main_v51, main_v52, main_v53, main_cst_4, main_v54, main_v55, main_v56, main_v57, main_v58, main_v59, main_v60, main_v61, main_v62, main_v63, main_v64, main_call3_cst, main_call3_v0, main_v65, main_c_5, main_v66, main_v67, main_c_6, main_v68, main_v69, main_v70, main_v71, main_v72, main_v73, main_call4_cst, main_call4_v0, main_v74, main_cst_7, main_v75, main_v76, main_v77, main_v78, main_v79, main_v80, main_v81, main_v82, main_v83, main_v84, main_v85, main_v86, main_call5_cst, main_call5_v0, main_v87, main_v88, main_v89, main_v90, main_v91, main_v92, main_v93, main_v94, main_v95, main_cst_8, main_v96, main_cst_9, main_v97, main_v98, main_c_10, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v99, main_v100, main_v101, main_v102, main_v103, main_v104, main_v105, main_v106, main_v107, main_cst_11, main_v108, main_v109, main_v110, main_v111, main_v112, main_v113, main_v114, main_v115, main_v116, main_v117, main_v118, main_call7_cst, main_call7_v0, main_v119, main_c_12, main_v120, main_v121, main_c_13, main_v122, main_v123, main_v124, main_v125, main_v126, main_v127, main_call8_cst, main_call8_v0, main_v128, main_cst_14, main_v129, main_v130, main_v131, main_v132, main_v133, main_v134, main_v135, main_v136, main_v137, main_v138, main_v139, main_v140, main_call9_cst, main_call9_v0, main_v141, main_v142, main_v143, main_v144, main_v145, main_v146, main_v147, main_v148, main_v149, main_cst_15, main_v150, main_cst_16, main_v151, main_v152, main_c_17, main_call10_cst, main_call10_v0, main_call10_v1, main_call10_cst_0, main_call10_v2, main_call10_v3, main_call10_v4, main_call10_v5, main_call10_v6, main_call10_v7, main_call10_cst_1, main_call10_v8, main_call10_cst_2, main_call10_v9, main_call10_v10, main_call10_v11, main_call10_cst_3, main_call10_v12, main_call10_cst_4, main_call10_call0_v0, main_call10_call0_v1, main_v153, main_v154, main_v155, main_v156, main_v157, main_v158, main_v159, main_v160, main_v161, main_cst_18, main_v162, main_v163, main_v164, main_v165, main_v166, main_v167, main_v168, main_v169, main_v170, main_v171, main_v172, main_call11_cst, main_call11_v0, main_v173, main_cst_19, main_v174, main_cst_20, main_v175, main_v176, main_v177, main_cst_21, main_v178, main_v179, main_v180, main_cst_22, main_v181, main_v182, main_v183, main_v184, main_v185, main_v186, main_v187, main_v188, main_v189]

theorem w0_0_W_sub : ∀ x ∈ w0_0_W, x ∈ Wall := by decide
theorem w0_1_W_sub : ∀ x ∈ w0_1_W, x ∈ Wall := by decide
theorem w0_2_W_sub : ∀ x ∈ w0_2_W, x ∈ Wall := by decide
theorem w0_3_W_sub : ∀ x ∈ w0_3_W, x ∈ Wall := by decide
theorem w0_4_W_sub : ∀ x ∈ w0_4_W, x ∈ Wall := by decide
theorem w0_5_W_sub : ∀ x ∈ w0_5_W, x ∈ Wall := by decide
theorem w0_6_W_sub : ∀ x ∈ w0_6_W, x ∈ Wall := by decide
theorem w0_7_W_sub : ∀ x ∈ w0_7_W, x ∈ Wall := by decide
theorem w0_8_W_sub : ∀ x ∈ w0_8_W, x ∈ Wall := by decide
theorem w0_9_W_sub : ∀ x ∈ w0_9_W, x ∈ Wall := by decide
theorem w0_10_W_sub : ∀ x ∈ w0_10_W, x ∈ Wall := by decide
theorem w1_0_W_sub : ∀ x ∈ w1_0_W, x ∈ Wall := by decide
theorem w1_1_W_sub : ∀ x ∈ w1_1_W, x ∈ Wall := by decide
theorem w1_2_W_sub : ∀ x ∈ w1_2_W, x ∈ Wall := by decide
theorem w1_3_W_sub : ∀ x ∈ w1_3_W, x ∈ Wall := by decide
theorem w1_4_W_sub : ∀ x ∈ w1_4_W, x ∈ Wall := by decide
theorem w1_5_W_sub : ∀ x ∈ w1_5_W, x ∈ Wall := by decide
theorem w1_6_W_sub : ∀ x ∈ w1_6_W, x ∈ Wall := by decide
theorem w1_7_W_sub : ∀ x ∈ w1_7_W, x ∈ Wall := by decide
theorem w1_8_W_sub : ∀ x ∈ w1_8_W, x ∈ Wall := by decide
theorem w1_9_W_sub : ∀ x ∈ w1_9_W, x ∈ Wall := by decide
theorem w1_10_W_sub : ∀ x ∈ w1_10_W, x ∈ Wall := by decide
theorem w1_11_W_sub : ∀ x ∈ w1_11_W, x ∈ Wall := by decide
theorem w2_0_W_sub : ∀ x ∈ w2_0_W, x ∈ Wall := by decide
theorem w2_1_W_sub : ∀ x ∈ w2_1_W, x ∈ Wall := by decide
theorem w2_2_W_sub : ∀ x ∈ w2_2_W, x ∈ Wall := by decide
theorem w2_3_W_sub : ∀ x ∈ w2_3_W, x ∈ Wall := by decide
theorem w2_4_W_sub : ∀ x ∈ w2_4_W, x ∈ Wall := by decide
theorem w2_5_W_sub : ∀ x ∈ w2_5_W, x ∈ Wall := by decide
theorem w2_6_W_sub : ∀ x ∈ w2_6_W, x ∈ Wall := by decide
theorem w2_7_W_sub : ∀ x ∈ w2_7_W, x ∈ Wall := by decide
theorem w2_8_W_sub : ∀ x ∈ w2_8_W, x ∈ Wall := by decide
theorem w2_9_W_sub : ∀ x ∈ w2_9_W, x ∈ Wall := by decide
theorem w2_10_W_sub : ∀ x ∈ w2_10_W, x ∈ Wall := by decide
theorem w2_11_W_sub : ∀ x ∈ w2_11_W, x ∈ Wall := by decide
theorem w3_0_W_sub : ∀ x ∈ w3_0_W, x ∈ Wall := by decide
theorem w3_1_W_sub : ∀ x ∈ w3_1_W, x ∈ Wall := by decide
theorem w3_2_W_sub : ∀ x ∈ w3_2_W, x ∈ Wall := by decide

/-- No operation writes a buffer outside that list. -/
theorem ops_not_writes (r : Ref sig .tc) (h : r ∉ Wall) : ∀ op ∈ (ops : List (HloOp τ sig (Elt F))), (Proc.devRef (τ := τ) .tc r) ∉ op.writes :=
  List.forall_iff_forall_mem.mp (forall_flatten (L := chunks (F := F)) (p := fun op : HloOp τ sig (Elt F) => (Proc.devRef (τ := τ) .tc r) ∉ op.writes)
    ⟨nw_forall (w0_0 (F := F)) (not_writes_of_sub w0_0_writes fun hm => h (w0_0_W_sub r hm)),
     nw_forall (w0_1 (F := F)) (not_writes_of_sub w0_1_writes fun hm => h (w0_1_W_sub r hm)),
     nw_forall (w0_2 (F := F)) (not_writes_of_sub w0_2_writes fun hm => h (w0_2_W_sub r hm)),
     nw_forall (w0_3 (F := F)) (not_writes_of_sub w0_3_writes fun hm => h (w0_3_W_sub r hm)),
     nw_forall (w0_4 (F := F)) (not_writes_of_sub w0_4_writes fun hm => h (w0_4_W_sub r hm)),
     nw_forall (w0_5 (F := F)) (not_writes_of_sub w0_5_writes fun hm => h (w0_5_W_sub r hm)),
     nw_forall (w0_6 (F := F)) (not_writes_of_sub w0_6_writes fun hm => h (w0_6_W_sub r hm)),
     nw_forall (w0_7 (F := F)) (not_writes_of_sub w0_7_writes fun hm => h (w0_7_W_sub r hm)),
     nw_forall (w0_8 (F := F)) (not_writes_of_sub w0_8_writes fun hm => h (w0_8_W_sub r hm)),
     nw_forall (w0_9 (F := F)) (not_writes_of_sub w0_9_writes fun hm => h (w0_9_W_sub r hm)),
     nw_forall (w0_10 (F := F)) (not_writes_of_sub w0_10_writes fun hm => h (w0_10_W_sub r hm)),
     nw_forall (w1_0 (F := F)) (not_writes_of_sub w1_0_writes fun hm => h (w1_0_W_sub r hm)),
     nw_forall (w1_1 (F := F)) (not_writes_of_sub w1_1_writes fun hm => h (w1_1_W_sub r hm)),
     nw_forall (w1_2 (F := F)) (not_writes_of_sub w1_2_writes fun hm => h (w1_2_W_sub r hm)),
     nw_forall (w1_3 (F := F)) (not_writes_of_sub w1_3_writes fun hm => h (w1_3_W_sub r hm)),
     nw_forall (w1_4 (F := F)) (not_writes_of_sub w1_4_writes fun hm => h (w1_4_W_sub r hm)),
     nw_forall (w1_5 (F := F)) (not_writes_of_sub w1_5_writes fun hm => h (w1_5_W_sub r hm)),
     nw_forall (w1_6 (F := F)) (not_writes_of_sub w1_6_writes fun hm => h (w1_6_W_sub r hm)),
     nw_forall (w1_7 (F := F)) (not_writes_of_sub w1_7_writes fun hm => h (w1_7_W_sub r hm)),
     nw_forall (w1_8 (F := F)) (not_writes_of_sub w1_8_writes fun hm => h (w1_8_W_sub r hm)),
     nw_forall (w1_9 (F := F)) (not_writes_of_sub w1_9_writes fun hm => h (w1_9_W_sub r hm)),
     nw_forall (w1_10 (F := F)) (not_writes_of_sub w1_10_writes fun hm => h (w1_10_W_sub r hm)),
     nw_forall (w1_11 (F := F)) (not_writes_of_sub w1_11_writes fun hm => h (w1_11_W_sub r hm)),
     nw_forall (w2_0 (F := F)) (not_writes_of_sub w2_0_writes fun hm => h (w2_0_W_sub r hm)),
     nw_forall (w2_1 (F := F)) (not_writes_of_sub w2_1_writes fun hm => h (w2_1_W_sub r hm)),
     nw_forall (w2_2 (F := F)) (not_writes_of_sub w2_2_writes fun hm => h (w2_2_W_sub r hm)),
     nw_forall (w2_3 (F := F)) (not_writes_of_sub w2_3_writes fun hm => h (w2_3_W_sub r hm)),
     nw_forall (w2_4 (F := F)) (not_writes_of_sub w2_4_writes fun hm => h (w2_4_W_sub r hm)),
     nw_forall (w2_5 (F := F)) (not_writes_of_sub w2_5_writes fun hm => h (w2_5_W_sub r hm)),
     nw_forall (w2_6 (F := F)) (not_writes_of_sub w2_6_writes fun hm => h (w2_6_W_sub r hm)),
     nw_forall (w2_7 (F := F)) (not_writes_of_sub w2_7_writes fun hm => h (w2_7_W_sub r hm)),
     nw_forall (w2_8 (F := F)) (not_writes_of_sub w2_8_writes fun hm => h (w2_8_W_sub r hm)),
     nw_forall (w2_9 (F := F)) (not_writes_of_sub w2_9_writes fun hm => h (w2_9_W_sub r hm)),
     nw_forall (w2_10 (F := F)) (not_writes_of_sub w2_10_writes fun hm => h (w2_10_W_sub r hm)),
     nw_forall (w2_11 (F := F)) (not_writes_of_sub w2_11_writes fun hm => h (w2_11_W_sub r hm)),
     nw_forall (w3_0 (F := F)) (not_writes_of_sub w3_0_writes fun hm => h (w3_0_W_sub r hm)),
     nw_forall (w3_1 (F := F)) (not_writes_of_sub w3_1_writes fun hm => h (w3_1_W_sub r hm)),
     nw_forall (w3_2 (F := F)) (not_writes_of_sub w3_2_writes fun hm => h (w3_2_W_sub r hm))⟩)

/-- A buffer no operation writes ends with the contents it started with. -/
theorem ops_keep (V : Valuation τ sig (Elt F)) (r : Ref sig .tc) (h : r ∉ Wall) : after ops V (Proc.devRef .tc r) = V (Proc.devRef .tc r) :=
  after_of_forall_not_mem ops V (ops_not_writes r h)

end Cert.RefRun

end
-- ==== Proof.RefRun.lean ====
import proofs.«172538_j12652973654090_1_alg».proof.Proof.RefOps

/-!
# The reference program's run

The reference program's main function is a straight line of whole-array operations (its outlined helper
functions run in place at their calls).  Every weakly fair execution of it terminates, and at the end each
buffer holds the fold of the operations' results over the contents it was launched with; no operation writes
an argument array, so each of those ends as launched.
-/

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- No buffer of the program is scoped to a kernel region. -/
theorem scopedRefs_eq : (Finset.univ.filter fun b : Ref sig .tc => b.isScoped) = ∅ := by decide
/-- Nor is any semaphore. -/
theorem scopedSems_eq : (Finset.univ.filter fun sm : SemLoc sig => sm.isScoped .tc) = ∅ := by decide

/-- On every device, for any float values, from any memory with zero counters: every weakly fair execution of the
    main function terminates with each buffer at the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

/-- The sixteen argument arrays end as launched: no operation writes one. -/
theorem args_kept (m : (ℓ : Loc nD τ sig) → Buf (Elt F) ℓ) (d : Dev nD) :
      after (ops (F := F)) (launchContents m d) (Proc.devRef .tc main_arg0) = m ((d.tc : Thread nD τ).loc main_arg0)
    ∧ after (ops (F := F)) (launchContents m d) (Proc.devRef .tc main_arg1) = m ((d.tc : Thread nD τ).loc main_arg1)
    ∧ after (ops (F := F)) (launchContents m d) (Proc.devRef .tc main_arg2) = m ((d.tc : Thread nD τ).loc main_arg2)
    ∧ after (ops (F := F)) (launchContents m d) (Proc.devRef .tc main_arg3) = m ((d.tc : Thread nD τ).loc main_arg3)
    ∧ after (ops (F := F)) (launchContents m d) (Proc.devRef .tc main_arg4) = m ((d.tc : Thread nD τ).loc main_arg4)
    ∧ after (ops (F := F)) (launchContents m d) (Proc.devRef .tc main_arg5) = m ((d.tc : Thread nD τ).loc main_arg5)
    ∧ after (ops (F := F)) (launchContents m d) (Proc.devRef .tc main_arg6) = m ((d.tc : Thread nD τ).loc main_arg6)
    ∧ after (ops (F := F)) (launchContents m d) (Proc.devRef .tc main_arg7) = m ((d.tc : Thread nD τ).loc main_arg7)
    ∧ after (ops (F := F)) (launchContents m d) (Proc.devRef .tc main_arg8) = m ((d.tc : Thread nD τ).loc main_arg8)
    ∧ after (ops (F := F)) (launchContents m d) (Proc.devRef .tc main_arg9) = m ((d.tc : Thread nD τ).loc main_arg9)
    ∧ after (ops (F := F)) (launchContents m d) (Proc.devRef .tc main_arg10) = m ((d.tc : Thread nD τ).loc main_arg10)
    ∧ after (ops (F := F)) (launchContents m d) (Proc.devRef .tc main_arg11) = m ((d.tc : Thread nD τ).loc main_arg11)
    ∧ after (ops (F := F)) (launchContents m d) (Proc.devRef .tc main_arg12) = m ((d.tc : Thread nD τ).loc main_arg12)
    ∧ after (ops (F := F)) (launchContents m d) (Proc.devRef .tc main_arg13) = m ((d.tc : Thread nD τ).loc main_arg13)
    ∧ after (ops (F := F)) (launchContents m d) (Proc.devRef .tc main_arg14) = m ((d.tc : Thread nD τ).loc main_arg14)
    ∧ after (ops (F := F)) (launchContents m d) (Proc.devRef .tc main_arg15) = m ((d.tc : Thread nD τ).loc main_arg15) :=
  ⟨ops_keep _ main_arg0 (by decide),
   ops_keep _ main_arg1 (by decide),
   ops_keep _ main_arg2 (by decide),
   ops_keep _ main_arg3 (by decide),
   ops_keep _ main_arg4 (by decide),
   ops_keep _ main_arg5 (by decide),
   ops_keep _ main_arg6 (by decide),
   ops_keep _ main_arg7 (by decide),
   ops_keep _ main_arg8 (by decide),
   ops_keep _ main_arg9 (by decide),
   ops_keep _ main_arg10 (by decide),
   ops_keep _ main_arg11 (by decide),
   ops_keep _ main_arg12 (by decide),
   ops_keep _ main_arg13 (by decide),
   ops_keep _ main_arg14 (by decide),
   ops_keep _ main_arg15 (by decide)⟩

end Cert.RefRun

end
-- ==== Proof.RefValue.lean ====
import proofs.«172538_j12652973654090_1_alg».proof.Proof.RefOps
import proofs.«172538_j12652973654090_1_alg».proof.Proof.Spec

/-!
# What the reference program computes

The reference program's operations are read stage by stage.  A stage is a stretch of consecutive operations
that computes one named quantity of the network from earlier named quantities: the two embeddings and the
edge list's rows; per layer the aggregation, the perceptron, the mean, the variance and the normalised,
rectified state; at the end the pooled output.  Each stage is read from ANY buffer contents, as the
corresponding function of the specification applied to the contents of the buffers it reads; the stages are
then composed along the program, every quantity a stage does not write being carried through it unchanged.
-/

noncomputable section

namespace Cert.RefRun

open Cert.ReferenceIdeal Cert.ReferenceIdeal.Gen Idealize.ShloMosaic Idealize.ShloMosaic.TcCoe Idealize.SL.Sem Idealize.ShloMosaic.StableHlo

/-- Buffer contents at the exact instance. -/
abbrev IVal := Valuation τ sig (Elt Ideal)

/-- The target node of every edge (row 1 of the edge list), as a vector. -/
def dstRow (ei : Spec.Ai S2x1600000) : Spec.Ai S1600000 :=
  fun i => shapeCast S1600000 (extractStridedSlice S1x1600000 ![1, 0] ei slices_S2x1600000_S1x1600000_1_0) shapeCasts_S1x1600000_S1600000 i

/-- The aggregation as a function of the two rows of the edge list already read off. -/
def aggR (h : Spec.Af S50000x64) (e : Spec.Af S1600000x64) (s t : Spec.Ai S1600000) : Spec.Af S50000x64 :=
  Host.scatterAdd (F := Ideal) scatter_S50000x64_S1600000x1_S1600000x64_1_0_0_1
    (broadcastInDim S50000x64 ![] bcast_S_S50000x64 (constant (F := Ideal) S_ .f32 0x00000000#32))
    (broadcastInDim S1600000x1 ![0] bcast_S1600000_S1600000x1_0 t)
    (maximumf (F := Ideal)
      (addf (F := Ideal) (Host.gather gather_S50000x64_S1600000x1_S1600000x64_1_0_n_n_0_1_164 h
        (broadcastInDim S1600000x1 ![0] bcast_S1600000_S1600000x1_0
          (select (cmpi .slt s (broadcastInDim S1600000 ![] bcast_S_S1600000 (constantI S_ 32 0#32)))
            (addi s (broadcastInDim S1600000 ![] bcast_S_S1600000 (constantI S_ 32 50000#32))) s))) e)
      (broadcastInDim S1600000x64 ![] bcast_S_S1600000x64 (constant (F := Ideal) S_ .f32 0x00000000#32)))

/-! ## Each stage, from any contents -/

set_option maxRecDepth 8192 in
theorem st1_main_v3 (V : IVal) :
    after (w0_0 (F := Ideal)) (V) (Proc.devRef .tc main_v3)
      = Spec.lin0 (V (Proc.devRef .tc main_arg0)) (V (Proc.devRef .tc main_arg4)) (V (Proc.devRef .tc main_arg5)) := by
  simp only [w0_0]
  after_results_simp
  rfl

set_option maxRecDepth 8192 in
theorem st1_main_v7 (V : IVal) :
    after (w0_0 (F := Ideal)) (V) (Proc.devRef .tc main_v7)
      = Spec.lin1 (V (Proc.devRef .tc main_arg1)) (V (Proc.devRef .tc main_arg6)) (V (Proc.devRef .tc main_arg7)) := by
  simp only [w0_0]
  after_results_simp
  rfl

set_option maxRecDepth 8192 in
theorem st1_main_v9 (V : IVal) :
    after (w0_0 (F := Ideal)) (V) (Proc.devRef .tc main_v9)
      = Spec.srcRow (V (Proc.devRef .tc main_arg2)) := by
  simp only [w0_0]
  after_results_simp
  rfl

set_option maxRecDepth 8192 in
theorem st1_main_v11 (V : IVal) :
    after (w0_0 (F := Ideal)) (V) (Proc.devRef .tc main_v11)
      = dstRow (V (Proc.devRef .tc main_arg2)) := by
  simp only [w0_0]
  after_results_simp
  rfl

theorem st1_keep (V : IVal) (r : Ref sig .tc) (h0 : r ∉ w0_0_W) :
    after (w0_0 (F := Ideal)) (V) (Proc.devRef .tc r) = V (Proc.devRef .tc r) :=
  w0_0_keep V r h0

set_option maxRecDepth 8192 in
theorem st2_main_v23 (V : IVal) :
    after (w0_3 (F := Ideal)) (after (w0_2 (F := Ideal)) (after (w0_1 (F := Ideal)) (V))) (Proc.devRef .tc main_v23)
      = aggR (V (Proc.devRef .tc main_v3)) (V (Proc.devRef .tc main_v7)) (V (Proc.devRef .tc main_v9)) (V (Proc.devRef .tc main_v11)) := by
  simp only [w0_1, w0_2, w0_3]
  after_results_simp
  rfl

theorem st2_keep (V : IVal) (r : Ref sig .tc) (h0 : r ∉ w0_1_W) (h1 : r ∉ w0_2_W) (h2 : r ∉ w0_3_W) :
    after (w0_3 (F := Ideal)) (after (w0_2 (F := Ideal)) (after (w0_1 (F := Ideal)) (V))) (Proc.devRef .tc r) = V (Proc.devRef .tc r) :=
  (w0_3_keep _ r h2).trans ((w0_2_keep _ r h1).trans (w0_1_keep V r h0))

set_option maxRecDepth 8192 in
theorem st3_main_v41 (V : IVal) :
    after (w0_6 (F := Ideal)) (after (w0_5 (F := Ideal)) (after (w0_4 (F := Ideal)) (V))) (Proc.devRef .tc main_v41)
      = Spec.mlp (V (Proc.devRef .tc main_v3)) (V (Proc.devRef .tc main_v23)) (Spec.w1_0 (V (Proc.devRef .tc main_arg8))) (Spec.b1_0 (V (Proc.devRef .tc main_arg9))) (Spec.w2_0 (V (Proc.devRef .tc main_arg10))) (Spec.row_0 (V (Proc.devRef .tc main_arg11))) := by
  simp only [w0_4, w0_5, w0_6]
  after_results_simp
  rfl

theorem st3_keep (V : IVal) (r : Ref sig .tc) (h0 : r ∉ w0_4_W) (h1 : r ∉ w0_5_W) (h2 : r ∉ w0_6_W) :
    after (w0_6 (F := Ideal)) (after (w0_5 (F := Ideal)) (after (w0_4 (F := Ideal)) (V))) (Proc.devRef .tc r) = V (Proc.devRef .tc r) :=
  (w0_6_keep _ r h2).trans ((w0_5_keep _ r h1).trans (w0_4_keep V r h0))

set_option maxRecDepth 8192 in
theorem st4_main_v44 (V : IVal) :
    after (w0_7 (F := Ideal)) (V) (Proc.devRef .tc main_v44)
      = Spec.mean (V (Proc.devRef .tc main_v41)) := by
  simp only [w0_7]
  after_results_simp
  rfl

theorem st4_keep (V : IVal) (r : Ref sig .tc) (h0 : r ∉ w0_7_W) :
    after (w0_7 (F := Ideal)) (V) (Proc.devRef .tc r) = V (Proc.devRef .tc r) :=
  w0_7_keep V r h0

set_option maxRecDepth 8192 in
theorem st5_main_v45 (V : IVal) :
    after (w0_9 (F := Ideal)) (after (w0_8 (F := Ideal)) (V)) (Proc.devRef .tc main_v45)
      = Spec.var (V (Proc.devRef .tc main_v41)) := by
  simp only [w0_8, w0_9]
  after_results_simp
  rfl

theorem st5_keep (V : IVal) (r : Ref sig .tc) (h0 : r ∉ w0_8_W) (h1 : r ∉ w0_9_W) :
    after (w0_9 (F := Ideal)) (after (w0_8 (F := Ideal)) (V)) (Proc.devRef .tc r) = V (Proc.devRef .tc r) :=
  (w0_9_keep _ r h1).trans (w0_8_keep V r h0)

set_option maxRecDepth 8192 in
theorem st6_main_v65 (V : IVal) :
    after (w1_1 (F := Ideal)) (after (w1_0 (F := Ideal)) (after (w0_10 (F := Ideal)) (V))) (Proc.devRef .tc main_v65)
      = Spec.bn (V (Proc.devRef .tc main_v41)) (V (Proc.devRef .tc main_v44)) (V (Proc.devRef .tc main_v45)) (Spec.row_0 (V (Proc.devRef .tc main_arg12))) (Spec.row_0 (V (Proc.devRef .tc main_arg13))) := by
  simp only [w0_10, w1_0, w1_1]
  after_results_simp
  rfl

theorem st6_keep (V : IVal) (r : Ref sig .tc) (h0 : r ∉ w0_10_W) (h1 : r ∉ w1_0_W) (h2 : r ∉ w1_1_W) :
    after (w1_1 (F := Ideal)) (after (w1_0 (F := Ideal)) (after (w0_10 (F := Ideal)) (V))) (Proc.devRef .tc r) = V (Proc.devRef .tc r) :=
  (w1_1_keep _ r h2).trans ((w1_0_keep _ r h1).trans (w0_10_keep V r h0))

set_option maxRecDepth 8192 in
theorem st7_main_v77 (V : IVal) :
    after (w1_4 (F := Ideal)) (after (w1_3 (F := Ideal)) (after (w1_2 (F := Ideal)) (V))) (Proc.devRef .tc main_v77)
      = aggR (V (Proc.devRef .tc main_v65)) (V (Proc.devRef .tc main_v7)) (V (Proc.devRef .tc main_v9)) (V (Proc.devRef .tc main_v11)) := by
  simp only [w1_2, w1_3, w1_4]
  after_results_simp
  rfl

theorem st7_keep (V : IVal) (r : Ref sig .tc) (h0 : r ∉ w1_2_W) (h1 : r ∉ w1_3_W) (h2 : r ∉ w1_4_W) :
    after (w1_4 (F := Ideal)) (after (w1_3 (F := Ideal)) (after (w1_2 (F := Ideal)) (V))) (Proc.devRef .tc r) = V (Proc.devRef .tc r) :=
  (w1_4_keep _ r h2).trans ((w1_3_keep _ r h1).trans (w1_2_keep V r h0))

set_option maxRecDepth 8192 in
theorem st8_main_v95 (V : IVal) :
    after (w1_7 (F := Ideal)) (after (w1_6 (F := Ideal)) (after (w1_5 (F := Ideal)) (V))) (Proc.devRef .tc main_v95)
      = Spec.mlp (V (Proc.devRef .tc main_v65)) (V (Proc.devRef .tc main_v77)) (Spec.w1_1 (V (Proc.devRef .tc main_arg8))) (Spec.b1_1 (V (Proc.devRef .tc main_arg9))) (Spec.w2_1 (V (Proc.devRef .tc main_arg10))) (Spec.row_1 (V (Proc.devRef .tc main_arg11))) := by
  simp only [w1_5, w1_6, w1_7]
  after_results_simp
  rfl

theorem st8_keep (V : IVal) (r : Ref sig .tc) (h0 : r ∉ w1_5_W) (h1 : r ∉ w1_6_W) (h2 : r ∉ w1_7_W) :
    after (w1_7 (F := Ideal)) (after (w1_6 (F := Ideal)) (after (w1_5 (F := Ideal)) (V))) (Proc.devRef .tc r) = V (Proc.devRef .tc r) :=
  (w1_7_keep _ r h2).trans ((w1_6_keep _ r h1).trans (w1_5_keep V r h0))

set_option maxRecDepth 8192 in
theorem st9_main_v98 (V : IVal) :
    after (w1_8 (F := Ideal)) (V) (Proc.devRef .tc main_v98)
      = Spec.mean (V (Proc.devRef .tc main_v95)) := by
  simp only [w1_8]
  after_results_simp
  rfl

theorem st9_keep (V : IVal) (r : Ref sig .tc) (h0 : r ∉ w1_8_W) :
    after (w1_8 (F := Ideal)) (V) (Proc.devRef .tc r) = V (Proc.devRef .tc r) :=
  w1_8_keep V r h0

set_option maxRecDepth 8192 in
theorem st10_main_v99 (V : IVal) :
    after (w1_10 (F := Ideal)) (after (w1_9 (F := Ideal)) (V)) (Proc.devRef .tc main_v99)
      = Spec.var (V (Proc.devRef .tc main_v95)) := by
  simp only [w1_9, w1_10]
  after_results_simp
  rfl

theorem st10_keep (V : IVal) (r : Ref sig .tc) (h0 : r ∉ w1_9_W) (h1 : r ∉ w1_10_W) :
    after (w1_10 (F := Ideal)) (after (w1_9 (F := Ideal)) (V)) (Proc.devRef .tc r) = V (Proc.devRef .tc r) :=
  (w1_10_keep _ r h1).trans (w1_9_keep V r h0)

set_option maxRecDepth 8192 in
theorem st11_main_v119 (V : IVal) :
    after (w2_1 (F := Ideal)) (after (w2_0 (F := Ideal)) (after (w1_11 (F := Ideal)) (V))) (Proc.devRef .tc main_v119)
      = Spec.bn (V (Proc.devRef .tc main_v95)) (V (Proc.devRef .tc main_v98)) (V (Proc.devRef .tc main_v99)) (Spec.row_1 (V (Proc.devRef .tc main_arg12))) (Spec.row_1 (V (Proc.devRef .tc main_arg13))) := by
  simp only [w1_11, w2_0, w2_1]
  after_results_simp
  rfl

theorem st11_keep (V : IVal) (r : Ref sig .tc) (h0 : r ∉ w1_11_W) (h1 : r ∉ w2_0_W) (h2 : r ∉ w2_1_W) :
    after (w2_1 (F := Ideal)) (after (w2_0 (F := Ideal)) (after (w1_11 (F := Ideal)) (V))) (Proc.devRef .tc r) = V (Proc.devRef .tc r) :=
  (w2_1_keep _ r h2).trans ((w2_0_keep _ r h1).trans (w1_11_keep V r h0))

set_option maxRecDepth 8192 in
theorem st12_main_v131 (V : IVal) :
    after (w2_4 (F := Ideal)) (after (w2_3 (F := Ideal)) (after (w2_2 (F := Ideal)) (V))) (Proc.devRef .tc main_v131)
      = aggR (V (Proc.devRef .tc main_v119)) (V (Proc.devRef .tc main_v7)) (V (Proc.devRef .tc main_v9)) (V (Proc.devRef .tc main_v11)) := by
  simp only [w2_2, w2_3, w2_4]
  after_results_simp
  rfl

theorem st12_keep (V : IVal) (r : Ref sig .tc) (h0 : r ∉ w2_2_W) (h1 : r ∉ w2_3_W) (h2 : r ∉ w2_4_W) :
    after (w2_4 (F := Ideal)) (after (w2_3 (F := Ideal)) (after (w2_2 (F := Ideal)) (V))) (Proc.devRef .tc r) = V (Proc.devRef .tc r) :=
  (w2_4_keep _ r h2).trans ((w2_3_keep _ r h1).trans (w2_2_keep V r h0))

set_option maxRecDepth 8192 in
theorem st13_main_v149 (V : IVal) :
    after (w2_7 (F := Ideal)) (after (w2_6 (F := Ideal)) (after (w2_5 (F := Ideal)) (V))) (Proc.devRef .tc main_v149)
      = Spec.mlp (V (Proc.devRef .tc main_v119)) (V (Proc.devRef .tc main_v131)) (Spec.w1_2 (V (Proc.devRef .tc main_arg8))) (Spec.b1_2 (V (Proc.devRef .tc main_arg9))) (Spec.w2_2 (V (Proc.devRef .tc main_arg10))) (Spec.row_2 (V (Proc.devRef .tc main_arg11))) := by
  simp only [w2_5, w2_6, w2_7]
  after_results_simp
  rfl

theorem st13_keep (V : IVal) (r : Ref sig .tc) (h0 : r ∉ w2_5_W) (h1 : r ∉ w2_6_W) (h2 : r ∉ w2_7_W) :
    after (w2_7 (F := Ideal)) (after (w2_6 (F := Ideal)) (after (w2_5 (F := Ideal)) (V))) (Proc.devRef .tc r) = V (Proc.devRef .tc r) :=
  (w2_7_keep _ r h2).trans ((w2_6_keep _ r h1).trans (w2_5_keep V r h0))

set_option maxRecDepth 8192 in
theorem st14_main_v152 (V : IVal) :
    after (w2_8 (F := Ideal)) (V) (Proc.devRef .tc main_v152)
      = Spec.mean (V (Proc.devRef .tc main_v149)) := by
  simp only [w2_8]
  after_results_simp
  rfl

theorem st14_keep (V : IVal) (r : Ref sig .tc) (h0 : r ∉ w2_8_W) :
    after (w2_8 (F := Ideal)) (V) (Proc.devRef .tc r) = V (Proc.devRef .tc r) :=
  w2_8_keep V r h0

set_option maxRecDepth 8192 in
theorem st15_main_v153 (V : IVal) :
    after (w2_10 (F := Ideal)) (after (w2_9 (F := Ideal)) (V)) (Proc.devRef .tc main_v153)
      = Spec.var (V (Proc.devRef .tc main_v149)) := by
  simp only [w2_9, w2_10]
  after_results_simp
  rfl

theorem st15_keep (V : IVal) (r : Ref sig .tc) (h0 : r ∉ w2_9_W) (h1 : r ∉ w2_10_W) :
    after (w2_10 (F := Ideal)) (after (w2_9 (F := Ideal)) (V)) (Proc.devRef .tc r) = V (Proc.devRef .tc r) :=
  (w2_10_keep _ r h1).trans (w2_9_keep V r h0)

set_option maxRecDepth 8192 in
theorem st16_main_v173 (V : IVal) :
    after (w3_1 (F := Ideal)) (after (w3_0 (F := Ideal)) (after (w2_11 (F := Ideal)) (V))) (Proc.devRef .tc main_v173)
      = Spec.bn (V (Proc.devRef .tc main_v149)) (V (Proc.devRef .tc main_v152)) (V (Proc.devRef .tc main_v153)) (Spec.row_2 (V (Proc.devRef .tc main_arg12))) (Spec.row_2 (V (Proc.devRef .tc main_arg13))) := by
  simp only [w2_11, w3_0, w3_1]
  after_results_simp
  rfl

theorem st16_keep (V : IVal) (r : Ref sig .tc) (h0 : r ∉ w2_11_W) (h1 : r ∉ w3_0_W) (h2 : r ∉ w3_1_W) :
    after (w3_1 (F := Ideal)) (after (w3_0 (F := Ideal)) (after (w2_11 (F := Ideal)) (V))) (Proc.devRef .tc r) = V (Proc.devRef .tc r) :=
  (w3_1_keep _ r h2).trans ((w3_0_keep _ r h1).trans (w2_11_keep V r h0))

set_option maxRecDepth 8192 in
theorem st17_main_v189 (V : IVal) :
    after (w3_2 (F := Ideal)) (V) (Proc.devRef .tc main_v189)
      = Spec.tail (V (Proc.devRef .tc main_v173)) (V (Proc.devRef .tc main_arg3)) (V (Proc.devRef .tc main_arg14)) (V (Proc.devRef .tc main_arg15)) := by
  simp only [w3_2]
  after_results_simp
  rfl

theorem st17_keep (V : IVal) (r : Ref sig .tc) (h0 : r ∉ w3_2_W) :
    after (w3_2 (F := Ideal)) (V) (Proc.devRef .tc r) = V (Proc.devRef .tc r) :=
  w3_2_keep V r h0

/-! ## The named quantities of one run, as functions of the launch contents -/

def tH0 (V0 : IVal) : Spec.Af S50000x64 := Spec.lin0 (V0 (Proc.devRef .tc main_arg0)) (V0 (Proc.devRef .tc main_arg4)) (V0 (Proc.devRef .tc main_arg5))
def tE (V0 : IVal) : Spec.Af S1600000x64 := Spec.lin1 (V0 (Proc.devRef .tc main_arg1)) (V0 (Proc.devRef .tc main_arg6)) (V0 (Proc.devRef .tc main_arg7))
def tAG0 (V0 : IVal) : Spec.Af S50000x64 := Spec.agg (tH0 V0) (tE V0) (V0 (Proc.devRef .tc main_arg2))
def tZ0 (V0 : IVal) : Spec.Af S50000x64 := Spec.mlp (tH0 V0) (tAG0 V0) (Spec.w1_0 (V0 (Proc.devRef .tc main_arg8))) (Spec.b1_0 (V0 (Proc.devRef .tc main_arg9))) (Spec.w2_0 (V0 (Proc.devRef .tc main_arg10))) (Spec.row_0 (V0 (Proc.devRef .tc main_arg11)))
def tMU0 (V0 : IVal) : Spec.Af S64 := Spec.mean (tZ0 V0)
def tVA0 (V0 : IVal) : Spec.Af S64 := Spec.var (tZ0 V0)
def tH1 (V0 : IVal) : Spec.Af S50000x64 := Spec.layer_0 (tH0 V0) (tE V0) (V0 (Proc.devRef .tc main_arg2)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13))
def tAG1 (V0 : IVal) : Spec.Af S50000x64 := Spec.agg (tH1 V0) (tE V0) (V0 (Proc.devRef .tc main_arg2))
def tZ1 (V0 : IVal) : Spec.Af S50000x64 := Spec.mlp (tH1 V0) (tAG1 V0) (Spec.w1_1 (V0 (Proc.devRef .tc main_arg8))) (Spec.b1_1 (V0 (Proc.devRef .tc main_arg9))) (Spec.w2_1 (V0 (Proc.devRef .tc main_arg10))) (Spec.row_1 (V0 (Proc.devRef .tc main_arg11)))
def tMU1 (V0 : IVal) : Spec.Af S64 := Spec.mean (tZ1 V0)
def tVA1 (V0 : IVal) : Spec.Af S64 := Spec.var (tZ1 V0)
def tH2 (V0 : IVal) : Spec.Af S50000x64 := Spec.layer_1 (tH1 V0) (tE V0) (V0 (Proc.devRef .tc main_arg2)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13))
def tAG2 (V0 : IVal) : Spec.Af S50000x64 := Spec.agg (tH2 V0) (tE V0) (V0 (Proc.devRef .tc main_arg2))
def tZ2 (V0 : IVal) : Spec.Af S50000x64 := Spec.mlp (tH2 V0) (tAG2 V0) (Spec.w1_2 (V0 (Proc.devRef .tc main_arg8))) (Spec.b1_2 (V0 (Proc.devRef .tc main_arg9))) (Spec.w2_2 (V0 (Proc.devRef .tc main_arg10))) (Spec.row_2 (V0 (Proc.devRef .tc main_arg11)))
def tMU2 (V0 : IVal) : Spec.Af S64 := Spec.mean (tZ2 V0)
def tVA2 (V0 : IVal) : Spec.Af S64 := Spec.var (tZ2 V0)
def tH3 (V0 : IVal) : Spec.Af S50000x64 := Spec.layer_2 (tH2 V0) (tE V0) (V0 (Proc.devRef .tc main_arg2)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13))
def tOUT (V0 : IVal) : Spec.Af S64x1 := Spec.tail (tH3 V0) (V0 (Proc.devRef .tc main_arg3)) (V0 (Proc.devRef .tc main_arg14)) (V0 (Proc.devRef .tc main_arg15))

/-! ## The contents after each stage -/

def val0 (V0 : IVal) : IVal := V0
theorem val0_main_arg0 (V0 : IVal) : val0 V0 (no_index (Proc.devRef .tc main_arg0)) = V0 (Proc.devRef .tc main_arg0) := rfl
theorem val0_main_arg4 (V0 : IVal) : val0 V0 (no_index (Proc.devRef .tc main_arg4)) = V0 (Proc.devRef .tc main_arg4) := rfl
theorem val0_main_arg5 (V0 : IVal) : val0 V0 (no_index (Proc.devRef .tc main_arg5)) = V0 (Proc.devRef .tc main_arg5) := rfl
theorem val0_main_arg1 (V0 : IVal) : val0 V0 (no_index (Proc.devRef .tc main_arg1)) = V0 (Proc.devRef .tc main_arg1) := rfl
theorem val0_main_arg6 (V0 : IVal) : val0 V0 (no_index (Proc.devRef .tc main_arg6)) = V0 (Proc.devRef .tc main_arg6) := rfl
theorem val0_main_arg7 (V0 : IVal) : val0 V0 (no_index (Proc.devRef .tc main_arg7)) = V0 (Proc.devRef .tc main_arg7) := rfl
theorem val0_main_arg2 (V0 : IVal) : val0 V0 (no_index (Proc.devRef .tc main_arg2)) = V0 (Proc.devRef .tc main_arg2) := rfl
theorem val0_main_arg8 (V0 : IVal) : val0 V0 (no_index (Proc.devRef .tc main_arg8)) = V0 (Proc.devRef .tc main_arg8) := rfl
theorem val0_main_arg9 (V0 : IVal) : val0 V0 (no_index (Proc.devRef .tc main_arg9)) = V0 (Proc.devRef .tc main_arg9) := rfl
theorem val0_main_arg10 (V0 : IVal) : val0 V0 (no_index (Proc.devRef .tc main_arg10)) = V0 (Proc.devRef .tc main_arg10) := rfl
theorem val0_main_arg11 (V0 : IVal) : val0 V0 (no_index (Proc.devRef .tc main_arg11)) = V0 (Proc.devRef .tc main_arg11) := rfl
theorem val0_main_arg12 (V0 : IVal) : val0 V0 (no_index (Proc.devRef .tc main_arg12)) = V0 (Proc.devRef .tc main_arg12) := rfl
theorem val0_main_arg13 (V0 : IVal) : val0 V0 (no_index (Proc.devRef .tc main_arg13)) = V0 (Proc.devRef .tc main_arg13) := rfl
theorem val0_main_arg3 (V0 : IVal) : val0 V0 (no_index (Proc.devRef .tc main_arg3)) = V0 (Proc.devRef .tc main_arg3) := rfl
theorem val0_main_arg14 (V0 : IVal) : val0 V0 (no_index (Proc.devRef .tc main_arg14)) = V0 (Proc.devRef .tc main_arg14) := rfl
theorem val0_main_arg15 (V0 : IVal) : val0 V0 (no_index (Proc.devRef .tc main_arg15)) = V0 (Proc.devRef .tc main_arg15) := rfl

def val1 (V0 : IVal) : IVal := after (w0_0 (F := Ideal)) (val0 V0)
theorem val1_main_v3 (V0 : IVal) : val1 V0 (no_index (Proc.devRef .tc main_v3)) = tH0 V0 :=
  (st1_main_v3 (val0 V0)).trans (by simp only [val0_main_arg0, val0_main_arg4, val0_main_arg5] <;> rfl)
theorem val1_main_v7 (V0 : IVal) : val1 V0 (no_index (Proc.devRef .tc main_v7)) = tE V0 :=
  (st1_main_v7 (val0 V0)).trans (by simp only [val0_main_arg1, val0_main_arg6, val0_main_arg7] <;> rfl)
theorem val1_main_v9 (V0 : IVal) : val1 V0 (no_index (Proc.devRef .tc main_v9)) = Spec.srcRow (V0 (Proc.devRef .tc main_arg2)) :=
  (st1_main_v9 (val0 V0)).trans (by simp only [val0_main_arg2] <;> rfl)
theorem val1_main_v11 (V0 : IVal) : val1 V0 (no_index (Proc.devRef .tc main_v11)) = dstRow (V0 (Proc.devRef .tc main_arg2)) :=
  (st1_main_v11 (val0 V0)).trans (by simp only [val0_main_arg2] <;> rfl)
theorem val1_main_arg8 (V0 : IVal) : val1 V0 (no_index (Proc.devRef .tc main_arg8)) = V0 (Proc.devRef .tc main_arg8) :=
  (st1_keep (val0 V0) main_arg8 (by decide)).trans (val0_main_arg8 V0)
theorem val1_main_arg9 (V0 : IVal) : val1 V0 (no_index (Proc.devRef .tc main_arg9)) = V0 (Proc.devRef .tc main_arg9) :=
  (st1_keep (val0 V0) main_arg9 (by decide)).trans (val0_main_arg9 V0)
theorem val1_main_arg10 (V0 : IVal) : val1 V0 (no_index (Proc.devRef .tc main_arg10)) = V0 (Proc.devRef .tc main_arg10) :=
  (st1_keep (val0 V0) main_arg10 (by decide)).trans (val0_main_arg10 V0)
theorem val1_main_arg11 (V0 : IVal) : val1 V0 (no_index (Proc.devRef .tc main_arg11)) = V0 (Proc.devRef .tc main_arg11) :=
  (st1_keep (val0 V0) main_arg11 (by decide)).trans (val0_main_arg11 V0)
theorem val1_main_arg12 (V0 : IVal) : val1 V0 (no_index (Proc.devRef .tc main_arg12)) = V0 (Proc.devRef .tc main_arg12) :=
  (st1_keep (val0 V0) main_arg12 (by decide)).trans (val0_main_arg12 V0)
theorem val1_main_arg13 (V0 : IVal) : val1 V0 (no_index (Proc.devRef .tc main_arg13)) = V0 (Proc.devRef .tc main_arg13) :=
  (st1_keep (val0 V0) main_arg13 (by decide)).trans (val0_main_arg13 V0)
theorem val1_main_arg3 (V0 : IVal) : val1 V0 (no_index (Proc.devRef .tc main_arg3)) = V0 (Proc.devRef .tc main_arg3) :=
  (st1_keep (val0 V0) main_arg3 (by decide)).trans (val0_main_arg3 V0)
theorem val1_main_arg14 (V0 : IVal) : val1 V0 (no_index (Proc.devRef .tc main_arg14)) = V0 (Proc.devRef .tc main_arg14) :=
  (st1_keep (val0 V0) main_arg14 (by decide)).trans (val0_main_arg14 V0)
theorem val1_main_arg15 (V0 : IVal) : val1 V0 (no_index (Proc.devRef .tc main_arg15)) = V0 (Proc.devRef .tc main_arg15) :=
  (st1_keep (val0 V0) main_arg15 (by decide)).trans (val0_main_arg15 V0)

def val2 (V0 : IVal) : IVal := after (w0_3 (F := Ideal)) (after (w0_2 (F := Ideal)) (after (w0_1 (F := Ideal)) (val1 V0)))
theorem val2_main_v3 (V0 : IVal) : val2 V0 (no_index (Proc.devRef .tc main_v3)) = tH0 V0 :=
  (st2_keep (val1 V0) main_v3 (by decide) (by decide) (by decide)).trans (val1_main_v3 V0)
theorem val2_main_v23 (V0 : IVal) : val2 V0 (no_index (Proc.devRef .tc main_v23)) = tAG0 V0 :=
  (st2_main_v23 (val1 V0)).trans (by simp only [val1_main_v3, val1_main_v7, val1_main_v9, val1_main_v11] <;> rfl)
theorem val2_main_arg8 (V0 : IVal) : val2 V0 (no_index (Proc.devRef .tc main_arg8)) = V0 (Proc.devRef .tc main_arg8) :=
  (st2_keep (val1 V0) main_arg8 (by decide) (by decide) (by decide)).trans (val1_main_arg8 V0)
theorem val2_main_arg9 (V0 : IVal) : val2 V0 (no_index (Proc.devRef .tc main_arg9)) = V0 (Proc.devRef .tc main_arg9) :=
  (st2_keep (val1 V0) main_arg9 (by decide) (by decide) (by decide)).trans (val1_main_arg9 V0)
theorem val2_main_arg10 (V0 : IVal) : val2 V0 (no_index (Proc.devRef .tc main_arg10)) = V0 (Proc.devRef .tc main_arg10) :=
  (st2_keep (val1 V0) main_arg10 (by decide) (by decide) (by decide)).trans (val1_main_arg10 V0)
theorem val2_main_arg11 (V0 : IVal) : val2 V0 (no_index (Proc.devRef .tc main_arg11)) = V0 (Proc.devRef .tc main_arg11) :=
  (st2_keep (val1 V0) main_arg11 (by decide) (by decide) (by decide)).trans (val1_main_arg11 V0)
theorem val2_main_arg12 (V0 : IVal) : val2 V0 (no_index (Proc.devRef .tc main_arg12)) = V0 (Proc.devRef .tc main_arg12) :=
  (st2_keep (val1 V0) main_arg12 (by decide) (by decide) (by decide)).trans (val1_main_arg12 V0)
theorem val2_main_arg13 (V0 : IVal) : val2 V0 (no_index (Proc.devRef .tc main_arg13)) = V0 (Proc.devRef .tc main_arg13) :=
  (st2_keep (val1 V0) main_arg13 (by decide) (by decide) (by decide)).trans (val1_main_arg13 V0)
theorem val2_main_v7 (V0 : IVal) : val2 V0 (no_index (Proc.devRef .tc main_v7)) = tE V0 :=
  (st2_keep (val1 V0) main_v7 (by decide) (by decide) (by decide)).trans (val1_main_v7 V0)
theorem val2_main_v9 (V0 : IVal) : val2 V0 (no_index (Proc.devRef .tc main_v9)) = Spec.srcRow (V0 (Proc.devRef .tc main_arg2)) :=
  (st2_keep (val1 V0) main_v9 (by decide) (by decide) (by decide)).trans (val1_main_v9 V0)
theorem val2_main_v11 (V0 : IVal) : val2 V0 (no_index (Proc.devRef .tc main_v11)) = dstRow (V0 (Proc.devRef .tc main_arg2)) :=
  (st2_keep (val1 V0) main_v11 (by decide) (by decide) (by decide)).trans (val1_main_v11 V0)
theorem val2_main_arg3 (V0 : IVal) : val2 V0 (no_index (Proc.devRef .tc main_arg3)) = V0 (Proc.devRef .tc main_arg3) :=
  (st2_keep (val1 V0) main_arg3 (by decide) (by decide) (by decide)).trans (val1_main_arg3 V0)
theorem val2_main_arg14 (V0 : IVal) : val2 V0 (no_index (Proc.devRef .tc main_arg14)) = V0 (Proc.devRef .tc main_arg14) :=
  (st2_keep (val1 V0) main_arg14 (by decide) (by decide) (by decide)).trans (val1_main_arg14 V0)
theorem val2_main_arg15 (V0 : IVal) : val2 V0 (no_index (Proc.devRef .tc main_arg15)) = V0 (Proc.devRef .tc main_arg15) :=
  (st2_keep (val1 V0) main_arg15 (by decide) (by decide) (by decide)).trans (val1_main_arg15 V0)

def val3 (V0 : IVal) : IVal := after (w0_6 (F := Ideal)) (after (w0_5 (F := Ideal)) (after (w0_4 (F := Ideal)) (val2 V0)))
theorem val3_main_v41 (V0 : IVal) : val3 V0 (no_index (Proc.devRef .tc main_v41)) = tZ0 V0 :=
  (st3_main_v41 (val2 V0)).trans (by simp only [val2_main_v3, val2_main_v23, val2_main_arg8, val2_main_arg9, val2_main_arg10, val2_main_arg11] <;> rfl)
theorem val3_main_arg12 (V0 : IVal) : val3 V0 (no_index (Proc.devRef .tc main_arg12)) = V0 (Proc.devRef .tc main_arg12) :=
  (st3_keep (val2 V0) main_arg12 (by decide) (by decide) (by decide)).trans (val2_main_arg12 V0)
theorem val3_main_arg13 (V0 : IVal) : val3 V0 (no_index (Proc.devRef .tc main_arg13)) = V0 (Proc.devRef .tc main_arg13) :=
  (st3_keep (val2 V0) main_arg13 (by decide) (by decide) (by decide)).trans (val2_main_arg13 V0)
theorem val3_main_v7 (V0 : IVal) : val3 V0 (no_index (Proc.devRef .tc main_v7)) = tE V0 :=
  (st3_keep (val2 V0) main_v7 (by decide) (by decide) (by decide)).trans (val2_main_v7 V0)
theorem val3_main_v9 (V0 : IVal) : val3 V0 (no_index (Proc.devRef .tc main_v9)) = Spec.srcRow (V0 (Proc.devRef .tc main_arg2)) :=
  (st3_keep (val2 V0) main_v9 (by decide) (by decide) (by decide)).trans (val2_main_v9 V0)
theorem val3_main_v11 (V0 : IVal) : val3 V0 (no_index (Proc.devRef .tc main_v11)) = dstRow (V0 (Proc.devRef .tc main_arg2)) :=
  (st3_keep (val2 V0) main_v11 (by decide) (by decide) (by decide)).trans (val2_main_v11 V0)
theorem val3_main_arg8 (V0 : IVal) : val3 V0 (no_index (Proc.devRef .tc main_arg8)) = V0 (Proc.devRef .tc main_arg8) :=
  (st3_keep (val2 V0) main_arg8 (by decide) (by decide) (by decide)).trans (val2_main_arg8 V0)
theorem val3_main_arg9 (V0 : IVal) : val3 V0 (no_index (Proc.devRef .tc main_arg9)) = V0 (Proc.devRef .tc main_arg9) :=
  (st3_keep (val2 V0) main_arg9 (by decide) (by decide) (by decide)).trans (val2_main_arg9 V0)
theorem val3_main_arg10 (V0 : IVal) : val3 V0 (no_index (Proc.devRef .tc main_arg10)) = V0 (Proc.devRef .tc main_arg10) :=
  (st3_keep (val2 V0) main_arg10 (by decide) (by decide) (by decide)).trans (val2_main_arg10 V0)
theorem val3_main_arg11 (V0 : IVal) : val3 V0 (no_index (Proc.devRef .tc main_arg11)) = V0 (Proc.devRef .tc main_arg11) :=
  (st3_keep (val2 V0) main_arg11 (by decide) (by decide) (by decide)).trans (val2_main_arg11 V0)
theorem val3_main_arg3 (V0 : IVal) : val3 V0 (no_index (Proc.devRef .tc main_arg3)) = V0 (Proc.devRef .tc main_arg3) :=
  (st3_keep (val2 V0) main_arg3 (by decide) (by decide) (by decide)).trans (val2_main_arg3 V0)
theorem val3_main_arg14 (V0 : IVal) : val3 V0 (no_index (Proc.devRef .tc main_arg14)) = V0 (Proc.devRef .tc main_arg14) :=
  (st3_keep (val2 V0) main_arg14 (by decide) (by decide) (by decide)).trans (val2_main_arg14 V0)
theorem val3_main_arg15 (V0 : IVal) : val3 V0 (no_index (Proc.devRef .tc main_arg15)) = V0 (Proc.devRef .tc main_arg15) :=
  (st3_keep (val2 V0) main_arg15 (by decide) (by decide) (by decide)).trans (val2_main_arg15 V0)

def val4 (V0 : IVal) : IVal := after (w0_7 (F := Ideal)) (val3 V0)
theorem val4_main_v41 (V0 : IVal) : val4 V0 (no_index (Proc.devRef .tc main_v41)) = tZ0 V0 :=
  (st4_keep (val3 V0) main_v41 (by decide)).trans (val3_main_v41 V0)
theorem val4_main_v44 (V0 : IVal) : val4 V0 (no_index (Proc.devRef .tc main_v44)) = tMU0 V0 :=
  (st4_main_v44 (val3 V0)).trans (by simp only [val3_main_v41] <;> rfl)
theorem val4_main_arg12 (V0 : IVal) : val4 V0 (no_index (Proc.devRef .tc main_arg12)) = V0 (Proc.devRef .tc main_arg12) :=
  (st4_keep (val3 V0) main_arg12 (by decide)).trans (val3_main_arg12 V0)
theorem val4_main_arg13 (V0 : IVal) : val4 V0 (no_index (Proc.devRef .tc main_arg13)) = V0 (Proc.devRef .tc main_arg13) :=
  (st4_keep (val3 V0) main_arg13 (by decide)).trans (val3_main_arg13 V0)
theorem val4_main_v7 (V0 : IVal) : val4 V0 (no_index (Proc.devRef .tc main_v7)) = tE V0 :=
  (st4_keep (val3 V0) main_v7 (by decide)).trans (val3_main_v7 V0)
theorem val4_main_v9 (V0 : IVal) : val4 V0 (no_index (Proc.devRef .tc main_v9)) = Spec.srcRow (V0 (Proc.devRef .tc main_arg2)) :=
  (st4_keep (val3 V0) main_v9 (by decide)).trans (val3_main_v9 V0)
theorem val4_main_v11 (V0 : IVal) : val4 V0 (no_index (Proc.devRef .tc main_v11)) = dstRow (V0 (Proc.devRef .tc main_arg2)) :=
  (st4_keep (val3 V0) main_v11 (by decide)).trans (val3_main_v11 V0)
theorem val4_main_arg8 (V0 : IVal) : val4 V0 (no_index (Proc.devRef .tc main_arg8)) = V0 (Proc.devRef .tc main_arg8) :=
  (st4_keep (val3 V0) main_arg8 (by decide)).trans (val3_main_arg8 V0)
theorem val4_main_arg9 (V0 : IVal) : val4 V0 (no_index (Proc.devRef .tc main_arg9)) = V0 (Proc.devRef .tc main_arg9) :=
  (st4_keep (val3 V0) main_arg9 (by decide)).trans (val3_main_arg9 V0)
theorem val4_main_arg10 (V0 : IVal) : val4 V0 (no_index (Proc.devRef .tc main_arg10)) = V0 (Proc.devRef .tc main_arg10) :=
  (st4_keep (val3 V0) main_arg10 (by decide)).trans (val3_main_arg10 V0)
theorem val4_main_arg11 (V0 : IVal) : val4 V0 (no_index (Proc.devRef .tc main_arg11)) = V0 (Proc.devRef .tc main_arg11) :=
  (st4_keep (val3 V0) main_arg11 (by decide)).trans (val3_main_arg11 V0)
theorem val4_main_arg3 (V0 : IVal) : val4 V0 (no_index (Proc.devRef .tc main_arg3)) = V0 (Proc.devRef .tc main_arg3) :=
  (st4_keep (val3 V0) main_arg3 (by decide)).trans (val3_main_arg3 V0)
theorem val4_main_arg14 (V0 : IVal) : val4 V0 (no_index (Proc.devRef .tc main_arg14)) = V0 (Proc.devRef .tc main_arg14) :=
  (st4_keep (val3 V0) main_arg14 (by decide)).trans (val3_main_arg14 V0)
theorem val4_main_arg15 (V0 : IVal) : val4 V0 (no_index (Proc.devRef .tc main_arg15)) = V0 (Proc.devRef .tc main_arg15) :=
  (st4_keep (val3 V0) main_arg15 (by decide)).trans (val3_main_arg15 V0)

def val5 (V0 : IVal) : IVal := after (w0_9 (F := Ideal)) (after (w0_8 (F := Ideal)) (val4 V0))
theorem val5_main_v41 (V0 : IVal) : val5 V0 (no_index (Proc.devRef .tc main_v41)) = tZ0 V0 :=
  (st5_keep (val4 V0) main_v41 (by decide) (by decide)).trans (val4_main_v41 V0)
theorem val5_main_v44 (V0 : IVal) : val5 V0 (no_index (Proc.devRef .tc main_v44)) = tMU0 V0 :=
  (st5_keep (val4 V0) main_v44 (by decide) (by decide)).trans (val4_main_v44 V0)
theorem val5_main_v45 (V0 : IVal) : val5 V0 (no_index (Proc.devRef .tc main_v45)) = tVA0 V0 :=
  (st5_main_v45 (val4 V0)).trans (by simp only [val4_main_v41] <;> rfl)
theorem val5_main_arg12 (V0 : IVal) : val5 V0 (no_index (Proc.devRef .tc main_arg12)) = V0 (Proc.devRef .tc main_arg12) :=
  (st5_keep (val4 V0) main_arg12 (by decide) (by decide)).trans (val4_main_arg12 V0)
theorem val5_main_arg13 (V0 : IVal) : val5 V0 (no_index (Proc.devRef .tc main_arg13)) = V0 (Proc.devRef .tc main_arg13) :=
  (st5_keep (val4 V0) main_arg13 (by decide) (by decide)).trans (val4_main_arg13 V0)
theorem val5_main_v7 (V0 : IVal) : val5 V0 (no_index (Proc.devRef .tc main_v7)) = tE V0 :=
  (st5_keep (val4 V0) main_v7 (by decide) (by decide)).trans (val4_main_v7 V0)
theorem val5_main_v9 (V0 : IVal) : val5 V0 (no_index (Proc.devRef .tc main_v9)) = Spec.srcRow (V0 (Proc.devRef .tc main_arg2)) :=
  (st5_keep (val4 V0) main_v9 (by decide) (by decide)).trans (val4_main_v9 V0)
theorem val5_main_v11 (V0 : IVal) : val5 V0 (no_index (Proc.devRef .tc main_v11)) = dstRow (V0 (Proc.devRef .tc main_arg2)) :=
  (st5_keep (val4 V0) main_v11 (by decide) (by decide)).trans (val4_main_v11 V0)
theorem val5_main_arg8 (V0 : IVal) : val5 V0 (no_index (Proc.devRef .tc main_arg8)) = V0 (Proc.devRef .tc main_arg8) :=
  (st5_keep (val4 V0) main_arg8 (by decide) (by decide)).trans (val4_main_arg8 V0)
theorem val5_main_arg9 (V0 : IVal) : val5 V0 (no_index (Proc.devRef .tc main_arg9)) = V0 (Proc.devRef .tc main_arg9) :=
  (st5_keep (val4 V0) main_arg9 (by decide) (by decide)).trans (val4_main_arg9 V0)
theorem val5_main_arg10 (V0 : IVal) : val5 V0 (no_index (Proc.devRef .tc main_arg10)) = V0 (Proc.devRef .tc main_arg10) :=
  (st5_keep (val4 V0) main_arg10 (by decide) (by decide)).trans (val4_main_arg10 V0)
theorem val5_main_arg11 (V0 : IVal) : val5 V0 (no_index (Proc.devRef .tc main_arg11)) = V0 (Proc.devRef .tc main_arg11) :=
  (st5_keep (val4 V0) main_arg11 (by decide) (by decide)).trans (val4_main_arg11 V0)
theorem val5_main_arg3 (V0 : IVal) : val5 V0 (no_index (Proc.devRef .tc main_arg3)) = V0 (Proc.devRef .tc main_arg3) :=
  (st5_keep (val4 V0) main_arg3 (by decide) (by decide)).trans (val4_main_arg3 V0)
theorem val5_main_arg14 (V0 : IVal) : val5 V0 (no_index (Proc.devRef .tc main_arg14)) = V0 (Proc.devRef .tc main_arg14) :=
  (st5_keep (val4 V0) main_arg14 (by decide) (by decide)).trans (val4_main_arg14 V0)
theorem val5_main_arg15 (V0 : IVal) : val5 V0 (no_index (Proc.devRef .tc main_arg15)) = V0 (Proc.devRef .tc main_arg15) :=
  (st5_keep (val4 V0) main_arg15 (by decide) (by decide)).trans (val4_main_arg15 V0)

def val6 (V0 : IVal) : IVal := after (w1_1 (F := Ideal)) (after (w1_0 (F := Ideal)) (after (w0_10 (F := Ideal)) (val5 V0)))
theorem val6_main_v65 (V0 : IVal) : val6 V0 (no_index (Proc.devRef .tc main_v65)) = tH1 V0 :=
  (st6_main_v65 (val5 V0)).trans (by simp only [val5_main_v41, val5_main_v44, val5_main_v45, val5_main_arg12, val5_main_arg13] <;> rfl)
theorem val6_main_v7 (V0 : IVal) : val6 V0 (no_index (Proc.devRef .tc main_v7)) = tE V0 :=
  (st6_keep (val5 V0) main_v7 (by decide) (by decide) (by decide)).trans (val5_main_v7 V0)
theorem val6_main_v9 (V0 : IVal) : val6 V0 (no_index (Proc.devRef .tc main_v9)) = Spec.srcRow (V0 (Proc.devRef .tc main_arg2)) :=
  (st6_keep (val5 V0) main_v9 (by decide) (by decide) (by decide)).trans (val5_main_v9 V0)
theorem val6_main_v11 (V0 : IVal) : val6 V0 (no_index (Proc.devRef .tc main_v11)) = dstRow (V0 (Proc.devRef .tc main_arg2)) :=
  (st6_keep (val5 V0) main_v11 (by decide) (by decide) (by decide)).trans (val5_main_v11 V0)
theorem val6_main_arg8 (V0 : IVal) : val6 V0 (no_index (Proc.devRef .tc main_arg8)) = V0 (Proc.devRef .tc main_arg8) :=
  (st6_keep (val5 V0) main_arg8 (by decide) (by decide) (by decide)).trans (val5_main_arg8 V0)
theorem val6_main_arg9 (V0 : IVal) : val6 V0 (no_index (Proc.devRef .tc main_arg9)) = V0 (Proc.devRef .tc main_arg9) :=
  (st6_keep (val5 V0) main_arg9 (by decide) (by decide) (by decide)).trans (val5_main_arg9 V0)
theorem val6_main_arg10 (V0 : IVal) : val6 V0 (no_index (Proc.devRef .tc main_arg10)) = V0 (Proc.devRef .tc main_arg10) :=
  (st6_keep (val5 V0) main_arg10 (by decide) (by decide) (by decide)).trans (val5_main_arg10 V0)
theorem val6_main_arg11 (V0 : IVal) : val6 V0 (no_index (Proc.devRef .tc main_arg11)) = V0 (Proc.devRef .tc main_arg11) :=
  (st6_keep (val5 V0) main_arg11 (by decide) (by decide) (by decide)).trans (val5_main_arg11 V0)
theorem val6_main_arg12 (V0 : IVal) : val6 V0 (no_index (Proc.devRef .tc main_arg12)) = V0 (Proc.devRef .tc main_arg12) :=
  (st6_keep (val5 V0) main_arg12 (by decide) (by decide) (by decide)).trans (val5_main_arg12 V0)
theorem val6_main_arg13 (V0 : IVal) : val6 V0 (no_index (Proc.devRef .tc main_arg13)) = V0 (Proc.devRef .tc main_arg13) :=
  (st6_keep (val5 V0) main_arg13 (by decide) (by decide) (by decide)).trans (val5_main_arg13 V0)
theorem val6_main_arg3 (V0 : IVal) : val6 V0 (no_index (Proc.devRef .tc main_arg3)) = V0 (Proc.devRef .tc main_arg3) :=
  (st6_keep (val5 V0) main_arg3 (by decide) (by decide) (by decide)).trans (val5_main_arg3 V0)
theorem val6_main_arg14 (V0 : IVal) : val6 V0 (no_index (Proc.devRef .tc main_arg14)) = V0 (Proc.devRef .tc main_arg14) :=
  (st6_keep (val5 V0) main_arg14 (by decide) (by decide) (by decide)).trans (val5_main_arg14 V0)
theorem val6_main_arg15 (V0 : IVal) : val6 V0 (no_index (Proc.devRef .tc main_arg15)) = V0 (Proc.devRef .tc main_arg15) :=
  (st6_keep (val5 V0) main_arg15 (by decide) (by decide) (by decide)).trans (val5_main_arg15 V0)

def val7 (V0 : IVal) : IVal := after (w1_4 (F := Ideal)) (after (w1_3 (F := Ideal)) (after (w1_2 (F := Ideal)) (val6 V0)))
theorem val7_main_v65 (V0 : IVal) : val7 V0 (no_index (Proc.devRef .tc main_v65)) = tH1 V0 :=
  (st7_keep (val6 V0) main_v65 (by decide) (by decide) (by decide)).trans (val6_main_v65 V0)
theorem val7_main_v77 (V0 : IVal) : val7 V0 (no_index (Proc.devRef .tc main_v77)) = tAG1 V0 :=
  (st7_main_v77 (val6 V0)).trans (by simp only [val6_main_v65, val6_main_v7, val6_main_v9, val6_main_v11] <;> rfl)
theorem val7_main_arg8 (V0 : IVal) : val7 V0 (no_index (Proc.devRef .tc main_arg8)) = V0 (Proc.devRef .tc main_arg8) :=
  (st7_keep (val6 V0) main_arg8 (by decide) (by decide) (by decide)).trans (val6_main_arg8 V0)
theorem val7_main_arg9 (V0 : IVal) : val7 V0 (no_index (Proc.devRef .tc main_arg9)) = V0 (Proc.devRef .tc main_arg9) :=
  (st7_keep (val6 V0) main_arg9 (by decide) (by decide) (by decide)).trans (val6_main_arg9 V0)
theorem val7_main_arg10 (V0 : IVal) : val7 V0 (no_index (Proc.devRef .tc main_arg10)) = V0 (Proc.devRef .tc main_arg10) :=
  (st7_keep (val6 V0) main_arg10 (by decide) (by decide) (by decide)).trans (val6_main_arg10 V0)
theorem val7_main_arg11 (V0 : IVal) : val7 V0 (no_index (Proc.devRef .tc main_arg11)) = V0 (Proc.devRef .tc main_arg11) :=
  (st7_keep (val6 V0) main_arg11 (by decide) (by decide) (by decide)).trans (val6_main_arg11 V0)
theorem val7_main_arg12 (V0 : IVal) : val7 V0 (no_index (Proc.devRef .tc main_arg12)) = V0 (Proc.devRef .tc main_arg12) :=
  (st7_keep (val6 V0) main_arg12 (by decide) (by decide) (by decide)).trans (val6_main_arg12 V0)
theorem val7_main_arg13 (V0 : IVal) : val7 V0 (no_index (Proc.devRef .tc main_arg13)) = V0 (Proc.devRef .tc main_arg13) :=
  (st7_keep (val6 V0) main_arg13 (by decide) (by decide) (by decide)).trans (val6_main_arg13 V0)
theorem val7_main_v7 (V0 : IVal) : val7 V0 (no_index (Proc.devRef .tc main_v7)) = tE V0 :=
  (st7_keep (val6 V0) main_v7 (by decide) (by decide) (by decide)).trans (val6_main_v7 V0)
theorem val7_main_v9 (V0 : IVal) : val7 V0 (no_index (Proc.devRef .tc main_v9)) = Spec.srcRow (V0 (Proc.devRef .tc main_arg2)) :=
  (st7_keep (val6 V0) main_v9 (by decide) (by decide) (by decide)).trans (val6_main_v9 V0)
theorem val7_main_v11 (V0 : IVal) : val7 V0 (no_index (Proc.devRef .tc main_v11)) = dstRow (V0 (Proc.devRef .tc main_arg2)) :=
  (st7_keep (val6 V0) main_v11 (by decide) (by decide) (by decide)).trans (val6_main_v11 V0)
theorem val7_main_arg3 (V0 : IVal) : val7 V0 (no_index (Proc.devRef .tc main_arg3)) = V0 (Proc.devRef .tc main_arg3) :=
  (st7_keep (val6 V0) main_arg3 (by decide) (by decide) (by decide)).trans (val6_main_arg3 V0)
theorem val7_main_arg14 (V0 : IVal) : val7 V0 (no_index (Proc.devRef .tc main_arg14)) = V0 (Proc.devRef .tc main_arg14) :=
  (st7_keep (val6 V0) main_arg14 (by decide) (by decide) (by decide)).trans (val6_main_arg14 V0)
theorem val7_main_arg15 (V0 : IVal) : val7 V0 (no_index (Proc.devRef .tc main_arg15)) = V0 (Proc.devRef .tc main_arg15) :=
  (st7_keep (val6 V0) main_arg15 (by decide) (by decide) (by decide)).trans (val6_main_arg15 V0)

def val8 (V0 : IVal) : IVal := after (w1_7 (F := Ideal)) (after (w1_6 (F := Ideal)) (after (w1_5 (F := Ideal)) (val7 V0)))
theorem val8_main_v95 (V0 : IVal) : val8 V0 (no_index (Proc.devRef .tc main_v95)) = tZ1 V0 :=
  (st8_main_v95 (val7 V0)).trans (by simp only [val7_main_v65, val7_main_v77, val7_main_arg8, val7_main_arg9, val7_main_arg10, val7_main_arg11] <;> rfl)
theorem val8_main_arg12 (V0 : IVal) : val8 V0 (no_index (Proc.devRef .tc main_arg12)) = V0 (Proc.devRef .tc main_arg12) :=
  (st8_keep (val7 V0) main_arg12 (by decide) (by decide) (by decide)).trans (val7_main_arg12 V0)
theorem val8_main_arg13 (V0 : IVal) : val8 V0 (no_index (Proc.devRef .tc main_arg13)) = V0 (Proc.devRef .tc main_arg13) :=
  (st8_keep (val7 V0) main_arg13 (by decide) (by decide) (by decide)).trans (val7_main_arg13 V0)
theorem val8_main_v7 (V0 : IVal) : val8 V0 (no_index (Proc.devRef .tc main_v7)) = tE V0 :=
  (st8_keep (val7 V0) main_v7 (by decide) (by decide) (by decide)).trans (val7_main_v7 V0)
theorem val8_main_v9 (V0 : IVal) : val8 V0 (no_index (Proc.devRef .tc main_v9)) = Spec.srcRow (V0 (Proc.devRef .tc main_arg2)) :=
  (st8_keep (val7 V0) main_v9 (by decide) (by decide) (by decide)).trans (val7_main_v9 V0)
theorem val8_main_v11 (V0 : IVal) : val8 V0 (no_index (Proc.devRef .tc main_v11)) = dstRow (V0 (Proc.devRef .tc main_arg2)) :=
  (st8_keep (val7 V0) main_v11 (by decide) (by decide) (by decide)).trans (val7_main_v11 V0)
theorem val8_main_arg8 (V0 : IVal) : val8 V0 (no_index (Proc.devRef .tc main_arg8)) = V0 (Proc.devRef .tc main_arg8) :=
  (st8_keep (val7 V0) main_arg8 (by decide) (by decide) (by decide)).trans (val7_main_arg8 V0)
theorem val8_main_arg9 (V0 : IVal) : val8 V0 (no_index (Proc.devRef .tc main_arg9)) = V0 (Proc.devRef .tc main_arg9) :=
  (st8_keep (val7 V0) main_arg9 (by decide) (by decide) (by decide)).trans (val7_main_arg9 V0)
theorem val8_main_arg10 (V0 : IVal) : val8 V0 (no_index (Proc.devRef .tc main_arg10)) = V0 (Proc.devRef .tc main_arg10) :=
  (st8_keep (val7 V0) main_arg10 (by decide) (by decide) (by decide)).trans (val7_main_arg10 V0)
theorem val8_main_arg11 (V0 : IVal) : val8 V0 (no_index (Proc.devRef .tc main_arg11)) = V0 (Proc.devRef .tc main_arg11) :=
  (st8_keep (val7 V0) main_arg11 (by decide) (by decide) (by decide)).trans (val7_main_arg11 V0)
theorem val8_main_arg3 (V0 : IVal) : val8 V0 (no_index (Proc.devRef .tc main_arg3)) = V0 (Proc.devRef .tc main_arg3) :=
  (st8_keep (val7 V0) main_arg3 (by decide) (by decide) (by decide)).trans (val7_main_arg3 V0)
theorem val8_main_arg14 (V0 : IVal) : val8 V0 (no_index (Proc.devRef .tc main_arg14)) = V0 (Proc.devRef .tc main_arg14) :=
  (st8_keep (val7 V0) main_arg14 (by decide) (by decide) (by decide)).trans (val7_main_arg14 V0)
theorem val8_main_arg15 (V0 : IVal) : val8 V0 (no_index (Proc.devRef .tc main_arg15)) = V0 (Proc.devRef .tc main_arg15) :=
  (st8_keep (val7 V0) main_arg15 (by decide) (by decide) (by decide)).trans (val7_main_arg15 V0)

def val9 (V0 : IVal) : IVal := after (w1_8 (F := Ideal)) (val8 V0)
theorem val9_main_v95 (V0 : IVal) : val9 V0 (no_index (Proc.devRef .tc main_v95)) = tZ1 V0 :=
  (st9_keep (val8 V0) main_v95 (by decide)).trans (val8_main_v95 V0)
theorem val9_main_v98 (V0 : IVal) : val9 V0 (no_index (Proc.devRef .tc main_v98)) = tMU1 V0 :=
  (st9_main_v98 (val8 V0)).trans (by simp only [val8_main_v95] <;> rfl)
theorem val9_main_arg12 (V0 : IVal) : val9 V0 (no_index (Proc.devRef .tc main_arg12)) = V0 (Proc.devRef .tc main_arg12) :=
  (st9_keep (val8 V0) main_arg12 (by decide)).trans (val8_main_arg12 V0)
theorem val9_main_arg13 (V0 : IVal) : val9 V0 (no_index (Proc.devRef .tc main_arg13)) = V0 (Proc.devRef .tc main_arg13) :=
  (st9_keep (val8 V0) main_arg13 (by decide)).trans (val8_main_arg13 V0)
theorem val9_main_v7 (V0 : IVal) : val9 V0 (no_index (Proc.devRef .tc main_v7)) = tE V0 :=
  (st9_keep (val8 V0) main_v7 (by decide)).trans (val8_main_v7 V0)
theorem val9_main_v9 (V0 : IVal) : val9 V0 (no_index (Proc.devRef .tc main_v9)) = Spec.srcRow (V0 (Proc.devRef .tc main_arg2)) :=
  (st9_keep (val8 V0) main_v9 (by decide)).trans (val8_main_v9 V0)
theorem val9_main_v11 (V0 : IVal) : val9 V0 (no_index (Proc.devRef .tc main_v11)) = dstRow (V0 (Proc.devRef .tc main_arg2)) :=
  (st9_keep (val8 V0) main_v11 (by decide)).trans (val8_main_v11 V0)
theorem val9_main_arg8 (V0 : IVal) : val9 V0 (no_index (Proc.devRef .tc main_arg8)) = V0 (Proc.devRef .tc main_arg8) :=
  (st9_keep (val8 V0) main_arg8 (by decide)).trans (val8_main_arg8 V0)
theorem val9_main_arg9 (V0 : IVal) : val9 V0 (no_index (Proc.devRef .tc main_arg9)) = V0 (Proc.devRef .tc main_arg9) :=
  (st9_keep (val8 V0) main_arg9 (by decide)).trans (val8_main_arg9 V0)
theorem val9_main_arg10 (V0 : IVal) : val9 V0 (no_index (Proc.devRef .tc main_arg10)) = V0 (Proc.devRef .tc main_arg10) :=
  (st9_keep (val8 V0) main_arg10 (by decide)).trans (val8_main_arg10 V0)
theorem val9_main_arg11 (V0 : IVal) : val9 V0 (no_index (Proc.devRef .tc main_arg11)) = V0 (Proc.devRef .tc main_arg11) :=
  (st9_keep (val8 V0) main_arg11 (by decide)).trans (val8_main_arg11 V0)
theorem val9_main_arg3 (V0 : IVal) : val9 V0 (no_index (Proc.devRef .tc main_arg3)) = V0 (Proc.devRef .tc main_arg3) :=
  (st9_keep (val8 V0) main_arg3 (by decide)).trans (val8_main_arg3 V0)
theorem val9_main_arg14 (V0 : IVal) : val9 V0 (no_index (Proc.devRef .tc main_arg14)) = V0 (Proc.devRef .tc main_arg14) :=
  (st9_keep (val8 V0) main_arg14 (by decide)).trans (val8_main_arg14 V0)
theorem val9_main_arg15 (V0 : IVal) : val9 V0 (no_index (Proc.devRef .tc main_arg15)) = V0 (Proc.devRef .tc main_arg15) :=
  (st9_keep (val8 V0) main_arg15 (by decide)).trans (val8_main_arg15 V0)

def val10 (V0 : IVal) : IVal := after (w1_10 (F := Ideal)) (after (w1_9 (F := Ideal)) (val9 V0))
theorem val10_main_v95 (V0 : IVal) : val10 V0 (no_index (Proc.devRef .tc main_v95)) = tZ1 V0 :=
  (st10_keep (val9 V0) main_v95 (by decide) (by decide)).trans (val9_main_v95 V0)
theorem val10_main_v98 (V0 : IVal) : val10 V0 (no_index (Proc.devRef .tc main_v98)) = tMU1 V0 :=
  (st10_keep (val9 V0) main_v98 (by decide) (by decide)).trans (val9_main_v98 V0)
theorem val10_main_v99 (V0 : IVal) : val10 V0 (no_index (Proc.devRef .tc main_v99)) = tVA1 V0 :=
  (st10_main_v99 (val9 V0)).trans (by simp only [val9_main_v95] <;> rfl)
theorem val10_main_arg12 (V0 : IVal) : val10 V0 (no_index (Proc.devRef .tc main_arg12)) = V0 (Proc.devRef .tc main_arg12) :=
  (st10_keep (val9 V0) main_arg12 (by decide) (by decide)).trans (val9_main_arg12 V0)
theorem val10_main_arg13 (V0 : IVal) : val10 V0 (no_index (Proc.devRef .tc main_arg13)) = V0 (Proc.devRef .tc main_arg13) :=
  (st10_keep (val9 V0) main_arg13 (by decide) (by decide)).trans (val9_main_arg13 V0)
theorem val10_main_v7 (V0 : IVal) : val10 V0 (no_index (Proc.devRef .tc main_v7)) = tE V0 :=
  (st10_keep (val9 V0) main_v7 (by decide) (by decide)).trans (val9_main_v7 V0)
theorem val10_main_v9 (V0 : IVal) : val10 V0 (no_index (Proc.devRef .tc main_v9)) = Spec.srcRow (V0 (Proc.devRef .tc main_arg2)) :=
  (st10_keep (val9 V0) main_v9 (by decide) (by decide)).trans (val9_main_v9 V0)
theorem val10_main_v11 (V0 : IVal) : val10 V0 (no_index (Proc.devRef .tc main_v11)) = dstRow (V0 (Proc.devRef .tc main_arg2)) :=
  (st10_keep (val9 V0) main_v11 (by decide) (by decide)).trans (val9_main_v11 V0)
theorem val10_main_arg8 (V0 : IVal) : val10 V0 (no_index (Proc.devRef .tc main_arg8)) = V0 (Proc.devRef .tc main_arg8) :=
  (st10_keep (val9 V0) main_arg8 (by decide) (by decide)).trans (val9_main_arg8 V0)
theorem val10_main_arg9 (V0 : IVal) : val10 V0 (no_index (Proc.devRef .tc main_arg9)) = V0 (Proc.devRef .tc main_arg9) :=
  (st10_keep (val9 V0) main_arg9 (by decide) (by decide)).trans (val9_main_arg9 V0)
theorem val10_main_arg10 (V0 : IVal) : val10 V0 (no_index (Proc.devRef .tc main_arg10)) = V0 (Proc.devRef .tc main_arg10) :=
  (st10_keep (val9 V0) main_arg10 (by decide) (by decide)).trans (val9_main_arg10 V0)
theorem val10_main_arg11 (V0 : IVal) : val10 V0 (no_index (Proc.devRef .tc main_arg11)) = V0 (Proc.devRef .tc main_arg11) :=
  (st10_keep (val9 V0) main_arg11 (by decide) (by decide)).trans (val9_main_arg11 V0)
theorem val10_main_arg3 (V0 : IVal) : val10 V0 (no_index (Proc.devRef .tc main_arg3)) = V0 (Proc.devRef .tc main_arg3) :=
  (st10_keep (val9 V0) main_arg3 (by decide) (by decide)).trans (val9_main_arg3 V0)
theorem val10_main_arg14 (V0 : IVal) : val10 V0 (no_index (Proc.devRef .tc main_arg14)) = V0 (Proc.devRef .tc main_arg14) :=
  (st10_keep (val9 V0) main_arg14 (by decide) (by decide)).trans (val9_main_arg14 V0)
theorem val10_main_arg15 (V0 : IVal) : val10 V0 (no_index (Proc.devRef .tc main_arg15)) = V0 (Proc.devRef .tc main_arg15) :=
  (st10_keep (val9 V0) main_arg15 (by decide) (by decide)).trans (val9_main_arg15 V0)

def val11 (V0 : IVal) : IVal := after (w2_1 (F := Ideal)) (after (w2_0 (F := Ideal)) (after (w1_11 (F := Ideal)) (val10 V0)))
theorem val11_main_v119 (V0 : IVal) : val11 V0 (no_index (Proc.devRef .tc main_v119)) = tH2 V0 :=
  (st11_main_v119 (val10 V0)).trans (by simp only [val10_main_v95, val10_main_v98, val10_main_v99, val10_main_arg12, val10_main_arg13] <;> rfl)
theorem val11_main_v7 (V0 : IVal) : val11 V0 (no_index (Proc.devRef .tc main_v7)) = tE V0 :=
  (st11_keep (val10 V0) main_v7 (by decide) (by decide) (by decide)).trans (val10_main_v7 V0)
theorem val11_main_v9 (V0 : IVal) : val11 V0 (no_index (Proc.devRef .tc main_v9)) = Spec.srcRow (V0 (Proc.devRef .tc main_arg2)) :=
  (st11_keep (val10 V0) main_v9 (by decide) (by decide) (by decide)).trans (val10_main_v9 V0)
theorem val11_main_v11 (V0 : IVal) : val11 V0 (no_index (Proc.devRef .tc main_v11)) = dstRow (V0 (Proc.devRef .tc main_arg2)) :=
  (st11_keep (val10 V0) main_v11 (by decide) (by decide) (by decide)).trans (val10_main_v11 V0)
theorem val11_main_arg8 (V0 : IVal) : val11 V0 (no_index (Proc.devRef .tc main_arg8)) = V0 (Proc.devRef .tc main_arg8) :=
  (st11_keep (val10 V0) main_arg8 (by decide) (by decide) (by decide)).trans (val10_main_arg8 V0)
theorem val11_main_arg9 (V0 : IVal) : val11 V0 (no_index (Proc.devRef .tc main_arg9)) = V0 (Proc.devRef .tc main_arg9) :=
  (st11_keep (val10 V0) main_arg9 (by decide) (by decide) (by decide)).trans (val10_main_arg9 V0)
theorem val11_main_arg10 (V0 : IVal) : val11 V0 (no_index (Proc.devRef .tc main_arg10)) = V0 (Proc.devRef .tc main_arg10) :=
  (st11_keep (val10 V0) main_arg10 (by decide) (by decide) (by decide)).trans (val10_main_arg10 V0)
theorem val11_main_arg11 (V0 : IVal) : val11 V0 (no_index (Proc.devRef .tc main_arg11)) = V0 (Proc.devRef .tc main_arg11) :=
  (st11_keep (val10 V0) main_arg11 (by decide) (by decide) (by decide)).trans (val10_main_arg11 V0)
theorem val11_main_arg12 (V0 : IVal) : val11 V0 (no_index (Proc.devRef .tc main_arg12)) = V0 (Proc.devRef .tc main_arg12) :=
  (st11_keep (val10 V0) main_arg12 (by decide) (by decide) (by decide)).trans (val10_main_arg12 V0)
theorem val11_main_arg13 (V0 : IVal) : val11 V0 (no_index (Proc.devRef .tc main_arg13)) = V0 (Proc.devRef .tc main_arg13) :=
  (st11_keep (val10 V0) main_arg13 (by decide) (by decide) (by decide)).trans (val10_main_arg13 V0)
theorem val11_main_arg3 (V0 : IVal) : val11 V0 (no_index (Proc.devRef .tc main_arg3)) = V0 (Proc.devRef .tc main_arg3) :=
  (st11_keep (val10 V0) main_arg3 (by decide) (by decide) (by decide)).trans (val10_main_arg3 V0)
theorem val11_main_arg14 (V0 : IVal) : val11 V0 (no_index (Proc.devRef .tc main_arg14)) = V0 (Proc.devRef .tc main_arg14) :=
  (st11_keep (val10 V0) main_arg14 (by decide) (by decide) (by decide)).trans (val10_main_arg14 V0)
theorem val11_main_arg15 (V0 : IVal) : val11 V0 (no_index (Proc.devRef .tc main_arg15)) = V0 (Proc.devRef .tc main_arg15) :=
  (st11_keep (val10 V0) main_arg15 (by decide) (by decide) (by decide)).trans (val10_main_arg15 V0)

def val12 (V0 : IVal) : IVal := after (w2_4 (F := Ideal)) (after (w2_3 (F := Ideal)) (after (w2_2 (F := Ideal)) (val11 V0)))
theorem val12_main_v119 (V0 : IVal) : val12 V0 (no_index (Proc.devRef .tc main_v119)) = tH2 V0 :=
  (st12_keep (val11 V0) main_v119 (by decide) (by decide) (by decide)).trans (val11_main_v119 V0)
theorem val12_main_v131 (V0 : IVal) : val12 V0 (no_index (Proc.devRef .tc main_v131)) = tAG2 V0 :=
  (st12_main_v131 (val11 V0)).trans (by simp only [val11_main_v119, val11_main_v7, val11_main_v9, val11_main_v11] <;> rfl)
theorem val12_main_arg8 (V0 : IVal) : val12 V0 (no_index (Proc.devRef .tc main_arg8)) = V0 (Proc.devRef .tc main_arg8) :=
  (st12_keep (val11 V0) main_arg8 (by decide) (by decide) (by decide)).trans (val11_main_arg8 V0)
theorem val12_main_arg9 (V0 : IVal) : val12 V0 (no_index (Proc.devRef .tc main_arg9)) = V0 (Proc.devRef .tc main_arg9) :=
  (st12_keep (val11 V0) main_arg9 (by decide) (by decide) (by decide)).trans (val11_main_arg9 V0)
theorem val12_main_arg10 (V0 : IVal) : val12 V0 (no_index (Proc.devRef .tc main_arg10)) = V0 (Proc.devRef .tc main_arg10) :=
  (st12_keep (val11 V0) main_arg10 (by decide) (by decide) (by decide)).trans (val11_main_arg10 V0)
theorem val12_main_arg11 (V0 : IVal) : val12 V0 (no_index (Proc.devRef .tc main_arg11)) = V0 (Proc.devRef .tc main_arg11) :=
  (st12_keep (val11 V0) main_arg11 (by decide) (by decide) (by decide)).trans (val11_main_arg11 V0)
theorem val12_main_arg12 (V0 : IVal) : val12 V0 (no_index (Proc.devRef .tc main_arg12)) = V0 (Proc.devRef .tc main_arg12) :=
  (st12_keep (val11 V0) main_arg12 (by decide) (by decide) (by decide)).trans (val11_main_arg12 V0)
theorem val12_main_arg13 (V0 : IVal) : val12 V0 (no_index (Proc.devRef .tc main_arg13)) = V0 (Proc.devRef .tc main_arg13) :=
  (st12_keep (val11 V0) main_arg13 (by decide) (by decide) (by decide)).trans (val11_main_arg13 V0)
theorem val12_main_arg3 (V0 : IVal) : val12 V0 (no_index (Proc.devRef .tc main_arg3)) = V0 (Proc.devRef .tc main_arg3) :=
  (st12_keep (val11 V0) main_arg3 (by decide) (by decide) (by decide)).trans (val11_main_arg3 V0)
theorem val12_main_arg14 (V0 : IVal) : val12 V0 (no_index (Proc.devRef .tc main_arg14)) = V0 (Proc.devRef .tc main_arg14) :=
  (st12_keep (val11 V0) main_arg14 (by decide) (by decide) (by decide)).trans (val11_main_arg14 V0)
theorem val12_main_arg15 (V0 : IVal) : val12 V0 (no_index (Proc.devRef .tc main_arg15)) = V0 (Proc.devRef .tc main_arg15) :=
  (st12_keep (val11 V0) main_arg15 (by decide) (by decide) (by decide)).trans (val11_main_arg15 V0)

def val13 (V0 : IVal) : IVal := after (w2_7 (F := Ideal)) (after (w2_6 (F := Ideal)) (after (w2_5 (F := Ideal)) (val12 V0)))
theorem val13_main_v149 (V0 : IVal) : val13 V0 (no_index (Proc.devRef .tc main_v149)) = tZ2 V0 :=
  (st13_main_v149 (val12 V0)).trans (by simp only [val12_main_v119, val12_main_v131, val12_main_arg8, val12_main_arg9, val12_main_arg10, val12_main_arg11] <;> rfl)
theorem val13_main_arg12 (V0 : IVal) : val13 V0 (no_index (Proc.devRef .tc main_arg12)) = V0 (Proc.devRef .tc main_arg12) :=
  (st13_keep (val12 V0) main_arg12 (by decide) (by decide) (by decide)).trans (val12_main_arg12 V0)
theorem val13_main_arg13 (V0 : IVal) : val13 V0 (no_index (Proc.devRef .tc main_arg13)) = V0 (Proc.devRef .tc main_arg13) :=
  (st13_keep (val12 V0) main_arg13 (by decide) (by decide) (by decide)).trans (val12_main_arg13 V0)
theorem val13_main_arg3 (V0 : IVal) : val13 V0 (no_index (Proc.devRef .tc main_arg3)) = V0 (Proc.devRef .tc main_arg3) :=
  (st13_keep (val12 V0) main_arg3 (by decide) (by decide) (by decide)).trans (val12_main_arg3 V0)
theorem val13_main_arg14 (V0 : IVal) : val13 V0 (no_index (Proc.devRef .tc main_arg14)) = V0 (Proc.devRef .tc main_arg14) :=
  (st13_keep (val12 V0) main_arg14 (by decide) (by decide) (by decide)).trans (val12_main_arg14 V0)
theorem val13_main_arg15 (V0 : IVal) : val13 V0 (no_index (Proc.devRef .tc main_arg15)) = V0 (Proc.devRef .tc main_arg15) :=
  (st13_keep (val12 V0) main_arg15 (by decide) (by decide) (by decide)).trans (val12_main_arg15 V0)

def val14 (V0 : IVal) : IVal := after (w2_8 (F := Ideal)) (val13 V0)
theorem val14_main_v149 (V0 : IVal) : val14 V0 (no_index (Proc.devRef .tc main_v149)) = tZ2 V0 :=
  (st14_keep (val13 V0) main_v149 (by decide)).trans (val13_main_v149 V0)
theorem val14_main_v152 (V0 : IVal) : val14 V0 (no_index (Proc.devRef .tc main_v152)) = tMU2 V0 :=
  (st14_main_v152 (val13 V0)).trans (by simp only [val13_main_v149] <;> rfl)
theorem val14_main_arg12 (V0 : IVal) : val14 V0 (no_index (Proc.devRef .tc main_arg12)) = V0 (Proc.devRef .tc main_arg12) :=
  (st14_keep (val13 V0) main_arg12 (by decide)).trans (val13_main_arg12 V0)
theorem val14_main_arg13 (V0 : IVal) : val14 V0 (no_index (Proc.devRef .tc main_arg13)) = V0 (Proc.devRef .tc main_arg13) :=
  (st14_keep (val13 V0) main_arg13 (by decide)).trans (val13_main_arg13 V0)
theorem val14_main_arg3 (V0 : IVal) : val14 V0 (no_index (Proc.devRef .tc main_arg3)) = V0 (Proc.devRef .tc main_arg3) :=
  (st14_keep (val13 V0) main_arg3 (by decide)).trans (val13_main_arg3 V0)
theorem val14_main_arg14 (V0 : IVal) : val14 V0 (no_index (Proc.devRef .tc main_arg14)) = V0 (Proc.devRef .tc main_arg14) :=
  (st14_keep (val13 V0) main_arg14 (by decide)).trans (val13_main_arg14 V0)
theorem val14_main_arg15 (V0 : IVal) : val14 V0 (no_index (Proc.devRef .tc main_arg15)) = V0 (Proc.devRef .tc main_arg15) :=
  (st14_keep (val13 V0) main_arg15 (by decide)).trans (val13_main_arg15 V0)

def val15 (V0 : IVal) : IVal := after (w2_10 (F := Ideal)) (after (w2_9 (F := Ideal)) (val14 V0))
theorem val15_main_v149 (V0 : IVal) : val15 V0 (no_index (Proc.devRef .tc main_v149)) = tZ2 V0 :=
  (st15_keep (val14 V0) main_v149 (by decide) (by decide)).trans (val14_main_v149 V0)
theorem val15_main_v152 (V0 : IVal) : val15 V0 (no_index (Proc.devRef .tc main_v152)) = tMU2 V0 :=
  (st15_keep (val14 V0) main_v152 (by decide) (by decide)).trans (val14_main_v152 V0)
theorem val15_main_v153 (V0 : IVal) : val15 V0 (no_index (Proc.devRef .tc main_v153)) = tVA2 V0 :=
  (st15_main_v153 (val14 V0)).trans (by simp only [val14_main_v149] <;> rfl)
theorem val15_main_arg12 (V0 : IVal) : val15 V0 (no_index (Proc.devRef .tc main_arg12)) = V0 (Proc.devRef .tc main_arg12) :=
  (st15_keep (val14 V0) main_arg12 (by decide) (by decide)).trans (val14_main_arg12 V0)
theorem val15_main_arg13 (V0 : IVal) : val15 V0 (no_index (Proc.devRef .tc main_arg13)) = V0 (Proc.devRef .tc main_arg13) :=
  (st15_keep (val14 V0) main_arg13 (by decide) (by decide)).trans (val14_main_arg13 V0)
theorem val15_main_arg3 (V0 : IVal) : val15 V0 (no_index (Proc.devRef .tc main_arg3)) = V0 (Proc.devRef .tc main_arg3) :=
  (st15_keep (val14 V0) main_arg3 (by decide) (by decide)).trans (val14_main_arg3 V0)
theorem val15_main_arg14 (V0 : IVal) : val15 V0 (no_index (Proc.devRef .tc main_arg14)) = V0 (Proc.devRef .tc main_arg14) :=
  (st15_keep (val14 V0) main_arg14 (by decide) (by decide)).trans (val14_main_arg14 V0)
theorem val15_main_arg15 (V0 : IVal) : val15 V0 (no_index (Proc.devRef .tc main_arg15)) = V0 (Proc.devRef .tc main_arg15) :=
  (st15_keep (val14 V0) main_arg15 (by decide) (by decide)).trans (val14_main_arg15 V0)

def val16 (V0 : IVal) : IVal := after (w3_1 (F := Ideal)) (after (w3_0 (F := Ideal)) (after (w2_11 (F := Ideal)) (val15 V0)))
theorem val16_main_v173 (V0 : IVal) : val16 V0 (no_index (Proc.devRef .tc main_v173)) = tH3 V0 :=
  (st16_main_v173 (val15 V0)).trans (by simp only [val15_main_v149, val15_main_v152, val15_main_v153, val15_main_arg12, val15_main_arg13] <;> rfl)
theorem val16_main_arg3 (V0 : IVal) : val16 V0 (no_index (Proc.devRef .tc main_arg3)) = V0 (Proc.devRef .tc main_arg3) :=
  (st16_keep (val15 V0) main_arg3 (by decide) (by decide) (by decide)).trans (val15_main_arg3 V0)
theorem val16_main_arg14 (V0 : IVal) : val16 V0 (no_index (Proc.devRef .tc main_arg14)) = V0 (Proc.devRef .tc main_arg14) :=
  (st16_keep (val15 V0) main_arg14 (by decide) (by decide) (by decide)).trans (val15_main_arg14 V0)
theorem val16_main_arg15 (V0 : IVal) : val16 V0 (no_index (Proc.devRef .tc main_arg15)) = V0 (Proc.devRef .tc main_arg15) :=
  (st16_keep (val15 V0) main_arg15 (by decide) (by decide) (by decide)).trans (val15_main_arg15 V0)

def val17 (V0 : IVal) : IVal := after (w3_2 (F := Ideal)) (val16 V0)
theorem val17_main_v189 (V0 : IVal) : val17 V0 (no_index (Proc.devRef .tc main_v189)) = tOUT V0 :=
  (st17_main_v189 (val16 V0)).trans (by simp only [val16_main_v173, val16_main_arg3, val16_main_arg14, val16_main_arg15] <;> rfl)

/-! ## The whole program -/

/-- The fold of all the operations is the contents after the last stage. -/
theorem after_ops (V0 : IVal) : after (ops (F := Ideal)) V0 = val17 V0 := by
  rw [ops_eq, ← afterL_eq_after_flatten]
  rfl

/-- The result buffer ends at the specification's function of the sixteen argument arrays as launched. -/
theorem value (m : (ℓ : Loc nD τ sig) → Buf (Elt Ideal) ℓ) (d : Dev nD) :
    after (ops (F := Ideal)) (launchContents m d) (Proc.devRef .tc main_v189)
      = Spec.out (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) := by
  rw [after_ops]
  exact (val17_main_v189 (launchContents m d)).trans rfl

end Cert.RefRun

end
-- ==== Proof.RefTop.lean ====
import proofs.«172538_j12652973654090_1_alg».proof.Proof.RefRun
import proofs.«172538_j12652973654090_1_alg».proof.Proof.RefValue

/-!
# The reference program's run, with its result named

Every weakly fair execution of the reference program at the exact instance terminates; the result buffer
ends at the specification's function of the argument arrays as launched, and every argument array ends as
launched.
-/

noncomputable section

namespace Cert.RefRun

open Cert.ReferenceIdeal Cert.ReferenceIdeal.Gen Idealize.ShloMosaic Idealize.ShloMosaic.TcCoe Idealize.SL.Sem Idealize.ShloMosaic.StableHlo

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v189)
          = Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => by
      obtain ⟨k0, k1, k2, k3, k4, k5, k6, k7, k8, k9, k10, k11, k12, k13, k14, k15⟩ := args_kept (F := Ideal) m c
      exact ⟨(h c main_v189).trans (value m c), (h c main_arg0).trans k0, (h c main_arg1).trans k1, (h c main_arg2).trans k2, (h c main_arg3).trans k3, (h c main_arg4).trans k4, (h c main_arg5).trans k5, (h c main_arg6).trans k6, (h c main_arg7).trans k7, (h c main_arg8).trans k8, (h c main_arg9).trans k9, (h c main_arg10).trans k10, (h c main_arg11).trans k11, (h c main_arg12).trans k12, (h c main_arg13).trans k13, (h c main_arg14).trans k14, (h c main_arg15).trans k15⟩)
    (run_all m ρ)

end Cert.RefRun

end
-- ==== Proof.MatmulIdx.lean ====
import Idealize.ShloMosaic.Lib.ValueIdx
import Idealize.ShloMosaic.Lib.ValueLayout
import Idealize.ShloMosaic.Lib.KernelVsHost
import Idealize.ShloMosaic.Lib.IdealHost
import Idealize.ShloMosaic.PureOps.Ideal.Laws

/-!
# A linear map and a two-layer perceptron, entry by entry

Over the extended reals a matrix product read at one entry is the sum, over the shared axis, of the
products of a row's and a column's entries — whether it is computed into a zero accumulator on the
matrix unit or as one contraction on the host.  Hence the entry `(a, c)` of `x · W + b` is
`∑ q, x (a, q) * W (q, c) + b c`, and of `max ((h + g) · W₁ + b₁) 0 · W₂ + b₂` is
`∑ p, max (∑ q, (h (a, q) + g (a, q)) * W₁ (q, p) + b₁ p) 0 * W₂ (p, c) + b₂ c`; both readings, the
one of a block of rows and the one of the whole array, are stated here over arbitrary extents.
-/

noncomputable section

open scoped BigOperators

namespace Cert.KReg

open Idealize.ShloMosaic Idealize.ShloMosaic.ValueIdx

/-- The dimension numbers of a plain product, rows by columns, over a fact that they are well formed. -/
abbrev plainDims {m k n : Nat} (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The contraction of a plain product at entry `(a, b)` runs over the shared coordinate `c`: row entry `(a, c)`
    times column entry `(c, b)`. -/
theorem sum_plain {m k n : Nat} {φ₁ φ₂ : FTy}
    (w : DotDims.WF ⟨2, ![m, k]⟩ ⟨2, ![k, n]⟩ ⟨2, ![m, n]⟩ [1] [0] [0] [1] [] [])
    (A : FVec Ideal ⟨2, ![m, k]⟩ φ₁) (B : FVec Ideal ⟨2, ![k, n]⟩ φ₂) (a : Fin m) (b : Fin n) :
    (∑ q : (plainDims w).contr.Idx, A ((plainDims w).lhsIdx (ix2 a b) q) * B ((plainDims w).rhsIdx (ix2 a b) q))
      = ∑ c : Fin k, A (ix2 a c) * B (ix2 c b) := by
  rw [← Equiv.sum_comp (contrEquiv1 (plainDims w) k rfl rfl).symm]
  refine Finset.sum_congr rfl fun c _ => ?_
  have c2 := contrEquiv1_symm_val (plainDims w) k rfl rfl c
  have l2 : (plainDims w).lhsIdx (ix2 a b) ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (plainDims w).rhsIdx (ix2 a b) ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product on the matrix unit into a zero accumulator, at an entry. -/
theorem matmul0_apply {m k n : Nat} {φ₁ φ₂ : FTy}
    (w : DotDims.WF ⟨2, ![m, k]⟩ ⟨2, ![k, n]⟩ ⟨2, ![m, n]⟩ [1] [0] [0] [1] [] []) (prec : Option ContractPrecision)
    (A : FVec Ideal ⟨2, ![m, k]⟩ φ₁) (B : FVec Ideal ⟨2, ![k, n]⟩ φ₂) (a : Fin m) (b : Fin n) :
    matmul (plainDims w) prec A B (constant ⟨2, ![m, n]⟩ .f32 0x00000000#32) (ix2 a b) = ∑ c : Fin k, A (ix2 a c) * B (ix2 c b) :=
  (Ideal.matmul_constant_zero_apply (plainDims w) prec A B (ix2 a b)).trans (sum_plain w A B a b)

/-- The host's contraction, at an entry. -/
theorem dot_apply {m k n : Nat} {φ₁ φ₂ : FTy}
    (w : DotDims.WF ⟨2, ![m, k]⟩ ⟨2, ![k, n]⟩ ⟨2, ![m, n]⟩ [1] [0] [0] [1] [] []) (prec : Option ContractPrecision)
    (A : FVec Ideal ⟨2, ![m, k]⟩ φ₁) (B : FVec Ideal ⟨2, ![k, n]⟩ φ₂) (a : Fin m) (b : Fin n) :
    Host.dotGeneral (F := Ideal) (plainDims w) prec A B (ix2 a b) = ∑ c : Fin k, A (ix2 a c) * B (ix2 c b) := by
  show FloatOps.dotGeneral _ prec _ A B (ix2 a b) = _
  exact (Ideal.dotGeneral_apply (plainDims w) prec _ A B (ix2 a b)).trans (sum_plain w A B a b)

/-- A vector laid along one row, then down every row, reads the vector at the column. -/
theorem rowBias_apply {m n : Nat} {α : Type} (b : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![m, n]⟩ ![0, 1]) (a : Fin m) (c : Fin n) :
    broadcastInDim ⟨2, ![m, n]⟩ ![0, 1] h2 (broadcastInDim ⟨2, ![1, n]⟩ ![1] h1 b) (ix2 a c) = b (ix1 c) := by
  rw [broadcastInDim_oneRow_apply]
  refine broadcastInDim_apply ![1] h1 b (ix2 (0 : Fin 1) c) (ix1 c) fun ax => ?_
  match ax with
  | ⟨0, _⟩ =>
    show c.val = if n = 1 then 0 else c.val
    split
    · have := c.isLt; omega
    · rfl

/-! ## The linear map -/

/-- The entry `(a, c)` of `x · W + b`. -/
def linAt {m k n : Nat} (x : FVec Ideal ⟨2, ![m, k]⟩ .f32) (W : FVec Ideal ⟨2, ![k, n]⟩ .f32) (b : Fin n → EReal)
    (a : Fin m) (c : Fin n) : EReal :=
  (∑ q : Fin k, x (ix2 a q) * W (ix2 q c)) + b c

/-- The block computation — both operands narrowed, multiplied into a zero accumulator, the one-row bias laid down the
    rows and added — at an entry. -/
theorem linBlock_apply {m k n : Nat}
    (w : DotDims.WF ⟨2, ![m, k]⟩ ⟨2, ![k, n]⟩ ⟨2, ![m, n]⟩ [1] [0] [0] [1] [] [])
    (x : FVec Ideal ⟨2, ![m, k]⟩ .f32) (W : FVec Ideal ⟨2, ![k, n]⟩ .f32) (b : FVec Ideal ⟨2, ![1, n]⟩ .f32)
    (hlt : FTy.bits .bf16 < FTy.bits .f32) (hsc : (⟨2, ![1, n]⟩ : Shape).ShapeCasts ⟨2, ![1, n]⟩)
    (hbc : (⟨2, ![1, n]⟩ : Shape).Broadcasts ⟨2, ![m, n]⟩) (a : Fin m) (c : Fin n) :
    addf (matmul (plainDims w) none (truncf .bf16 x hlt) (truncf .bf16 W hlt) (constant ⟨2, ![m, n]⟩ .f32 0x00000000#32))
        (broadcastTo ⟨2, ![m, n]⟩ (shapeCast ⟨2, ![1, n]⟩ b hsc) hbc) (ix2 a c)
      = linAt x W (fun c => b (ix2 (0 : Fin 1) c)) a c := by
  rw [addf_apply, matmul0_apply, broadcastTo_1b_ab_apply, shapeCast_self]
  rfl

/-- The whole-array computation on the host — one contraction, the bias vector laid along a row and down the rows and
    added — at an entry. -/
theorem linHost_apply {m k n : Nat}
    (w : DotDims.WF ⟨2, ![m, k]⟩ ⟨2, ![k, n]⟩ ⟨2, ![m, n]⟩ [1] [0] [0] [1] [] [])
    (x : FVec Ideal ⟨2, ![m, k]⟩ .f32) (W : FVec Ideal ⟨2, ![k, n]⟩ .f32) (b : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![m, n]⟩ ![0, 1]) (a : Fin m) (c : Fin n) :
    addf (F := Ideal) (Host.dotGeneral (F := Ideal) (plainDims w) none x W)
        (broadcastInDim ⟨2, ![m, n]⟩ ![0, 1] h2 (broadcastInDim ⟨2, ![1, n]⟩ ![1] h1 b)) (ix2 a c)
      = linAt x W (fun c => b (ix1 c)) a c := by
  rw [addf_apply, dot_apply, rowBias_apply]
  rfl

/-! ## The perceptron -/

/-- The entry `(a, c)` of `max ((h + g) · W₁ + b₁) 0 · W₂ + b₂`. -/
def mlpAt {m d e : Nat} (h g : FVec Ideal ⟨2, ![m, d]⟩ .f32) (W1 : FVec Ideal ⟨2, ![d, e]⟩ .f32) (b1 : Fin e → EReal)
    (W2 : FVec Ideal ⟨2, ![e, d]⟩ .f32) (b2 : Fin d → EReal) (a : Fin m) (c : Fin d) : EReal :=
  (∑ p : Fin e, max ((∑ q : Fin d, (h (ix2 a q) + g (ix2 a q)) * W1 (ix2 q p)) + b1 p) (Ideal.ofBits .f32 0x00000000#32)
      * W2 (ix2 p c)) + b2 c

/-- The block computation of the perceptron at an entry. -/
theorem mlpBlock_apply {m d e : Nat}
    (w1 : DotDims.WF ⟨2, ![m, d]⟩ ⟨2, ![d, e]⟩ ⟨2, ![m, e]⟩ [1] [0] [0] [1] [] [])
    (w2 : DotDims.WF ⟨2, ![m, e]⟩ ⟨2, ![e, d]⟩ ⟨2, ![m, d]⟩ [1] [0] [0] [1] [] [])
    (h g : FVec Ideal ⟨2, ![m, d]⟩ .f32) (W1 : FVec Ideal ⟨2, ![d, e]⟩ .f32) (b1 : FVec Ideal ⟨2, ![1, e]⟩ .f32)
    (W2 : FVec Ideal ⟨2, ![e, d]⟩ .f32) (b2 : FVec Ideal ⟨2, ![1, d]⟩ .f32)
    (hlt : FTy.bits .bf16 < FTy.bits .f32)
    (sh : (⟨2, ![m, d]⟩ : Shape).ShapeCasts ⟨2, ![m, d]⟩)
    (s1 : (⟨2, ![d, e]⟩ : Shape).ShapeCasts ⟨2, ![d, e]⟩) (s2 : (⟨2, ![e, d]⟩ : Shape).ShapeCasts ⟨2, ![e, d]⟩)
    (sb1 : (⟨2, ![1, e]⟩ : Shape).ShapeCasts ⟨2, ![1, e]⟩) (sb2 : (⟨2, ![1, d]⟩ : Shape).ShapeCasts ⟨2, ![1, d]⟩)
    (bb1 : (⟨2, ![1, e]⟩ : Shape).Broadcasts ⟨2, ![m, e]⟩) (bb2 : (⟨2, ![1, d]⟩ : Shape).Broadcasts ⟨2, ![m, d]⟩)
    (a : Fin m) (c : Fin d) :
    addf
        (matmul (plainDims w2) none
          (truncf .bf16
            (maximumf
              (addf
                (matmul (plainDims w1) none
                  (truncf .bf16 (addf (shapeCast ⟨2, ![m, d]⟩ h sh) (shapeCast ⟨2, ![m, d]⟩ g sh)) hlt)
                  (truncf .bf16 (shapeCast ⟨2, ![d, e]⟩ W1 s1) hlt) (constant ⟨2, ![m, e]⟩ .f32 0x00000000#32))
                (broadcastTo ⟨2, ![m, e]⟩ (shapeCast ⟨2, ![1, e]⟩ b1 sb1) bb1))
              (broadcast ⟨2, ![m, e]⟩ (Scalar.ofBits (F := Ideal) .f32 0x00000000#32))) hlt)
          (truncf .bf16 (shapeCast ⟨2, ![e, d]⟩ W2 s2) hlt) (constant ⟨2, ![m, d]⟩ .f32 0x00000000#32))
        (broadcastTo ⟨2, ![m, d]⟩ (shapeCast ⟨2, ![1, d]⟩ b2 sb2) bb2) (ix2 a c)
      = mlpAt h g W1 (fun p => b1 (ix2 (0 : Fin 1) p)) W2 (fun c => b2 (ix2 (0 : Fin 1) c)) a c := by
  rw [addf_apply, matmul0_apply, broadcastTo_1b_ab_apply]
  simp only [shapeCast_self]
  unfold mlpAt
  refine congrArg (· + b2 (ix2 (0 : Fin 1) c)) (Finset.sum_congr rfl fun p _ => ?_)
  refine congrArg (· * W2 (ix2 p c)) ?_
  show max (addf (matmul (plainDims w1) none (truncf .bf16 (addf h g) hlt) (truncf .bf16 W1 hlt)
      (constant ⟨2, ![m, e]⟩ .f32 0x00000000#32)) (broadcastTo ⟨2, ![m, e]⟩ b1 bb1) (ix2 a p)) _ = _
  rw [addf_apply, matmul0_apply, broadcastTo_1b_ab_apply]
  rfl

/-- The whole-array computation of the perceptron on the host at an entry. -/
theorem mlpHost_apply {m d e : Nat}
    (w1 : DotDims.WF ⟨2, ![m, d]⟩ ⟨2, ![d, e]⟩ ⟨2, ![m, e]⟩ [1] [0] [0] [1] [] [])
    (w2 : DotDims.WF ⟨2, ![m, e]⟩ ⟨2, ![e, d]⟩ ⟨2, ![m, d]⟩ [1] [0] [0] [1] [] [])
    (h g : FVec Ideal ⟨2, ![m, d]⟩ .f32) (W1 : FVec Ideal ⟨2, ![d, e]⟩ .f32) (b1 : FVec Ideal ⟨1, ![e]⟩ .f32)
    (W2 : FVec Ideal ⟨2, ![e, d]⟩ .f32) (b2 : FVec Ideal ⟨1, ![d]⟩ .f32)
    (r1 : (⟨1, ![e]⟩ : Shape).BroadcastsInDim ⟨2, ![1, e]⟩ ![1])
    (c1 : (⟨2, ![1, e]⟩ : Shape).BroadcastsInDim ⟨2, ![m, e]⟩ ![0, 1])
    (r2 : (⟨1, ![d]⟩ : Shape).BroadcastsInDim ⟨2, ![1, d]⟩ ![1])
    (c2 : (⟨2, ![1, d]⟩ : Shape).BroadcastsInDim ⟨2, ![m, d]⟩ ![0, 1])
    (z : (⟨0, ![]⟩ : Shape).BroadcastsInDim ⟨2, ![m, e]⟩ ![])
    (a : Fin m) (c : Fin d) :
    addf (F := Ideal)
        (Host.dotGeneral (F := Ideal) (plainDims w2) none
          (maximumf (F := Ideal)
            (addf (F := Ideal) (Host.dotGeneral (F := Ideal) (plainDims w1) none (addf (F := Ideal) h g) W1)
              (broadcastInDim ⟨2, ![m, e]⟩ ![0, 1] c1 (broadcastInDim ⟨2, ![1, e]⟩ ![1] r1 b1)))
            (broadcastInDim ⟨2, ![m, e]⟩ ![] z (constant (F := Ideal) ⟨0, ![]⟩ .f32 0x00000000#32)))
          W2)
        (broadcastInDim ⟨2, ![m, d]⟩ ![0, 1] c2 (broadcastInDim ⟨2, ![1, d]⟩ ![1] r2 b2)) (ix2 a c)
      = mlpAt h g W1 (fun p => b1 (ix1 p)) W2 (fun c => b2 (ix1 c)) a c := by
  rw [addf_apply, dot_apply, rowBias_apply]
  unfold mlpAt
  refine congrArg (· + b2 (ix1 c)) (Finset.sum_congr rfl fun p _ => ?_)
  refine congrArg (· * W2 (ix2 p c)) ?_
  rw [maximumf_apply, addf_apply, dot_apply, rowBias_apply, broadcastInDim_scalar_apply]
  rfl

end Cert.KReg

end
-- ==== Proof.Region0.lean ====
import proofs.«172538_j12652973654090_1_alg».proof.Proof.Gen.KernelIdeal.Frame
import proofs.«172538_j12652973654090_1_alg».proof.Proof.Gen.ReferenceIdeal
import proofs.«172538_j12652973654090_1_alg».proof.Proof.Spec
import proofs.«172538_j12652973654090_1_alg».proof.Proof.MatmulIdx
import Idealize.ShloMosaic.Lib.Pipeline.Value

/-!
# The node embedding, block by block

The embedding `x · W + b` of 50000 rows is computed 5000 rows at a time: grid point `t` reads rows
`5000 t … 5000 t + 4999` of `x`, the whole of `W` and the one-row bias, and writes the same rows of the result.
Entry `(r, c)` of the product depends on row `r` of `x` only, so each written block is that block of the
whole-array embedding, and the 10 blocks cover every row (row `r` lies in block `r / 5000`).
-/

noncomputable section

open Idealize.ShloMosaic Idealize.ShloMosaic.TcCoe Idealize.SL.Sem
open Idealize.ShloMosaic.Pipeline (Dat)
open Idealize.ShloMosaic.ValueIdx

namespace Cert.KReg

open Cert.KernelIdeal Cert.KernelIdeal.Gen

variable (V : (c : Dev nD) → (b : Ref sig .tc) → Buf (Elt Ideal) ((c : Thread nD τ).loc b))

/-- Zero offsets on both axes, however spelt. -/
theorem zeroOff0 : (![0, 0] : Fin 2 → Nat) = fun _ => 0 := funext fun a => by fin_cases a <;> rfl

/-- The block computation at an entry: the sum over the inner axis plus the bias at the column. -/
theorem pay0_apply (x0 : Vec Ideal S5000x32 .f32) (x1 : Vec Ideal S32x64 .f32) (x2 : Vec Ideal S1x64 .f32) (a : Fin 5000) (b : Fin 64) :
    k0_pay1 (F := Ideal) x0 x1 x2 (ix2 a b) = linAt x0 x1 (fun c => x2 (ix2 (0 : Fin 1) c)) a b := by
  unfold k0_pay1
  exact linBlock_apply _ x0 x1 x2 _ _ _ a b

/-- The whole-array embedding at an entry: the same sum over the inner axis plus the bias at the column. -/
theorem lin0_apply (X : S50000x32.Idx → EReal) (W : S32x64.Idx → EReal) (B : S64.Idx → EReal) (a : Fin 50000) (b : Fin 64) :
    Cert.Spec.lin0 X W B (ix2 a b) = linAt X W (fun c => B (ix1 c)) a b := by
  unfold Cert.Spec.lin0
  exact linHost_apply _ X W B _ _ a b

/-- One grid point: if the first block is rows `5000 T …` of `X` and the other two blocks are the whole arrays, the
    block computation at `(a, b)` is the whole-array embedding at row `5000 T + a`. -/
theorem point0 (X : S50000x32.Idx → EReal) (W : S32x64.Idx → EReal) (B : S1x64.Idx → EReal)
    (x0 : Vec Ideal S5000x32 .f32) (x1 : Vec Ideal S32x64 .f32) (x2 : Vec Ideal S1x64 .f32) (T : Nat) (hT : T < 10)
    (h0 : ∀ (a : Fin 5000) (q : Fin 32), x0 (ix2 a q) = X (ix2 (⟨T * 5000 + a.val, by have := a.isLt; omega⟩ : Fin 50000) q))
    (h1 : x1 = W) (h2 : x2 = B) (a : Fin 5000) (b : Fin 64) :
    k0_pay1 (F := Ideal) x0 x1 x2 (ix2 a b)
      = Cert.Spec.lin0 X W (Cert.Spec.unrow64 B) (ix2 (⟨T * 5000 + a.val, by have := a.isLt; omega⟩ : Fin 50000) b) := by
  rw [pay0_apply, lin0_apply]
  subst h1 h2
  unfold linAt
  refine congrArg (· + x2 (ix2 (0 : Fin 1) b)) (Finset.sum_congr rfl fun q _ => ?_)
  rw [h0 a q]

/-- The block index of every window at every grid point: the row blocks move with the point, everything else stays at block 0. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The first window's block at point `t` is rows `5000 t …` of its array. -/
theorem iblk0_0_apply (c : Dev nD) (t : Fin cfg0.N) (a : Fin 5000) (q : Fin 32) (k : S50000x32.Idx)
    (hk0 : (k 0).val = t.val * 5000 + a.val) (hk1 : (k 1).val = q.val) :
    (iblk0 V c 0 t : Vec Ideal S5000x32 .f32) (ix2 a q) = (V c main_arg0 : S50000x32.Idx → EReal) k := by
  obtain ⟨e0, e1, -⟩ := idx_facts0 t
  unfold iblk0
  rw [View.read_apply]
  show V c main_arg0 _ = V c main_arg0 _
  congr 1
  funext ax; apply Fin.ext
  match ax with
  | ⟨0, _⟩ => show win0_0.index t (0 : Fin 2) * 5000 + 1 * a.val = (k 0).val; rw [e0, hk0]; omega
  | ⟨1, _⟩ => show win0_0.index t (1 : Fin 2) * 32 + 1 * q.val = (k 1).val; rw [e1, hk1]; omega

/-- The weight window's block is the whole weight array at every point. -/
theorem iblk0_1_eq (c : Dev nD) (t : Fin cfg0.N) : (iblk0 V c 1 t : Vec Ideal S32x64 .f32) = (V c main_arg4 : S32x64.Idx → EReal) := by
  obtain ⟨-, -, e2, e3, -⟩ := idx_facts0 t
  funext j
  unfold iblk0
  rw [View.read_apply]
  show V c main_arg4 _ = V c main_arg4 _
  congr 1
  funext ax; apply Fin.ext
  match ax with
  | ⟨0, _⟩ => show win0_1.index t (0 : Fin 2) * 32 + 1 * (j 0).val = (j 0).val; rw [e2]; omega
  | ⟨1, _⟩ => show win0_1.index t (1 : Fin 2) * 64 + 1 * (j 1).val = (j 1).val; rw [e3]; omega

/-- The bias window's block is the whole one-row bias at every point. -/
theorem iblk0_2_eq (c : Dev nD) (t : Fin cfg0.N) : (iblk0 V c 2 t : Vec Ideal S1x64 .f32) = (V c main_v0 : S1x64.Idx → EReal) := by
  obtain ⟨-, -, -, -, e4, e5, -⟩ := idx_facts0 t
  funext j
  unfold iblk0
  rw [View.read_apply]
  show V c main_v0 _ = V c main_v0 _
  congr 1
  funext ax; apply Fin.ext
  match ax with
  | ⟨0, _⟩ => show win0_2.index t (0 : Fin 2) * 1 + 1 * (j 0).val = (j 0).val; rw [e4]; omega
  | ⟨1, _⟩ => show win0_2.index t (1 : Fin 2) * 64 + 1 * (j 1).val = (j 1).val; rw [e5]; omega

/-- What point `t` writes back is block `t` of the whole-array embedding of the arrays as the region finds them. -/
theorem flushed0 (c : Dev nD) (t : Fin cfg0.N) :
    (dat0 V c).flushed 3 t = ((cfg0.win 3).blk t).view.read (Elt Ideal)
      (Cert.Spec.lin0 (V c main_arg0) (V c main_arg4) (Cert.Spec.unrow64 (V c main_v0))) := by
  show (cfg0.win 3).cut (grid0.coords t) ((dat0 V c).after 3 t) = _
  rw [after0_3]
  unfold out0_3
  rw [View.canon_unit_zero zeroOff0]
  simp only [View.ld_unit_zero (S := S5000x32) zeroOff0, View.ld_unit_zero (S := S32x64) zeroOff0, View.ld_unit_zero (S := S1x64) zeroOff0]
  obtain ⟨-, -, -, -, -, -, e6, e7⟩ := idx_facts0 t
  have hN : t.val < 10 := by have h := t.isLt; have e : cfg0.N = 10 := N_0; omega
  funext j
  obtain ⟨a, b, rfl⟩ : ∃ (a : Fin 5000) (b : Fin 64), j = ix2 a b := ⟨j 0, j 1, eq_ix2 j⟩
  rw [View.read_apply]
  have hemb : ((cfg0.win 3).blk t).view.emb (ix2 a b)
      = (ix2 (⟨t.val * 5000 + a.val, by have := a.isLt; omega⟩ : Fin 50000) b : S50000x64.Idx) := by
    funext ax; apply Fin.ext
    match ax with
    | ⟨0, _⟩ => show win0_3.index t (0 : Fin 2) * 5000 + 1 * a.val = t.val * 5000 + a.val; rw [e6]; omega
    | ⟨1, _⟩ => show win0_3.index t (1 : Fin 2) * 64 + 1 * b.val = b.val; rw [e7]; omega
  rw [hemb]
  exact point0 (V c main_arg0) (V c main_arg4) (V c main_v0) (iblk0 V c 0 t) (iblk0 V c 1 t) (iblk0 V c 2 t) t.val hN
    (fun a q => iblk0_0_apply V c t a q _ rfl rfl) (iblk0_1_eq V c t) (iblk0_2_eq V c t) a b

/-- An index of the result array is in point `t`'s block iff each coordinate is in the block's range on its axis. -/
theorem mem_blk0 (t : Fin cfg0.N) (i : S50000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v1).slice (win0_3.rect t)).set ↔ _
  rw [View.set_slice_whole, Rect.mem_set_unit]
  exact Iff.rfl

/-- Every row of the result is written: row `r` by point `r / 5000`. -/
theorem cover0 (i : S50000x64.Idx) : ∃ t : Fin cfg0.N, (cfg0.win 3).flush t = true ∧ i ∈ ((cfg0.win 3).blk t).view.set := by
  have hi0 : (i 0).val < 50000 := (i 0).isLt
  have hi1 : (i 1).val < 64 := (i 1).isLt
  have hN : cfg0.N = 10 := N_0
  let t : Fin cfg0.N := ⟨(i 0).val / 5000, by rw [hN]; omega⟩
  obtain ⟨-, -, -, -, -, -, e6, e7⟩ := idx_facts0 t
  have ht : t.val = (i 0).val / 5000 := rfl
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; rw [e6, ht]; omega
  | ⟨1, _⟩ => show win0_3.index t (1 : Fin 2) * 64 ≤ (i 1).val ∧ (i 1).val < win0_3.index t (1 : Fin 2) * 64 + 64; rw [e7]; omega

/-- The result array after the region is the whole-array embedding of the arrays as the region finds them. -/
theorem region0 (c : Dev nD) :
    (dat0 V c).arrAt 3 cfg0.N
      = Cert.Spec.lin0 (V c main_arg0) (V c main_arg4) (Cert.Spec.unrow64 (V c main_v0)) :=
  (dat0 V c).arrAt_eq_of_cover 3 _ (fun t _ => flushed0 V c t) (cover0)

end Cert.KReg

end
-- ==== Proof.Region1.lean ====
import proofs.«172538_j12652973654090_1_alg».proof.Proof.Gen.KernelIdeal.Frame
import proofs.«172538_j12652973654090_1_alg».proof.Proof.Gen.ReferenceIdeal
import proofs.«172538_j12652973654090_1_alg».proof.Proof.Spec
import proofs.«172538_j12652973654090_1_alg».proof.Proof.MatmulIdx
import Idealize.ShloMosaic.Lib.Pipeline.Value

/-!
# The edge embedding, block by block

The embedding `x · W + b` of 1600000 rows is computed 16000 rows at a time: grid point `t` reads rows
`16000 t … 16000 t + 15999` of `x`, the whole of `W` and the one-row bias, and writes the same rows of the result.
Entry `(r, c)` of the product depends on row `r` of `x` only, so each written block is that block of the
whole-array embedding, and the 100 blocks cover every row (row `r` lies in block `r / 16000`).
-/

noncomputable section

open Idealize.ShloMosaic Idealize.ShloMosaic.TcCoe Idealize.SL.Sem
open Idealize.ShloMosaic.Pipeline (Dat)
open Idealize.ShloMosaic.ValueIdx

namespace Cert.KReg

open Cert.KernelIdeal Cert.KernelIdeal.Gen

variable (V : (c : Dev nD) → (b : Ref sig .tc) → Buf (Elt Ideal) ((c : Thread nD τ).loc b))

/-- Zero offsets on both axes, however spelt. -/
theorem zeroOff1 : (![0, 0] : Fin 2 → Nat) = fun _ => 0 := funext fun a => by fin_cases a <;> rfl

/-- The block computation at an entry: the sum over the inner axis plus the bias at the column. -/
theorem pay1_apply (x0 : Vec Ideal S16000x16 .f32) (x1 : Vec Ideal S16x64 .f32) (x2 : Vec Ideal S1x64 .f32) (a : Fin 16000) (b : Fin 64) :
    k1_pay1 (F := Ideal) x0 x1 x2 (ix2 a b) = linAt x0 x1 (fun c => x2 (ix2 (0 : Fin 1) c)) a b := by
  unfold k1_pay1
  exact linBlock_apply _ x0 x1 x2 _ _ _ a b

/-- The whole-array embedding at an entry: the same sum over the inner axis plus the bias at the column. -/
theorem lin1_apply (X : S1600000x16.Idx → EReal) (W : S16x64.Idx → EReal) (B : S64.Idx → EReal) (a : Fin 1600000) (b : Fin 64) :
    Cert.Spec.lin1 X W B (ix2 a b) = linAt X W (fun c => B (ix1 c)) a b := by
  unfold Cert.Spec.lin1
  exact linHost_apply _ X W B _ _ a b

/-- One grid point: if the first block is rows `16000 T …` of `X` and the other two blocks are the whole arrays, the
    block computation at `(a, b)` is the whole-array embedding at row `16000 T + a`. -/
theorem point1 (X : S1600000x16.Idx → EReal) (W : S16x64.Idx → EReal) (B : S1x64.Idx → EReal)
    (x0 : Vec Ideal S16000x16 .f32) (x1 : Vec Ideal S16x64 .f32) (x2 : Vec Ideal S1x64 .f32) (T : Nat) (hT : T < 100)
    (h0 : ∀ (a : Fin 16000) (q : Fin 16), x0 (ix2 a q) = X (ix2 (⟨T * 16000 + a.val, by have := a.isLt; omega⟩ : Fin 1600000) q))
    (h1 : x1 = W) (h2 : x2 = B) (a : Fin 16000) (b : Fin 64) :
    k1_pay1 (F := Ideal) x0 x1 x2 (ix2 a b)
      = Cert.Spec.lin1 X W (Cert.Spec.unrow64 B) (ix2 (⟨T * 16000 + a.val, by have := a.isLt; omega⟩ : Fin 1600000) b) := by
  rw [pay1_apply, lin1_apply]
  subst h1 h2
  unfold linAt
  refine congrArg (· + x2 (ix2 (0 : Fin 1) b)) (Finset.sum_congr rfl fun q _ => ?_)
  rw [h0 a q]

/-- The block index of every window at every grid point: the row blocks move with the point, everything else stays at block 0. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The first window's block at point `t` is rows `16000 t …` of its array. -/
theorem iblk1_0_apply (c : Dev nD) (t : Fin cfg1.N) (a : Fin 16000) (q : Fin 16) (k : S1600000x16.Idx)
    (hk0 : (k 0).val = t.val * 16000 + a.val) (hk1 : (k 1).val = q.val) :
    (iblk1 V c 0 t : Vec Ideal S16000x16 .f32) (ix2 a q) = (V c main_arg1 : S1600000x16.Idx → EReal) k := by
  obtain ⟨e0, e1, -⟩ := idx_facts1 t
  unfold iblk1
  rw [View.read_apply]
  show V c main_arg1 _ = V c main_arg1 _
  congr 1
  funext ax; apply Fin.ext
  match ax with
  | ⟨0, _⟩ => show win1_0.index t (0 : Fin 2) * 16000 + 1 * a.val = (k 0).val; rw [e0, hk0]; omega
  | ⟨1, _⟩ => show win1_0.index t (1 : Fin 2) * 16 + 1 * q.val = (k 1).val; rw [e1, hk1]; omega

/-- The weight window's block is the whole weight array at every point. -/
theorem iblk1_1_eq (c : Dev nD) (t : Fin cfg1.N) : (iblk1 V c 1 t : Vec Ideal S16x64 .f32) = (V c main_arg6 : S16x64.Idx → EReal) := by
  obtain ⟨-, -, e2, e3, -⟩ := idx_facts1 t
  funext j
  unfold iblk1
  rw [View.read_apply]
  show V c main_arg6 _ = V c main_arg6 _
  congr 1
  funext ax; apply Fin.ext
  match ax with
  | ⟨0, _⟩ => show win1_1.index t (0 : Fin 2) * 16 + 1 * (j 0).val = (j 0).val; rw [e2]; omega
  | ⟨1, _⟩ => show win1_1.index t (1 : Fin 2) * 64 + 1 * (j 1).val = (j 1).val; rw [e3]; omega

/-- The bias window's block is the whole one-row bias at every point. -/
theorem iblk1_2_eq (c : Dev nD) (t : Fin cfg1.N) : (iblk1 V c 2 t : Vec Ideal S1x64 .f32) = (V c main_v2 : S1x64.Idx → EReal) := by
  obtain ⟨-, -, -, -, e4, e5, -⟩ := idx_facts1 t
  funext j
  unfold iblk1
  rw [View.read_apply]
  show V c main_v2 _ = V c main_v2 _
  congr 1
  funext ax; apply Fin.ext
  match ax with
  | ⟨0, _⟩ => show win1_2.index t (0 : Fin 2) * 1 + 1 * (j 0).val = (j 0).val; rw [e4]; omega
  | ⟨1, _⟩ => show win1_2.index t (1 : Fin 2) * 64 + 1 * (j 1).val = (j 1).val; rw [e5]; omega

/-- What point `t` writes back is block `t` of the whole-array embedding of the arrays as the region finds them. -/
theorem flushed1 (c : Dev nD) (t : Fin cfg1.N) :
    (dat1 V c).flushed 3 t = ((cfg1.win 3).blk t).view.read (Elt Ideal)
      (Cert.Spec.lin1 (V c main_arg1) (V c main_arg6) (Cert.Spec.unrow64 (V c main_v2))) := by
  show (cfg1.win 3).cut (grid1.coords t) ((dat1 V c).after 3 t) = _
  rw [after1_3]
  unfold out1_3
  rw [View.canon_unit_zero zeroOff1]
  simp only [View.ld_unit_zero (S := S16000x16) zeroOff1, View.ld_unit_zero (S := S16x64) zeroOff1, View.ld_unit_zero (S := S1x64) zeroOff1]
  obtain ⟨-, -, -, -, -, -, e6, e7⟩ := idx_facts1 t
  have hN : t.val < 100 := by have h := t.isLt; have e : cfg1.N = 100 := N_1; omega
  funext j
  obtain ⟨a, b, rfl⟩ : ∃ (a : Fin 16000) (b : Fin 64), j = ix2 a b := ⟨j 0, j 1, eq_ix2 j⟩
  rw [View.read_apply]
  have hemb : ((cfg1.win 3).blk t).view.emb (ix2 a b)
      = (ix2 (⟨t.val * 16000 + a.val, by have := a.isLt; omega⟩ : Fin 1600000) b : S1600000x64.Idx) := by
    funext ax; apply Fin.ext
    match ax with
    | ⟨0, _⟩ => show win1_3.index t (0 : Fin 2) * 16000 + 1 * a.val = t.val * 16000 + a.val; rw [e6]; omega
    | ⟨1, _⟩ => show win1_3.index t (1 : Fin 2) * 64 + 1 * b.val = b.val; rw [e7]; omega
  rw [hemb]
  exact point1 (V c main_arg1) (V c main_arg6) (V c main_v2) (iblk1 V c 0 t) (iblk1 V c 1 t) (iblk1 V c 2 t) t.val hN
    (fun a q => iblk1_0_apply V c t a q _ rfl rfl) (iblk1_1_eq V c t) (iblk1_2_eq V c t) a b

/-- An index of the result array is in point `t`'s block iff each coordinate is in the block's range on its axis. -/
theorem mem_blk1 (t : Fin cfg1.N) (i : S1600000x64.Idx) :
    i ∈ ((cfg1.win 3).blk t).view.set ↔ ∀ a : Fin 2, win1_3.index t a * S16000x64.size a ≤ (i a).val ∧ (i a).val < win1_3.index t a * S16000x64.size a + S16000x64.size a := by
  show i ∈ ((View.whole main_v3).slice (win1_3.rect t)).set ↔ _
  rw [View.set_slice_whole, Rect.mem_set_unit]
  exact Iff.rfl

/-- Every row of the result is written: row `r` by point `r / 16000`. -/
theorem cover1 (i : S1600000x64.Idx) : ∃ t : Fin cfg1.N, (cfg1.win 3).flush t = true ∧ i ∈ ((cfg1.win 3).blk t).view.set := by
  have hi0 : (i 0).val < 1600000 := (i 0).isLt
  have hi1 : (i 1).val < 64 := (i 1).isLt
  have hN : cfg1.N = 100 := N_1
  let t : Fin cfg1.N := ⟨(i 0).val / 16000, by rw [hN]; omega⟩
  obtain ⟨-, -, -, -, -, -, e6, e7⟩ := idx_facts1 t
  have ht : t.val = (i 0).val / 16000 := rfl
  refine ⟨t, flush1_3 t, ?_⟩
  rw [mem_blk1]
  intro a
  match a with
  | ⟨0, _⟩ => show win1_3.index t (0 : Fin 2) * 16000 ≤ (i 0).val ∧ (i 0).val < win1_3.index t (0 : Fin 2) * 16000 + 16000; rw [e6, ht]; omega
  | ⟨1, _⟩ => show win1_3.index t (1 : Fin 2) * 64 ≤ (i 1).val ∧ (i 1).val < win1_3.index t (1 : Fin 2) * 64 + 64; rw [e7]; omega

/-- The result array after the region is the whole-array embedding of the arrays as the region finds them. -/
theorem region1 (c : Dev nD) :
    (dat1 V c).arrAt 3 cfg1.N
      = Cert.Spec.lin1 (V c main_arg1) (V c main_arg6) (Cert.Spec.unrow64 (V c main_v2)) :=
  (dat1 V c).arrAt_eq_of_cover 3 _ (fun t _ => flushed1 V c t) (cover1)

end Cert.KReg

end
-- ==== Proof.Region2.lean ====
import proofs.«172538_j12652973654090_1_alg».proof.Proof.Gen.KernelIdeal.Frame
import proofs.«172538_j12652973654090_1_alg».proof.Proof.Gen.ReferenceIdeal
import proofs.«172538_j12652973654090_1_alg».proof.Proof.Spec
import proofs.«172538_j12652973654090_1_alg».proof.Proof.MatmulIdx
import Idealize.ShloMosaic.Lib.Pipeline.Value

/-!
# A layer's perceptron, block by block

The perceptron `max ((h + g) · W₁ + b₁) 0 · W₂ + b₂` over 50000 rows is computed 5000 rows at a time: grid point `t`
reads rows `5000 t … 5000 t + 4999` of the state `h` and of the aggregate `g`, the whole of both weight matrices
and both one-row biases, and writes the same rows of the result.  Entry `(r, c)` depends on row `r` of `h` and `g`
only, so each written block is that block of the whole-array perceptron, and the 10 blocks cover every row (row `r`
lies in block `r / 5000`).
-/

noncomputable section

open Idealize.ShloMosaic Idealize.ShloMosaic.TcCoe Idealize.SL.Sem
open Idealize.ShloMosaic.Pipeline (Dat)
open Idealize.ShloMosaic.ValueIdx

namespace Cert.KReg

open Cert.KernelIdeal Cert.KernelIdeal.Gen

variable (V : (c : Dev nD) → (b : Ref sig .tc) → Buf (Elt Ideal) ((c : Thread nD τ).loc b))

/-- Zero offsets on both axes, however spelt. -/
theorem zeroOff2 : (![0, 0] : Fin 2 → Nat) = fun _ => 0 := funext fun a => by fin_cases a <;> rfl

/-- The block computation at an entry. -/
theorem pay2_apply (x0 x1 : Vec Ideal S5000x64 .f32) (x2 : Vec Ideal S64x128 .f32) (x3 : Vec Ideal S1x128 .f32)
    (x4 : Vec Ideal S128x64 .f32) (x5 : Vec Ideal S1x64 .f32) (a : Fin 5000) (b : Fin 64) :
    k2_pay1 (F := Ideal) x0 x1 x2 x3 x4 x5 (ix2 a b)
      = mlpAt x0 x1 x2 (fun p => x3 (ix2 (0 : Fin 1) p)) x4 (fun c => x5 (ix2 (0 : Fin 1) c)) a b := by
  unfold k2_pay1
  exact mlpBlock_apply _ _ x0 x1 x2 x3 x4 x5 _ _ _ _ _ _ _ _ a b

/-- The whole-array perceptron at an entry. -/
theorem mlp2_apply (H G : S50000x64.Idx → EReal) (W1 : S64x128.Idx → EReal) (B1 : S128.Idx → EReal)
    (W2 : S128x64.Idx → EReal) (B2 : S64.Idx → EReal) (a : Fin 50000) (b : Fin 64) :
    Cert.Spec.mlp H G W1 B1 W2 B2 (ix2 a b) = mlpAt H G W1 (fun p => B1 (ix1 p)) W2 (fun c => B2 (ix1 c)) a b := by
  unfold Cert.Spec.mlp
  exact mlpHost_apply _ _ H G W1 B1 W2 B2 _ _ _ _ _ a b

/-- One grid point: if the first two blocks are rows `5000 T …` of `H` and `G` and the other four are the whole
    arrays, the block computation at `(a, b)` is the whole-array perceptron at row `5000 T + a`. -/
theorem point2 (H G : S50000x64.Idx → EReal) (W1 : S64x128.Idx → EReal) (B1 : S1x128.Idx → EReal)
    (W2 : S128x64.Idx → EReal) (B2 : S1x64.Idx → EReal)
    (x0 x1 : Vec Ideal S5000x64 .f32) (x2 : Vec Ideal S64x128 .f32) (x3 : Vec Ideal S1x128 .f32)
    (x4 : Vec Ideal S128x64 .f32) (x5 : Vec Ideal S1x64 .f32) (T : Nat) (hT : T < 10)
    (h0 : ∀ (a : Fin 5000) (q : Fin 64), x0 (ix2 a q) = H (ix2 (⟨T * 5000 + a.val, by have := a.isLt; omega⟩ : Fin 50000) q))
    (h1 : ∀ (a : Fin 5000) (q : Fin 64), x1 (ix2 a q) = G (ix2 (⟨T * 5000 + a.val, by have := a.isLt; omega⟩ : Fin 50000) q))
    (h2 : x2 = W1) (h3 : x3 = B1) (h4 : x4 = W2) (h5 : x5 = B2) (a : Fin 5000) (b : Fin 64) :
    k2_pay1 (F := Ideal) x0 x1 x2 x3 x4 x5 (ix2 a b)
      = Cert.Spec.mlp H G W1 (Cert.Spec.unrow128 B1) W2 (Cert.Spec.unrow64 B2)
          (ix2 (⟨T * 5000 + a.val, by have := a.isLt; omega⟩ : Fin 50000) b) := by
  rw [pay2_apply, mlp2_apply]
  subst h2 h3 h4 h5
  unfold mlpAt
  refine congrArg (· + x5 (ix2 (0 : Fin 1) b)) (Finset.sum_congr rfl fun p _ => ?_)
  refine congrArg (· * x4 (ix2 p b)) ?_
  refine congrArg (fun s => max (s + x3 (ix2 (0 : Fin 1) p)) (Ideal.ofBits .f32 0x00000000#32)) (Finset.sum_congr rfl fun q _ => ?_)
  rw [h0 a q, h1 a q]

/-- The block index of every window at every grid point: the row blocks move with the point, everything else stays at block 0. -/
theorem idx_facts2 : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = t.val ∧ win2_6.index t (1 : Fin 2) = 0) :=
  (by decide +kernel : ∀ t : Fin grid2.N, _)

/-- The state window's block at point `t` is rows `5000 t …` of its array. -/
theorem iblk2_0_apply (c : Dev nD) (t : Fin cfg2.N) (a : Fin 5000) (q : Fin 64) (k : S50000x64.Idx)
    (hk0 : (k 0).val = t.val * 5000 + a.val) (hk1 : (k 1).val = q.val) :
    (iblk2 V c 0 t : Vec Ideal S5000x64 .f32) (ix2 a q) = (V c main_v1 : S50000x64.Idx → EReal) k := by
  obtain ⟨⟨e0, e1⟩, -⟩ := idx_facts2 t
  unfold iblk2
  rw [View.read_apply]
  show V c main_v1 _ = V c main_v1 _
  congr 1
  funext ax; apply Fin.ext
  match ax with
  | ⟨0, _⟩ => show win2_0.index t (0 : Fin 2) * 5000 + 1 * a.val = (k 0).val; rw [e0, hk0]; omega
  | ⟨1, _⟩ => show win2_0.index t (1 : Fin 2) * 64 + 1 * q.val = (k 1).val; rw [e1, hk1]; omega

/-- The aggregate window's block at point `t` is rows `5000 t …` of its array. -/
theorem iblk2_1_apply (c : Dev nD) (t : Fin cfg2.N) (a : Fin 5000) (q : Fin 64) (k : S50000x64.Idx)
    (hk0 : (k 0).val = t.val * 5000 + a.val) (hk1 : (k 1).val = q.val) :
    (iblk2 V c 1 t : Vec Ideal S5000x64 .f32) (ix2 a q) = (V c main_v19 : S50000x64.Idx → EReal) k := by
  obtain ⟨-, ⟨e0, e1⟩, -⟩ := idx_facts2 t
  unfold iblk2
  rw [View.read_apply]
  show V c main_v19 _ = V c main_v19 _
  congr 1
  funext ax; apply Fin.ext
  match ax with
  | ⟨0, _⟩ => show win2_1.index t (0 : Fin 2) * 5000 + 1 * a.val = (k 0).val; rw [e0, hk0]; omega
  | ⟨1, _⟩ => show win2_1.index t (1 : Fin 2) * 64 + 1 * q.val = (k 1).val; rw [e1, hk1]; omega

/-- The first weight window's block is the whole array at every point. -/
theorem iblk2_2_eq (c : Dev nD) (t : Fin cfg2.N) : (iblk2 V c 2 t : Vec Ideal S64x128 .f32) = (V c main_v21 : S64x128.Idx → EReal) := by
  obtain ⟨-, -, ⟨e0, e1⟩, -⟩ := idx_facts2 t
  funext j
  unfold iblk2
  rw [View.read_apply]
  show V c main_v21 _ = V c main_v21 _
  congr 1
  funext ax; apply Fin.ext
  match ax with
  | ⟨0, _⟩ => show win2_2.index t (0 : Fin 2) * 64 + 1 * (j 0).val = (j 0).val; rw [e0]; omega
  | ⟨1, _⟩ => show win2_2.index t (1 : Fin 2) * 128 + 1 * (j 1).val = (j 1).val; rw [e1]; omega

/-- The first bias window's block is the whole one-row array at every point. -/
theorem iblk2_3_eq (c : Dev nD) (t : Fin cfg2.N) : (iblk2 V c 3 t : Vec Ideal S1x128 .f32) = (V c main_v28 : S1x128.Idx → EReal) := by
  obtain ⟨-, -, -, ⟨e0, e1⟩, -⟩ := idx_facts2 t
  funext j
  unfold iblk2
  rw [View.read_apply]
  show V c main_v28 _ = V c main_v28 _
  congr 1
  funext ax; apply Fin.ext
  match ax with
  | ⟨0, _⟩ => show win2_3.index t (0 : Fin 2) * 1 + 1 * (j 0).val = (j 0).val; rw [e0]; omega
  | ⟨1, _⟩ => show win2_3.index t (1 : Fin 2) * 128 + 1 * (j 1).val = (j 1).val; rw [e1]; omega

/-- The second weight window's block is the whole array at every point. -/
theorem iblk2_4_eq (c : Dev nD) (t : Fin cfg2.N) : (iblk2 V c 4 t : Vec Ideal S128x64 .f32) = (V c main_v25 : S128x64.Idx → EReal) := by
  obtain ⟨-, -, -, -, ⟨e0, e1⟩, -⟩ := idx_facts2 t
  funext j
  unfold iblk2
  rw [View.read_apply]
  show V c main_v25 _ = V c main_v25 _
  congr 1
  funext ax; apply Fin.ext
  match ax with
  | ⟨0, _⟩ => show win2_4.index t (0 : Fin 2) * 128 + 1 * (j 0).val = (j 0).val; rw [e0]; omega
  | ⟨1, _⟩ => show win2_4.index t (1 : Fin 2) * 64 + 1 * (j 1).val = (j 1).val; rw [e1]; omega

/-- The second bias window's block is the whole one-row array at every point. -/
theorem iblk2_5_eq (c : Dev nD) (t : Fin cfg2.N) : (iblk2 V c 5 t : Vec Ideal S1x64 .f32) = (V c main_v29 : S1x64.Idx → EReal) := by
  obtain ⟨-, -, -, -, -, ⟨e0, e1⟩, -⟩ := idx_facts2 t
  funext j
  unfold iblk2
  rw [View.read_apply]
  show V c main_v29 _ = V c main_v29 _
  congr 1
  funext ax; apply Fin.ext
  match ax with
  | ⟨0, _⟩ => show win2_5.index t (0 : Fin 2) * 1 + 1 * (j 0).val = (j 0).val; rw [e0]; omega
  | ⟨1, _⟩ => show win2_5.index t (1 : Fin 2) * 64 + 1 * (j 1).val = (j 1).val; rw [e1]; omega

/-- What point `t` writes back is block `t` of the whole-array perceptron of the arrays as the region finds them. -/
theorem flushed2 (c : Dev nD) (t : Fin cfg2.N) :
    (dat2 V c).flushed 6 t = ((cfg2.win 6).blk t).view.read (Elt Ideal)
      (Cert.Spec.mlp (V c main_v1) (V c main_v19) (V c main_v21) (Cert.Spec.unrow128 (V c main_v28)) (V c main_v25) (Cert.Spec.unrow64 (V c main_v29))) := by
  show (cfg2.win 6).cut (grid2.coords t) ((dat2 V c).after 6 t) = _
  rw [after2_6]
  unfold out2_6
  rw [View.canon_unit_zero zeroOff2]
  simp only [View.ld_unit_zero (S := S5000x64) zeroOff2, View.ld_unit_zero (S := S64x128) zeroOff2, View.ld_unit_zero (S := S1x128) zeroOff2,
    View.ld_unit_zero (S := S128x64) zeroOff2, View.ld_unit_zero (S := S1x64) zeroOff2]
  obtain ⟨-, -, -, -, -, -, ⟨e6, e7⟩⟩ := idx_facts2 t
  have hN : t.val < 10 := by have h := t.isLt; have e : cfg2.N = 10 := N_2; omega
  funext j
  obtain ⟨a, b, rfl⟩ : ∃ (a : Fin 5000) (b : Fin 64), j = ix2 a b := ⟨j 0, j 1, eq_ix2 j⟩
  rw [View.read_apply]
  have hemb : ((cfg2.win 6).blk t).view.emb (ix2 a b)
      = (ix2 (⟨t.val * 5000 + a.val, by have := a.isLt; omega⟩ : Fin 50000) b : S50000x64.Idx) := by
    funext ax; apply Fin.ext
    match ax with
    | ⟨0, _⟩ => show win2_6.index t (0 : Fin 2) * 5000 + 1 * a.val = t.val * 5000 + a.val; rw [e6]; omega
    | ⟨1, _⟩ => show win2_6.index t (1 : Fin 2) * 64 + 1 * b.val = b.val; rw [e7]; omega
  rw [hemb]
  exact point2 (V c main_v1) (V c main_v19) (V c main_v21) (V c main_v28) (V c main_v25) (V c main_v29)
    (iblk2 V c 0 t) (iblk2 V c 1 t) (iblk2 V c 2 t) (iblk2 V c 3 t) (iblk2 V c 4 t) (iblk2 V c 5 t) t.val hN
    (fun a q => iblk2_0_apply V c t a q _ rfl rfl) (fun a q => iblk2_1_apply V c t a q _ rfl rfl)
    (iblk2_2_eq V c t) (iblk2_3_eq V c t) (iblk2_4_eq V c t) (iblk2_5_eq V c t) a b

/-- An index of the result array is in point `t`'s block iff each coordinate is in the block's range on its axis. -/
theorem mem_blk2 (t : Fin cfg2.N) (i : S50000x64.Idx) :
    i ∈ ((cfg2.win 6).blk t).view.set ↔ ∀ a : Fin 2, win2_6.index t a * S5000x64.size a ≤ (i a).val ∧ (i a).val < win2_6.index t a * S5000x64.size a + S5000x64.size a := by
  show i ∈ ((View.whole main_v30).slice (win2_6.rect t)).set ↔ _
  rw [View.set_slice_whole, Rect.mem_set_unit]
  exact Iff.rfl

/-- Every row of the result is written: row `r` by point `r / 5000`. -/
theorem cover2 (i : S50000x64.Idx) : ∃ t : Fin cfg2.N, (cfg2.win 6).flush t = true ∧ i ∈ ((cfg2.win 6).blk t).view.set := by
  have hi0 : (i 0).val < 50000 := (i 0).isLt
  have hi1 : (i 1).val < 64 := (i 1).isLt
  have hN : cfg2.N = 10 := N_2
  let t : Fin cfg2.N := ⟨(i 0).val / 5000, by rw [hN]; omega⟩
  obtain ⟨-, -, -, -, -, -, ⟨e6, e7⟩⟩ := idx_facts2 t
  have ht : t.val = (i 0).val / 5000 := rfl
  refine ⟨t, flush2_6 t, ?_⟩
  rw [mem_blk2]
  intro a
  match a with
  | ⟨0, _⟩ => show win2_6.index t (0 : Fin 2) * 5000 ≤ (i 0).val ∧ (i 0).val < win2_6.index t (0 : Fin 2) * 5000 + 5000; rw [e6, ht]; omega
  | ⟨1, _⟩ => show win2_6.index t (1 : Fin 2) * 64 ≤ (i 1).val ∧ (i 1).val < win2_6.index t (1 : Fin 2) * 64 + 64; rw [e7]; omega

/-- The result array after the region is the whole-array perceptron of the arrays as the region finds them. -/
theorem region2 (c : Dev nD) :
    (dat2 V c).arrAt 6 cfg2.N
      = Cert.Spec.mlp (V c main_v1) (V c main_v19) (V c main_v21) (Cert.Spec.unrow128 (V c main_v28)) (V c main_v25) (Cert.Spec.unrow64 (V c main_v29)) :=
  (dat2 V c).arrAt_eq_of_cover 6 _ (fun t _ => flushed2 V c t) (cover2)

end Cert.KReg

end
-- ==== Proof.BnIdx.lean ====
import proofs.«172538_j12652973654090_1_alg».proof.Proof.Spec
import proofs.«172538_j12652973654090_1_alg».proof.Proof.Gen.KernelIdeal.Skeleton
import Idealize.ShloMosaic.Lib.ValueLayout

/-!
# The normalisation, entry by entry

The normalising kernel's block and the specification's whole array are the same function of one
entry of the perceptron's output and of the four feature rows (mean, variance, scale, shift):
`max (γ · (z − μ) · rsqrt (v + ε) + β) 0`.  This module names that function of five extended reals
and reads both arrays at an index as it.
-/

noncomputable section

namespace Cert.KReg

open Idealize.ShloMosaic Idealize.ShloMosaic.ValueIdx

/-- One entry after normalisation, scale, shift and rectification. -/
def bnAt (g z m v b : EReal) : EReal :=
  max (g * (z - m) * Ideal.rsqrt (v + Ideal.ofBits .f32 0x3727C5AC#32) + b) (Ideal.ofBits .f32 0x00000000#32)

/-! ## The specification at an index -/

section Reference

open Cert.ReferenceIdeal

/-- A feature vector repeated along the rows reads, at row `R` and feature `j`, its entry `j`. -/
theorem rows_apply (h1 : S64.BroadcastsInDim S1x64 (![1] : Fin 1 → Fin S1x64.rank))
    (h2 : S1x64.BroadcastsInDim S50000x64 (![0, 1] : Fin 2 → Fin S50000x64.rank))
    (x : S64.Idx → EReal) (R : Fin 50000) (j : Fin 64) :
    broadcastInDim S50000x64 ![0, 1] h2 (broadcastInDim S1x64 ![1] h1 x) (ix2 R j) = x (ix1 j) := by
  refine (broadcastInDim_apply _ h2 _ (ix2 R j) (ix2 (0 : Fin 1) j) fun a => ?_).trans ?_
  · match a with
    | ⟨0, _⟩ => rfl
    | ⟨1, _⟩ => rfl
  · refine broadcastInDim_apply _ h1 x (ix2 (0 : Fin 1) j) (ix1 j) fun a => ?_
    match a with
    | ⟨0, _⟩ => rfl

/-- A number repeated over a whole array reads that number everywhere. -/
theorem scalar_apply {t : Shape} (h : S_.BroadcastsInDim t (![] : Fin 0 → Fin t.rank)) (x : S_.Idx → EReal) (i : t.Idx) :
    broadcastInDim t ![] h x i = x ix0 :=
  broadcastInDim_apply _ h x i ix0 fun a => a.elim0

/-- The specification's normalised array at row `R`, feature `j`, the four feature rows given as `[1, 64]` arrays. -/
theorem bn_apply (Z : Spec.Af S50000x64) (M Va Ga Be : Spec.Af S1x64) (R : Fin 50000) (j : Fin 64) :
    Spec.bn Z (Spec.unrow64 M) (Spec.unrow64 Va) (Spec.unrow64 Ga) (Spec.unrow64 Be) (ix2 R j)
      = bnAt (Ga (ix2 (0 : Fin 1) j)) (Z (ix2 R j)) (M (ix2 (0 : Fin 1) j)) (Va (ix2 (0 : Fin 1) j)) (Be (ix2 (0 : Fin 1) j)) := by
  unfold Spec.bn bnAt
  rw [maximumf_apply, addf_apply, mulf_apply, mulf_apply, subf_apply, rows_apply, rows_apply, rows_apply, rows_apply, scalar_apply]
  rfl

end Reference

/-! ## The kernel's block at an index -/

section Kernel

open Cert.KernelIdeal

/-- Region 3's stored block at row `r` of the block and feature `j`. -/
theorem pay3_apply (z : Vec Ideal S5000x64 .f32) (m v g b : Vec Ideal S1x64 .f32) (r : Fin 5000) (j : Fin 64) :
    Gen.k3_pay1 z m v g b (ix2 r j)
      = bnAt (g (ix2 (0 : Fin 1) j)) (z (ix2 r j)) (m (ix2 (0 : Fin 1) j)) (v (ix2 (0 : Fin 1) j)) (b (ix2 (0 : Fin 1) j)) := by
  unfold Gen.k3_pay1 bnAt
  simp only [shapeCast_self]
  rw [maximumf_apply, addf_apply, mulf_apply, mulf_apply, subf_apply, broadcastTo_1b_ab_apply, broadcastTo_1b_ab_apply,
    broadcastTo_1b_ab_apply, broadcastTo_1b_ab_apply]
  rfl

/-- Region 5's stored block at row `r` of the block and feature `j`. -/
theorem pay5_apply (z : Vec Ideal S5000x64 .f32) (m v g b : Vec Ideal S1x64 .f32) (r : Fin 5000) (j : Fin 64) :
    Gen.k5_pay1 z m v g b (ix2 r j)
      = bnAt (g (ix2 (0 : Fin 1) j)) (z (ix2 r j)) (m (ix2 (0 : Fin 1) j)) (v (ix2 (0 : Fin 1) j)) (b (ix2 (0 : Fin 1) j)) := by
  unfold Gen.k5_pay1 bnAt
  simp only [shapeCast_self]
  rw [maximumf_apply, addf_apply, mulf_apply, mulf_apply, subf_apply, broadcastTo_1b_ab_apply, broadcastTo_1b_ab_apply,
    broadcastTo_1b_ab_apply, broadcastTo_1b_ab_apply]
  rfl

/-- Region 7's stored block at row `r` of the block and feature `j`. -/
theorem pay7_apply (z : Vec Ideal S5000x64 .f32) (m v g b : Vec Ideal S1x64 .f32) (r : Fin 5000) (j : Fin 64) :
    Gen.k7_pay1 z m v g b (ix2 r j)
      = bnAt (g (ix2 (0 : Fin 1) j)) (z (ix2 r j)) (m (ix2 (0 : Fin 1) j)) (v (ix2 (0 : Fin 1) j)) (b (ix2 (0 : Fin 1) j)) := by
  unfold Gen.k7_pay1 bnAt
  simp only [shapeCast_self]
  rw [maximumf_apply, addf_apply, mulf_apply, mulf_apply, subf_apply, broadcastTo_1b_ab_apply, broadcastTo_1b_ab_apply,
    broadcastTo_1b_ab_apply, broadcastTo_1b_ab_apply]
  rfl

end Kernel

/-! ## A block of the kernel's against the specification's array -/

/-- The zero offsets of a whole-buffer access, as the constant function. -/
theorem bn_zeros2 : (![0, 0] : Fin 2 → Nat) = fun _ => 0 := funext fun a => by fin_cases a <;> rfl

/-- Region 3: where the block's entry `(r, j)` is the array's entry `(R, j)` and the four rows are the arrays' rows,
    the stored block at `(r, j)` is the specification's array at `(R, j)`. -/
theorem block3_eq (Z : Spec.Af Cert.ReferenceIdeal.S50000x64) (M Va Ga Be : Spec.Af Cert.ReferenceIdeal.S1x64)
    (z : Vec Ideal Cert.KernelIdeal.S5000x64 .f32) (m v g b : Vec Ideal Cert.KernelIdeal.S1x64 .f32)
    (r : Fin 5000) (j : Fin 64) (R : Fin 50000)
    (hz : z (ix2 r j) = Z (ix2 R j)) (hm : m = M) (hv : v = Va) (hg : g = Ga) (hb : b = Be) :
    Cert.KernelIdeal.Gen.k3_pay1 z m v g b (ix2 r j)
      = Spec.bn Z (Spec.unrow64 M) (Spec.unrow64 Va) (Spec.unrow64 Ga) (Spec.unrow64 Be) (ix2 R j) := by
  subst hm hv hg hb
  rw [pay3_apply, bn_apply, hz]

/-- Region 5: the same. -/
theorem block5_eq (Z : Spec.Af Cert.ReferenceIdeal.S50000x64) (M Va Ga Be : Spec.Af Cert.ReferenceIdeal.S1x64)
    (z : Vec Ideal Cert.KernelIdeal.S5000x64 .f32) (m v g b : Vec Ideal Cert.KernelIdeal.S1x64 .f32)
    (r : Fin 5000) (j : Fin 64) (R : Fin 50000)
    (hz : z (ix2 r j) = Z (ix2 R j)) (hm : m = M) (hv : v = Va) (hg : g = Ga) (hb : b = Be) :
    Cert.KernelIdeal.Gen.k5_pay1 z m v g b (ix2 r j)
      = Spec.bn Z (Spec.unrow64 M) (Spec.unrow64 Va) (Spec.unrow64 Ga) (Spec.unrow64 Be) (ix2 R j) := by
  subst hm hv hg hb
  rw [pay5_apply, bn_apply, hz]

/-- Region 7: the same. -/
theorem block7_eq (Z : Spec.Af Cert.ReferenceIdeal.S50000x64) (M Va Ga Be : Spec.Af Cert.ReferenceIdeal.S1x64)
    (z : Vec Ideal Cert.KernelIdeal.S5000x64 .f32) (m v g b : Vec Ideal Cert.KernelIdeal.S1x64 .f32)
    (r : Fin 5000) (j : Fin 64) (R : Fin 50000)
    (hz : z (ix2 r j) = Z (ix2 R j)) (hm : m = M) (hv : v = Va) (hg : g = Ga) (hb : b = Be) :
    Cert.KernelIdeal.Gen.k7_pay1 z m v g b (ix2 r j)
      = Spec.bn Z (Spec.unrow64 M) (Spec.unrow64 Va) (Spec.unrow64 Ga) (Spec.unrow64 Be) (ix2 R j) := by
  subst hm hv hg hb
  rw [pay7_apply, bn_apply, hz]

end Cert.KReg

end
-- ==== Proof.Region3.lean ====
import proofs.«172538_j12652973654090_1_alg».proof.Proof.Gen.KernelIdeal.Frame
import proofs.«172538_j12652973654090_1_alg».proof.Proof.BnIdx
import Idealize.ShloMosaic.Lib.Pipeline.Value

/-!
# The first normalisation region as one array

The region runs over ten blocks of 5000 rows.  At every block it reads the block of the perceptron's
output and the four whole feature rows (mean, variance, scale, shift) and stores the normalised,
scaled, shifted and rectified block.  Block `t` of the result is therefore block `t` of ONE array, the
specification's normalisation of the whole input; the ten blocks tile the 50000 rows, so the result
array is that array.
-/

noncomputable section

namespace Cert.KReg

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The block indices, decided over the ten points: the input and the output move one block of rows per
    point; the four rows stay. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The input block at point `t`, entry `(r, j)`, is the input array's entry `(5000 t + r, j)`. -/
theorem iblk3_z (c : Dev nD) (t : Fin cfg3.N) (r : Fin 5000) (j : Fin 64) (R : Fin 50000) (hR : R.val = t.val * 5000 + r.val) :
    (iblk3 V c 0 t : Vec Ideal S5000x64 .f32) (ix2 r j) = (V c main_v30 : S50000x64.Idx → EReal) (ix2 R j) := by
  obtain ⟨e0, e1, -⟩ := idx_facts3 t
  unfold iblk3
  rw [View.read_apply]
  show V c main_v30 (((cfg3.win 0).blk t).view.emb (ix2 r j)) = V c main_v30 (ix2 R j)
  congr 1
  funext a
  apply Fin.ext
  match a with
  | ⟨0, _⟩ => show win3_0.index t (0 : Fin 2) * 5000 + 1 * r.val = R.val; omega
  | ⟨1, _⟩ => show win3_0.index t (1 : Fin 2) * 64 + 1 * j.val = j.val; omega

/-- The mean row's block is the whole row, at every point. -/
theorem iblk3_mu (c : Dev nD) (t : Fin cfg3.N) : (iblk3 V c 1 t : Vec Ideal S1x64 .f32) = V c main_v39 := by
  obtain ⟨-, -, e0, e1, -⟩ := idx_facts3 t
  unfold iblk3
  funext y
  rw [View.read_apply]
  show V c main_v39 (((cfg3.win 1).blk t).view.emb y) = V c main_v39 y
  congr 1
  funext a
  apply Fin.ext
  match a with
  | ⟨0, _⟩ => show win3_1.index t (0 : Fin 2) * 1 + 1 * (y 0).val = (y 0).val; omega
  | ⟨1, _⟩ => show win3_1.index t (1 : Fin 2) * 64 + 1 * (y 1).val = (y 1).val; omega

/-- The variance row's block is the whole row. -/
theorem iblk3_var (c : Dev nD) (t : Fin cfg3.N) : (iblk3 V c 2 t : Vec Ideal S1x64 .f32) = V c main_v40 := by
  obtain ⟨-, -, -, -, e0, e1, -⟩ := idx_facts3 t
  unfold iblk3
  funext y
  rw [View.read_apply]
  show V c main_v40 (((cfg3.win 2).blk t).view.emb y) = V c main_v40 y
  congr 1
  funext a
  apply Fin.ext
  match a with
  | ⟨0, _⟩ => show win3_2.index t (0 : Fin 2) * 1 + 1 * (y 0).val = (y 0).val; omega
  | ⟨1, _⟩ => show win3_2.index t (1 : Fin 2) * 64 + 1 * (y 1).val = (y 1).val; omega

/-- The scale row's block is the whole row. -/
theorem iblk3_gamma (c : Dev nD) (t : Fin cfg3.N) : (iblk3 V c 3 t : Vec Ideal S1x64 .f32) = V c main_v41 := by
  obtain ⟨-, -, -, -, -, -, e0, e1, -⟩ := idx_facts3 t
  unfold iblk3
  funext y
  rw [View.read_apply]
  show V c main_v41 (((cfg3.win 3).blk t).view.emb y) = V c main_v41 y
  congr 1
  funext a
  apply Fin.ext
  match a with
  | ⟨0, _⟩ => show win3_3.index t (0 : Fin 2) * 1 + 1 * (y 0).val = (y 0).val; omega
  | ⟨1, _⟩ => show win3_3.index t (1 : Fin 2) * 64 + 1 * (y 1).val = (y 1).val; omega

/-- The shift row's block is the whole row. -/
theorem iblk3_beta (c : Dev nD) (t : Fin cfg3.N) : (iblk3 V c 4 t : Vec Ideal S1x64 .f32) = V c main_v42 := by
  obtain ⟨-, -, -, -, -, -, -, -, e0, e1, -⟩ := idx_facts3 t
  unfold iblk3
  funext y
  rw [View.read_apply]
  show V c main_v42 (((cfg3.win 4).blk t).view.emb y) = V c main_v42 y
  congr 1
  funext a
  apply Fin.ext
  match a with
  | ⟨0, _⟩ => show win3_4.index t (0 : Fin 2) * 1 + 1 * (y 0).val = (y 0).val; omega
  | ⟨1, _⟩ => show win3_4.index t (1 : Fin 2) * 64 + 1 * (y 1).val = (y 1).val; omega

/-- The whole result: the specification's normalisation of the region's input array with its four rows. -/
abbrev G3 (c : Dev nD) : Spec.Af Cert.ReferenceIdeal.S50000x64 :=
  Spec.bn (V c main_v30) (Spec.unrow64 (V c main_v39)) (Spec.unrow64 (V c main_v40)) (Spec.unrow64 (V c main_v41))
    (Spec.unrow64 (V c main_v42))

/-- What point `t` writes back is block `t` of the whole result. -/
theorem flushed3_eq (c : Dev nD) (t : Fin cfg3.N) :
    (dat3 V c).flushed 5 t = ((cfg3.win 5).blk t).view.read (Elt Ideal) (G3 V c) := by
  show (cfg3.win 5).cut (grid3.coords t) ((dat3 V c).after 5 t) = _
  rw [after3_5]
  unfold out3_5
  rw [View.canon_unit_zero bn_zeros2]
  simp only [View.ld_unit_zero (S := S5000x64) bn_zeros2, View.ld_unit_zero (S := S1x64) bn_zeros2]
  obtain ⟨-, -, -, -, -, -, -, -, -, -, e0, e1⟩ := idx_facts3 t
  have ht : t.val < 10 := by have h := t.isLt; have hN : cfg3.N = 10 := N_3; omega
  funext y
  obtain ⟨r, j, rfl⟩ : ∃ (r : Fin 5000) (j : Fin 64), y = ix2 r j := ⟨y 0, y 1, eq_ix2 y⟩
  have hr : r.val < 5000 := r.isLt
  have hemb : ((cfg3.win 5).blk t).view.emb (ix2 r j) = (ix2 (⟨t.val * 5000 + r.val, by omega⟩ : Fin 50000) j : S50000x64.Idx) := by
    funext a
    apply Fin.ext
    match a with
    | ⟨0, _⟩ => show win3_5.index t (0 : Fin 2) * 5000 + 1 * r.val = t.val * 5000 + r.val; omega
    | ⟨1, _⟩ => show win3_5.index t (1 : Fin 2) * 64 + 1 * j.val = j.val; omega
  show k3_pay1 (iblk3 V c 0 t) (iblk3 V c 1 t) (iblk3 V c 2 t) (iblk3 V c 3 t) (iblk3 V c 4 t) (ix2 r j)
    = G3 V c (((cfg3.win 5).blk t).view.emb (ix2 r j))
  refine (block3_eq (V c main_v30) (V c main_v39) (V c main_v40) (V c main_v41) (V c main_v42) _ _ _ _ _ r j
    ⟨t.val * 5000 + r.val, by omega⟩ (iblk3_z V c t r j _ rfl) (iblk3_mu V c t) (iblk3_var V c t) (iblk3_gamma V c t)
    (iblk3_beta V c t)).trans ?_
  exact congrArg (G3 V c) hemb.symm

/-- Every row of the result array is in the block of the point its number divided by 5000 names. -/
theorem cover3 (i : S50000x64.Idx) :
    ∃ t : Fin cfg3.N, (cfg3.win 5).flush t = true ∧ i ∈ ((cfg3.win 5).blk t).view.set := by
  have hi0 : (i 0).val < 50000 := (i 0).isLt
  have hi1 : (i 1).val < 64 := (i 1).isLt
  have hN : cfg3.N = 10 := N_3
  have hlt : (i 0).val / 5000 < cfg3.N := by rw [hN]; omega
  obtain ⟨-, -, -, -, -, -, -, -, -, -, e0, e1⟩ := idx_facts3 ⟨(i 0).val / 5000, hlt⟩
  have e0' : win3_5.index ⟨(i 0).val / 5000, hlt⟩ (0 : Fin 2) = (i 0).val / 5000 := e0
  refine ⟨⟨(i 0).val / 5000, hlt⟩, flush3_5 _, ?_⟩
  show i ∈ ((View.whole main_v43).slice (win3_5.rect ⟨(i 0).val / 5000, hlt⟩)).set
  rw [View.set_slice_whole, Rect.mem_set_unit]
  intro a
  match a with
  | ⟨0, _⟩ =>
    show win3_5.index ⟨(i 0).val / 5000, hlt⟩ (0 : Fin 2) * 5000 ≤ (i 0).val
      ∧ (i 0).val < win3_5.index ⟨(i 0).val / 5000, hlt⟩ (0 : Fin 2) * 5000 + 5000
    omega
  | ⟨1, _⟩ =>
    show win3_5.index ⟨(i 0).val / 5000, hlt⟩ (1 : Fin 2) * 64 ≤ (i 1).val
      ∧ (i 1).val < win3_5.index ⟨(i 0).val / 5000, hlt⟩ (1 : Fin 2) * 64 + 64
    omega

/-- THE REGION'S RESULT ARRAY is the specification's normalisation of its input array with its four rows. -/
theorem region3 (c : Dev nD) :
    (dat3 V c).arrAt 5 cfg3.N
      = Spec.bn (V c main_v30) (Spec.unrow64 (V c main_v39)) (Spec.unrow64 (V c main_v40)) (Spec.unrow64 (V c main_v41))
          (Spec.unrow64 (V c main_v42)) :=
  (dat3 V c).arrAt_eq_of_cover 5 (G3 V c) (fun t _ => flushed3_eq V c t) (fun i => cover3 i)

end Cert.KReg

end
-- ==== Proof.Region4.lean ====
import proofs.«172538_j12652973654090_1_alg».proof.Proof.Gen.KernelIdeal.Frame
import proofs.«172538_j12652973654090_1_alg».proof.Proof.Gen.ReferenceIdeal
import proofs.«172538_j12652973654090_1_alg».proof.Proof.Spec
import proofs.«172538_j12652973654090_1_alg».proof.Proof.MatmulIdx
import Idealize.ShloMosaic.Lib.Pipeline.Value

/-!
# A layer's perceptron, block by block

The perceptron `max ((h + g) · W₁ + b₁) 0 · W₂ + b₂` over 50000 rows is computed 5000 rows at a time: grid point `t`
reads rows `5000 t … 5000 t + 4999` of the state `h` and of the aggregate `g`, the whole of both weight matrices
and both one-row biases, and writes the same rows of the result.  Entry `(r, c)` depends on row `r` of `h` and `g`
only, so each written block is that block of the whole-array perceptron, and the 10 blocks cover every row (row `r`
lies in block `r / 5000`).
-/

noncomputable section

open Idealize.ShloMosaic Idealize.ShloMosaic.TcCoe Idealize.SL.Sem
open Idealize.ShloMosaic.Pipeline (Dat)
open Idealize.ShloMosaic.ValueIdx

namespace Cert.KReg

open Cert.KernelIdeal Cert.KernelIdeal.Gen

variable (V : (c : Dev nD) → (b : Ref sig .tc) → Buf (Elt Ideal) ((c : Thread nD τ).loc b))

/-- Zero offsets on both axes, however spelt. -/
theorem zeroOff4 : (![0, 0] : Fin 2 → Nat) = fun _ => 0 := funext fun a => by fin_cases a <;> rfl

/-- The block computation at an entry. -/
theorem pay4_apply (x0 x1 : Vec Ideal S5000x64 .f32) (x2 : Vec Ideal S64x128 .f32) (x3 : Vec Ideal S1x128 .f32)
    (x4 : Vec Ideal S128x64 .f32) (x5 : Vec Ideal S1x64 .f32) (a : Fin 5000) (b : Fin 64) :
    k4_pay1 (F := Ideal) x0 x1 x2 x3 x4 x5 (ix2 a b)
      = mlpAt x0 x1 x2 (fun p => x3 (ix2 (0 : Fin 1) p)) x4 (fun c => x5 (ix2 (0 : Fin 1) c)) a b := by
  unfold k4_pay1
  exact mlpBlock_apply _ _ x0 x1 x2 x3 x4 x5 _ _ _ _ _ _ _ _ a b

/-- The whole-array perceptron at an entry. -/
theorem mlp4_apply (H G : S50000x64.Idx → EReal) (W1 : S64x128.Idx → EReal) (B1 : S128.Idx → EReal)
    (W2 : S128x64.Idx → EReal) (B2 : S64.Idx → EReal) (a : Fin 50000) (b : Fin 64) :
    Cert.Spec.mlp H G W1 B1 W2 B2 (ix2 a b) = mlpAt H G W1 (fun p => B1 (ix1 p)) W2 (fun c => B2 (ix1 c)) a b := by
  unfold Cert.Spec.mlp
  exact mlpHost_apply _ _ H G W1 B1 W2 B2 _ _ _ _ _ a b

/-- One grid point: if the first two blocks are rows `5000 T …` of `H` and `G` and the other four are the whole
    arrays, the block computation at `(a, b)` is the whole-array perceptron at row `5000 T + a`. -/
theorem point4 (H G : S50000x64.Idx → EReal) (W1 : S64x128.Idx → EReal) (B1 : S1x128.Idx → EReal)
    (W2 : S128x64.Idx → EReal) (B2 : S1x64.Idx → EReal)
    (x0 x1 : Vec Ideal S5000x64 .f32) (x2 : Vec Ideal S64x128 .f32) (x3 : Vec Ideal S1x128 .f32)
    (x4 : Vec Ideal S128x64 .f32) (x5 : Vec Ideal S1x64 .f32) (T : Nat) (hT : T < 10)
    (h0 : ∀ (a : Fin 5000) (q : Fin 64), x0 (ix2 a q) = H (ix2 (⟨T * 5000 + a.val, by have := a.isLt; omega⟩ : Fin 50000) q))
    (h1 : ∀ (a : Fin 5000) (q : Fin 64), x1 (ix2 a q) = G (ix2 (⟨T * 5000 + a.val, by have := a.isLt; omega⟩ : Fin 50000) q))
    (h2 : x2 = W1) (h3 : x3 = B1) (h4 : x4 = W2) (h5 : x5 = B2) (a : Fin 5000) (b : Fin 64) :
    k4_pay1 (F := Ideal) x0 x1 x2 x3 x4 x5 (ix2 a b)
      = Cert.Spec.mlp H G W1 (Cert.Spec.unrow128 B1) W2 (Cert.Spec.unrow64 B2)
          (ix2 (⟨T * 5000 + a.val, by have := a.isLt; omega⟩ : Fin 50000) b) := by
  rw [pay4_apply, mlp4_apply]
  subst h2 h3 h4 h5
  unfold mlpAt
  refine congrArg (· + x5 (ix2 (0 : Fin 1) b)) (Finset.sum_congr rfl fun p _ => ?_)
  refine congrArg (· * x4 (ix2 p b)) ?_
  refine congrArg (fun s => max (s + x3 (ix2 (0 : Fin 1) p)) (Ideal.ofBits .f32 0x00000000#32)) (Finset.sum_congr rfl fun q _ => ?_)
  rw [h0 a q, h1 a q]

/-- The block index of every window at every grid point: the row blocks move with the point, everything else stays at block 0. -/
theorem idx_facts4 : ∀ t : Fin cfg4.N,
    (win4_0.index t (0 : Fin 2) = t.val ∧ win4_0.index t (1 : Fin 2) = 0)
    ∧ (win4_1.index t (0 : Fin 2) = t.val ∧ win4_1.index t (1 : Fin 2) = 0)
    ∧ (win4_2.index t (0 : Fin 2) = 0 ∧ win4_2.index t (1 : Fin 2) = 0)
    ∧ (win4_3.index t (0 : Fin 2) = 0 ∧ win4_3.index t (1 : Fin 2) = 0)
    ∧ (win4_4.index t (0 : Fin 2) = 0 ∧ win4_4.index t (1 : Fin 2) = 0)
    ∧ (win4_5.index t (0 : Fin 2) = 0 ∧ win4_5.index t (1 : Fin 2) = 0)
    ∧ (win4_6.index t (0 : Fin 2) = t.val ∧ win4_6.index t (1 : Fin 2) = 0) :=
  (by decide +kernel : ∀ t : Fin grid4.N, _)

/-- The state window's block at point `t` is rows `5000 t …` of its array. -/
theorem iblk4_0_apply (c : Dev nD) (t : Fin cfg4.N) (a : Fin 5000) (q : Fin 64) (k : S50000x64.Idx)
    (hk0 : (k 0).val = t.val * 5000 + a.val) (hk1 : (k 1).val = q.val) :
    (iblk4 V c 0 t : Vec Ideal S5000x64 .f32) (ix2 a q) = (V c main_v43 : S50000x64.Idx → EReal) k := by
  obtain ⟨⟨e0, e1⟩, -⟩ := idx_facts4 t
  unfold iblk4
  rw [View.read_apply]
  show V c main_v43 _ = V c main_v43 _
  congr 1
  funext ax; apply Fin.ext
  match ax with
  | ⟨0, _⟩ => show win4_0.index t (0 : Fin 2) * 5000 + 1 * a.val = (k 0).val; rw [e0, hk0]; omega
  | ⟨1, _⟩ => show win4_0.index t (1 : Fin 2) * 64 + 1 * q.val = (k 1).val; rw [e1, hk1]; omega

/-- The aggregate window's block at point `t` is rows `5000 t …` of its array. -/
theorem iblk4_1_apply (c : Dev nD) (t : Fin cfg4.N) (a : Fin 5000) (q : Fin 64) (k : S50000x64.Idx)
    (hk0 : (k 0).val = t.val * 5000 + a.val) (hk1 : (k 1).val = q.val) :
    (iblk4 V c 1 t : Vec Ideal S5000x64 .f32) (ix2 a q) = (V c main_v55 : S50000x64.Idx → EReal) k := by
  obtain ⟨-, ⟨e0, e1⟩, -⟩ := idx_facts4 t
  unfold iblk4
  rw [View.read_apply]
  show V c main_v55 _ = V c main_v55 _
  congr 1
  funext ax; apply Fin.ext
  match ax with
  | ⟨0, _⟩ => show win4_1.index t (0 : Fin 2) * 5000 + 1 * a.val = (k 0).val; rw [e0, hk0]; omega
  | ⟨1, _⟩ => show win4_1.index t (1 : Fin 2) * 64 + 1 * q.val = (k 1).val; rw [e1, hk1]; omega

/-- The first weight window's block is the whole array at every point. -/
theorem iblk4_2_eq (c : Dev nD) (t : Fin cfg4.N) : (iblk4 V c 2 t : Vec Ideal S64x128 .f32) = (V c main_v57 : S64x128.Idx → EReal) := by
  obtain ⟨-, -, ⟨e0, e1⟩, -⟩ := idx_facts4 t
  funext j
  unfold iblk4
  rw [View.read_apply]
  show V c main_v57 _ = V c main_v57 _
  congr 1
  funext ax; apply Fin.ext
  match ax with
  | ⟨0, _⟩ => show win4_2.index t (0 : Fin 2) * 64 + 1 * (j 0).val = (j 0).val; rw [e0]; omega
  | ⟨1, _⟩ => show win4_2.index t (1 : Fin 2) * 128 + 1 * (j 1).val = (j 1).val; rw [e1]; omega

/-- The first bias window's block is the whole one-row array at every point. -/
theorem iblk4_3_eq (c : Dev nD) (t : Fin cfg4.N) : (iblk4 V c 3 t : Vec Ideal S1x128 .f32) = (V c main_v64 : S1x128.Idx → EReal) := by
  obtain ⟨-, -, -, ⟨e0, e1⟩, -⟩ := idx_facts4 t
  funext j
  unfold iblk4
  rw [View.read_apply]
  show V c main_v64 _ = V c main_v64 _
  congr 1
  funext ax; apply Fin.ext
  match ax with
  | ⟨0, _⟩ => show win4_3.index t (0 : Fin 2) * 1 + 1 * (j 0).val = (j 0).val; rw [e0]; omega
  | ⟨1, _⟩ => show win4_3.index t (1 : Fin 2) * 128 + 1 * (j 1).val = (j 1).val; rw [e1]; omega

/-- The second weight window's block is the whole array at every point. -/
theorem iblk4_4_eq (c : Dev nD) (t : Fin cfg4.N) : (iblk4 V c 4 t : Vec Ideal S128x64 .f32) = (V c main_v61 : S128x64.Idx → EReal) := by
  obtain ⟨-, -, -, -, ⟨e0, e1⟩, -⟩ := idx_facts4 t
  funext j
  unfold iblk4
  rw [View.read_apply]
  show V c main_v61 _ = V c main_v61 _
  congr 1
  funext ax; apply Fin.ext
  match ax with
  | ⟨0, _⟩ => show win4_4.index t (0 : Fin 2) * 128 + 1 * (j 0).val = (j 0).val; rw [e0]; omega
  | ⟨1, _⟩ => show win4_4.index t (1 : Fin 2) * 64 + 1 * (j 1).val = (j 1).val; rw [e1]; omega

/-- The second bias window's block is the whole one-row array at every point. -/
theorem iblk4_5_eq (c : Dev nD) (t : Fin cfg4.N) : (iblk4 V c 5 t : Vec Ideal S1x64 .f32) = (V c main_v65 : S1x64.Idx → EReal) := by
  obtain ⟨-, -, -, -, -, ⟨e0, e1⟩, -⟩ := idx_facts4 t
  funext j
  unfold iblk4
  rw [View.read_apply]
  show V c main_v65 _ = V c main_v65 _
  congr 1
  funext ax; apply Fin.ext
  match ax with
  | ⟨0, _⟩ => show win4_5.index t (0 : Fin 2) * 1 + 1 * (j 0).val = (j 0).val; rw [e0]; omega
  | ⟨1, _⟩ => show win4_5.index t (1 : Fin 2) * 64 + 1 * (j 1).val = (j 1).val; rw [e1]; omega

/-- What point `t` writes back is block `t` of the whole-array perceptron of the arrays as the region finds them. -/
theorem flushed4 (c : Dev nD) (t : Fin cfg4.N) :
    (dat4 V c).flushed 6 t = ((cfg4.win 6).blk t).view.read (Elt Ideal)
      (Cert.Spec.mlp (V c main_v43) (V c main_v55) (V c main_v57) (Cert.Spec.unrow128 (V c main_v64)) (V c main_v61) (Cert.Spec.unrow64 (V c main_v65))) := by
  show (cfg4.win 6).cut (grid4.coords t) ((dat4 V c).after 6 t) = _
  rw [after4_6]
  unfold out4_6
  rw [View.canon_unit_zero zeroOff4]
  simp only [View.ld_unit_zero (S := S5000x64) zeroOff4, View.ld_unit_zero (S := S64x128) zeroOff4, View.ld_unit_zero (S := S1x128) zeroOff4,
    View.ld_unit_zero (S := S128x64) zeroOff4, View.ld_unit_zero (S := S1x64) zeroOff4]
  obtain ⟨-, -, -, -, -, -, ⟨e6, e7⟩⟩ := idx_facts4 t
  have hN : t.val < 10 := by have h := t.isLt; have e : cfg4.N = 10 := N_4; omega
  funext j
  obtain ⟨a, b, rfl⟩ : ∃ (a : Fin 5000) (b : Fin 64), j = ix2 a b := ⟨j 0, j 1, eq_ix2 j⟩
  rw [View.read_apply]
  have hemb : ((cfg4.win 6).blk t).view.emb (ix2 a b)
      = (ix2 (⟨t.val * 5000 + a.val, by have := a.isLt; omega⟩ : Fin 50000) b : S50000x64.Idx) := by
    funext ax; apply Fin.ext
    match ax with
    | ⟨0, _⟩ => show win4_6.index t (0 : Fin 2) * 5000 + 1 * a.val = t.val * 5000 + a.val; rw [e6]; omega
    | ⟨1, _⟩ => show win4_6.index t (1 : Fin 2) * 64 + 1 * b.val = b.val; rw [e7]; omega
  rw [hemb]
  exact point4 (V c main_v43) (V c main_v55) (V c main_v57) (V c main_v64) (V c main_v61) (V c main_v65)
    (iblk4 V c 0 t) (iblk4 V c 1 t) (iblk4 V c 2 t) (iblk4 V c 3 t) (iblk4 V c 4 t) (iblk4 V c 5 t) t.val hN
    (fun a q => iblk4_0_apply V c t a q _ rfl rfl) (fun a q => iblk4_1_apply V c t a q _ rfl rfl)
    (iblk4_2_eq V c t) (iblk4_3_eq V c t) (iblk4_4_eq V c t) (iblk4_5_eq V c t) a b

/-- An index of the result array is in point `t`'s block iff each coordinate is in the block's range on its axis. -/
theorem mem_blk4 (t : Fin cfg4.N) (i : S50000x64.Idx) :
    i ∈ ((cfg4.win 6).blk t).view.set ↔ ∀ a : Fin 2, win4_6.index t a * S5000x64.size a ≤ (i a).val ∧ (i a).val < win4_6.index t a * S5000x64.size a + S5000x64.size a := by
  show i ∈ ((View.whole main_v66).slice (win4_6.rect t)).set ↔ _
  rw [View.set_slice_whole, Rect.mem_set_unit]
  exact Iff.rfl

/-- Every row of the result is written: row `r` by point `r / 5000`. -/
theorem cover4 (i : S50000x64.Idx) : ∃ t : Fin cfg4.N, (cfg4.win 6).flush t = true ∧ i ∈ ((cfg4.win 6).blk t).view.set := by
  have hi0 : (i 0).val < 50000 := (i 0).isLt
  have hi1 : (i 1).val < 64 := (i 1).isLt
  have hN : cfg4.N = 10 := N_4
  let t : Fin cfg4.N := ⟨(i 0).val / 5000, by rw [hN]; omega⟩
  obtain ⟨-, -, -, -, -, -, ⟨e6, e7⟩⟩ := idx_facts4 t
  have ht : t.val = (i 0).val / 5000 := rfl
  refine ⟨t, flush4_6 t, ?_⟩
  rw [mem_blk4]
  intro a
  match a with
  | ⟨0, _⟩ => show win4_6.index t (0 : Fin 2) * 5000 ≤ (i 0).val ∧ (i 0).val < win4_6.index t (0 : Fin 2) * 5000 + 5000; rw [e6, ht]; omega
  | ⟨1, _⟩ => show win4_6.index t (1 : Fin 2) * 64 ≤ (i 1).val ∧ (i 1).val < win4_6.index t (1 : Fin 2) * 64 + 64; rw [e7]; omega

/-- The result array after the region is the whole-array perceptron of the arrays as the region finds them. -/
theorem region4 (c : Dev nD) :
    (dat4 V c).arrAt 6 cfg4.N
      = Cert.Spec.mlp (V c main_v43) (V c main_v55) (V c main_v57) (Cert.Spec.unrow128 (V c main_v64)) (V c main_v61) (Cert.Spec.unrow64 (V c main_v65)) :=
  (dat4 V c).arrAt_eq_of_cover 6 _ (fun t _ => flushed4 V c t) (cover4)

end Cert.KReg

end
-- ==== Proof.Region5.lean ====
import proofs.«172538_j12652973654090_1_alg».proof.Proof.Gen.KernelIdeal.Frame
import proofs.«172538_j12652973654090_1_alg».proof.Proof.BnIdx
import Idealize.ShloMosaic.Lib.Pipeline.Value

/-!
# The second normalisation region as one array

The region runs over ten blocks of 5000 rows.  At every block it reads the block of the perceptron's
output and the four whole feature rows (mean, variance, scale, shift) and stores the normalised,
scaled, shifted and rectified block.  Block `t` of the result is therefore block `t` of ONE array, the
specification's normalisation of the whole input; the ten blocks tile the 50000 rows, so the result
array is that array.
-/

noncomputable section

namespace Cert.KReg

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The block indices, decided over the ten points: the input and the output move one block of rows per
    point; the four rows stay. -/
theorem idx_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- The input block at point `t`, entry `(r, j)`, is the input array's entry `(5000 t + r, j)`. -/
theorem iblk5_z (c : Dev nD) (t : Fin cfg5.N) (r : Fin 5000) (j : Fin 64) (R : Fin 50000) (hR : R.val = t.val * 5000 + r.val) :
    (iblk5 V c 0 t : Vec Ideal S5000x64 .f32) (ix2 r j) = (V c main_v66 : S50000x64.Idx → EReal) (ix2 R j) := by
  obtain ⟨e0, e1, -⟩ := idx_facts5 t
  unfold iblk5
  rw [View.read_apply]
  show V c main_v66 (((cfg5.win 0).blk t).view.emb (ix2 r j)) = V c main_v66 (ix2 R j)
  congr 1
  funext a
  apply Fin.ext
  match a with
  | ⟨0, _⟩ => show win5_0.index t (0 : Fin 2) * 5000 + 1 * r.val = R.val; omega
  | ⟨1, _⟩ => show win5_0.index t (1 : Fin 2) * 64 + 1 * j.val = j.val; omega

/-- The mean row's block is the whole row, at every point. -/
theorem iblk5_mu (c : Dev nD) (t : Fin cfg5.N) : (iblk5 V c 1 t : Vec Ideal S1x64 .f32) = V c main_v75 := by
  obtain ⟨-, -, e0, e1, -⟩ := idx_facts5 t
  unfold iblk5
  funext y
  rw [View.read_apply]
  show V c main_v75 (((cfg5.win 1).blk t).view.emb y) = V c main_v75 y
  congr 1
  funext a
  apply Fin.ext
  match a with
  | ⟨0, _⟩ => show win5_1.index t (0 : Fin 2) * 1 + 1 * (y 0).val = (y 0).val; omega
  | ⟨1, _⟩ => show win5_1.index t (1 : Fin 2) * 64 + 1 * (y 1).val = (y 1).val; omega

/-- The variance row's block is the whole row. -/
theorem iblk5_var (c : Dev nD) (t : Fin cfg5.N) : (iblk5 V c 2 t : Vec Ideal S1x64 .f32) = V c main_v76 := by
  obtain ⟨-, -, -, -, e0, e1, -⟩ := idx_facts5 t
  unfold iblk5
  funext y
  rw [View.read_apply]
  show V c main_v76 (((cfg5.win 2).blk t).view.emb y) = V c main_v76 y
  congr 1
  funext a
  apply Fin.ext
  match a with
  | ⟨0, _⟩ => show win5_2.index t (0 : Fin 2) * 1 + 1 * (y 0).val = (y 0).val; omega
  | ⟨1, _⟩ => show win5_2.index t (1 : Fin 2) * 64 + 1 * (y 1).val = (y 1).val; omega

/-- The scale row's block is the whole row. -/
theorem iblk5_gamma (c : Dev nD) (t : Fin cfg5.N) : (iblk5 V c 3 t : Vec Ideal S1x64 .f32) = V c main_v77 := by
  obtain ⟨-, -, -, -, -, -, e0, e1, -⟩ := idx_facts5 t
  unfold iblk5
  funext y
  rw [View.read_apply]
  show V c main_v77 (((cfg5.win 3).blk t).view.emb y) = V c main_v77 y
  congr 1
  funext a
  apply Fin.ext
  match a with
  | ⟨0, _⟩ => show win5_3.index t (0 : Fin 2) * 1 + 1 * (y 0).val = (y 0).val; omega
  | ⟨1, _⟩ => show win5_3.index t (1 : Fin 2) * 64 + 1 * (y 1).val = (y 1).val; omega

/-- The shift row's block is the whole row. -/
theorem iblk5_beta (c : Dev nD) (t : Fin cfg5.N) : (iblk5 V c 4 t : Vec Ideal S1x64 .f32) = V c main_v78 := by
  obtain ⟨-, -, -, -, -, -, -, -, e0, e1, -⟩ := idx_facts5 t
  unfold iblk5
  funext y
  rw [View.read_apply]
  show V c main_v78 (((cfg5.win 4).blk t).view.emb y) = V c main_v78 y
  congr 1
  funext a
  apply Fin.ext
  match a with
  | ⟨0, _⟩ => show win5_4.index t (0 : Fin 2) * 1 + 1 * (y 0).val = (y 0).val; omega
  | ⟨1, _⟩ => show win5_4.index t (1 : Fin 2) * 64 + 1 * (y 1).val = (y 1).val; omega

/-- The whole result: the specification's normalisation of the region's input array with its four rows. -/
abbrev G5 (c : Dev nD) : Spec.Af Cert.ReferenceIdeal.S50000x64 :=
  Spec.bn (V c main_v66) (Spec.unrow64 (V c main_v75)) (Spec.unrow64 (V c main_v76)) (Spec.unrow64 (V c main_v77))
    (Spec.unrow64 (V c main_v78))

/-- What point `t` writes back is block `t` of the whole result. -/
theorem flushed5_eq (c : Dev nD) (t : Fin cfg5.N) :
    (dat5 V c).flushed 5 t = ((cfg5.win 5).blk t).view.read (Elt Ideal) (G5 V c) := by
  show (cfg5.win 5).cut (grid5.coords t) ((dat5 V c).after 5 t) = _
  rw [after5_5]
  unfold out5_5
  rw [View.canon_unit_zero bn_zeros2]
  simp only [View.ld_unit_zero (S := S5000x64) bn_zeros2, View.ld_unit_zero (S := S1x64) bn_zeros2]
  obtain ⟨-, -, -, -, -, -, -, -, -, -, e0, e1⟩ := idx_facts5 t
  have ht : t.val < 10 := by have h := t.isLt; have hN : cfg5.N = 10 := N_5; omega
  funext y
  obtain ⟨r, j, rfl⟩ : ∃ (r : Fin 5000) (j : Fin 64), y = ix2 r j := ⟨y 0, y 1, eq_ix2 y⟩
  have hr : r.val < 5000 := r.isLt
  have hemb : ((cfg5.win 5).blk t).view.emb (ix2 r j) = (ix2 (⟨t.val * 5000 + r.val, by omega⟩ : Fin 50000) j : S50000x64.Idx) := by
    funext a
    apply Fin.ext
    match a with
    | ⟨0, _⟩ => show win5_5.index t (0 : Fin 2) * 5000 + 1 * r.val = t.val * 5000 + r.val; omega
    | ⟨1, _⟩ => show win5_5.index t (1 : Fin 2) * 64 + 1 * j.val = j.val; omega
  show k5_pay1 (iblk5 V c 0 t) (iblk5 V c 1 t) (iblk5 V c 2 t) (iblk5 V c 3 t) (iblk5 V c 4 t) (ix2 r j)
    = G5 V c (((cfg5.win 5).blk t).view.emb (ix2 r j))
  refine (block5_eq (V c main_v66) (V c main_v75) (V c main_v76) (V c main_v77) (V c main_v78) _ _ _ _ _ r j
    ⟨t.val * 5000 + r.val, by omega⟩ (iblk5_z V c t r j _ rfl) (iblk5_mu V c t) (iblk5_var V c t) (iblk5_gamma V c t)
    (iblk5_beta V c t)).trans ?_
  exact congrArg (G5 V c) hemb.symm

/-- Every row of the result array is in the block of the point its number divided by 5000 names. -/
theorem cover5 (i : S50000x64.Idx) :
    ∃ t : Fin cfg5.N, (cfg5.win 5).flush t = true ∧ i ∈ ((cfg5.win 5).blk t).view.set := by
  have hi0 : (i 0).val < 50000 := (i 0).isLt
  have hi1 : (i 1).val < 64 := (i 1).isLt
  have hN : cfg5.N = 10 := N_5
  have hlt : (i 0).val / 5000 < cfg5.N := by rw [hN]; omega
  obtain ⟨-, -, -, -, -, -, -, -, -, -, e0, e1⟩ := idx_facts5 ⟨(i 0).val / 5000, hlt⟩
  have e0' : win5_5.index ⟨(i 0).val / 5000, hlt⟩ (0 : Fin 2) = (i 0).val / 5000 := e0
  refine ⟨⟨(i 0).val / 5000, hlt⟩, flush5_5 _, ?_⟩
  show i ∈ ((View.whole main_v79).slice (win5_5.rect ⟨(i 0).val / 5000, hlt⟩)).set
  rw [View.set_slice_whole, Rect.mem_set_unit]
  intro a
  match a with
  | ⟨0, _⟩ =>
    show win5_5.index ⟨(i 0).val / 5000, hlt⟩ (0 : Fin 2) * 5000 ≤ (i 0).val
      ∧ (i 0).val < win5_5.index ⟨(i 0).val / 5000, hlt⟩ (0 : Fin 2) * 5000 + 5000
    omega
  | ⟨1, _⟩ =>
    show win5_5.index ⟨(i 0).val / 5000, hlt⟩ (1 : Fin 2) * 64 ≤ (i 1).val
      ∧ (i 1).val < win5_5.index ⟨(i 0).val / 5000, hlt⟩ (1 : Fin 2) * 64 + 64
    omega

/-- THE REGION'S RESULT ARRAY is the specification's normalisation of its input array with its four rows. -/
theorem region5 (c : Dev nD) :
    (dat5 V c).arrAt 5 cfg5.N
      = Spec.bn (V c main_v66) (Spec.unrow64 (V c main_v75)) (Spec.unrow64 (V c main_v76)) (Spec.unrow64 (V c main_v77))
          (Spec.unrow64 (V c main_v78)) :=
  (dat5 V c).arrAt_eq_of_cover 5 (G5 V c) (fun t _ => flushed5_eq V c t) (fun i => cover5 i)

end Cert.KReg

end
-- ==== Proof.Region6.lean ====
import proofs.«172538_j12652973654090_1_alg».proof.Proof.Gen.KernelIdeal.Frame
import proofs.«172538_j12652973654090_1_alg».proof.Proof.Gen.ReferenceIdeal
import proofs.«172538_j12652973654090_1_alg».proof.Proof.Spec
import proofs.«172538_j12652973654090_1_alg».proof.Proof.MatmulIdx
import Idealize.ShloMosaic.Lib.Pipeline.Value

/-!
# A layer's perceptron, block by block

The perceptron `max ((h + g) · W₁ + b₁) 0 · W₂ + b₂` over 50000 rows is computed 5000 rows at a time: grid point `t`
reads rows `5000 t … 5000 t + 4999` of the state `h` and of the aggregate `g`, the whole of both weight matrices
and both one-row biases, and writes the same rows of the result.  Entry `(r, c)` depends on row `r` of `h` and `g`
only, so each written block is that block of the whole-array perceptron, and the 10 blocks cover every row (row `r`
lies in block `r / 5000`).
-/

noncomputable section

open Idealize.ShloMosaic Idealize.ShloMosaic.TcCoe Idealize.SL.Sem
open Idealize.ShloMosaic.Pipeline (Dat)
open Idealize.ShloMosaic.ValueIdx

namespace Cert.KReg

open Cert.KernelIdeal Cert.KernelIdeal.Gen

variable (V : (c : Dev nD) → (b : Ref sig .tc) → Buf (Elt Ideal) ((c : Thread nD τ).loc b))

/-- Zero offsets on both axes, however spelt. -/
theorem zeroOff6 : (![0, 0] : Fin 2 → Nat) = fun _ => 0 := funext fun a => by fin_cases a <;> rfl

/-- The block computation at an entry. -/
theorem pay6_apply (x0 x1 : Vec Ideal S5000x64 .f32) (x2 : Vec Ideal S64x128 .f32) (x3 : Vec Ideal S1x128 .f32)
    (x4 : Vec Ideal S128x64 .f32) (x5 : Vec Ideal S1x64 .f32) (a : Fin 5000) (b : Fin 64) :
    k6_pay1 (F := Ideal) x0 x1 x2 x3 x4 x5 (ix2 a b)
      = mlpAt x0 x1 x2 (fun p => x3 (ix2 (0 : Fin 1) p)) x4 (fun c => x5 (ix2 (0 : Fin 1) c)) a b := by
  unfold k6_pay1
  exact mlpBlock_apply _ _ x0 x1 x2 x3 x4 x5 _ _ _ _ _ _ _ _ a b

/-- The whole-array perceptron at an entry. -/
theorem mlp6_apply (H G : S50000x64.Idx → EReal) (W1 : S64x128.Idx → EReal) (B1 : S128.Idx → EReal)
    (W2 : S128x64.Idx → EReal) (B2 : S64.Idx → EReal) (a : Fin 50000) (b : Fin 64) :
    Cert.Spec.mlp H G W1 B1 W2 B2 (ix2 a b) = mlpAt H G W1 (fun p => B1 (ix1 p)) W2 (fun c => B2 (ix1 c)) a b := by
  unfold Cert.Spec.mlp
  exact mlpHost_apply _ _ H G W1 B1 W2 B2 _ _ _ _ _ a b

/-- One grid point: if the first two blocks are rows `5000 T …` of `H` and `G` and the other four are the whole
    arrays, the block computation at `(a, b)` is the whole-array perceptron at row `5000 T + a`. -/
theorem point6 (H G : S50000x64.Idx → EReal) (W1 : S64x128.Idx → EReal) (B1 : S1x128.Idx → EReal)
    (W2 : S128x64.Idx → EReal) (B2 : S1x64.Idx → EReal)
    (x0 x1 : Vec Ideal S5000x64 .f32) (x2 : Vec Ideal S64x128 .f32) (x3 : Vec Ideal S1x128 .f32)
    (x4 : Vec Ideal S128x64 .f32) (x5 : Vec Ideal S1x64 .f32) (T : Nat) (hT : T < 10)
    (h0 : ∀ (a : Fin 5000) (q : Fin 64), x0 (ix2 a q) = H (ix2 (⟨T * 5000 + a.val, by have := a.isLt; omega⟩ : Fin 50000) q))
    (h1 : ∀ (a : Fin 5000) (q : Fin 64), x1 (ix2 a q) = G (ix2 (⟨T * 5000 + a.val, by have := a.isLt; omega⟩ : Fin 50000) q))
    (h2 : x2 = W1) (h3 : x3 = B1) (h4 : x4 = W2) (h5 : x5 = B2) (a : Fin 5000) (b : Fin 64) :
    k6_pay1 (F := Ideal) x0 x1 x2 x3 x4 x5 (ix2 a b)
      = Cert.Spec.mlp H G W1 (Cert.Spec.unrow128 B1) W2 (Cert.Spec.unrow64 B2)
          (ix2 (⟨T * 5000 + a.val, by have := a.isLt; omega⟩ : Fin 50000) b) := by
  rw [pay6_apply, mlp6_apply]
  subst h2 h3 h4 h5
  unfold mlpAt
  refine congrArg (· + x5 (ix2 (0 : Fin 1) b)) (Finset.sum_congr rfl fun p _ => ?_)
  refine congrArg (· * x4 (ix2 p b)) ?_
  refine congrArg (fun s => max (s + x3 (ix2 (0 : Fin 1) p)) (Ideal.ofBits .f32 0x00000000#32)) (Finset.sum_congr rfl fun q _ => ?_)
  rw [h0 a q, h1 a q]

/-- The block index of every window at every grid point: the row blocks move with the point, everything else stays at block 0. -/
theorem idx_facts6 : ∀ t : Fin cfg6.N,
    (win6_0.index t (0 : Fin 2) = t.val ∧ win6_0.index t (1 : Fin 2) = 0)
    ∧ (win6_1.index t (0 : Fin 2) = t.val ∧ win6_1.index t (1 : Fin 2) = 0)
    ∧ (win6_2.index t (0 : Fin 2) = 0 ∧ win6_2.index t (1 : Fin 2) = 0)
    ∧ (win6_3.index t (0 : Fin 2) = 0 ∧ win6_3.index t (1 : Fin 2) = 0)
    ∧ (win6_4.index t (0 : Fin 2) = 0 ∧ win6_4.index t (1 : Fin 2) = 0)
    ∧ (win6_5.index t (0 : Fin 2) = 0 ∧ win6_5.index t (1 : Fin 2) = 0)
    ∧ (win6_6.index t (0 : Fin 2) = t.val ∧ win6_6.index t (1 : Fin 2) = 0) :=
  (by decide +kernel : ∀ t : Fin grid6.N, _)

/-- The state window's block at point `t` is rows `5000 t …` of its array. -/
theorem iblk6_0_apply (c : Dev nD) (t : Fin cfg6.N) (a : Fin 5000) (q : Fin 64) (k : S50000x64.Idx)
    (hk0 : (k 0).val = t.val * 5000 + a.val) (hk1 : (k 1).val = q.val) :
    (iblk6 V c 0 t : Vec Ideal S5000x64 .f32) (ix2 a q) = (V c main_v79 : S50000x64.Idx → EReal) k := by
  obtain ⟨⟨e0, e1⟩, -⟩ := idx_facts6 t
  unfold iblk6
  rw [View.read_apply]
  show V c main_v79 _ = V c main_v79 _
  congr 1
  funext ax; apply Fin.ext
  match ax with
  | ⟨0, _⟩ => show win6_0.index t (0 : Fin 2) * 5000 + 1 * a.val = (k 0).val; rw [e0, hk0]; omega
  | ⟨1, _⟩ => show win6_0.index t (1 : Fin 2) * 64 + 1 * q.val = (k 1).val; rw [e1, hk1]; omega

/-- The aggregate window's block at point `t` is rows `5000 t …` of its array. -/
theorem iblk6_1_apply (c : Dev nD) (t : Fin cfg6.N) (a : Fin 5000) (q : Fin 64) (k : S50000x64.Idx)
    (hk0 : (k 0).val = t.val * 5000 + a.val) (hk1 : (k 1).val = q.val) :
    (iblk6 V c 1 t : Vec Ideal S5000x64 .f32) (ix2 a q) = (V c main_v91 : S50000x64.Idx → EReal) k := by
  obtain ⟨-, ⟨e0, e1⟩, -⟩ := idx_facts6 t
  unfold iblk6
  rw [View.read_apply]
  show V c main_v91 _ = V c main_v91 _
  congr 1
  funext ax; apply Fin.ext
  match ax with
  | ⟨0, _⟩ => show win6_1.index t (0 : Fin 2) * 5000 + 1 * a.val = (k 0).val; rw [e0, hk0]; omega
  | ⟨1, _⟩ => show win6_1.index t (1 : Fin 2) * 64 + 1 * q.val = (k 1).val; rw [e1, hk1]; omega

/-- The first weight window's block is the whole array at every point. -/
theorem iblk6_2_eq (c : Dev nD) (t : Fin cfg6.N) : (iblk6 V c 2 t : Vec Ideal S64x128 .f32) = (V c main_v93 : S64x128.Idx → EReal) := by
  obtain ⟨-, -, ⟨e0, e1⟩, -⟩ := idx_facts6 t
  funext j
  unfold iblk6
  rw [View.read_apply]
  show V c main_v93 _ = V c main_v93 _
  congr 1
  funext ax; apply Fin.ext
  match ax with
  | ⟨0, _⟩ => show win6_2.index t (0 : Fin 2) * 64 + 1 * (j 0).val = (j 0).val; rw [e0]; omega
  | ⟨1, _⟩ => show win6_2.index t (1 : Fin 2) * 128 + 1 * (j 1).val = (j 1).val; rw [e1]; omega

/-- The first bias window's block is the whole one-row array at every point. -/
theorem iblk6_3_eq (c : Dev nD) (t : Fin cfg6.N) : (iblk6 V c 3 t : Vec Ideal S1x128 .f32) = (V c main_v100 : S1x128.Idx → EReal) := by
  obtain ⟨-, -, -, ⟨e0, e1⟩, -⟩ := idx_facts6 t
  funext j
  unfold iblk6
  rw [View.read_apply]
  show V c main_v100 _ = V c main_v100 _
  congr 1
  funext ax; apply Fin.ext
  match ax with
  | ⟨0, _⟩ => show win6_3.index t (0 : Fin 2) * 1 + 1 * (j 0).val = (j 0).val; rw [e0]; omega
  | ⟨1, _⟩ => show win6_3.index t (1 : Fin 2) * 128 + 1 * (j 1).val = (j 1).val; rw [e1]; omega

/-- The second weight window's block is the whole array at every point. -/
theorem iblk6_4_eq (c : Dev nD) (t : Fin cfg6.N) : (iblk6 V c 4 t : Vec Ideal S128x64 .f32) = (V c main_v97 : S128x64.Idx → EReal) := by
  obtain ⟨-, -, -, -, ⟨e0, e1⟩, -⟩ := idx_facts6 t
  funext j
  unfold iblk6
  rw [View.read_apply]
  show V c main_v97 _ = V c main_v97 _
  congr 1
  funext ax; apply Fin.ext
  match ax with
  | ⟨0, _⟩ => show win6_4.index t (0 : Fin 2) * 128 + 1 * (j 0).val = (j 0).val; rw [e0]; omega
  | ⟨1, _⟩ => show win6_4.index t (1 : Fin 2) * 64 + 1 * (j 1).val = (j 1).val; rw [e1]; omega

/-- The second bias window's block is the whole one-row array at every point. -/
theorem iblk6_5_eq (c : Dev nD) (t : Fin cfg6.N) : (iblk6 V c 5 t : Vec Ideal S1x64 .f32) = (V c main_v101 : S1x64.Idx → EReal) := by
  obtain ⟨-, -, -, -, -, ⟨e0, e1⟩, -⟩ := idx_facts6 t
  funext j
  unfold iblk6
  rw [View.read_apply]
  show V c main_v101 _ = V c main_v101 _
  congr 1
  funext ax; apply Fin.ext
  match ax with
  | ⟨0, _⟩ => show win6_5.index t (0 : Fin 2) * 1 + 1 * (j 0).val = (j 0).val; rw [e0]; omega
  | ⟨1, _⟩ => show win6_5.index t (1 : Fin 2) * 64 + 1 * (j 1).val = (j 1).val; rw [e1]; omega

/-- What point `t` writes back is block `t` of the whole-array perceptron of the arrays as the region finds them. -/
theorem flushed6 (c : Dev nD) (t : Fin cfg6.N) :
    (dat6 V c).flushed 6 t = ((cfg6.win 6).blk t).view.read (Elt Ideal)
      (Cert.Spec.mlp (V c main_v79) (V c main_v91) (V c main_v93) (Cert.Spec.unrow128 (V c main_v100)) (V c main_v97) (Cert.Spec.unrow64 (V c main_v101))) := by
  show (cfg6.win 6).cut (grid6.coords t) ((dat6 V c).after 6 t) = _
  rw [after6_6]
  unfold out6_6
  rw [View.canon_unit_zero zeroOff6]
  simp only [View.ld_unit_zero (S := S5000x64) zeroOff6, View.ld_unit_zero (S := S64x128) zeroOff6, View.ld_unit_zero (S := S1x128) zeroOff6,
    View.ld_unit_zero (S := S128x64) zeroOff6, View.ld_unit_zero (S := S1x64) zeroOff6]
  obtain ⟨-, -, -, -, -, -, ⟨e6, e7⟩⟩ := idx_facts6 t
  have hN : t.val < 10 := by have h := t.isLt; have e : cfg6.N = 10 := N_6; omega
  funext j
  obtain ⟨a, b, rfl⟩ : ∃ (a : Fin 5000) (b : Fin 64), j = ix2 a b := ⟨j 0, j 1, eq_ix2 j⟩
  rw [View.read_apply]
  have hemb : ((cfg6.win 6).blk t).view.emb (ix2 a b)
      = (ix2 (⟨t.val * 5000 + a.val, by have := a.isLt; omega⟩ : Fin 50000) b : S50000x64.Idx) := by
    funext ax; apply Fin.ext
    match ax with
    | ⟨0, _⟩ => show win6_6.index t (0 : Fin 2) * 5000 + 1 * a.val = t.val * 5000 + a.val; rw [e6]; omega
    | ⟨1, _⟩ => show win6_6.index t (1 : Fin 2) * 64 + 1 * b.val = b.val; rw [e7]; omega
  rw [hemb]
  exact point6 (V c main_v79) (V c main_v91) (V c main_v93) (V c main_v100) (V c main_v97) (V c main_v101)
    (iblk6 V c 0 t) (iblk6 V c 1 t) (iblk6 V c 2 t) (iblk6 V c 3 t) (iblk6 V c 4 t) (iblk6 V c 5 t) t.val hN
    (fun a q => iblk6_0_apply V c t a q _ rfl rfl) (fun a q => iblk6_1_apply V c t a q _ rfl rfl)
    (iblk6_2_eq V c t) (iblk6_3_eq V c t) (iblk6_4_eq V c t) (iblk6_5_eq V c t) a b

/-- An index of the result array is in point `t`'s block iff each coordinate is in the block's range on its axis. -/
theorem mem_blk6 (t : Fin cfg6.N) (i : S50000x64.Idx) :
    i ∈ ((cfg6.win 6).blk t).view.set ↔ ∀ a : Fin 2, win6_6.index t a * S5000x64.size a ≤ (i a).val ∧ (i a).val < win6_6.index t a * S5000x64.size a + S5000x64.size a := by
  show i ∈ ((View.whole main_v102).slice (win6_6.rect t)).set ↔ _
  rw [View.set_slice_whole, Rect.mem_set_unit]
  exact Iff.rfl

/-- Every row of the result is written: row `r` by point `r / 5000`. -/
theorem cover6 (i : S50000x64.Idx) : ∃ t : Fin cfg6.N, (cfg6.win 6).flush t = true ∧ i ∈ ((cfg6.win 6).blk t).view.set := by
  have hi0 : (i 0).val < 50000 := (i 0).isLt
  have hi1 : (i 1).val < 64 := (i 1).isLt
  have hN : cfg6.N = 10 := N_6
  let t : Fin cfg6.N := ⟨(i 0).val / 5000, by rw [hN]; omega⟩
  obtain ⟨-, -, -, -, -, -, ⟨e6, e7⟩⟩ := idx_facts6 t
  have ht : t.val = (i 0).val / 5000 := rfl
  refine ⟨t, flush6_6 t, ?_⟩
  rw [mem_blk6]
  intro a
  match a with
  | ⟨0, _⟩ => show win6_6.index t (0 : Fin 2) * 5000 ≤ (i 0).val ∧ (i 0).val < win6_6.index t (0 : Fin 2) * 5000 + 5000; rw [e6, ht]; omega
  | ⟨1, _⟩ => show win6_6.index t (1 : Fin 2) * 64 ≤ (i 1).val ∧ (i 1).val < win6_6.index t (1 : Fin 2) * 64 + 64; rw [e7]; omega

/-- The result array after the region is the whole-array perceptron of the arrays as the region finds them. -/
theorem region6 (c : Dev nD) :
    (dat6 V c).arrAt 6 cfg6.N
      = Cert.Spec.mlp (V c main_v79) (V c main_v91) (V c main_v93) (Cert.Spec.unrow128 (V c main_v100)) (V c main_v97) (Cert.Spec.unrow64 (V c main_v101)) :=
  (dat6 V c).arrAt_eq_of_cover 6 _ (fun t _ => flushed6 V c t) (cover6)

end Cert.KReg

end
-- ==== Proof.Region7.lean ====
import proofs.«172538_j12652973654090_1_alg».proof.Proof.Gen.KernelIdeal.Frame
import proofs.«172538_j12652973654090_1_alg».proof.Proof.BnIdx
import Idealize.ShloMosaic.Lib.Pipeline.Value

/-!
# The third normalisation region as one array

The region runs over ten blocks of 5000 rows.  At every block it reads the block of the perceptron's
output and the four whole feature rows (mean, variance, scale, shift) and stores the normalised,
scaled, shifted and rectified block.  Block `t` of the result is therefore block `t` of ONE array, the
specification's normalisation of the whole input; the ten blocks tile the 50000 rows, so the result
array is that array.
-/

noncomputable section

namespace Cert.KReg

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The block indices, decided over the ten points: the input and the output move one block of rows per
    point; the four rows stay. -/
theorem idx_facts7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

/-- The input block at point `t`, entry `(r, j)`, is the input array's entry `(5000 t + r, j)`. -/
theorem iblk7_z (c : Dev nD) (t : Fin cfg7.N) (r : Fin 5000) (j : Fin 64) (R : Fin 50000) (hR : R.val = t.val * 5000 + r.val) :
    (iblk7 V c 0 t : Vec Ideal S5000x64 .f32) (ix2 r j) = (V c main_v102 : S50000x64.Idx → EReal) (ix2 R j) := by
  obtain ⟨e0, e1, -⟩ := idx_facts7 t
  unfold iblk7
  rw [View.read_apply]
  show V c main_v102 (((cfg7.win 0).blk t).view.emb (ix2 r j)) = V c main_v102 (ix2 R j)
  congr 1
  funext a
  apply Fin.ext
  match a with
  | ⟨0, _⟩ => show win7_0.index t (0 : Fin 2) * 5000 + 1 * r.val = R.val; omega
  | ⟨1, _⟩ => show win7_0.index t (1 : Fin 2) * 64 + 1 * j.val = j.val; omega

/-- The mean row's block is the whole row, at every point. -/
theorem iblk7_mu (c : Dev nD) (t : Fin cfg7.N) : (iblk7 V c 1 t : Vec Ideal S1x64 .f32) = V c main_v111 := by
  obtain ⟨-, -, e0, e1, -⟩ := idx_facts7 t
  unfold iblk7
  funext y
  rw [View.read_apply]
  show V c main_v111 (((cfg7.win 1).blk t).view.emb y) = V c main_v111 y
  congr 1
  funext a
  apply Fin.ext
  match a with
  | ⟨0, _⟩ => show win7_1.index t (0 : Fin 2) * 1 + 1 * (y 0).val = (y 0).val; omega
  | ⟨1, _⟩ => show win7_1.index t (1 : Fin 2) * 64 + 1 * (y 1).val = (y 1).val; omega

/-- The variance row's block is the whole row. -/
theorem iblk7_var (c : Dev nD) (t : Fin cfg7.N) : (iblk7 V c 2 t : Vec Ideal S1x64 .f32) = V c main_v112 := by
  obtain ⟨-, -, -, -, e0, e1, -⟩ := idx_facts7 t
  unfold iblk7
  funext y
  rw [View.read_apply]
  show V c main_v112 (((cfg7.win 2).blk t).view.emb y) = V c main_v112 y
  congr 1
  funext a
  apply Fin.ext
  match a with
  | ⟨0, _⟩ => show win7_2.index t (0 : Fin 2) * 1 + 1 * (y 0).val = (y 0).val; omega
  | ⟨1, _⟩ => show win7_2.index t (1 : Fin 2) * 64 + 1 * (y 1).val = (y 1).val; omega

/-- The scale row's block is the whole row. -/
theorem iblk7_gamma (c : Dev nD) (t : Fin cfg7.N) : (iblk7 V c 3 t : Vec Ideal S1x64 .f32) = V c main_v113 := by
  obtain ⟨-, -, -, -, -, -, e0, e1, -⟩ := idx_facts7 t
  unfold iblk7
  funext y
  rw [View.read_apply]
  show V c main_v113 (((cfg7.win 3).blk t).view.emb y) = V c main_v113 y
  congr 1
  funext a
  apply Fin.ext
  match a with
  | ⟨0, _⟩ => show win7_3.index t (0 : Fin 2) * 1 + 1 * (y 0).val = (y 0).val; omega
  | ⟨1, _⟩ => show win7_3.index t (1 : Fin 2) * 64 + 1 * (y 1).val = (y 1).val; omega

/-- The shift row's block is the whole row. -/
theorem iblk7_beta (c : Dev nD) (t : Fin cfg7.N) : (iblk7 V c 4 t : Vec Ideal S1x64 .f32) = V c main_v114 := by
  obtain ⟨-, -, -, -, -, -, -, -, e0, e1, -⟩ := idx_facts7 t
  unfold iblk7
  funext y
  rw [View.read_apply]
  show V c main_v114 (((cfg7.win 4).blk t).view.emb y) = V c main_v114 y
  congr 1
  funext a
  apply Fin.ext
  match a with
  | ⟨0, _⟩ => show win7_4.index t (0 : Fin 2) * 1 + 1 * (y 0).val = (y 0).val; omega
  | ⟨1, _⟩ => show win7_4.index t (1 : Fin 2) * 64 + 1 * (y 1).val = (y 1).val; omega

/-- The whole result: the specification's normalisation of the region's input array with its four rows. -/
abbrev G7 (c : Dev nD) : Spec.Af Cert.ReferenceIdeal.S50000x64 :=
  Spec.bn (V c main_v102) (Spec.unrow64 (V c main_v111)) (Spec.unrow64 (V c main_v112)) (Spec.unrow64 (V c main_v113))
    (Spec.unrow64 (V c main_v114))

/-- What point `t` writes back is block `t` of the whole result. -/
theorem flushed7_eq (c : Dev nD) (t : Fin cfg7.N) :
    (dat7 V c).flushed 5 t = ((cfg7.win 5).blk t).view.read (Elt Ideal) (G7 V c) := by
  show (cfg7.win 5).cut (grid7.coords t) ((dat7 V c).after 5 t) = _
  rw [after7_5]
  unfold out7_5
  rw [View.canon_unit_zero bn_zeros2]
  simp only [View.ld_unit_zero (S := S5000x64) bn_zeros2, View.ld_unit_zero (S := S1x64) bn_zeros2]
  obtain ⟨-, -, -, -, -, -, -, -, -, -, e0, e1⟩ := idx_facts7 t
  have ht : t.val < 10 := by have h := t.isLt; have hN : cfg7.N = 10 := N_7; omega
  funext y
  obtain ⟨r, j, rfl⟩ : ∃ (r : Fin 5000) (j : Fin 64), y = ix2 r j := ⟨y 0, y 1, eq_ix2 y⟩
  have hr : r.val < 5000 := r.isLt
  have hemb : ((cfg7.win 5).blk t).view.emb (ix2 r j) = (ix2 (⟨t.val * 5000 + r.val, by omega⟩ : Fin 50000) j : S50000x64.Idx) := by
    funext a
    apply Fin.ext
    match a with
    | ⟨0, _⟩ => show win7_5.index t (0 : Fin 2) * 5000 + 1 * r.val = t.val * 5000 + r.val; omega
    | ⟨1, _⟩ => show win7_5.index t (1 : Fin 2) * 64 + 1 * j.val = j.val; omega
  show k7_pay1 (iblk7 V c 0 t) (iblk7 V c 1 t) (iblk7 V c 2 t) (iblk7 V c 3 t) (iblk7 V c 4 t) (ix2 r j)
    = G7 V c (((cfg7.win 5).blk t).view.emb (ix2 r j))
  refine (block7_eq (V c main_v102) (V c main_v111) (V c main_v112) (V c main_v113) (V c main_v114) _ _ _ _ _ r j
    ⟨t.val * 5000 + r.val, by omega⟩ (iblk7_z V c t r j _ rfl) (iblk7_mu V c t) (iblk7_var V c t) (iblk7_gamma V c t)
    (iblk7_beta V c t)).trans ?_
  exact congrArg (G7 V c) hemb.symm

/-- Every row of the result array is in the block of the point its number divided by 5000 names. -/
theorem cover7 (i : S50000x64.Idx) :
    ∃ t : Fin cfg7.N, (cfg7.win 5).flush t = true ∧ i ∈ ((cfg7.win 5).blk t).view.set := by
  have hi0 : (i 0).val < 50000 := (i 0).isLt
  have hi1 : (i 1).val < 64 := (i 1).isLt
  have hN : cfg7.N = 10 := N_7
  have hlt : (i 0).val / 5000 < cfg7.N := by rw [hN]; omega
  obtain ⟨-, -, -, -, -, -, -, -, -, -, e0, e1⟩ := idx_facts7 ⟨(i 0).val / 5000, hlt⟩
  have e0' : win7_5.index ⟨(i 0).val / 5000, hlt⟩ (0 : Fin 2) = (i 0).val / 5000 := e0
  refine ⟨⟨(i 0).val / 5000, hlt⟩, flush7_5 _, ?_⟩
  show i ∈ ((View.whole main_v115).slice (win7_5.rect ⟨(i 0).val / 5000, hlt⟩)).set
  rw [View.set_slice_whole, Rect.mem_set_unit]
  intro a
  match a with
  | ⟨0, _⟩ =>
    show win7_5.index ⟨(i 0).val / 5000, hlt⟩ (0 : Fin 2) * 5000 ≤ (i 0).val
      ∧ (i 0).val < win7_5.index ⟨(i 0).val / 5000, hlt⟩ (0 : Fin 2) * 5000 + 5000
    omega
  | ⟨1, _⟩ =>
    show win7_5.index ⟨(i 0).val / 5000, hlt⟩ (1 : Fin 2) * 64 ≤ (i 1).val
      ∧ (i 1).val < win7_5.index ⟨(i 0).val / 5000, hlt⟩ (1 : Fin 2) * 64 + 64
    omega

/-- THE REGION'S RESULT ARRAY is the specification's normalisation of its input array with its four rows. -/
theorem region7 (c : Dev nD) :
    (dat7 V c).arrAt 5 cfg7.N
      = Spec.bn (V c main_v102) (Spec.unrow64 (V c main_v111)) (Spec.unrow64 (V c main_v112)) (Spec.unrow64 (V c main_v113))
          (Spec.unrow64 (V c main_v114)) :=
  (dat7 V c).arrAt_eq_of_cover 5 (G7 V c) (fun t _ => flushed7_eq V c t) (fun i => cover7 i)

end Cert.KReg

end
-- ==== Proof.lean ====
import proofs.«172538_j12652973654090_1_alg».proof.Defs
import proofs.«172538_j12652973654090_1_alg».proof.Proof.Gen.Kernel
import proofs.«172538_j12652973654090_1_alg».proof.Proof.Gen.Kernel.Frame
import proofs.«172538_j12652973654090_1_alg».proof.Proof.Gen.KernelIdeal
import proofs.«172538_j12652973654090_1_alg».proof.Proof.Gen.KernelIdeal.Frame
import proofs.«172538_j12652973654090_1_alg».proof.Proof.Gen.ReferenceIdeal
import proofs.«172538_j12652973654090_1_alg».proof.Proof.Gen.Pre_finite_inputs
import proofs.«172538_j12652973654090_1_alg».proof.Proof.Spec
import proofs.«172538_j12652973654090_1_alg».proof.Proof.KerRun
import proofs.«172538_j12652973654090_1_alg».proof.Proof.KerValue
import proofs.«172538_j12652973654090_1_alg».proof.Proof.RefTop
import proofs.«172538_j12652973654090_1_alg».proof.Proof.Region0
import proofs.«172538_j12652973654090_1_alg».proof.Proof.Region1
import proofs.«172538_j12652973654090_1_alg».proof.Proof.Region2
import proofs.«172538_j12652973654090_1_alg».proof.Proof.Region3
import proofs.«172538_j12652973654090_1_alg».proof.Proof.Region4
import proofs.«172538_j12652973654090_1_alg».proof.Proof.Region5
import proofs.«172538_j12652973654090_1_alg».proof.Proof.Region6
import proofs.«172538_j12652973654090_1_alg».proof.Proof.Region7
import Idealize.ShloMosaic.Adequacy
import Idealize.ShloMosaic.Init

/-!
# A three-layer message-passing network: the tiled kernels against the whole-array reference

Both programs compute, over the extended reals, the same function `Cert.Spec.out` of the sixteen
argument arrays.  The reference does so by whole-array operations, read back operation by operation.
The kernel program computes the two linear embeddings, each layer's perceptron and each layer's
normalisation in row-tiled kernels: a tile of the output is the stage's function of the matching tile
of rows of its inputs (a row of a matrix product depends only on that row of the left factor; the
normalisation acts entrywise given the per-feature statistics), the tiles cover the rows, so each
launch's output array is the stage applied to whole arrays; a product accumulated from zero in the
kernel is the reference's contraction, and rounding to a narrower format is the identity over the
reals.  Everything between the launches (gather, scatter-add, mean, variance, pooling) is the same
whole-array operations in both programs.  No law needing finiteness is used.
-/

noncomputable section

namespace Cert.Proof

open Idealize.ShloMosaic Idealize.SL.Sem

/-- The eight launches' outputs, as stages of the network. -/
theorem regions : Cert.KernelIdeal.Val.Regions :=
  ⟨Cert.KReg.region0, Cert.KReg.region1, Cert.KReg.region2, Cert.KReg.region3, Cert.KReg.region4, Cert.KReg.region5,
    Cert.KReg.region6, Cert.KReg.region7⟩

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.RefRun.run m ρ)

/-- Both programs end at the network of the (agreeing) argument arrays. -/
theorem algebraic : Cert.algebraic_KernelIdeal_ReferenceIdeal := by
  intro m ρ m' ρ' _ hagree
  refine ⟨fun c => Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · exact (θ_run Cert.KernelIdeal.defs _ _).mono
      (fun r h c => ⟨(h c).1.trans (Cert.KernelIdeal.Val.value m ρ c regions), (h c).2⟩) (Cert.KernelIdeal.Run.run (F := Ideal) m ρ)
  · refine (θ_run Cert.ReferenceIdeal.defs _ _).mono (fun r h c => ⟨(h c).1.trans ?_, (h c).2⟩) (Cert.RefRun.run m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
